-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x4096x1024 .f32) (main_arg1 : FVec F S3072x1024 .f32) (main_arg2 : FVec F S1024x1024 .f32) (main_arg3 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩
abbrev S4x256x1024 : Shape := ⟨3, ![4, 256, 1024]⟩
abbrev S4x1x256x1024 : Shape := ⟨4, ![4, 1, 256, 1024]⟩
abbrev S4x3x256x1024 : Shape := ⟨4, ![4, 3, 256, 1024]⟩
abbrev S4x768x1024 : Shape := ⟨3, ![4, 768, 1024]⟩
abbrev S1x1024 : Shape := ⟨2, ![1, 1024]⟩
abbrev S1x512x1024 : Shape := ⟨3, ![1, 512, 1024]⟩
abbrev S1x768x1024 : Shape := ⟨3, ![1, 768, 1024]⟩
abbrev S512x1024 : Shape := ⟨2, ![512, 1024]⟩
abbrev S768x1024 : Shape := ⟨2, ![768, 1024]⟩
abbrev S1x256 : Shape := ⟨2, ![1, 256]⟩
abbrev S1024x768 : Shape := ⟨2, ![1024, 768]⟩
abbrev S512x768 : Shape := ⟨2, ![512, 768]⟩
abbrev S512x256 : Shape := ⟨2, ![512, 256]⟩

abbrev nBuf : Space → Nat
  | .hbm => 63
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S3072x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S3072x1024, .f32⟩
  | .hbm, ⟨12, _⟩ => ⟨S3072x1024, .f32⟩
  | .hbm, ⟨13, _⟩ => ⟨S3072x1024, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S3072x1024, .f32⟩
  | .hbm, ⟨18, _⟩ => ⟨S3072x1024, .f32⟩
  | .hbm, ⟨19, _⟩ => ⟨S_, .f32⟩
  | .hbm, ⟨20, _⟩ => ⟨S3072x1024, .f32⟩
  | .hbm, ⟨21, _⟩ => ⟨S3072x1024, .f32⟩
  | .hbm, ⟨22, _⟩ => ⟨S3072x1024, .f32⟩
  | .hbm, ⟨23, _⟩ => ⟨S3072x1024, .f32⟩
  | .hbm, ⟨24, _⟩ => ⟨S3072x1024, .f32⟩
  | .hbm, ⟨25, _⟩ => ⟨S3072x1024, .f32⟩
  | .hbm, ⟨26, _⟩ => ⟨S1024x1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S4x256x1024, .f32⟩
  | .hbm, ⟨52, _⟩ => ⟨S4x256x1024, .f32⟩
  | .hbm, ⟨53, _⟩ => ⟨S4x256x1024, .f32⟩
  | .hbm, ⟨54, _⟩ => ⟨S4x1x256x1024, .f32⟩
  | .hbm, ⟨55, _⟩ => ⟨S4x1x256x1024, .f32⟩
  | .hbm, ⟨56, _⟩ => ⟨S4x1x256x1024, .f32⟩
  | .hbm, ⟨57, _⟩ => ⟨S4x3x256x1024, .f32⟩
  | .hbm, ⟨58, _⟩ => ⟨S4x768x1024, .f32⟩
  | .hbm, ⟨59, _⟩ => ⟨S4x768x1024, .bf16⟩
  | .hbm, ⟨60, _⟩ => ⟨S1024x1024, .bf16⟩
  | .hbm, ⟨61, _⟩ => ⟨S1x1024, .f32⟩
  | .hbm, ⟨62, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x768x1024, .bf16⟩
  | .local _ .vmem, ⟨3, _⟩ => ⟨S1x768x1024, .bf16⟩
  | .local _ .vmem, ⟨4, _⟩ => ⟨S1x1024, .f32⟩
  | .local _ .vmem, ⟨5, _⟩ => ⟨S1024x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_7 : Ref sig .tc := ⟨.hbm, 36, rfl⟩
abbrev main_cst_8 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  v0
def k0_off1 (i : grid0.Coords) : Fin 2 → Nat :=
  let c0_5 : Index := 0#32
  let arg2 : BitVec 32 := BitVec.ofNat 32 (i 2).val
  let c256_i32 : BitVec 32 := 256#32
  let v0 : BitVec 32 := Scalar.muli arg2 c256_i32
  let v1 : BitVec 32 := v0
  let v8 : Index := Scalar.indexCast v1
  ![0, v8.toNat]
def k0_off2 (i : grid0.Coords) : Fin 2 → Nat :=
  let c0_48 : Index := 0#32
  let arg2 : BitVec 32 := BitVec.ofNat 32 (i 2).val
  let c256_i32 : BitVec 32 := 256#32
  let v0 : BitVec 32 := Scalar.muli arg2 c256_i32
  let v1 : BitVec 32 := v0
  let v141 : Index := Scalar.indexCast v1
  ![0, v141.toNat]
def k0_cond2 (i : grid0.Coords) : BitVec 1 :=
  let arg2 : BitVec 32 := BitVec.ofNat 32 (i 2).val
  let c3_i32 : BitVec 32 := 3#32
  let v145 : BitVec 1 := Scalar.cmpi .eq arg2 c3_i32
  let v146 : BitVec 32 := Scalar.extui v145
  let c0_i32_49 : BitVec 32 := 0#32
  let v147 : BitVec 1 := Scalar.cmpi .ne v146 c0_i32_49
  v147

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  reducesTo_S3072x1024_S_d0_1 : S3072x1024.ReducesTo [0, 1] S_
  h_S_ : 0 < S_.numel
  bcast_S_S3072x1024 : S_.BroadcastsInDim S3072x1024 (![] : Fin 0 → Fin S3072x1024.rank)
  reducesTo_S1024x1024_S_d0_1 : S1024x1024.ReducesTo [0, 1] S_
  bcast_S_S1024x1024 : S_.BroadcastsInDim S1024x1024 (![] : Fin 0 → Fin S1024x1024.rank)
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  shapeCasts_S1024x1024_S4x256x1024 : S1024x1024.ShapeCasts S4x256x1024
  bcast_S4x256x1024_S4x1x256x1024_0_2_3 : S4x256x1024.BroadcastsInDim S4x1x256x1024 (![0, 2, 3] : Fin 3 → Fin S4x1x256x1024.rank)
  concatenates_S4x1x256x1024_S4x1x256x1024_S4x1x256x1024_S4x3x256x1024_d1 : Shape.Concatenates [S4x1x256x1024, S4x1x256x1024, S4x1x256x1024] S4x3x256x1024 1
  shapeCasts_S4x3x256x1024_S4x768x1024 : S4x3x256x1024.ShapeCasts S4x768x1024
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  inb_S1x768x1024_S1x768x1024_0_0_0 : ∀ a, (![0, 0, 0] : Fin 3 → Nat) a + S1x768x1024.size a ≤ S1x768x1024.size a
  h_S1x768x1024 : 0 < S1x768x1024.numel
  shapeCasts_S1x768x1024_S768x1024 : S1x768x1024.ShapeCasts S768x1024
  h_S1x256 : 0 < S1x256.numel
  shapeCasts_S1x256_S1x256 : S1x256.ShapeCasts S1x256
  transposes_S768x1024_p1_0_S1024x768 : S768x1024.Transposes [1, 0] S1024x768
  slices_S512x768_o0_0_S512x256 : S512x768.Slices ![0, 0] S512x256
  slices_S512x768_o0_256_S512x256 : S512x768.Slices ![0, 256] S512x256
  slices_S512x768_o0_512_S512x256 : S512x768.Slices ![0, 512] S512x256
  broadcasts_S1x256_S512x256 : S1x256.Broadcasts S512x256
  iota_S512x256_d0_w32 : S512x256.Iotas .tc 32 [0]
  rotates_S512x256_d0 : S512x256.Rotates 0 none
  slices_S512x256_o511_0_S1x256 : S512x256.Slices ![511, 0] S1x256
  h_S512x256 : 0 < S512x256.numel
  shapeCasts_S512x256_S512x256 : S512x256.ShapeCasts S512x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  shapeCasts_S512x1024_S1x512x1024 : S512x1024.ShapeCasts S1x512x1024
  dot_S512x1024_S1024x768_S512x768_1_0_0_1_n_n_wf : DotDims.WF S512x1024 S1024x768 S512x768 [1] [0] [0] [1] [] []
  dot_S512x1024_S1024x1024_S512x1024_1_0_0_1_n_n_wf : DotDims.WF S512x1024 S1024x1024 S512x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x256.size a ≤ S1x1024.size a
  k0_off2_inb : ∀ i : grid0.Coords, ∀ a, (k0_off2 i) a + S512x256.size a ≤ S512x1024.size a
  k0_off2_packedbf16 : ∀ i : grid0.Coords, (Rect.unit (s := S512x1024) (k0_off2 i) S512x256.size (k0_off2_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x4096x1024.size a
  hwx0_0 : ∀ i : grid0.Coords, EltTy.bits .f32 = 32 ∨ (Rect.block (s := S4x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x1024.size a ≤ S4x768x1024.size a
  hwx0_1 : ∀ i : grid0.Coords, EltTy.bits .bf16 = 32 ∨ (Rect.block (s := S4x768x1024) S1x768x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x4096x1024.size a
  hwx0_4 : ∀ i : grid0.Coords, EltTy.bits .f32 = 32 ∨ (Rect.block (s := S4x4096x1024) S1x512x1024.size (cc0_transform_4 i) (hinb0_4 i)).WholeWords (EltTy.packing .f32)

variable [Facts₀]

def dot_S512x1024_S1024x768_S512x768_1_0_0_1_n_n : DotDims S512x1024 S1024x768 S512x768 where
  lhsContracting := [1]
  rhsContracting := [0]
  lhsNonContracting := [0]
  rhsNonContracting := [1]
  lhsBatch := []
  rhsBatch := []
  wf := dot_S512x1024_S1024x768_S512x768_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1x768x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩
abbrev S4x4096x3072 : Shape := ⟨3, ![4, 4096, 3072]⟩
abbrev S1x1x1024 : Shape := ⟨3, ![1, 1, 1024]⟩
abbrev S4x1x1024 : Shape := ⟨3, ![4, 1, 1024]⟩
abbrev S4x4095x1024 : Shape := ⟨3, ![4, 4095, 1024]⟩
abbrev S4x2x1024 : Shape := ⟨3, ![4, 2, 1024]⟩
abbrev S4x4094x1024 : Shape := ⟨3, ![4, 4094, 1024]⟩
abbrev S4x4x1024 : Shape := ⟨3, ![4, 4, 1024]⟩
abbrev S4x4092x1024 : Shape := ⟨3, ![4, 4092, 1024]⟩
abbrev S4x8x1024 : Shape := ⟨3, ![4, 8, 1024]⟩
abbrev S4x4088x1024 : Shape := ⟨3, ![4, 4088, 1024]⟩
abbrev S4x16x1024 : Shape := ⟨3, ![4, 16, 1024]⟩
abbrev S4x4080x1024 : Shape := ⟨3, ![4, 4080, 1024]⟩
abbrev S4x32x1024 : Shape := ⟨3, ![4, 32, 1024]⟩
abbrev S4x4064x1024 : Shape := ⟨3, ![4, 4064, 1024]⟩
abbrev S4x64x1024 : Shape := ⟨3, ![4, 64, 1024]⟩
abbrev S4x4032x1024 : Shape := ⟨3, ![4, 4032, 1024]⟩
abbrev S4x128x1024 : Shape := ⟨3, ![4, 128, 1024]⟩
abbrev S4x3968x1024 : Shape := ⟨3, ![4, 3968, 1024]⟩
abbrev S4x256x1024 : Shape := ⟨3, ![4, 256, 1024]⟩
abbrev S4x3840x1024 : Shape := ⟨3, ![4, 3840, 1024]⟩
abbrev S4x512x1024 : Shape := ⟨3, ![4, 512, 1024]⟩
abbrev S4x3584x1024 : Shape := ⟨3, ![4, 3584, 1024]⟩
abbrev S4x1024x1024 : Shape := ⟨3, ![4, 1024, 1024]⟩
abbrev S4x3072x1024 : Shape := ⟨3, ![4, 3072, 1024]⟩
abbrev S4x2048x1024 : Shape := ⟨3, ![4, 2048, 1024]⟩

abbrev nBuf : Space → Nat
  | .hbm => 242
  | .vmem => 0
  | .smem => 0
  | _ => 0

abbrev hbmTy0_0 (i : Nat) : BufTy := match i % 128 with
  | 0 => ⟨S4x4096x1024, .f32⟩
  | 1 => ⟨S3072x1024, .f32⟩
  | 2 => ⟨S1024x1024, .f32⟩
  | 3 => ⟨S1024, .f32⟩
  | 4 => ⟨S3072x1024, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S3072x1024, .f32⟩
  | 12 => ⟨S3072x1024, .f32⟩
  | 13 => ⟨S3072x1024, .f32⟩
  | 14 => ⟨S_, .f32⟩
  | 15 => ⟨S_, .f32⟩
  | 16 => ⟨S_, .f32⟩
  | 17 => ⟨S3072x1024, .f32⟩
  | 18 => ⟨S3072x1024, .f32⟩
  | 19 => ⟨S_, .f32⟩
  | 20 => ⟨S3072x1024, .f32⟩
  | 21 => ⟨S3072x1024, .f32⟩
  | 22 => ⟨S3072x1024, .f32⟩
  | 23 => ⟨S3072x1024, .f32⟩
  | 24 => ⟨S3072x1024, .f32⟩
  | 25 => ⟨S3072x1024, .f32⟩
  | 26 => ⟨S4x4096x3072, .f32⟩
  | 27 => ⟨S4x4096x1024, .f32⟩
  | 28 => ⟨S1x1x1024, .f32⟩
  | 29 => ⟨S4x4096x1024, .f32⟩
  | 30 => ⟨S4x4096x1024, .f32⟩
  | 31 => ⟨S4x4096x1024, .f32⟩
  | 32 => ⟨S4x4096x1024, .f32⟩
  | 33 => ⟨S_, .f32⟩
  | 34 => ⟨S4x4096x1024, .f32⟩
  | 35 => ⟨S4x4096x1024, .f32⟩
  | 36 => ⟨S_, .f32⟩
  | 37 => ⟨S4x4096x1024, .f32⟩
  | 38 => ⟨S4x4096x1024, .f32⟩
  | 39 => ⟨S4x4096x1024, .f32⟩
  | 40 => ⟨S4x4096x1024, .f32⟩
  | 41 => ⟨S4x4096x1024, .f32⟩
  | 42 => ⟨S_, .f32⟩
  | 43 => ⟨S4x4096x1024, .f32⟩
  | 44 => ⟨S4x4096x1024, .f32⟩
  | 45 => ⟨S_, .f32⟩
  | 46 => ⟨S4x4096x1024, .f32⟩
  | 47 => ⟨S4x4096x1024, .f32⟩
  | 48 => ⟨S4x4096x1024, .f32⟩
  | 49 => ⟨S4x4096x1024, .f32⟩
  | 50 => ⟨S4x4096x1024, .f32⟩
  | 51 => ⟨S4x4096x1024, .f32⟩
  | 52 => ⟨S_, .f32⟩
  | 53 => ⟨S4x4096x1024, .f32⟩
  | 54 => ⟨S4x4096x1024, .f32⟩
  | 55 => ⟨S_, .f32⟩
  | 56 => ⟨S4x4096x1024, .f32⟩
  | 57 => ⟨S4x4096x1024, .f32⟩
  | 58 => ⟨S_, .f32⟩
  | 59 => ⟨S4x4096x1024, .f32⟩
  | 60 => ⟨S4x4096x1024, .f32⟩
  | 61 => ⟨S4x4096x1024, .f32⟩
  | 62 => ⟨S4x1x1024, .f32⟩
  | 63 => ⟨S_, .f32⟩
  | 64 => ⟨S4x1x1024, .f32⟩
  | 65 => ⟨S4x4095x1024, .f32⟩
  | 66 => ⟨S4x4096x1024, .f32⟩
  | 67 => ⟨S4x1x1024, .f32⟩
  | 68 => ⟨S_, .f32⟩
  | 69 => ⟨S4x1x1024, .f32⟩
  | 70 => ⟨S4x4095x1024, .f32⟩
  | 71 => ⟨S4x4096x1024, .f32⟩
  | 72 => ⟨S4x4096x1024, .f32⟩
  | 73 => ⟨S4x4096x1024, .f32⟩
  | 74 => ⟨S4x4096x1024, .f32⟩
  | 75 => ⟨S4x2x1024, .f32⟩
  | 76 => ⟨S_, .f32⟩
  | 77 => ⟨S4x2x1024, .f32⟩
  | 78 => ⟨S4x4094x1024, .f32⟩
  | 79 => ⟨S4x4096x1024, .f32⟩
  | 80 => ⟨S4x2x1024, .f32⟩
  | 81 => ⟨S_, .f32⟩
  | 82 => ⟨S4x2x1024, .f32⟩
  | 83 => ⟨S4x4094x1024, .f32⟩
  | 84 => ⟨S4x4096x1024, .f32⟩
  | 85 => ⟨S4x4096x1024, .f32⟩
  | 86 => ⟨S4x4096x1024, .f32⟩
  | 87 => ⟨S4x4096x1024, .f32⟩
  | 88 => ⟨S4x4x1024, .f32⟩
  | 89 => ⟨S_, .f32⟩
  | 90 => ⟨S4x4x1024, .f32⟩
  | 91 => ⟨S4x4092x1024, .f32⟩
  | 92 => ⟨S4x4096x1024, .f32⟩
  | 93 => ⟨S4x4x1024, .f32⟩
  | 94 => ⟨S_, .f32⟩
  | 95 => ⟨S4x4x1024, .f32⟩
  | 96 => ⟨S4x4092x1024, .f32⟩
  | 97 => ⟨S4x4096x1024, .f32⟩
  | 98 => ⟨S4x4096x1024, .f32⟩
  | 99 => ⟨S4x4096x1024, .f32⟩
  | 100 => ⟨S4x4096x1024, .f32⟩
  | 101 => ⟨S4x8x1024, .f32⟩
  | 102 => ⟨S_, .f32⟩
  | 103 => ⟨S4x8x1024, .f32⟩
  | 104 => ⟨S4x4088x1024, .f32⟩
  | 105 => ⟨S4x4096x1024, .f32⟩
  | 106 => ⟨S4x8x1024, .f32⟩
  | 107 => ⟨S_, .f32⟩
  | 108 => ⟨S4x8x1024, .f32⟩
  | 109 => ⟨S4x4088x1024, .f32⟩
  | 110 => ⟨S4x4096x1024, .f32⟩
  | 111 => ⟨S4x4096x1024, .f32⟩
  | 112 => ⟨S4x4096x1024, .f32⟩
  | 113 => ⟨S4x4096x1024, .f32⟩
  | 114 => ⟨S4x16x1024, .f32⟩
  | 115 => ⟨S_, .f32⟩
  | 116 => ⟨S4x16x1024, .f32⟩
  | 117 => ⟨S4x4080x1024, .f32⟩
  | 118 => ⟨S4x4096x1024, .f32⟩
  | 119 => ⟨S4x16x1024, .f32⟩
  | 120 => ⟨S_, .f32⟩
  | 121 => ⟨S4x16x1024, .f32⟩
  | 122 => ⟨S4x4080x1024, .f32⟩
  | 123 => ⟨S4x4096x1024, .f32⟩
  | 124 => ⟨S4x4096x1024, .f32⟩
  | 125 => ⟨S4x4096x1024, .f32⟩
  | 126 => ⟨S4x4096x1024, .f32⟩
  | 127 => ⟨S4x32x1024, .f32⟩
  | _ => ⟨S4x4096x1024, .f32⟩

abbrev hbmTy0_1 (i : Nat) : BufTy := match i % 128 with
  | 0 => ⟨S_, .f32⟩
  | 1 => ⟨S4x32x1024, .f32⟩
  | 2 => ⟨S4x4064x1024, .f32⟩
  | 3 => ⟨S4x4096x1024, .f32⟩
  | 4 => ⟨S4x32x1024, .f32⟩
  | 5 => ⟨S_, .f32⟩
  | 6 => ⟨S4x32x1024, .f32⟩
  | 7 => ⟨S4x4064x1024, .f32⟩
  | 8 => ⟨S4x4096x1024, .f32⟩
  | 9 => ⟨S4x4096x1024, .f32⟩
  | 10 => ⟨S4x4096x1024, .f32⟩
  | 11 => ⟨S4x4096x1024, .f32⟩
  | 12 => ⟨S4x64x1024, .f32⟩
  | 13 => ⟨S_, .f32⟩
  | 14 => ⟨S4x64x1024, .f32⟩
  | 15 => ⟨S4x4032x1024, .f32⟩
  | 16 => ⟨S4x4096x1024, .f32⟩
  | 17 => ⟨S4x64x1024, .f32⟩
  | 18 => ⟨S_, .f32⟩
  | 19 => ⟨S4x64x1024, .f32⟩
  | 20 => ⟨S4x4032x1024, .f32⟩
  | 21 => ⟨S4x4096x1024, .f32⟩
  | 22 => ⟨S4x4096x1024, .f32⟩
  | 23 => ⟨S4x4096x1024, .f32⟩
  | 24 => ⟨S4x4096x1024, .f32⟩
  | 25 => ⟨S4x128x1024, .f32⟩
  | 26 => ⟨S_, .f32⟩
  | 27 => ⟨S4x128x1024, .f32⟩
  | 28 => ⟨S4x3968x1024, .f32⟩
  | 29 => ⟨S4x4096x1024, .f32⟩
  | 30 => ⟨S4x128x1024, .f32⟩
  | 31 => ⟨S_, .f32⟩
  | 32 => ⟨S4x128x1024, .f32⟩
  | 33 => ⟨S4x3968x1024, .f32⟩
  | 34 => ⟨S4x4096x1024, .f32⟩
  | 35 => ⟨S4x4096x1024, .f32⟩
  | 36 => ⟨S4x4096x1024, .f32⟩
  | 37 => ⟨S4x4096x1024, .f32⟩
  | 38 => ⟨S4x256x1024, .f32⟩
  | 39 => ⟨S_, .f32⟩
  | 40 => ⟨S4x256x1024, .f32⟩
  | 41 => ⟨S4x3840x1024, .f32⟩
  | 42 => ⟨S4x4096x1024, .f32⟩
  | 43 => ⟨S4x256x1024, .f32⟩
  | 44 => ⟨S_, .f32⟩
  | 45 => ⟨S4x256x1024, .f32⟩
  | 46 => ⟨S4x3840x1024, .f32⟩
  | 47 => ⟨S4x4096x1024, .f32⟩
  | 48 => ⟨S4x4096x1024, .f32⟩
  | 49 => ⟨S4x4096x1024, .f32⟩
  | 50 => ⟨S4x4096x1024, .f32⟩
  | 51 => ⟨S4x512x1024, .f32⟩
  | 52 => ⟨S_, .f32⟩
  | 53 => ⟨S4x512x1024, .f32⟩
  | 54 => ⟨S4x3584x1024, .f32⟩
  | 55 => ⟨S4x4096x1024, .f32⟩
  | 56 => ⟨S4x512x1024, .f32⟩
  | 57 => ⟨S_, .f32⟩
  | 58 => ⟨S4x512x1024, .f32⟩
  | 59 => ⟨S4x3584x1024, .f32⟩
  | 60 => ⟨S4x4096x1024, .f32⟩
  | 61 => ⟨S4x4096x1024, .f32⟩
  | 62 => ⟨S4x4096x1024, .f32⟩
  | 63 => ⟨S4x4096x1024, .f32⟩
  | 64 => ⟨S4x1024x1024, .f32⟩
  | 65 => ⟨S_, .f32⟩
  | 66 => ⟨S4x1024x1024, .f32⟩
  | 67 => ⟨S4x3072x1024, .f32⟩
  | 68 => ⟨S4x4096x1024, .f32⟩
  | 69 => ⟨S4x1024x1024, .f32⟩
  | 70 => ⟨S_, .f32⟩
  | 71 => ⟨S4x1024x1024, .f32⟩
  | 72 => ⟨S4x3072x1024, .f32⟩
  | 73 => ⟨S4x4096x1024, .f32⟩
  | 74 => ⟨S4x4096x1024, .f32⟩
  | 75 => ⟨S4x4096x1024, .f32⟩
  | 76 => ⟨S4x4096x1024, .f32⟩
  | 77 => ⟨S4x2048x1024, .f32⟩
  | 78 => ⟨S_, .f32⟩
  | 79 => ⟨S4x2048x1024, .f32⟩
  | 80 => ⟨S4x2048x1024, .f32⟩
  | 81 => ⟨S4x4096x1024, .f32⟩
  | 82 => ⟨S4x2048x1024, .f32⟩
  | 83 => ⟨S_, .f32⟩
  | 84 => ⟨S4x2048x1024, .f32⟩
  | 85 => ⟨S4x2048x1024, .f32⟩
  | 86 => ⟨S4x4096x1024, .f32⟩
  | 87 => ⟨S4x4096x1024, .f32⟩
  | 88 => ⟨S4x4096x1024, .f32⟩
  | 89 => ⟨S4x4096x1024, .f32⟩
  | 90 => ⟨S1024x1024, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S1024x1024, .f32⟩
  | 98 => ⟨S1024x1024, .f32⟩
  | 99 => ⟨S1024x1024, .f32⟩
  | 100 => ⟨S_, .f32⟩
  | 101 => ⟨S_, .f32⟩
  | 102 => ⟨S_, .f32⟩
  | 103 => ⟨S1024x1024, .f32⟩
  | 104 => ⟨S1024x1024, .f32⟩
  | 105 => ⟨S_, .f32⟩
  | 106 => ⟨S1024x1024, .f32⟩
  | 107 => ⟨S1024x1024, .f32⟩
  | 108 => ⟨S1024x1024, .f32⟩
  | 109 => ⟨S1024x1024, .f32⟩
  | 110 => ⟨S1024x1024, .f32⟩
  | 111 => ⟨S1024x1024, .f32⟩
  | 112 => ⟨S4x4096x1024, .f32⟩
  | 113 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_cst_7 : Ref sig .tc := ⟨.hbm, 55, rfl⟩
abbrev main_v30 : Ref sig .tc := ⟨.hbm, 56, rfl⟩
abbrev main_v31 : Ref sig .tc := ⟨.hbm, 57, rfl⟩
abbrev main_cst_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_12 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_15 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_17 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_18 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_19 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_20 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_21 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_22 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_cst_23 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_24 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_25 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_cst_26 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_27 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_28 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_cst_29 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_cst_30 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_cst_31 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_32 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_cst_33 : Ref sig .tc := ⟨.hbm, 219, rfl⟩
abbrev main_v168 : Ref sig .tc := ⟨.hbm, 220, rfl⟩
abbrev main_cst_34 : Ref sig .tc := ⟨.hbm, 221, rfl⟩
abbrev main_v169 : Ref sig .tc := ⟨.hbm, 222, rfl⟩
abbrev main_cst_35 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_cst_36 : Ref sig .tc := ⟨.hbm, 228, rfl⟩
abbrev main_cst_37 : Ref sig .tc := ⟨.hbm, 229, rfl⟩
abbrev main_call4_v0 : Ref sig .tc := ⟨.hbm, 230, rfl⟩
abbrev main_call4_v1 : Ref sig .tc := ⟨.hbm, 231, rfl⟩
abbrev main_call4_v2 : Ref sig .tc := ⟨.hbm, 232, rfl⟩
abbrev main_call4_v3 : Ref sig .tc := ⟨.hbm, 233, rfl⟩
abbrev main_call4_v4 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩

abbrev nD : Nat := 1
abbrev τ : Topo := Topo.v7x

variable {F : FTy → Type} [FloatOps F]

class Facts₀ : Prop where
  reducesTo_S3072x1024_S_d0_1 : S3072x1024.ReducesTo [0, 1] S_
  h_S_ : 0 < S_.numel
  bcast_S_S3072x1024 : S_.BroadcastsInDim S3072x1024 (![] : Fin 0 → Fin S3072x1024.rank)
  slices_S4x4096x3072_S4x4096x1024_0_0_0 : S4x4096x3072.Slices ![0, 0, 0] S4x4096x1024
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  bcast_S_S4x4096x1024 : S_.BroadcastsInDim S4x4096x1024 (![] : Fin 0 → Fin S4x4096x1024.rank)
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  slices_S4x4096x1024_S4x1x1024_0_0_0 : S4x4096x1024.Slices ![0, 0, 0] S4x1x1024
  bcast_S_S4x1x1024 : S_.BroadcastsInDim S4x1x1024 (![] : Fin 0 → Fin S4x1x1024.rank)
  slices_S4x4096x1024_S4x4095x1024_0_0_0 : S4x4096x1024.Slices ![0, 0, 0] S4x4095x1024
  concatenates_S4x1x1024_S4x4095x1024_S4x4096x1024_d1 : Shape.Concatenates [S4x1x1024, S4x4095x1024] S4x4096x1024 1
  slices_S4x4096x1024_S4x2x1024_0_0_0 : S4x4096x1024.Slices ![0, 0, 0] S4x2x1024
  bcast_S_S4x2x1024 : S_.BroadcastsInDim S4x2x1024 (![] : Fin 0 → Fin S4x2x1024.rank)
  slices_S4x4096x1024_S4x4094x1024_0_0_0 : S4x4096x1024.Slices ![0, 0, 0] S4x4094x1024
  concatenates_S4x2x1024_S4x4094x1024_S4x4096x1024_d1 : Shape.Concatenates [S4x2x1024, S4x4094x1024] S4x4096x1024 1
  slices_S4x4096x1024_S4x4x1024_0_0_0 : S4x4096x1024.Slices ![0, 0, 0] S4x4x1024
  bcast_S_S4x4x1024 : S_.BroadcastsInDim S4x4x1024 (![] : Fin 0 → Fin S4x4x1024.rank)
  slices_S4x4096x1024_S4x4092x1024_0_0_0 : S4x4096x1024.Slices ![0, 0, 0] S4x4092x1024
  concatenates_S4x4x1024_S4x4092x1024_S4x4096x1024_d1 : Shape.Concatenates [S4x4x1024, S4x4092x1024] S4x4096x1024 1
  slices_S4x4096x1024_S4x8x1024_0_0_0 : S4x4096x1024.Slices ![0, 0, 0] S4x8x1024
  bcast_S_S4x8x1024 : S_.BroadcastsInDim S4x8x1024 (![] : Fin 0 → Fin S4x8x1024.rank)
  slices_S4x4096x1024_S4x4088x1024_0_0_0 : S4x4096x1024.Slices ![0, 0, 0] S4x4088x1024
  concatenates_S4x8x1024_S4x4088x1024_S4x4096x1024_d1 : Shape.Concatenates [S4x8x1024, S4x4088x1024] S4x4096x1024 1
  slices_S4x4096x1024_S4x16x1024_0_0_0 : S4x4096x1024.Slices ![0, 0, 0] S4x16x1024
  bcast_S_S4x16x1024 : S_.BroadcastsInDim S4x16x1024 (![] : Fin 0 → Fin S4x16x1024.rank)
  slices_S4x4096x1024_S4x4080x1024_0_0_0 : S4x4096x1024.Slices ![0, 0, 0] S4x4080x1024
  concatenates_S4x16x1024_S4x4080x1024_S4x4096x1024_d1 : Shape.Concatenates [S4x16x1024, S4x4080x1024] S4x4096x1024 1
  slices_S4x4096x1024_S4x32x1024_0_0_0 : S4x4096x1024.Slices ![0, 0, 0] S4x32x1024
  bcast_S_S4x32x1024 : S_.BroadcastsInDim S4x32x1024 (![] : Fin 0 → Fin S4x32x1024.rank)
  slices_S4x4096x1024_S4x4064x1024_0_0_0 : S4x4096x1024.Slices ![0, 0, 0] S4x4064x1024
  concatenates_S4x32x1024_S4x4064x1024_S4x4096x1024_d1 : Shape.Concatenates [S4x32x1024, S4x4064x1024] S4x4096x1024 1
  slices_S4x4096x1024_S4x64x1024_0_0_0 : S4x4096x1024.Slices ![0, 0, 0] S4x64x1024
  bcast_S_S4x64x1024 : S_.BroadcastsInDim S4x64x1024 (![] : Fin 0 → Fin S4x64x1024.rank)
  slices_S4x4096x1024_S4x4032x1024_0_0_0 : S4x4096x1024.Slices ![0, 0, 0] S4x4032x1024
  concatenates_S4x64x1024_S4x4032x1024_S4x4096x1024_d1 : Shape.Concatenates [S4x64x1024, S4x4032x1024] S4x4096x1024 1
  slices_S4x4096x1024_S4x128x1024_0_0_0 : S4x4096x1024.Slices ![0, 0, 0] S4x128x1024
  bcast_S_S4x128x1024 : S_.BroadcastsInDim S4x128x1024 (![] : Fin 0 → Fin S4x128x1024.rank)
  slices_S4x4096x1024_S4x3968x1024_0_0_0 : S4x4096x1024.Slices ![0, 0, 0] S4x3968x1024
  concatenates_S4x128x1024_S4x3968x1024_S4x4096x1024_d1 : Shape.Concatenates [S4x128x1024, S4x3968x1024] S4x4096x1024 1
  slices_S4x4096x1024_S4x256x1024_0_0_0 : S4x4096x1024.Slices ![0, 0, 0] S4x256x1024
  bcast_S_S4x256x1024 : S_.BroadcastsInDim S4x256x1024 (![] : Fin 0 → Fin S4x256x1024.rank)
  slices_S4x4096x1024_S4x3840x1024_0_0_0 : S4x4096x1024.Slices ![0, 0, 0] S4x3840x1024
  concatenates_S4x256x1024_S4x3840x1024_S4x4096x1024_d1 : Shape.Concatenates [S4x256x1024, S4x3840x1024] S4x4096x1024 1
  slices_S4x4096x1024_S4x512x1024_0_0_0 : S4x4096x1024.Slices ![0, 0, 0] S4x512x1024
  bcast_S_S4x512x1024 : S_.BroadcastsInDim S4x512x1024 (![] : Fin 0 → Fin S4x512x1024.rank)
  slices_S4x4096x1024_S4x3584x1024_0_0_0 : S4x4096x1024.Slices ![0, 0, 0] S4x3584x1024
  concatenates_S4x512x1024_S4x3584x1024_S4x4096x1024_d1 : Shape.Concatenates [S4x512x1024, S4x3584x1024] S4x4096x1024 1
  slices_S4x4096x1024_S4x1024x1024_0_0_0 : S4x4096x1024.Slices ![0, 0, 0] S4x1024x1024
  bcast_S_S4x1024x1024 : S_.BroadcastsInDim S4x1024x1024 (![] : Fin 0 → Fin S4x1024x1024.rank)
  slices_S4x4096x1024_S4x3072x1024_0_0_0 : S4x4096x1024.Slices ![0, 0, 0] S4x3072x1024
  concatenates_S4x1024x1024_S4x3072x1024_S4x4096x1024_d1 : Shape.Concatenates [S4x1024x1024, S4x3072x1024] S4x4096x1024 1
  slices_S4x4096x1024_S4x2048x1024_0_0_0 : S4x4096x1024.Slices ![0, 0, 0] S4x2048x1024
  bcast_S_S4x2048x1024 : S_.BroadcastsInDim S4x2048x1024 (![] : Fin 0 → Fin S4x2048x1024.rank)
  concatenates_S4x2048x1024_S4x2048x1024_S4x4096x1024_d1 : Shape.Concatenates [S4x2048x1024, S4x2048x1024] S4x4096x1024 1
  reducesTo_S1024x1024_S_d0_1 : S1024x1024.ReducesTo [0, 1] S_
  bcast_S_S1024x1024 : S_.BroadcastsInDim S1024x1024 (![] : Fin 0 → Fin S1024x1024.rank)
  dot_S4x4096x1024_S3072x1024_S4x4096x3072_2_1_01_0_n_n_wf : DotDims.WF S4x4096x1024 S3072x1024 S4x4096x3072 [2] [1] [0, 1] [0] [] []
  dot_S4x4096x1024_S1024x1024_S4x4096x1024_2_1_01_0_n_n_wf : DotDims.WF S4x4096x1024 S1024x1024 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.RefStages.lean ====
/-
  The reference program's operations as functions of its four argument arrays, one definition per operation in program
  order, each the operation's function applied to the earlier stages by name (the operands in the order the program's
  line has them). `val_main_vN` is the value operation %N writes (`val_main_cst_K` a constant's, `val_main_callK_vN` an
  operation inside the K-th call); `wg` names the ternarised gate weights (the result of %0 to %11), `wo` the ternarised
  output weights (%167 to %178), `out` the program's result (%180). Generic in the float instance.
-/
import proofs.«116791_j19533511262472_2_alg».proof.Proof.Gen.ReferenceIdeal

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.abs %arg1 : tensor<3072x1024xf32>
def val_main_v0 (x1 : (⟨S3072x1024, .f32⟩ : BufTy).Contents (Elt F)) : (⟨S3072x1024, .f32⟩ : BufTy).Contents (Elt F) :=
  Host.absf (x1)

-- %cst = stablehlo.constant dense<0.000000e+00> : tensor<f32>
def val_main_cst : (⟨S_, .f32⟩ : BufTy).Contents (Elt F) :=
  constant S_ .f32 0x00000000#32

-- %1 = stablehlo.reduce(%0 init: %cst) applies stablehlo.add across dimensions = [0, 1] : (tensor<3072x1024xf32>, tensor<f32>) -> tensor<f32> {
def val_main_v1 (x1 : (⟨S3072x1024, .f32⟩ : BufTy).Contents (Elt F)) : (⟨S_, .f32⟩ : BufTy).Contents (Elt F) :=
  Host.reduceAdd (val_main_v0 (F := F) x1) (val_main_cst (F := F)) reducesTo_S3072x1024_S_d0_1 h_S_

-- %cst_0 = stablehlo.constant dense<0x4A400000> : tensor<f32>
def val_main_cst_0 : (⟨S_, .f32⟩ : BufTy).Contents (Elt F) :=
  constant S_ .f32 0x4A400000#32

-- %2 = stablehlo.divide %1, %cst_0 : tensor<f32>
def val_main_v2 (x1 : (⟨S3072x1024, .f32⟩ : BufTy).Contents (Elt F)) : (⟨S_, .f32⟩ : BufTy).Contents (Elt F) :=
  Host.divf (val_main_v1 (F := F) x1) (val_main_cst_0 (F := F))

-- %cst_1 = stablehlo.constant dense<9.99999993E-9> : tensor<f32>
def val_main_cst_1 : (⟨S_, .f32⟩ : BufTy).Contents (Elt F) :=
  constant S_ .f32 0x322BCC77#32

-- %3 = stablehlo.add %2, %cst_1 : tensor<f32>
def val_main_v3 (x1 : (⟨S3072x1024, .f32⟩ : BufTy).Contents (Elt F)) : (⟨S_, .f32⟩ : BufTy).Contents (Elt F) :=
  addf (val_main_v2 (F := F) x1) (val_main_cst_1 (F := F))

-- %4 = stablehlo.broadcast_in_dim %3, dims = [] : (tensor<f32>) -> tensor<3072x1024xf32>
def val_main_v4 (x1 : (⟨S3072x1024, .f32⟩ : BufTy).Contents (Elt F)) : (⟨S3072x1024, .f32⟩ : BufTy).Contents (Elt F) :=
  broadcastInDim S3072x1024 ![] bcast_S_S3072x1024 (val_main_v3 (F := F) x1)

-- %5 = stablehlo.divide %arg1, %4 : tensor<3072x1024xf32>
def val_main_v5 (x1 : (⟨S3072x1024, .f32⟩ : BufTy).Contents (Elt F)) : (⟨S3072x1024, .f32⟩ : BufTy).Contents (Elt F) :=
  Host.divf (x1) (val_main_v4 (F := F) x1)

-- %6 = func.call @round(…) (record main_call0) result 0: @round's %0 = stablehlo.round_nearest_even %arg0 : tensor<3072x1024xf32>
def val_main_v6 (x1 : (⟨S3072x1024, .f32⟩ : BufTy).Contents (Elt F)) : (⟨S3072x1024, .f32⟩ : BufTy).Contents (Elt F) :=
  Host.roundeven (val_main_v5 (F := F) x1)

-- %cst_2 = stablehlo.constant dense<-1.000000e+00> : tensor<f32>
def val_main_cst_2 : (⟨S_, .f32⟩ : BufTy).Contents (Elt F) :=
  constant S_ .f32 0xBF800000#32

-- %cst_3 = stablehlo.constant dense<1.000000e+00> : tensor<f32>
def val_main_cst_3 : (⟨S_, .f32⟩ : BufTy).Contents (Elt F) :=
  constant S_ .f32 0x3F800000#32

-- @clip's %0 = stablehlo.convert %arg1 : tensor<f32>, in %7 = func.call @clip(…) (record main_call1)
def val_main_call1_v0 : (⟨S_, .f32⟩ : BufTy).Contents (Elt F) :=
  id (val_main_cst_2 (F := F))

-- @clip's %1 = stablehlo.broadcast_in_dim %0, dims = [] : (tensor<f32>) -> tensor<3072x1024xf32>, in %7 = func.call @clip(…) (record main_call1)
def val_main_call1_v1 : (⟨S3072x1024, .f32⟩ : BufTy).Contents (Elt F) :=
  broadcastInDim S3072x1024 ![] bcast_S_S3072x1024 (val_main_call1_v0 (F := F))

-- @clip's %2 = stablehlo.maximum %1, %arg0 : tensor<3072x1024xf32>, in %7 = func.call @clip(…) (record main_call1)
def val_main_call1_v2 (x1 : (⟨S3072x1024, .f32⟩ : BufTy).Contents (Elt F)) : (⟨S3072x1024, .f32⟩ : BufTy).Contents (Elt F) :=
  maximumf (val_main_call1_v1 (F := F)) (val_main_v6 (F := F) x1)

-- @clip's %3 = stablehlo.convert %arg2 : tensor<f32>, in %7 = func.call @clip(…) (record main_call1)
def val_main_call1_v3 : (⟨S_, .f32⟩ : BufTy).Contents (Elt F) :=
  id (val_main_cst_3 (F := F))

-- @clip's %4 = stablehlo.broadcast_in_dim %3, dims = [] : (tensor<f32>) -> tensor<3072x1024xf32>, in %7 = func.call @clip(…) (record main_call1)
def val_main_call1_v4 : (⟨S3072x1024, .f32⟩ : BufTy).Contents (Elt F) :=
  broadcastInDim S3072x1024 ![] bcast_S_S3072x1024 (val_main_call1_v3 (F := F))

-- %7 = func.call @clip(…) (record main_call1) result 0: @clip's %5 = stablehlo.minimum %4, %2 : tensor<3072x1024xf32>
def val_main_v7 (x1 : (⟨S3072x1024, .f32⟩ : BufTy).Contents (Elt F)) : (⟨S3072x1024, .f32⟩ : BufTy).Contents (Elt F) :=
  minimumf (val_main_call1_v4 (F := F)) (val_main_call1_v2 (F := F) x1)

-- %8 = stablehlo.broadcast_in_dim %3, dims = [] : (tensor<f32>) -> tensor<3072x1024xf32>
def val_main_v8 (x1 : (⟨S3072x1024, .f32⟩ : BufTy).Contents (Elt F)) : (⟨S3072x1024, .f32⟩ : BufTy).Contents (Elt F) :=
  broadcastInDim S3072x1024 ![] bcast_S_S3072x1024 (val_main_v3 (F := F) x1)

-- %9 = stablehlo.multiply %7, %8 : tensor<3072x1024xf32>
def val_main_v9 (x1 : (⟨S3072x1024, .f32⟩ : BufTy).Contents (Elt F)) : (⟨S3072x1024, .f32⟩ : BufTy).Contents (Elt F) :=
  mulf (val_main_v7 (F := F) x1) (val_main_v8 (F := F) x1)

-- %10 = stablehlo.subtract %9, %arg1 : tensor<3072x1024xf32>
def val_main_v10 (x1 : (⟨S3072x1024, .f32⟩ : BufTy).Contents (Elt F)) : (⟨S3072x1024, .f32⟩ : BufTy).Contents (Elt F) :=
  subf (val_main_v9 (F := F) x1) (x1)

-- %11 = stablehlo.add %arg1, %10 : tensor<3072x1024xf32>
def val_main_v11 (x1 : (⟨S3072x1024, .f32⟩ : BufTy).Contents (Elt F)) : (⟨S3072x1024, .f32⟩ : BufTy).Contents (Elt F) :=
  addf (x1) (val_main_v10 (F := F) x1)

/-- The ternarised gate weights: the result of operations %0 to %11, one array of the gate weights alone. -/
def wg (x1 : (⟨S3072x1024, .f32⟩ : BufTy).Contents (Elt F)) : (⟨S3072x1024, .f32⟩ : BufTy).Contents (Elt F) :=
  val_main_v11 (F := F) x1

-- %12 = stablehlo.dot_general %arg0, %11, contracting_dims = [2] x [1], precision = [DEFAULT, DEFAULT] : (tensor<4x4096x1024xf32>, tensor<3072x1024xf32>) -> tensor<4x4096x3072xf32>
def val_main_v12 (x0 : (⟨S4x4096x1024, .f32⟩ : BufTy).Contents (Elt F)) (x1 : (⟨S3072x1024, .f32⟩ : BufTy).Contents (Elt F)) : (⟨S4x4096x3072, .f32⟩ : BufTy).Contents (Elt F) :=
  Host.dotGeneral dot_S4x4096x1024_S3072x1024_S4x4096x3072_2_1_01_0_n_n none (x0) (wg (F := F) x1)

-- %13 = stablehlo.slice %12 [0:4, 0:4096, 0:1024] : (tensor<4x4096x3072xf32>) -> tensor<4x4096x1024xf32>
def val_main_v13 (x0 : (⟨S4x4096x1024, .f32⟩ : BufTy).Contents (Elt F)) (x1 : (⟨S3072x1024, .f32⟩ : BufTy).Contents (Elt F)) : (⟨S4x4096x1024, .f32⟩ : BufTy).Contents (Elt F) :=
  extractStridedSlice S4x4096x1024 ![0, 0, 0] (val_main_v12 (F := F) x0 x1) slices_S4x4096x3072_S4x4096x1024_0_0_0

-- %14 = stablehlo.broadcast_in_dim %arg3, dims = [2] : (tensor<1024xf32>) -> tensor<1x1x1024xf32>
def val_main_v14 (x3 : (⟨S1024, .f32⟩ : BufTy).Contents (Elt F)) : (⟨S1x1x1024, .f32⟩ : BufTy).Contents (Elt F) :=
  broadcastInDim S1x1x1024 ![2] bcast_S1024_S1x1x1024_2 (x3)

-- %15 = stablehlo.broadcast_in_dim %14, dims = [0, 1, 2] : (tensor<1x1x1024xf32>) -> tensor<4x4096x1024xf32>
def val_main_v15 (x3 : (⟨S1024, .f32⟩ : BufTy).Contents (Elt F)) : (⟨S4x4096x1024, .f32⟩ : BufTy).Contents (Elt F) :=
  broadcastInDim S4x4096x1024 ![0, 1, 2] bcast_S1x1x1024_S4x4096x1024_0_1_2 (val_main_v14 (F := F) x3)

-- %16 = stablehlo.add %13, %15 : tensor<4x4096x1024xf32>
def val_main_v16 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  addf (val_main_v13 (F := F) x0 x1) (val_main_v15 (F := F) x3)

-- %17 = stablehlo.negate %16 : tensor<4x4096x1024xf32>
def val_main_v17 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  Host.negf (val_main_v16 (F := F) x0 x1 x3)

-- %18 = stablehlo.exponential %17 : tensor<4x4096x1024xf32>
def val_main_v18 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  Host.exp (val_main_v17 (F := F) x0 x1 x3)

-- %cst_4 = stablehlo.constant dense<1.000000e+00> : tensor<f32>
def val_main_cst_4 : (⟨S_, .f32⟩ : BufTy).Contents (Elt F) :=
  constant S_ .f32 0x3F800000#32

-- %19 = stablehlo.broadcast_in_dim %cst_4, dims = [] : (tensor<f32>) -> tensor<4x4096x1024xf32>
def val_main_v19 : (⟨S4x4096x1024, .f32⟩ : BufTy).Contents (Elt F) :=
  broadcastInDim S4x4096x1024 ![] bcast_S_S4x4096x1024 (val_main_cst_4 (F := F))

-- %20 = stablehlo.add %19, %18 : tensor<4x4096x1024xf32>
def val_main_v20 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  addf (val_main_v19 (F := F)) (val_main_v18 (F := F) x0 x1 x3)

-- %cst_5 = stablehlo.constant dense<1.000000e+00> : tensor<f32>
def val_main_cst_5 : (⟨S_, .f32⟩ : BufTy).Contents (Elt F) :=
  constant S_ .f32 0x3F800000#32

-- %21 = stablehlo.broadcast_in_dim %cst_5, dims = [] : (tensor<f32>) -> tensor<4x4096x1024xf32>
def val_main_v21 : (⟨S4x4096x1024, .f32⟩ : BufTy).Contents (Elt F) :=
  broadcastInDim S4x4096x1024 ![] bcast_S_S4x4096x1024 (val_main_cst_5 (F := F))

-- %22 = stablehlo.divide %21, %20 : tensor<4x4096x1024xf32>
def val_main_v22 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  Host.divf (val_main_v21 (F := F)) (val_main_v20 (F := F) x0 x1 x3)

-- %23 = stablehlo.slice %12 [0:4, 0:4096, 1024:2048] : (tensor<4x4096x3072xf32>) -> tensor<4x4096x1024xf32>
def val_main_v23 (x0 : (⟨S4x4096x1024, .f32⟩ : BufTy).Contents (Elt F)) (x1 : (⟨S3072x1024, .f32⟩ : BufTy).Contents (Elt F)) : (⟨S4x4096x1024, .f32⟩ : BufTy).Contents (Elt F) :=
  extractStridedSlice S4x4096x1024 ![0, 0, 1024] (val_main_v12 (F := F) x0 x1) slices_S4x4096x3072_S4x4096x1024_0_0_1024

-- @silu's %0 = stablehlo.negate %arg0 : tensor<4x4096x1024xf32>, in %24 = func.call @silu(…) (record main_call2)
def val_main_call2_v0 (x0 : (⟨S4x4096x1024, .f32⟩ : BufTy).Contents (Elt F)) (x1 : (⟨S3072x1024, .f32⟩ : BufTy).Contents (Elt F)) : (⟨S4x4096x1024, .f32⟩ : BufTy).Contents (Elt F) :=
  Host.negf (val_main_v23 (F := F) x0 x1)

-- @silu's %1 = stablehlo.exponential %0 : tensor<4x4096x1024xf32>, in %24 = func.call @silu(…) (record main_call2)
def val_main_call2_v1 (x0 : (⟨S4x4096x1024, .f32⟩ : BufTy).Contents (Elt F)) (x1 : (⟨S3072x1024, .f32⟩ : BufTy).Contents (Elt F)) : (⟨S4x4096x1024, .f32⟩ : BufTy).Contents (Elt F) :=
  Host.exp (val_main_call2_v0 (F := F) x0 x1)

-- @silu's %cst = stablehlo.constant dense<1.000000e+00> : tensor<f32>, in %24 = func.call @silu(…) (record main_call2)
def val_main_call2_cst : (⟨S_, .f32⟩ : BufTy).Contents (Elt F) :=
  constant S_ .f32 0x3F800000#32

-- @silu's %2 = stablehlo.broadcast_in_dim %cst, dims = [] : (tensor<f32>) -> tensor<4x4096x1024xf32>, in %24 = func.call @silu(…) (record main_call2)
def val_main_call2_v2 : (⟨S4x4096x1024, .f32⟩ : BufTy).Contents (Elt F) :=
  broadcastInDim S4x4096x1024 ![] bcast_S_S4x4096x1024 (val_main_call2_cst (F := F))

-- @silu's %3 = stablehlo.add %2, %1 : tensor<4x4096x1024xf32>, in %24 = func.call @silu(…) (record main_call2)
def val_main_call2_v3 (x0 : (⟨S4x4096x1024, .f32⟩ : BufTy).Contents (Elt F)) (x1 : (⟨S3072x1024, .f32⟩ : BufTy).Contents (Elt F)) : (⟨S4x4096x1024, .f32⟩ : BufTy).Contents (Elt F) :=
  addf (val_main_call2_v2 (F := F)) (val_main_call2_v1 (F := F) x0 x1)

-- @silu's %cst_0 = stablehlo.constant dense<1.000000e+00> : tensor<f32>, in %24 = func.call @silu(…) (record main_call2)
def val_main_call2_cst_0 : (⟨S_, .f32⟩ : BufTy).Contents (Elt F) :=
  constant S_ .f32 0x3F800000#32

-- @silu's %4 = stablehlo.broadcast_in_dim %cst_0, dims = [] : (tensor<f32>) -> tensor<4x4096x1024xf32>, in %24 = func.call @silu(…) (record main_call2)
def val_main_call2_v4 : (⟨S4x4096x1024, .f32⟩ : BufTy).Contents (Elt F) :=
  broadcastInDim S4x4096x1024 ![] bcast_S_S4x4096x1024 (val_main_call2_cst_0 (F := F))

-- @silu's %5 = stablehlo.divide %4, %3 : tensor<4x4096x1024xf32>, in %24 = func.call @silu(…) (record main_call2)
def val_main_call2_v5 (x0 : (⟨S4x4096x1024, .f32⟩ : BufTy).Contents (Elt F)) (x1 : (⟨S3072x1024, .f32⟩ : BufTy).Contents (Elt F)) : (⟨S4x4096x1024, .f32⟩ : BufTy).Contents (Elt F) :=
  Host.divf (val_main_call2_v4 (F := F)) (val_main_call2_v3 (F := F) x0 x1)

-- %24 = func.call @silu(…) (record main_call2) result 0: @silu's %6 = stablehlo.multiply %arg0, %5 : tensor<4x4096x1024xf32>
def val_main_v24 (x0 : (⟨S4x4096x1024, .f32⟩ : BufTy).Contents (Elt F)) (x1 : (⟨S3072x1024, .f32⟩ : BufTy).Contents (Elt F)) : (⟨S4x4096x1024, .f32⟩ : BufTy).Contents (Elt F) :=
  mulf (val_main_v23 (F := F) x0 x1) (val_main_call2_v5 (F := F) x0 x1)

-- %25 = stablehlo.slice %12 [0:4, 0:4096, 2048:3072] : (tensor<4x4096x3072xf32>) -> tensor<4x4096x1024xf32>
def val_main_v25 (x0 : (⟨S4x4096x1024, .f32⟩ : BufTy).Contents (Elt F)) (x1 : (⟨S3072x1024, .f32⟩ : BufTy).Contents (Elt F)) : (⟨S4x4096x1024, .f32⟩ : BufTy).Contents (Elt F) :=
  extractStridedSlice S4x4096x1024 ![0, 0, 2048] (val_main_v12 (F := F) x0 x1) slices_S4x4096x3072_S4x4096x1024_0_0_2048

-- %26 = stablehlo.negate %25 : tensor<4x4096x1024xf32>
def val_main_v26 (x0 : (⟨S4x4096x1024, .f32⟩ : BufTy).Contents (Elt F)) (x1 : (⟨S3072x1024, .f32⟩ : BufTy).Contents (Elt F)) : (⟨S4x4096x1024, .f32⟩ : BufTy).Contents (Elt F) :=
  Host.negf (val_main_v25 (F := F) x0 x1)

-- %27 = stablehlo.exponential %26 : tensor<4x4096x1024xf32>
def val_main_v27 (x0 : (⟨S4x4096x1024, .f32⟩ : BufTy).Contents (Elt F)) (x1 : (⟨S3072x1024, .f32⟩ : BufTy).Contents (Elt F)) : (⟨S4x4096x1024, .f32⟩ : BufTy).Contents (Elt F) :=
  Host.exp (val_main_v26 (F := F) x0 x1)

-- %cst_6 = stablehlo.constant dense<1.000000e+00> : tensor<f32>
def val_main_cst_6 : (⟨S_, .f32⟩ : BufTy).Contents (Elt F) :=
  constant S_ .f32 0x3F800000#32

-- %28 = stablehlo.broadcast_in_dim %cst_6, dims = [] : (tensor<f32>) -> tensor<4x4096x1024xf32>
def val_main_v28 : (⟨S4x4096x1024, .f32⟩ : BufTy).Contents (Elt F) :=
  broadcastInDim S4x4096x1024 ![] bcast_S_S4x4096x1024 (val_main_cst_6 (F := F))

-- %29 = stablehlo.add %28, %27 : tensor<4x4096x1024xf32>
def val_main_v29 (x0 : (⟨S4x4096x1024, .f32⟩ : BufTy).Contents (Elt F)) (x1 : (⟨S3072x1024, .f32⟩ : BufTy).Contents (Elt F)) : (⟨S4x4096x1024, .f32⟩ : BufTy).Contents (Elt F) :=
  addf (val_main_v28 (F := F)) (val_main_v27 (F := F) x0 x1)

-- %cst_7 = stablehlo.constant dense<1.000000e+00> : tensor<f32>
def val_main_cst_7 : (⟨S_, .f32⟩ : BufTy).Contents (Elt F) :=
  constant S_ .f32 0x3F800000#32

-- %30 = stablehlo.broadcast_in_dim %cst_7, dims = [] : (tensor<f32>) -> tensor<4x4096x1024xf32>
def val_main_v30 : (⟨S4x4096x1024, .f32⟩ : BufTy).Contents (Elt F) :=
  broadcastInDim S4x4096x1024 ![] bcast_S_S4x4096x1024 (val_main_cst_7 (F := F))

-- %31 = stablehlo.divide %30, %29 : tensor<4x4096x1024xf32>
def val_main_v31 (x0 : (⟨S4x4096x1024, .f32⟩ : BufTy).Contents (Elt F)) (x1 : (⟨S3072x1024, .f32⟩ : BufTy).Contents (Elt F)) : (⟨S4x4096x1024, .f32⟩ : BufTy).Contents (Elt F) :=
  Host.divf (val_main_v30 (F := F)) (val_main_v29 (F := F) x0 x1)

-- %cst_8 = stablehlo.constant dense<1.000000e+00> : tensor<f32>
def val_main_cst_8 : (⟨S_, .f32⟩ : BufTy).Contents (Elt F) :=
  constant S_ .f32 0x3F800000#32

-- %32 = stablehlo.broadcast_in_dim %cst_8, dims = [] : (tensor<f32>) -> tensor<4x4096x1024xf32>
def val_main_v32 : (⟨S4x4096x1024, .f32⟩ : BufTy).Contents (Elt F) :=
  broadcastInDim S4x4096x1024 ![] bcast_S_S4x4096x1024 (val_main_cst_8 (F := F))

-- %33 = stablehlo.subtract %32, %22 : tensor<4x4096x1024xf32>
def val_main_v33 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  subf (val_main_v32 (F := F)) (val_main_v22 (F := F) x0 x1 x3)

-- %34 = stablehlo.multiply %33, %24 : tensor<4x4096x1024xf32>
def val_main_v34 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v33 (F := F) x0 x1 x3) (val_main_v24 (F := F) x0 x1)

-- %35 = stablehlo.slice %22 [0:4, 0:1, 0:1024] : (tensor<4x4096x1024xf32>) -> tensor<4x1x1024xf32>
def val_main_v35 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x1x1024, .f32⟩ : BufTy).Contents (Elt F) :=
  extractStridedSlice S4x1x1024 ![0, 0, 0] (val_main_v22 (F := F) x0 x1 x3) slices_S4x4096x1024_S4x1x1024_0_0_0

-- %cst_9 = stablehlo.constant dense<1.000000e+00> : tensor<f32>
def val_main_cst_9 : (⟨S_, .f32⟩ : BufTy).Contents (Elt F) :=
  constant S_ .f32 0x3F800000#32

-- %36 = stablehlo.broadcast_in_dim %cst_9, dims = [] : (tensor<f32>) -> tensor<4x1x1024xf32>
def val_main_v36 : (⟨S4x1x1024, .f32⟩ : BufTy).Contents (Elt F) :=
  broadcastInDim S4x1x1024 ![] bcast_S_S4x1x1024 (val_main_cst_9 (F := F))

-- %37 = stablehlo.slice %22 [0:4, 0:4095, 0:1024] : (tensor<4x4096x1024xf32>) -> tensor<4x4095x1024xf32>
def val_main_v37 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4095x1024, .f32⟩ : BufTy).Contents (Elt F) :=
  extractStridedSlice S4x4095x1024 ![0, 0, 0] (val_main_v22 (F := F) x0 x1 x3) slices_S4x4096x1024_S4x4095x1024_0_0_0

-- %38 = stablehlo.concatenate %36, %37, dim = 1 : (tensor<4x1x1024xf32>, tensor<4x4095x1024xf32>) -> tensor<4x4096x1024xf32>
def val_main_v38 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x1x1024, (val_main_v36 (F := F))⟩, ⟨S4x4095x1024, (val_main_v37 (F := F) x0 x1 x3)⟩] concatenates_S4x1x1024_S4x4095x1024_S4x4096x1024_d1

-- %39 = stablehlo.slice %34 [0:4, 0:1, 0:1024] : (tensor<4x4096x1024xf32>) -> tensor<4x1x1024xf32>
def val_main_v39 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x1x1024, .f32⟩ : BufTy).Contents (Elt F) :=
  extractStridedSlice S4x1x1024 ![0, 0, 0] (val_main_v34 (F := F) x0 x1 x3) slices_S4x4096x1024_S4x1x1024_0_0_0

-- %cst_10 = stablehlo.constant dense<0.000000e+00> : tensor<f32>
def val_main_cst_10 : (⟨S_, .f32⟩ : BufTy).Contents (Elt F) :=
  constant S_ .f32 0x00000000#32

-- %40 = stablehlo.broadcast_in_dim %cst_10, dims = [] : (tensor<f32>) -> tensor<4x1x1024xf32>
def val_main_v40 : (⟨S4x1x1024, .f32⟩ : BufTy).Contents (Elt F) :=
  broadcastInDim S4x1x1024 ![] bcast_S_S4x1x1024 (val_main_cst_10 (F := F))

-- %41 = stablehlo.slice %34 [0:4, 0:4095, 0:1024] : (tensor<4x4096x1024xf32>) -> tensor<4x4095x1024xf32>
def val_main_v41 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4095x1024, .f32⟩ : BufTy).Contents (Elt F) :=
  extractStridedSlice S4x4095x1024 ![0, 0, 0] (val_main_v34 (F := F) x0 x1 x3) slices_S4x4096x1024_S4x4095x1024_0_0_0

-- %42 = stablehlo.concatenate %40, %41, dim = 1 : (tensor<4x1x1024xf32>, tensor<4x4095x1024xf32>) -> tensor<4x4096x1024xf32>
def val_main_v42 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x1x1024, (val_main_v40 (F := F))⟩, ⟨S4x4095x1024, (val_main_v41 (F := F) x0 x1 x3)⟩] concatenates_S4x1x1024_S4x4095x1024_S4x4096x1024_d1

-- %43 = stablehlo.multiply %22, %42 : tensor<4x4096x1024xf32>
def val_main_v43 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v22 (F := F) x0 x1 x3) (val_main_v42 (F := F) x0 x1 x3)

-- %44 = stablehlo.add %43, %34 : tensor<4x4096x1024xf32>
def val_main_v44 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  addf (val_main_v43 (F := F) x0 x1 x3) (val_main_v34 (F := F) x0 x1 x3)

-- %45 = stablehlo.multiply %22, %38 : tensor<4x4096x1024xf32>
def val_main_v45 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v22 (F := F) x0 x1 x3) (val_main_v38 (F := F) x0 x1 x3)

-- %46 = stablehlo.slice %45 [0:4, 0:2, 0:1024] : (tensor<4x4096x1024xf32>) -> tensor<4x2x1024xf32>
def val_main_v46 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x2x1024, .f32⟩ : BufTy).Contents (Elt F) :=
  extractStridedSlice S4x2x1024 ![0, 0, 0] (val_main_v45 (F := F) x0 x1 x3) slices_S4x4096x1024_S4x2x1024_0_0_0

-- %cst_11 = stablehlo.constant dense<1.000000e+00> : tensor<f32>
def val_main_cst_11 : (⟨S_, .f32⟩ : BufTy).Contents (Elt F) :=
  constant S_ .f32 0x3F800000#32

-- %47 = stablehlo.broadcast_in_dim %cst_11, dims = [] : (tensor<f32>) -> tensor<4x2x1024xf32>
def val_main_v47 : (⟨S4x2x1024, .f32⟩ : BufTy).Contents (Elt F) :=
  broadcastInDim S4x2x1024 ![] bcast_S_S4x2x1024 (val_main_cst_11 (F := F))

-- %48 = stablehlo.slice %45 [0:4, 0:4094, 0:1024] : (tensor<4x4096x1024xf32>) -> tensor<4x4094x1024xf32>
def val_main_v48 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4094x1024, .f32⟩ : BufTy).Contents (Elt F) :=
  extractStridedSlice S4x4094x1024 ![0, 0, 0] (val_main_v45 (F := F) x0 x1 x3) slices_S4x4096x1024_S4x4094x1024_0_0_0

-- %49 = stablehlo.concatenate %47, %48, dim = 1 : (tensor<4x2x1024xf32>, tensor<4x4094x1024xf32>) -> tensor<4x4096x1024xf32>
def val_main_v49 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x2x1024, (val_main_v47 (F := F))⟩, ⟨S4x4094x1024, (val_main_v48 (F := F) x0 x1 x3)⟩] concatenates_S4x2x1024_S4x4094x1024_S4x4096x1024_d1

-- %50 = stablehlo.slice %44 [0:4, 0:2, 0:1024] : (tensor<4x4096x1024xf32>) -> tensor<4x2x1024xf32>
def val_main_v50 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x2x1024, .f32⟩ : BufTy).Contents (Elt F) :=
  extractStridedSlice S4x2x1024 ![0, 0, 0] (val_main_v44 (F := F) x0 x1 x3) slices_S4x4096x1024_S4x2x1024_0_0_0

-- %cst_12 = stablehlo.constant dense<0.000000e+00> : tensor<f32>
def val_main_cst_12 : (⟨S_, .f32⟩ : BufTy).Contents (Elt F) :=
  constant S_ .f32 0x00000000#32

-- %51 = stablehlo.broadcast_in_dim %cst_12, dims = [] : (tensor<f32>) -> tensor<4x2x1024xf32>
def val_main_v51 : (⟨S4x2x1024, .f32⟩ : BufTy).Contents (Elt F) :=
  broadcastInDim S4x2x1024 ![] bcast_S_S4x2x1024 (val_main_cst_12 (F := F))

-- %52 = stablehlo.slice %44 [0:4, 0:4094, 0:1024] : (tensor<4x4096x1024xf32>) -> tensor<4x4094x1024xf32>
def val_main_v52 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4094x1024, .f32⟩ : BufTy).Contents (Elt F) :=
  extractStridedSlice S4x4094x1024 ![0, 0, 0] (val_main_v44 (F := F) x0 x1 x3) slices_S4x4096x1024_S4x4094x1024_0_0_0

-- %53 = stablehlo.concatenate %51, %52, dim = 1 : (tensor<4x2x1024xf32>, tensor<4x4094x1024xf32>) -> tensor<4x4096x1024xf32>
def val_main_v53 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x2x1024, (val_main_v51 (F := F))⟩, ⟨S4x4094x1024, (val_main_v52 (F := F) x0 x1 x3)⟩] concatenates_S4x2x1024_S4x4094x1024_S4x4096x1024_d1

-- %54 = stablehlo.multiply %45, %53 : tensor<4x4096x1024xf32>
def val_main_v54 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v45 (F := F) x0 x1 x3) (val_main_v53 (F := F) x0 x1 x3)

-- %55 = stablehlo.add %54, %44 : tensor<4x4096x1024xf32>
def val_main_v55 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  addf (val_main_v54 (F := F) x0 x1 x3) (val_main_v44 (F := F) x0 x1 x3)

-- %56 = stablehlo.multiply %45, %49 : tensor<4x4096x1024xf32>
def val_main_v56 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v45 (F := F) x0 x1 x3) (val_main_v49 (F := F) x0 x1 x3)

-- %57 = stablehlo.slice %56 [0:4, 0:4, 0:1024] : (tensor<4x4096x1024xf32>) -> tensor<4x4x1024xf32>
def val_main_v57 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4x1024, .f32⟩ : BufTy).Contents (Elt F) :=
  extractStridedSlice S4x4x1024 ![0, 0, 0] (val_main_v56 (F := F) x0 x1 x3) slices_S4x4096x1024_S4x4x1024_0_0_0

-- %cst_13 = stablehlo.constant dense<1.000000e+00> : tensor<f32>
def val_main_cst_13 : (⟨S_, .f32⟩ : BufTy).Contents (Elt F) :=
  constant S_ .f32 0x3F800000#32

-- %58 = stablehlo.broadcast_in_dim %cst_13, dims = [] : (tensor<f32>) -> tensor<4x4x1024xf32>
def val_main_v58 : (⟨S4x4x1024, .f32⟩ : BufTy).Contents (Elt F) :=
  broadcastInDim S4x4x1024 ![] bcast_S_S4x4x1024 (val_main_cst_13 (F := F))

-- %59 = stablehlo.slice %56 [0:4, 0:4092, 0:1024] : (tensor<4x4096x1024xf32>) -> tensor<4x4092x1024xf32>
def val_main_v59 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4092x1024, .f32⟩ : BufTy).Contents (Elt F) :=
  extractStridedSlice S4x4092x1024 ![0, 0, 0] (val_main_v56 (F := F) x0 x1 x3) slices_S4x4096x1024_S4x4092x1024_0_0_0

-- %60 = stablehlo.concatenate %58, %59, dim = 1 : (tensor<4x4x1024xf32>, tensor<4x4092x1024xf32>) -> tensor<4x4096x1024xf32>
def val_main_v60 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x4x1024, (val_main_v58 (F := F))⟩, ⟨S4x4092x1024, (val_main_v59 (F := F) x0 x1 x3)⟩] concatenates_S4x4x1024_S4x4092x1024_S4x4096x1024_d1

-- %61 = stablehlo.slice %55 [0:4, 0:4, 0:1024] : (tensor<4x4096x1024xf32>) -> tensor<4x4x1024xf32>
def val_main_v61 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4x1024, .f32⟩ : BufTy).Contents (Elt F) :=
  extractStridedSlice S4x4x1024 ![0, 0, 0] (val_main_v55 (F := F) x0 x1 x3) slices_S4x4096x1024_S4x4x1024_0_0_0

-- %cst_14 = stablehlo.constant dense<0.000000e+00> : tensor<f32>
def val_main_cst_14 : (⟨S_, .f32⟩ : BufTy).Contents (Elt F) :=
  constant S_ .f32 0x00000000#32

-- %62 = stablehlo.broadcast_in_dim %cst_14, dims = [] : (tensor<f32>) -> tensor<4x4x1024xf32>
def val_main_v62 : (⟨S4x4x1024, .f32⟩ : BufTy).Contents (Elt F) :=
  broadcastInDim S4x4x1024 ![] bcast_S_S4x4x1024 (val_main_cst_14 (F := F))

-- %63 = stablehlo.slice %55 [0:4, 0:4092, 0:1024] : (tensor<4x4096x1024xf32>) -> tensor<4x4092x1024xf32>
def val_main_v63 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4092x1024, .f32⟩ : BufTy).Contents (Elt F) :=
  extractStridedSlice S4x4092x1024 ![0, 0, 0] (val_main_v55 (F := F) x0 x1 x3) slices_S4x4096x1024_S4x4092x1024_0_0_0

-- %64 = stablehlo.concatenate %62, %63, dim = 1 : (tensor<4x4x1024xf32>, tensor<4x4092x1024xf32>) -> tensor<4x4096x1024xf32>
def val_main_v64 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x4x1024, (val_main_v62 (F := F))⟩, ⟨S4x4092x1024, (val_main_v63 (F := F) x0 x1 x3)⟩] concatenates_S4x4x1024_S4x4092x1024_S4x4096x1024_d1

-- %65 = stablehlo.multiply %56, %64 : tensor<4x4096x1024xf32>
def val_main_v65 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v56 (F := F) x0 x1 x3) (val_main_v64 (F := F) x0 x1 x3)

-- %66 = stablehlo.add %65, %55 : tensor<4x4096x1024xf32>
def val_main_v66 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  addf (val_main_v65 (F := F) x0 x1 x3) (val_main_v55 (F := F) x0 x1 x3)

-- %67 = stablehlo.multiply %56, %60 : tensor<4x4096x1024xf32>
def val_main_v67 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v56 (F := F) x0 x1 x3) (val_main_v60 (F := F) x0 x1 x3)

-- %68 = stablehlo.slice %67 [0:4, 0:8, 0:1024] : (tensor<4x4096x1024xf32>) -> tensor<4x8x1024xf32>
def val_main_v68 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x8x1024, .f32⟩ : BufTy).Contents (Elt F) :=
  extractStridedSlice S4x8x1024 ![0, 0, 0] (val_main_v67 (F := F) x0 x1 x3) slices_S4x4096x1024_S4x8x1024_0_0_0

-- %cst_15 = stablehlo.constant dense<1.000000e+00> : tensor<f32>
def val_main_cst_15 : (⟨S_, .f32⟩ : BufTy).Contents (Elt F) :=
  constant S_ .f32 0x3F800000#32

-- %69 = stablehlo.broadcast_in_dim %cst_15, dims = [] : (tensor<f32>) -> tensor<4x8x1024xf32>
def val_main_v69 : (⟨S4x8x1024, .f32⟩ : BufTy).Contents (Elt F) :=
  broadcastInDim S4x8x1024 ![] bcast_S_S4x8x1024 (val_main_cst_15 (F := F))

-- %70 = stablehlo.slice %67 [0:4, 0:4088, 0:1024] : (tensor<4x4096x1024xf32>) -> tensor<4x4088x1024xf32>
def val_main_v70 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4088x1024, .f32⟩ : BufTy).Contents (Elt F) :=
  extractStridedSlice S4x4088x1024 ![0, 0, 0] (val_main_v67 (F := F) x0 x1 x3) slices_S4x4096x1024_S4x4088x1024_0_0_0

-- %71 = stablehlo.concatenate %69, %70, dim = 1 : (tensor<4x8x1024xf32>, tensor<4x4088x1024xf32>) -> tensor<4x4096x1024xf32>
def val_main_v71 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x8x1024, (val_main_v69 (F := F))⟩, ⟨S4x4088x1024, (val_main_v70 (F := F) x0 x1 x3)⟩] concatenates_S4x8x1024_S4x4088x1024_S4x4096x1024_d1

-- %72 = stablehlo.slice %66 [0:4, 0:8, 0:1024] : (tensor<4x4096x1024xf32>) -> tensor<4x8x1024xf32>
def val_main_v72 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x8x1024, .f32⟩ : BufTy).Contents (Elt F) :=
  extractStridedSlice S4x8x1024 ![0, 0, 0] (val_main_v66 (F := F) x0 x1 x3) slices_S4x4096x1024_S4x8x1024_0_0_0

-- %cst_16 = stablehlo.constant dense<0.000000e+00> : tensor<f32>
def val_main_cst_16 : (⟨S_, .f32⟩ : BufTy).Contents (Elt F) :=
  constant S_ .f32 0x00000000#32

-- %73 = stablehlo.broadcast_in_dim %cst_16, dims = [] : (tensor<f32>) -> tensor<4x8x1024xf32>
def val_main_v73 : (⟨S4x8x1024, .f32⟩ : BufTy).Contents (Elt F) :=
  broadcastInDim S4x8x1024 ![] bcast_S_S4x8x1024 (val_main_cst_16 (F := F))

-- %74 = stablehlo.slice %66 [0:4, 0:4088, 0:1024] : (tensor<4x4096x1024xf32>) -> tensor<4x4088x1024xf32>
def val_main_v74 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4088x1024, .f32⟩ : BufTy).Contents (Elt F) :=
  extractStridedSlice S4x4088x1024 ![0, 0, 0] (val_main_v66 (F := F) x0 x1 x3) slices_S4x4096x1024_S4x4088x1024_0_0_0

-- %75 = stablehlo.concatenate %73, %74, dim = 1 : (tensor<4x8x1024xf32>, tensor<4x4088x1024xf32>) -> tensor<4x4096x1024xf32>
def val_main_v75 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x8x1024, (val_main_v73 (F := F))⟩, ⟨S4x4088x1024, (val_main_v74 (F := F) x0 x1 x3)⟩] concatenates_S4x8x1024_S4x4088x1024_S4x4096x1024_d1

-- %76 = stablehlo.multiply %67, %75 : tensor<4x4096x1024xf32>
def val_main_v76 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v67 (F := F) x0 x1 x3) (val_main_v75 (F := F) x0 x1 x3)

-- %77 = stablehlo.add %76, %66 : tensor<4x4096x1024xf32>
def val_main_v77 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  addf (val_main_v76 (F := F) x0 x1 x3) (val_main_v66 (F := F) x0 x1 x3)

-- %78 = stablehlo.multiply %67, %71 : tensor<4x4096x1024xf32>
def val_main_v78 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v67 (F := F) x0 x1 x3) (val_main_v71 (F := F) x0 x1 x3)

-- %79 = stablehlo.slice %78 [0:4, 0:16, 0:1024] : (tensor<4x4096x1024xf32>) -> tensor<4x16x1024xf32>
def val_main_v79 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x16x1024, .f32⟩ : BufTy).Contents (Elt F) :=
  extractStridedSlice S4x16x1024 ![0, 0, 0] (val_main_v78 (F := F) x0 x1 x3) slices_S4x4096x1024_S4x16x1024_0_0_0

-- %cst_17 = stablehlo.constant dense<1.000000e+00> : tensor<f32>
def val_main_cst_17 : (⟨S_, .f32⟩ : BufTy).Contents (Elt F) :=
  constant S_ .f32 0x3F800000#32

-- %80 = stablehlo.broadcast_in_dim %cst_17, dims = [] : (tensor<f32>) -> tensor<4x16x1024xf32>
def val_main_v80 : (⟨S4x16x1024, .f32⟩ : BufTy).Contents (Elt F) :=
  broadcastInDim S4x16x1024 ![] bcast_S_S4x16x1024 (val_main_cst_17 (F := F))

-- %81 = stablehlo.slice %78 [0:4, 0:4080, 0:1024] : (tensor<4x4096x1024xf32>) -> tensor<4x4080x1024xf32>
def val_main_v81 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4080x1024, .f32⟩ : BufTy).Contents (Elt F) :=
  extractStridedSlice S4x4080x1024 ![0, 0, 0] (val_main_v78 (F := F) x0 x1 x3) slices_S4x4096x1024_S4x4080x1024_0_0_0

-- %82 = stablehlo.concatenate %80, %81, dim = 1 : (tensor<4x16x1024xf32>, tensor<4x4080x1024xf32>) -> tensor<4x4096x1024xf32>
def val_main_v82 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x16x1024, (val_main_v80 (F := F))⟩, ⟨S4x4080x1024, (val_main_v81 (F := F) x0 x1 x3)⟩] concatenates_S4x16x1024_S4x4080x1024_S4x4096x1024_d1

-- %83 = stablehlo.slice %77 [0:4, 0:16, 0:1024] : (tensor<4x4096x1024xf32>) -> tensor<4x16x1024xf32>
def val_main_v83 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x16x1024, .f32⟩ : BufTy).Contents (Elt F) :=
  extractStridedSlice S4x16x1024 ![0, 0, 0] (val_main_v77 (F := F) x0 x1 x3) slices_S4x4096x1024_S4x16x1024_0_0_0

-- %cst_18 = stablehlo.constant dense<0.000000e+00> : tensor<f32>
def val_main_cst_18 : (⟨S_, .f32⟩ : BufTy).Contents (Elt F) :=
  constant S_ .f32 0x00000000#32

-- %84 = stablehlo.broadcast_in_dim %cst_18, dims = [] : (tensor<f32>) -> tensor<4x16x1024xf32>
def val_main_v84 : (⟨S4x16x1024, .f32⟩ : BufTy).Contents (Elt F) :=
  broadcastInDim S4x16x1024 ![] bcast_S_S4x16x1024 (val_main_cst_18 (F := F))

-- %85 = stablehlo.slice %77 [0:4, 0:4080, 0:1024] : (tensor<4x4096x1024xf32>) -> tensor<4x4080x1024xf32>
def val_main_v85 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4080x1024, .f32⟩ : BufTy).Contents (Elt F) :=
  extractStridedSlice S4x4080x1024 ![0, 0, 0] (val_main_v77 (F := F) x0 x1 x3) slices_S4x4096x1024_S4x4080x1024_0_0_0

-- %86 = stablehlo.concatenate %84, %85, dim = 1 : (tensor<4x16x1024xf32>, tensor<4x4080x1024xf32>) -> tensor<4x4096x1024xf32>
def val_main_v86 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x16x1024, (val_main_v84 (F := F))⟩, ⟨S4x4080x1024, (val_main_v85 (F := F) x0 x1 x3)⟩] concatenates_S4x16x1024_S4x4080x1024_S4x4096x1024_d1

-- %87 = stablehlo.multiply %78, %86 : tensor<4x4096x1024xf32>
def val_main_v87 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v78 (F := F) x0 x1 x3) (val_main_v86 (F := F) x0 x1 x3)

-- %88 = stablehlo.add %87, %77 : tensor<4x4096x1024xf32>
def val_main_v88 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  addf (val_main_v87 (F := F) x0 x1 x3) (val_main_v77 (F := F) x0 x1 x3)

-- %89 = stablehlo.multiply %78, %82 : tensor<4x4096x1024xf32>
def val_main_v89 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v78 (F := F) x0 x1 x3) (val_main_v82 (F := F) x0 x1 x3)

-- %90 = stablehlo.slice %89 [0:4, 0:32, 0:1024] : (tensor<4x4096x1024xf32>) -> tensor<4x32x1024xf32>
def val_main_v90 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x32x1024, .f32⟩ : BufTy).Contents (Elt F) :=
  extractStridedSlice S4x32x1024 ![0, 0, 0] (val_main_v89 (F := F) x0 x1 x3) slices_S4x4096x1024_S4x32x1024_0_0_0

-- %cst_19 = stablehlo.constant dense<1.000000e+00> : tensor<f32>
def val_main_cst_19 : (⟨S_, .f32⟩ : BufTy).Contents (Elt F) :=
  constant S_ .f32 0x3F800000#32

-- %91 = stablehlo.broadcast_in_dim %cst_19, dims = [] : (tensor<f32>) -> tensor<4x32x1024xf32>
def val_main_v91 : (⟨S4x32x1024, .f32⟩ : BufTy).Contents (Elt F) :=
  broadcastInDim S4x32x1024 ![] bcast_S_S4x32x1024 (val_main_cst_19 (F := F))

-- %92 = stablehlo.slice %89 [0:4, 0:4064, 0:1024] : (tensor<4x4096x1024xf32>) -> tensor<4x4064x1024xf32>
def val_main_v92 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4064x1024, .f32⟩ : BufTy).Contents (Elt F) :=
  extractStridedSlice S4x4064x1024 ![0, 0, 0] (val_main_v89 (F := F) x0 x1 x3) slices_S4x4096x1024_S4x4064x1024_0_0_0

-- %93 = stablehlo.concatenate %91, %92, dim = 1 : (tensor<4x32x1024xf32>, tensor<4x4064x1024xf32>) -> tensor<4x4096x1024xf32>
def val_main_v93 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x32x1024, (val_main_v91 (F := F))⟩, ⟨S4x4064x1024, (val_main_v92 (F := F) x0 x1 x3)⟩] concatenates_S4x32x1024_S4x4064x1024_S4x4096x1024_d1

-- %94 = stablehlo.slice %88 [0:4, 0:32, 0:1024] : (tensor<4x4096x1024xf32>) -> tensor<4x32x1024xf32>
def val_main_v94 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x32x1024, .f32⟩ : BufTy).Contents (Elt F) :=
  extractStridedSlice S4x32x1024 ![0, 0, 0] (val_main_v88 (F := F) x0 x1 x3) slices_S4x4096x1024_S4x32x1024_0_0_0

-- %cst_20 = stablehlo.constant dense<0.000000e+00> : tensor<f32>
def val_main_cst_20 : (⟨S_, .f32⟩ : BufTy).Contents (Elt F) :=
  constant S_ .f32 0x00000000#32

-- %95 = stablehlo.broadcast_in_dim %cst_20, dims = [] : (tensor<f32>) -> tensor<4x32x1024xf32>
def val_main_v95 : (⟨S4x32x1024, .f32⟩ : BufTy).Contents (Elt F) :=
  broadcastInDim S4x32x1024 ![] bcast_S_S4x32x1024 (val_main_cst_20 (F := F))

-- %96 = stablehlo.slice %88 [0:4, 0:4064, 0:1024] : (tensor<4x4096x1024xf32>) -> tensor<4x4064x1024xf32>
def val_main_v96 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4064x1024, .f32⟩ : BufTy).Contents (Elt F) :=
  extractStridedSlice S4x4064x1024 ![0, 0, 0] (val_main_v88 (F := F) x0 x1 x3) slices_S4x4096x1024_S4x4064x1024_0_0_0

-- %97 = stablehlo.concatenate %95, %96, dim = 1 : (tensor<4x32x1024xf32>, tensor<4x4064x1024xf32>) -> tensor<4x4096x1024xf32>
def val_main_v97 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x32x1024, (val_main_v95 (F := F))⟩, ⟨S4x4064x1024, (val_main_v96 (F := F) x0 x1 x3)⟩] concatenates_S4x32x1024_S4x4064x1024_S4x4096x1024_d1

-- %98 = stablehlo.multiply %89, %97 : tensor<4x4096x1024xf32>
def val_main_v98 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v89 (F := F) x0 x1 x3) (val_main_v97 (F := F) x0 x1 x3)

-- %99 = stablehlo.add %98, %88 : tensor<4x4096x1024xf32>
def val_main_v99 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  addf (val_main_v98 (F := F) x0 x1 x3) (val_main_v88 (F := F) x0 x1 x3)

-- %100 = stablehlo.multiply %89, %93 : tensor<4x4096x1024xf32>
def val_main_v100 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v89 (F := F) x0 x1 x3) (val_main_v93 (F := F) x0 x1 x3)

-- %101 = stablehlo.slice %100 [0:4, 0:64, 0:1024] : (tensor<4x4096x1024xf32>) -> tensor<4x64x1024xf32>
def val_main_v101 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x64x1024, .f32⟩ : BufTy).Contents (Elt F) :=
  extractStridedSlice S4x64x1024 ![0, 0, 0] (val_main_v100 (F := F) x0 x1 x3) slices_S4x4096x1024_S4x64x1024_0_0_0

-- %cst_21 = stablehlo.constant dense<1.000000e+00> : tensor<f32>
def val_main_cst_21 : (⟨S_, .f32⟩ : BufTy).Contents (Elt F) :=
  constant S_ .f32 0x3F800000#32

-- %102 = stablehlo.broadcast_in_dim %cst_21, dims = [] : (tensor<f32>) -> tensor<4x64x1024xf32>
def val_main_v102 : (⟨S4x64x1024, .f32⟩ : BufTy).Contents (Elt F) :=
  broadcastInDim S4x64x1024 ![] bcast_S_S4x64x1024 (val_main_cst_21 (F := F))

-- %103 = stablehlo.slice %100 [0:4, 0:4032, 0:1024] : (tensor<4x4096x1024xf32>) -> tensor<4x4032x1024xf32>
def val_main_v103 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4032x1024, .f32⟩ : BufTy).Contents (Elt F) :=
  extractStridedSlice S4x4032x1024 ![0, 0, 0] (val_main_v100 (F := F) x0 x1 x3) slices_S4x4096x1024_S4x4032x1024_0_0_0

-- %104 = stablehlo.concatenate %102, %103, dim = 1 : (tensor<4x64x1024xf32>, tensor<4x4032x1024xf32>) -> tensor<4x4096x1024xf32>
def val_main_v104 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x64x1024, (val_main_v102 (F := F))⟩, ⟨S4x4032x1024, (val_main_v103 (F := F) x0 x1 x3)⟩] concatenates_S4x64x1024_S4x4032x1024_S4x4096x1024_d1

-- %105 = stablehlo.slice %99 [0:4, 0:64, 0:1024] : (tensor<4x4096x1024xf32>) -> tensor<4x64x1024xf32>
def val_main_v105 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x64x1024, .f32⟩ : BufTy).Contents (Elt F) :=
  extractStridedSlice S4x64x1024 ![0, 0, 0] (val_main_v99 (F := F) x0 x1 x3) slices_S4x4096x1024_S4x64x1024_0_0_0

-- %cst_22 = stablehlo.constant dense<0.000000e+00> : tensor<f32>
def val_main_cst_22 : (⟨S_, .f32⟩ : BufTy).Contents (Elt F) :=
  constant S_ .f32 0x00000000#32

-- %106 = stablehlo.broadcast_in_dim %cst_22, dims = [] : (tensor<f32>) -> tensor<4x64x1024xf32>
def val_main_v106 : (⟨S4x64x1024, .f32⟩ : BufTy).Contents (Elt F) :=
  broadcastInDim S4x64x1024 ![] bcast_S_S4x64x1024 (val_main_cst_22 (F := F))

-- %107 = stablehlo.slice %99 [0:4, 0:4032, 0:1024] : (tensor<4x4096x1024xf32>) -> tensor<4x4032x1024xf32>
def val_main_v107 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4032x1024, .f32⟩ : BufTy).Contents (Elt F) :=
  extractStridedSlice S4x4032x1024 ![0, 0, 0] (val_main_v99 (F := F) x0 x1 x3) slices_S4x4096x1024_S4x4032x1024_0_0_0

-- %108 = stablehlo.concatenate %106, %107, dim = 1 : (tensor<4x64x1024xf32>, tensor<4x4032x1024xf32>) -> tensor<4x4096x1024xf32>
def val_main_v108 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x64x1024, (val_main_v106 (F := F))⟩, ⟨S4x4032x1024, (val_main_v107 (F := F) x0 x1 x3)⟩] concatenates_S4x64x1024_S4x4032x1024_S4x4096x1024_d1

-- %109 = stablehlo.multiply %100, %108 : tensor<4x4096x1024xf32>
def val_main_v109 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v100 (F := F) x0 x1 x3) (val_main_v108 (F := F) x0 x1 x3)

-- %110 = stablehlo.add %109, %99 : tensor<4x4096x1024xf32>
def val_main_v110 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  addf (val_main_v109 (F := F) x0 x1 x3) (val_main_v99 (F := F) x0 x1 x3)

-- %111 = stablehlo.multiply %100, %104 : tensor<4x4096x1024xf32>
def val_main_v111 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v100 (F := F) x0 x1 x3) (val_main_v104 (F := F) x0 x1 x3)

-- %112 = stablehlo.slice %111 [0:4, 0:128, 0:1024] : (tensor<4x4096x1024xf32>) -> tensor<4x128x1024xf32>
def val_main_v112 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x128x1024, .f32⟩ : BufTy).Contents (Elt F) :=
  extractStridedSlice S4x128x1024 ![0, 0, 0] (val_main_v111 (F := F) x0 x1 x3) slices_S4x4096x1024_S4x128x1024_0_0_0

-- %cst_23 = stablehlo.constant dense<1.000000e+00> : tensor<f32>
def val_main_cst_23 : (⟨S_, .f32⟩ : BufTy).Contents (Elt F) :=
  constant S_ .f32 0x3F800000#32

-- %113 = stablehlo.broadcast_in_dim %cst_23, dims = [] : (tensor<f32>) -> tensor<4x128x1024xf32>
def val_main_v113 : (⟨S4x128x1024, .f32⟩ : BufTy).Contents (Elt F) :=
  broadcastInDim S4x128x1024 ![] bcast_S_S4x128x1024 (val_main_cst_23 (F := F))

-- %114 = stablehlo.slice %111 [0:4, 0:3968, 0:1024] : (tensor<4x4096x1024xf32>) -> tensor<4x3968x1024xf32>
def val_main_v114 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x3968x1024, .f32⟩ : BufTy).Contents (Elt F) :=
  extractStridedSlice S4x3968x1024 ![0, 0, 0] (val_main_v111 (F := F) x0 x1 x3) slices_S4x4096x1024_S4x3968x1024_0_0_0

-- %115 = stablehlo.concatenate %113, %114, dim = 1 : (tensor<4x128x1024xf32>, tensor<4x3968x1024xf32>) -> tensor<4x4096x1024xf32>
def val_main_v115 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x128x1024, (val_main_v113 (F := F))⟩, ⟨S4x3968x1024, (val_main_v114 (F := F) x0 x1 x3)⟩] concatenates_S4x128x1024_S4x3968x1024_S4x4096x1024_d1

-- %116 = stablehlo.slice %110 [0:4, 0:128, 0:1024] : (tensor<4x4096x1024xf32>) -> tensor<4x128x1024xf32>
def val_main_v116 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x128x1024, .f32⟩ : BufTy).Contents (Elt F) :=
  extractStridedSlice S4x128x1024 ![0, 0, 0] (val_main_v110 (F := F) x0 x1 x3) slices_S4x4096x1024_S4x128x1024_0_0_0

-- %cst_24 = stablehlo.constant dense<0.000000e+00> : tensor<f32>
def val_main_cst_24 : (⟨S_, .f32⟩ : BufTy).Contents (Elt F) :=
  constant S_ .f32 0x00000000#32

-- %117 = stablehlo.broadcast_in_dim %cst_24, dims = [] : (tensor<f32>) -> tensor<4x128x1024xf32>
def val_main_v117 : (⟨S4x128x1024, .f32⟩ : BufTy).Contents (Elt F) :=
  broadcastInDim S4x128x1024 ![] bcast_S_S4x128x1024 (val_main_cst_24 (F := F))

-- %118 = stablehlo.slice %110 [0:4, 0:3968, 0:1024] : (tensor<4x4096x1024xf32>) -> tensor<4x3968x1024xf32>
def val_main_v118 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x3968x1024, .f32⟩ : BufTy).Contents (Elt F) :=
  extractStridedSlice S4x3968x1024 ![0, 0, 0] (val_main_v110 (F := F) x0 x1 x3) slices_S4x4096x1024_S4x3968x1024_0_0_0

-- %119 = stablehlo.concatenate %117, %118, dim = 1 : (tensor<4x128x1024xf32>, tensor<4x3968x1024xf32>) -> tensor<4x4096x1024xf32>
def val_main_v119 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x128x1024, (val_main_v117 (F := F))⟩, ⟨S4x3968x1024, (val_main_v118 (F := F) x0 x1 x3)⟩] concatenates_S4x128x1024_S4x3968x1024_S4x4096x1024_d1

-- %120 = stablehlo.multiply %111, %119 : tensor<4x4096x1024xf32>
def val_main_v120 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v111 (F := F) x0 x1 x3) (val_main_v119 (F := F) x0 x1 x3)

-- %121 = stablehlo.add %120, %110 : tensor<4x4096x1024xf32>
def val_main_v121 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  addf (val_main_v120 (F := F) x0 x1 x3) (val_main_v110 (F := F) x0 x1 x3)

-- %122 = stablehlo.multiply %111, %115 : tensor<4x4096x1024xf32>
def val_main_v122 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v111 (F := F) x0 x1 x3) (val_main_v115 (F := F) x0 x1 x3)

-- %123 = stablehlo.slice %122 [0:4, 0:256, 0:1024] : (tensor<4x4096x1024xf32>) -> tensor<4x256x1024xf32>
def val_main_v123 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x256x1024, .f32⟩ : BufTy).Contents (Elt F) :=
  extractStridedSlice S4x256x1024 ![0, 0, 0] (val_main_v122 (F := F) x0 x1 x3) slices_S4x4096x1024_S4x256x1024_0_0_0

-- %cst_25 = stablehlo.constant dense<1.000000e+00> : tensor<f32>
def val_main_cst_25 : (⟨S_, .f32⟩ : BufTy).Contents (Elt F) :=
  constant S_ .f32 0x3F800000#32

-- %124 = stablehlo.broadcast_in_dim %cst_25, dims = [] : (tensor<f32>) -> tensor<4x256x1024xf32>
def val_main_v124 : (⟨S4x256x1024, .f32⟩ : BufTy).Contents (Elt F) :=
  broadcastInDim S4x256x1024 ![] bcast_S_S4x256x1024 (val_main_cst_25 (F := F))

-- %125 = stablehlo.slice %122 [0:4, 0:3840, 0:1024] : (tensor<4x4096x1024xf32>) -> tensor<4x3840x1024xf32>
def val_main_v125 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x3840x1024, .f32⟩ : BufTy).Contents (Elt F) :=
  extractStridedSlice S4x3840x1024 ![0, 0, 0] (val_main_v122 (F := F) x0 x1 x3) slices_S4x4096x1024_S4x3840x1024_0_0_0

-- %126 = stablehlo.concatenate %124, %125, dim = 1 : (tensor<4x256x1024xf32>, tensor<4x3840x1024xf32>) -> tensor<4x4096x1024xf32>
def val_main_v126 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x256x1024, (val_main_v124 (F := F))⟩, ⟨S4x3840x1024, (val_main_v125 (F := F) x0 x1 x3)⟩] concatenates_S4x256x1024_S4x3840x1024_S4x4096x1024_d1

-- %127 = stablehlo.slice %121 [0:4, 0:256, 0:1024] : (tensor<4x4096x1024xf32>) -> tensor<4x256x1024xf32>
def val_main_v127 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x256x1024, .f32⟩ : BufTy).Contents (Elt F) :=
  extractStridedSlice S4x256x1024 ![0, 0, 0] (val_main_v121 (F := F) x0 x1 x3) slices_S4x4096x1024_S4x256x1024_0_0_0

-- %cst_26 = stablehlo.constant dense<0.000000e+00> : tensor<f32>
def val_main_cst_26 : (⟨S_, .f32⟩ : BufTy).Contents (Elt F) :=
  constant S_ .f32 0x00000000#32

-- %128 = stablehlo.broadcast_in_dim %cst_26, dims = [] : (tensor<f32>) -> tensor<4x256x1024xf32>
def val_main_v128 : (⟨S4x256x1024, .f32⟩ : BufTy).Contents (Elt F) :=
  broadcastInDim S4x256x1024 ![] bcast_S_S4x256x1024 (val_main_cst_26 (F := F))

-- %129 = stablehlo.slice %121 [0:4, 0:3840, 0:1024] : (tensor<4x4096x1024xf32>) -> tensor<4x3840x1024xf32>
def val_main_v129 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x3840x1024, .f32⟩ : BufTy).Contents (Elt F) :=
  extractStridedSlice S4x3840x1024 ![0, 0, 0] (val_main_v121 (F := F) x0 x1 x3) slices_S4x4096x1024_S4x3840x1024_0_0_0

-- %130 = stablehlo.concatenate %128, %129, dim = 1 : (tensor<4x256x1024xf32>, tensor<4x3840x1024xf32>) -> tensor<4x4096x1024xf32>
def val_main_v130 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x256x1024, (val_main_v128 (F := F))⟩, ⟨S4x3840x1024, (val_main_v129 (F := F) x0 x1 x3)⟩] concatenates_S4x256x1024_S4x3840x1024_S4x4096x1024_d1

-- %131 = stablehlo.multiply %122, %130 : tensor<4x4096x1024xf32>
def val_main_v131 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v122 (F := F) x0 x1 x3) (val_main_v130 (F := F) x0 x1 x3)

-- %132 = stablehlo.add %131, %121 : tensor<4x4096x1024xf32>
def val_main_v132 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  addf (val_main_v131 (F := F) x0 x1 x3) (val_main_v121 (F := F) x0 x1 x3)

-- %133 = stablehlo.multiply %122, %126 : tensor<4x4096x1024xf32>
def val_main_v133 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v122 (F := F) x0 x1 x3) (val_main_v126 (F := F) x0 x1 x3)

-- %134 = stablehlo.slice %133 [0:4, 0:512, 0:1024] : (tensor<4x4096x1024xf32>) -> tensor<4x512x1024xf32>
def val_main_v134 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x512x1024, .f32⟩ : BufTy).Contents (Elt F) :=
  extractStridedSlice S4x512x1024 ![0, 0, 0] (val_main_v133 (F := F) x0 x1 x3) slices_S4x4096x1024_S4x512x1024_0_0_0

-- %cst_27 = stablehlo.constant dense<1.000000e+00> : tensor<f32>
def val_main_cst_27 : (⟨S_, .f32⟩ : BufTy).Contents (Elt F) :=
  constant S_ .f32 0x3F800000#32

-- %135 = stablehlo.broadcast_in_dim %cst_27, dims = [] : (tensor<f32>) -> tensor<4x512x1024xf32>
def val_main_v135 : (⟨S4x512x1024, .f32⟩ : BufTy).Contents (Elt F) :=
  broadcastInDim S4x512x1024 ![] bcast_S_S4x512x1024 (val_main_cst_27 (F := F))

-- %136 = stablehlo.slice %133 [0:4, 0:3584, 0:1024] : (tensor<4x4096x1024xf32>) -> tensor<4x3584x1024xf32>
def val_main_v136 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x3584x1024, .f32⟩ : BufTy).Contents (Elt F) :=
  extractStridedSlice S4x3584x1024 ![0, 0, 0] (val_main_v133 (F := F) x0 x1 x3) slices_S4x4096x1024_S4x3584x1024_0_0_0

-- %137 = stablehlo.concatenate %135, %136, dim = 1 : (tensor<4x512x1024xf32>, tensor<4x3584x1024xf32>) -> tensor<4x4096x1024xf32>
def val_main_v137 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x512x1024, (val_main_v135 (F := F))⟩, ⟨S4x3584x1024, (val_main_v136 (F := F) x0 x1 x3)⟩] concatenates_S4x512x1024_S4x3584x1024_S4x4096x1024_d1

-- %138 = stablehlo.slice %132 [0:4, 0:512, 0:1024] : (tensor<4x4096x1024xf32>) -> tensor<4x512x1024xf32>
def val_main_v138 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x512x1024, .f32⟩ : BufTy).Contents (Elt F) :=
  extractStridedSlice S4x512x1024 ![0, 0, 0] (val_main_v132 (F := F) x0 x1 x3) slices_S4x4096x1024_S4x512x1024_0_0_0

-- %cst_28 = stablehlo.constant dense<0.000000e+00> : tensor<f32>
def val_main_cst_28 : (⟨S_, .f32⟩ : BufTy).Contents (Elt F) :=
  constant S_ .f32 0x00000000#32

-- %139 = stablehlo.broadcast_in_dim %cst_28, dims = [] : (tensor<f32>) -> tensor<4x512x1024xf32>
def val_main_v139 : (⟨S4x512x1024, .f32⟩ : BufTy).Contents (Elt F) :=
  broadcastInDim S4x512x1024 ![] bcast_S_S4x512x1024 (val_main_cst_28 (F := F))

-- %140 = stablehlo.slice %132 [0:4, 0:3584, 0:1024] : (tensor<4x4096x1024xf32>) -> tensor<4x3584x1024xf32>
def val_main_v140 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x3584x1024, .f32⟩ : BufTy).Contents (Elt F) :=
  extractStridedSlice S4x3584x1024 ![0, 0, 0] (val_main_v132 (F := F) x0 x1 x3) slices_S4x4096x1024_S4x3584x1024_0_0_0

-- %141 = stablehlo.concatenate %139, %140, dim = 1 : (tensor<4x512x1024xf32>, tensor<4x3584x1024xf32>) -> tensor<4x4096x1024xf32>
def val_main_v141 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x512x1024, (val_main_v139 (F := F))⟩, ⟨S4x3584x1024, (val_main_v140 (F := F) x0 x1 x3)⟩] concatenates_S4x512x1024_S4x3584x1024_S4x4096x1024_d1

-- %142 = stablehlo.multiply %133, %141 : tensor<4x4096x1024xf32>
def val_main_v142 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v133 (F := F) x0 x1 x3) (val_main_v141 (F := F) x0 x1 x3)

-- %143 = stablehlo.add %142, %132 : tensor<4x4096x1024xf32>
def val_main_v143 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  addf (val_main_v142 (F := F) x0 x1 x3) (val_main_v132 (F := F) x0 x1 x3)

-- %144 = stablehlo.multiply %133, %137 : tensor<4x4096x1024xf32>
def val_main_v144 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v133 (F := F) x0 x1 x3) (val_main_v137 (F := F) x0 x1 x3)

-- %145 = stablehlo.slice %144 [0:4, 0:1024, 0:1024] : (tensor<4x4096x1024xf32>) -> tensor<4x1024x1024xf32>
def val_main_v145 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x1024x1024, .f32⟩ : BufTy).Contents (Elt F) :=
  extractStridedSlice S4x1024x1024 ![0, 0, 0] (val_main_v144 (F := F) x0 x1 x3) slices_S4x4096x1024_S4x1024x1024_0_0_0

-- %cst_29 = stablehlo.constant dense<1.000000e+00> : tensor<f32>
def val_main_cst_29 : (⟨S_, .f32⟩ : BufTy).Contents (Elt F) :=
  constant S_ .f32 0x3F800000#32

-- %146 = stablehlo.broadcast_in_dim %cst_29, dims = [] : (tensor<f32>) -> tensor<4x1024x1024xf32>
def val_main_v146 : (⟨S4x1024x1024, .f32⟩ : BufTy).Contents (Elt F) :=
  broadcastInDim S4x1024x1024 ![] bcast_S_S4x1024x1024 (val_main_cst_29 (F := F))

-- %147 = stablehlo.slice %144 [0:4, 0:3072, 0:1024] : (tensor<4x4096x1024xf32>) -> tensor<4x3072x1024xf32>
def val_main_v147 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x3072x1024, .f32⟩ : BufTy).Contents (Elt F) :=
  extractStridedSlice S4x3072x1024 ![0, 0, 0] (val_main_v144 (F := F) x0 x1 x3) slices_S4x4096x1024_S4x3072x1024_0_0_0

-- %148 = stablehlo.concatenate %146, %147, dim = 1 : (tensor<4x1024x1024xf32>, tensor<4x3072x1024xf32>) -> tensor<4x4096x1024xf32>
def val_main_v148 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x1024x1024, (val_main_v146 (F := F))⟩, ⟨S4x3072x1024, (val_main_v147 (F := F) x0 x1 x3)⟩] concatenates_S4x1024x1024_S4x3072x1024_S4x4096x1024_d1

-- %149 = stablehlo.slice %143 [0:4, 0:1024, 0:1024] : (tensor<4x4096x1024xf32>) -> tensor<4x1024x1024xf32>
def val_main_v149 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x1024x1024, .f32⟩ : BufTy).Contents (Elt F) :=
  extractStridedSlice S4x1024x1024 ![0, 0, 0] (val_main_v143 (F := F) x0 x1 x3) slices_S4x4096x1024_S4x1024x1024_0_0_0

-- %cst_30 = stablehlo.constant dense<0.000000e+00> : tensor<f32>
def val_main_cst_30 : (⟨S_, .f32⟩ : BufTy).Contents (Elt F) :=
  constant S_ .f32 0x00000000#32

-- %150 = stablehlo.broadcast_in_dim %cst_30, dims = [] : (tensor<f32>) -> tensor<4x1024x1024xf32>
def val_main_v150 : (⟨S4x1024x1024, .f32⟩ : BufTy).Contents (Elt F) :=
  broadcastInDim S4x1024x1024 ![] bcast_S_S4x1024x1024 (val_main_cst_30 (F := F))

-- %151 = stablehlo.slice %143 [0:4, 0:3072, 0:1024] : (tensor<4x4096x1024xf32>) -> tensor<4x3072x1024xf32>
def val_main_v151 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x3072x1024, .f32⟩ : BufTy).Contents (Elt F) :=
  extractStridedSlice S4x3072x1024 ![0, 0, 0] (val_main_v143 (F := F) x0 x1 x3) slices_S4x4096x1024_S4x3072x1024_0_0_0

-- %152 = stablehlo.concatenate %150, %151, dim = 1 : (tensor<4x1024x1024xf32>, tensor<4x3072x1024xf32>) -> tensor<4x4096x1024xf32>
def val_main_v152 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x1024x1024, (val_main_v150 (F := F))⟩, ⟨S4x3072x1024, (val_main_v151 (F := F) x0 x1 x3)⟩] concatenates_S4x1024x1024_S4x3072x1024_S4x4096x1024_d1

-- %153 = stablehlo.multiply %144, %152 : tensor<4x4096x1024xf32>
def val_main_v153 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v144 (F := F) x0 x1 x3) (val_main_v152 (F := F) x0 x1 x3)

-- %154 = stablehlo.add %153, %143 : tensor<4x4096x1024xf32>
def val_main_v154 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  addf (val_main_v153 (F := F) x0 x1 x3) (val_main_v143 (F := F) x0 x1 x3)

-- %155 = stablehlo.multiply %144, %148 : tensor<4x4096x1024xf32>
def val_main_v155 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v144 (F := F) x0 x1 x3) (val_main_v148 (F := F) x0 x1 x3)

-- %156 = stablehlo.slice %155 [0:4, 0:2048, 0:1024] : (tensor<4x4096x1024xf32>) -> tensor<4x2048x1024xf32>
def val_main_v156 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x2048x1024, .f32⟩ : BufTy).Contents (Elt F) :=
  extractStridedSlice S4x2048x1024 ![0, 0, 0] (val_main_v155 (F := F) x0 x1 x3) slices_S4x4096x1024_S4x2048x1024_0_0_0

-- %cst_31 = stablehlo.constant dense<1.000000e+00> : tensor<f32>
def val_main_cst_31 : (⟨S_, .f32⟩ : BufTy).Contents (Elt F) :=
  constant S_ .f32 0x3F800000#32

-- %157 = stablehlo.broadcast_in_dim %cst_31, dims = [] : (tensor<f32>) -> tensor<4x2048x1024xf32>
def val_main_v157 : (⟨S4x2048x1024, .f32⟩ : BufTy).Contents (Elt F) :=
  broadcastInDim S4x2048x1024 ![] bcast_S_S4x2048x1024 (val_main_cst_31 (F := F))

-- %158 = stablehlo.slice %155 [0:4, 0:2048, 0:1024] : (tensor<4x4096x1024xf32>) -> tensor<4x2048x1024xf32>
def val_main_v158 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x2048x1024, .f32⟩ : BufTy).Contents (Elt F) :=
  extractStridedSlice S4x2048x1024 ![0, 0, 0] (val_main_v155 (F := F) x0 x1 x3) slices_S4x4096x1024_S4x2048x1024_0_0_0

-- %159 = stablehlo.concatenate %157, %158, dim = 1 : (tensor<4x2048x1024xf32>, tensor<4x2048x1024xf32>) -> tensor<4x4096x1024xf32>
def val_main_v159 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x2048x1024, (val_main_v157 (F := F))⟩, ⟨S4x2048x1024, (val_main_v158 (F := F) x0 x1 x3)⟩] concatenates_S4x2048x1024_S4x2048x1024_S4x4096x1024_d1

-- %160 = stablehlo.slice %154 [0:4, 0:2048, 0:1024] : (tensor<4x4096x1024xf32>) -> tensor<4x2048x1024xf32>
def val_main_v160 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x2048x1024, .f32⟩ : BufTy).Contents (Elt F) :=
  extractStridedSlice S4x2048x1024 ![0, 0, 0] (val_main_v154 (F := F) x0 x1 x3) slices_S4x4096x1024_S4x2048x1024_0_0_0

-- %cst_32 = stablehlo.constant dense<0.000000e+00> : tensor<f32>
def val_main_cst_32 : (⟨S_, .f32⟩ : BufTy).Contents (Elt F) :=
  constant S_ .f32 0x00000000#32

-- %161 = stablehlo.broadcast_in_dim %cst_32, dims = [] : (tensor<f32>) -> tensor<4x2048x1024xf32>
def val_main_v161 : (⟨S4x2048x1024, .f32⟩ : BufTy).Contents (Elt F) :=
  broadcastInDim S4x2048x1024 ![] bcast_S_S4x2048x1024 (val_main_cst_32 (F := F))

-- %162 = stablehlo.slice %154 [0:4, 0:2048, 0:1024] : (tensor<4x4096x1024xf32>) -> tensor<4x2048x1024xf32>
def val_main_v162 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x2048x1024, .f32⟩ : BufTy).Contents (Elt F) :=
  extractStridedSlice S4x2048x1024 ![0, 0, 0] (val_main_v154 (F := F) x0 x1 x3) slices_S4x4096x1024_S4x2048x1024_0_0_0

-- %163 = stablehlo.concatenate %161, %162, dim = 1 : (tensor<4x2048x1024xf32>, tensor<4x2048x1024xf32>) -> tensor<4x4096x1024xf32>
def val_main_v163 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  concatenate S4x4096x1024 1 [⟨S4x2048x1024, (val_main_v161 (F := F))⟩, ⟨S4x2048x1024, (val_main_v162 (F := F) x0 x1 x3)⟩] concatenates_S4x2048x1024_S4x2048x1024_S4x4096x1024_d1

-- %164 = stablehlo.multiply %155, %163 : tensor<4x4096x1024xf32>
def val_main_v164 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v155 (F := F) x0 x1 x3) (val_main_v163 (F := F) x0 x1 x3)

-- %165 = stablehlo.add %164, %154 : tensor<4x4096x1024xf32>
def val_main_v165 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  addf (val_main_v164 (F := F) x0 x1 x3) (val_main_v154 (F := F) x0 x1 x3)

-- %166 = stablehlo.multiply %155, %159 : tensor<4x4096x1024xf32>
def val_main_v166 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v155 (F := F) x0 x1 x3) (val_main_v159 (F := F) x0 x1 x3)

-- %167 = stablehlo.abs %arg2 : tensor<1024x1024xf32>
def val_main_v167 (x2 : (⟨S1024x1024, .f32⟩ : BufTy).Contents (Elt F)) : (⟨S1024x1024, .f32⟩ : BufTy).Contents (Elt F) :=
  Host.absf (x2)

-- %cst_33 = stablehlo.constant dense<0.000000e+00> : tensor<f32>
def val_main_cst_33 : (⟨S_, .f32⟩ : BufTy).Contents (Elt F) :=
  constant S_ .f32 0x00000000#32

-- %168 = stablehlo.reduce(%167 init: %cst_33) applies stablehlo.add across dimensions = [0, 1] : (tensor<1024x1024xf32>, tensor<f32>) -> tensor<f32> {
def val_main_v168 (x2 : (⟨S1024x1024, .f32⟩ : BufTy).Contents (Elt F)) : (⟨S_, .f32⟩ : BufTy).Contents (Elt F) :=
  Host.reduceAdd (val_main_v167 (F := F) x2) (val_main_cst_33 (F := F)) reducesTo_S1024x1024_S_d0_1 h_S_

-- %cst_34 = stablehlo.constant dense<0x49800000> : tensor<f32>
def val_main_cst_34 : (⟨S_, .f32⟩ : BufTy).Contents (Elt F) :=
  constant S_ .f32 0x49800000#32

-- %169 = stablehlo.divide %168, %cst_34 : tensor<f32>
def val_main_v169 (x2 : (⟨S1024x1024, .f32⟩ : BufTy).Contents (Elt F)) : (⟨S_, .f32⟩ : BufTy).Contents (Elt F) :=
  Host.divf (val_main_v168 (F := F) x2) (val_main_cst_34 (F := F))

-- %cst_35 = stablehlo.constant dense<9.99999993E-9> : tensor<f32>
def val_main_cst_35 : (⟨S_, .f32⟩ : BufTy).Contents (Elt F) :=
  constant S_ .f32 0x322BCC77#32

-- %170 = stablehlo.add %169, %cst_35 : tensor<f32>
def val_main_v170 (x2 : (⟨S1024x1024, .f32⟩ : BufTy).Contents (Elt F)) : (⟨S_, .f32⟩ : BufTy).Contents (Elt F) :=
  addf (val_main_v169 (F := F) x2) (val_main_cst_35 (F := F))

-- %171 = stablehlo.broadcast_in_dim %170, dims = [] : (tensor<f32>) -> tensor<1024x1024xf32>
def val_main_v171 (x2 : (⟨S1024x1024, .f32⟩ : BufTy).Contents (Elt F)) : (⟨S1024x1024, .f32⟩ : BufTy).Contents (Elt F) :=
  broadcastInDim S1024x1024 ![] bcast_S_S1024x1024 (val_main_v170 (F := F) x2)

-- %172 = stablehlo.divide %arg2, %171 : tensor<1024x1024xf32>
def val_main_v172 (x2 : (⟨S1024x1024, .f32⟩ : BufTy).Contents (Elt F)) : (⟨S1024x1024, .f32⟩ : BufTy).Contents (Elt F) :=
  Host.divf (x2) (val_main_v171 (F := F) x2)

-- %173 = func.call @round_0(…) (record main_call3) result 0: @round_0's %0 = stablehlo.round_nearest_even %arg0 : tensor<1024x1024xf32>
def val_main_v173 (x2 : (⟨S1024x1024, .f32⟩ : BufTy).Contents (Elt F)) : (⟨S1024x1024, .f32⟩ : BufTy).Contents (Elt F) :=
  Host.roundeven (val_main_v172 (F := F) x2)

-- %cst_36 = stablehlo.constant dense<-1.000000e+00> : tensor<f32>
def val_main_cst_36 : (⟨S_, .f32⟩ : BufTy).Contents (Elt F) :=
  constant S_ .f32 0xBF800000#32

-- %cst_37 = stablehlo.constant dense<1.000000e+00> : tensor<f32>
def val_main_cst_37 : (⟨S_, .f32⟩ : BufTy).Contents (Elt F) :=
  constant S_ .f32 0x3F800000#32

-- @clip_1's %0 = stablehlo.convert %arg1 : tensor<f32>, in %174 = func.call @clip_1(…) (record main_call4)
def val_main_call4_v0 : (⟨S_, .f32⟩ : BufTy).Contents (Elt F) :=
  id (val_main_cst_36 (F := F))

-- @clip_1's %1 = stablehlo.broadcast_in_dim %0, dims = [] : (tensor<f32>) -> tensor<1024x1024xf32>, in %174 = func.call @clip_1(…) (record main_call4)
def val_main_call4_v1 : (⟨S1024x1024, .f32⟩ : BufTy).Contents (Elt F) :=
  broadcastInDim S1024x1024 ![] bcast_S_S1024x1024 (val_main_call4_v0 (F := F))

-- @clip_1's %2 = stablehlo.maximum %1, %arg0 : tensor<1024x1024xf32>, in %174 = func.call @clip_1(…) (record main_call4)
def val_main_call4_v2 (x2 : (⟨S1024x1024, .f32⟩ : BufTy).Contents (Elt F)) : (⟨S1024x1024, .f32⟩ : BufTy).Contents (Elt F) :=
  maximumf (val_main_call4_v1 (F := F)) (val_main_v173 (F := F) x2)

-- @clip_1's %3 = stablehlo.convert %arg2 : tensor<f32>, in %174 = func.call @clip_1(…) (record main_call4)
def val_main_call4_v3 : (⟨S_, .f32⟩ : BufTy).Contents (Elt F) :=
  id (val_main_cst_37 (F := F))

-- @clip_1's %4 = stablehlo.broadcast_in_dim %3, dims = [] : (tensor<f32>) -> tensor<1024x1024xf32>, in %174 = func.call @clip_1(…) (record main_call4)
def val_main_call4_v4 : (⟨S1024x1024, .f32⟩ : BufTy).Contents (Elt F) :=
  broadcastInDim S1024x1024 ![] bcast_S_S1024x1024 (val_main_call4_v3 (F := F))

-- %174 = func.call @clip_1(…) (record main_call4) result 0: @clip_1's %5 = stablehlo.minimum %4, %2 : tensor<1024x1024xf32>
def val_main_v174 (x2 : (⟨S1024x1024, .f32⟩ : BufTy).Contents (Elt F)) : (⟨S1024x1024, .f32⟩ : BufTy).Contents (Elt F) :=
  minimumf (val_main_call4_v4 (F := F)) (val_main_call4_v2 (F := F) x2)

-- %175 = stablehlo.broadcast_in_dim %170, dims = [] : (tensor<f32>) -> tensor<1024x1024xf32>
def val_main_v175 (x2 : (⟨S1024x1024, .f32⟩ : BufTy).Contents (Elt F)) : (⟨S1024x1024, .f32⟩ : BufTy).Contents (Elt F) :=
  broadcastInDim S1024x1024 ![] bcast_S_S1024x1024 (val_main_v170 (F := F) x2)

-- %176 = stablehlo.multiply %174, %175 : tensor<1024x1024xf32>
def val_main_v176 (x2 : (⟨S1024x1024, .f32⟩ : BufTy).Contents (Elt F)) : (⟨S1024x1024, .f32⟩ : BufTy).Contents (Elt F) :=
  mulf (val_main_v174 (F := F) x2) (val_main_v175 (F := F) x2)

-- %177 = stablehlo.subtract %176, %arg2 : tensor<1024x1024xf32>
def val_main_v177 (x2 : (⟨S1024x1024, .f32⟩ : BufTy).Contents (Elt F)) : (⟨S1024x1024, .f32⟩ : BufTy).Contents (Elt F) :=
  subf (val_main_v176 (F := F) x2) (x2)

-- %178 = stablehlo.add %arg2, %177 : tensor<1024x1024xf32>
def val_main_v178 (x2 : (⟨S1024x1024, .f32⟩ : BufTy).Contents (Elt F)) : (⟨S1024x1024, .f32⟩ : BufTy).Contents (Elt F) :=
  addf (x2) (val_main_v177 (F := F) x2)

/-- The ternarised output weights: the result of operations %167 to %178, one array of the output weights alone. -/
def wo (x2 : (⟨S1024x1024, .f32⟩ : BufTy).Contents (Elt F)) : (⟨S1024x1024, .f32⟩ : BufTy).Contents (Elt F) :=
  val_main_v178 (F := F) x2

-- %179 = stablehlo.multiply %165, %31 : tensor<4x4096x1024xf32>
def val_main_v179 (x0 : (⟨S4x4096x1024, .f32⟩ : BufTy).Contents (Elt F)) (x1 : (⟨S3072x1024, .f32⟩ : BufTy).Contents (Elt F)) (x3 : (⟨S1024, .f32⟩ : BufTy).Contents (Elt F)) : (⟨S4x4096x1024, .f32⟩ : BufTy).Contents (Elt F) :=
  mulf (val_main_v165 (F := F) x0 x1 x3) (val_main_v31 (F := F) x0 x1)

-- %180 = stablehlo.dot_general %179, %178, contracting_dims = [2] x [1], precision = [DEFAULT, DEFAULT] : (tensor<4x4096x1024xf32>, tensor<1024x1024xf32>) -> tensor<4x4096x1024xf32>
def val_main_v180 (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F)) : (⟨S4x4096x1024, .f32⟩ : BufTy).Contents (Elt F) :=
  Host.dotGeneral dot_S4x4096x1024_S1024x1024_S4x4096x1024_2_1_01_0_n_n none (val_main_v179 (F := F) x0 x1 x3) (wo (F := F) x2)

/-- The program's result: operation %180. -/
def out (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F)) : (⟨S4x4096x1024, .f32⟩ : BufTy).Contents (Elt F) :=
  val_main_v180 (F := F) x0 x1 x2 x3

end Cert.ReferenceIdeal.Stages

end
-- ==== Proof.RefRun.lean ====
/-
  The reference program's run, read back by hand. The program is a straight line of 238 host operations: the
  ternarisation of the gate weights, the three gates, the twelve doubling rounds of the scan over time, the
  ternarisation of the output weights, the gated hidden state and the output projection. Every weakly fair execution
  terminates with each buffer at the fold of the operations' results over the launch contents; the fold is then read
  stretch by stretch, each stretch over an arbitrary valuation of the buffers, so that no composed term is ever
  written out: each stretch's result is a named stage of the stages before it.
-/
import proofs.«116791_j19533511262472_2_alg».proof.ReferenceIdeal
import proofs.«116791_j19533511262472_2_alg».proof.Proof.Gen.ReferenceIdeal
import proofs.«116791_j19533511262472_2_alg».proof.Proof.RefStages
import Idealize.ShloMosaic.Lib.StableHlo.Run
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The line, stretch by stretch -/

/-- The lines that ternarise the gate weights (%0 to %11). -/
abbrev sWg : List (HloOp τ sig (Elt F)) :=
  [ unary main_arg1 main_v0 (Host.absf : (⟨S3072x1024, .f32⟩ : BufTy).Contents (Elt F) → (⟨S3072x1024, .f32⟩ : BufTy).Contents (Elt F)),
    nullary main_cst (constant S_ .f32 0x00000000#32),
    binary main_v0 main_cst main_v1 ((fun x v => Host.reduceAdd x v reducesTo_S3072x1024_S_d0_1 h_S_) : (⟨S3072x1024, .f32⟩ : BufTy).Contents (Elt F) → (⟨S_, .f32⟩ : BufTy).Contents (Elt F) → (⟨S_, .f32⟩ : BufTy).Contents (Elt F)),
    nullary main_cst_0 (constant S_ .f32 0x4A400000#32),
    binary main_v1 main_cst_0 main_v2 (Host.divf : (⟨S_, .f32⟩ : BufTy).Contents (Elt F) → (⟨S_, .f32⟩ : BufTy).Contents (Elt F) → (⟨S_, .f32⟩ : BufTy).Contents (Elt F)),
    nullary main_cst_1 (constant S_ .f32 0x322BCC77#32),
    binary main_v2 main_cst_1 main_v3 (addf : (⟨S_, .f32⟩ : BufTy).Contents (Elt F) → (⟨S_, .f32⟩ : BufTy).Contents (Elt F) → (⟨S_, .f32⟩ : BufTy).Contents (Elt F)),
    unary main_v3 main_v4 (broadcastInDim S3072x1024 ![] bcast_S_S3072x1024 : (⟨S_, .f32⟩ : BufTy).Contents (Elt F) → (⟨S3072x1024, .f32⟩ : BufTy).Contents (Elt F)),
    binary main_arg1 main_v4 main_v5 (Host.divf : (⟨S3072x1024, .f32⟩ : BufTy).Contents (Elt F) → (⟨S3072x1024, .f32⟩ : BufTy).Contents (Elt F) → (⟨S3072x1024, .f32⟩ : BufTy).Contents (Elt F)),
    TRef.unary (TRef.of (T := ⟨S3072x1024, .f32⟩) main_v5) (TRef.of (T := ⟨S3072x1024, .f32⟩) main_v6) Host.roundeven,
    nullary main_cst_2 (constant S_ .f32 0xBF800000#32),
    nullary main_cst_3 (constant S_ .f32 0x3F800000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S3072x1024, .f32⟩) main_call1_v1) (broadcastInDim S3072x1024 ![] bcast_S_S3072x1024),
    TRef.binary (TRef.of (T := ⟨S3072x1024, .f32⟩) main_call1_v1) (TRef.of (T := ⟨S3072x1024, .f32⟩) main_v6) (TRef.of (T := ⟨S3072x1024, .f32⟩) main_call1_v2) maximumf,
    TRef.unary (TRef.of (T := ⟨S_, .f32⟩) main_cst_3) (TRef.of (T := ⟨S_, .f32⟩) main_call1_v3) id,
    TRef.unary (TRef.of (T := ⟨S_, .f32⟩) main_call1_v3) (TRef.of (T := ⟨S3072x1024, .f32⟩) main_call1_v4) (broadcastInDim S3072x1024 ![] bcast_S_S3072x1024),
    TRef.binary (TRef.of (T := ⟨S3072x1024, .f32⟩) main_call1_v4) (TRef.of (T := ⟨S3072x1024, .f32⟩) main_call1_v2) (TRef.of (T := ⟨S3072x1024, .f32⟩) main_v7) minimumf,
    unary main_v3 main_v8 (broadcastInDim S3072x1024 ![] bcast_S_S3072x1024 : (⟨S_, .f32⟩ : BufTy).Contents (Elt F) → (⟨S3072x1024, .f32⟩ : BufTy).Contents (Elt F)),
    binary main_v7 main_v8 main_v9 (mulf : (⟨S3072x1024, .f32⟩ : BufTy).Contents (Elt F) → (⟨S3072x1024, .f32⟩ : BufTy).Contents (Elt F) → (⟨S3072x1024, .f32⟩ : BufTy).Contents (Elt F)),
    binary main_v9 main_arg1 main_v10 (subf : (⟨S3072x1024, .f32⟩ : BufTy).Contents (Elt F) → (⟨S3072x1024, .f32⟩ : BufTy).Contents (Elt F) → (⟨S3072x1024, .f32⟩ : BufTy).Contents (Elt F)),
    binary main_arg1 main_v10 main_v11 (addf : (⟨S3072x1024, .f32⟩ : BufTy).Contents (Elt F) → (⟨S3072x1024, .f32⟩ : BufTy).Contents (Elt F) → (⟨S3072x1024, .f32⟩ : BufTy).Contents (Elt F)) ]

/-- The three gates and the recurrence's two coefficient arrays (%12 to %34). -/
abbrev sGates : List (HloOp τ sig (Elt F)) :=
  [ binary main_arg0 main_v11 main_v12 ((fun l r => Host.dotGeneral dot_S4x4096x1024_S3072x1024_S4x4096x3072_2_1_01_0_n_n none l r) : (⟨S4x4096x1024, .f32⟩ : BufTy).Contents (Elt F) → (⟨S3072x1024, .f32⟩ : BufTy).Contents (Elt F) → (⟨S4x4096x3072, .f32⟩ : BufTy).Contents (Elt F)),
    unary main_v12 main_v13 ((extractStridedSlice S4x4096x1024 ![0, 0, 0] · slices_S4x4096x3072_S4x4096x1024_0_0_0) : (⟨S4x4096x3072, .f32⟩ : BufTy).Contents (Elt F) → (⟨S4x4096x1024, .f32⟩ : BufTy).Contents (Elt F)),
    unary main_arg3 main_v14 (broadcastInDim S1x1x1024 ![2] bcast_S1024_S1x1x1024_2 : (⟨S1024, .f32⟩ : BufTy).Contents (Elt F) → (⟨S1x1x1024, .f32⟩ : BufTy).Contents (Elt F)),
    unary main_v14 main_v15 (broadcastInDim S4x4096x1024 ![0, 1, 2] bcast_S1x1x1024_S4x4096x1024_0_1_2 : (⟨S1x1x1024, .f32⟩ : BufTy).Contents (Elt F) → (⟨S4x4096x1024, .f32⟩ : BufTy).Contents (Elt F)),
    binary main_v13 main_v15 main_v16 (addf : (⟨S4x4096x1024, .f32⟩ : BufTy).Contents (Elt F) → (⟨S4x4096x1024, .f32⟩ : BufTy).Contents (Elt F) → (⟨S4x4096x1024, .f32⟩ : BufTy).Contents (Elt F)),
    unary main_v16 main_v17 (Host.negf : (⟨S4x4096x1024, .f32⟩ : BufTy).Contents (Elt F) → (⟨S4x4096x1024, .f32⟩ : BufTy).Contents (Elt F)),
    unary main_v17 main_v18 (Host.exp : (⟨S4x4096x1024, .f32⟩ : BufTy).Contents (Elt F) → (⟨S4x4096x1024, .f32⟩ : BufTy).Contents (Elt F)),
    nullary main_cst_4 (constant S_ .f32 0x3F800000#32),
    unary main_cst_4 main_v19 (broadcastInDim S4x4096x1024 ![] bcast_S_S4x4096x1024 : (⟨S_, .f32⟩ : BufTy).Contents (Elt F) → (⟨S4x4096x1024, .f32⟩ : BufTy).Contents (Elt F)),
    binary main_v19 main_v18 main_v20 (addf : (⟨S4x4096x1024, .f32⟩ : BufTy).Contents (Elt F) → (⟨S4x4096x1024, .f32⟩ : BufTy).Contents (Elt F) → (⟨S4x4096x1024, .f32⟩ : BufTy).Contents (Elt F)),
    nullary main_cst_5 (constant S_ .f32 0x3F800000#32),
    unary main_cst_5 main_v21 (broadcastInDim S4x4096x1024 ![] bcast_S_S4x4096x1024 : (⟨S_, .f32⟩ : BufTy).Contents (Elt F) → (⟨S4x4096x1024, .f32⟩ : BufTy).Contents (Elt F)),
    binary main_v21 main_v20 main_v22 (Host.divf : (⟨S4x4096x1024, .f32⟩ : BufTy).Contents (Elt F) → (⟨S4x4096x1024, .f32⟩ : BufTy).Contents (Elt F) → (⟨S4x4096x1024, .f32⟩ : BufTy).Contents (Elt F)),
    unary main_v12 main_v23 ((extractStridedSlice S4x4096x1024 ![0, 0, 1024] · slices_S4x4096x3072_S4x4096x1024_0_0_1024) : (⟨S4x4096x3072, .f32⟩ : BufTy).Contents (Elt F) → (⟨S4x4096x1024, .f32⟩ : BufTy).Contents (Elt F)),
    TRef.unary (TRef.of (T := ⟨S4x4096x1024, .f32⟩) main_v23) (TRef.of (T := ⟨S4x4096x1024, .f32⟩) main_call2_v0) Host.negf,
    TRef.unary (TRef.of (T := ⟨S4x4096x1024, .f32⟩) main_call2_v0) (TRef.of (T := ⟨S4x4096x1024, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S4x4096x1024, .f32⟩) main_call2_v2) (broadcastInDim S4x4096x1024 ![] bcast_S_S4x4096x1024),
    TRef.binary (TRef.of (T := ⟨S4x4096x1024, .f32⟩) main_call2_v2) (TRef.of (T := ⟨S4x4096x1024, .f32⟩) main_call2_v1) (TRef.of (T := ⟨S4x4096x1024, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S4x4096x1024, .f32⟩) main_call2_v4) (broadcastInDim S4x4096x1024 ![] bcast_S_S4x4096x1024),
    TRef.binary (TRef.of (T := ⟨S4x4096x1024, .f32⟩) main_call2_v4) (TRef.of (T := ⟨S4x4096x1024, .f32⟩) main_call2_v3) (TRef.of (T := ⟨S4x4096x1024, .f32⟩) main_call2_v5) Host.divf,
    TRef.binary (TRef.of (T := ⟨S4x4096x1024, .f32⟩) main_v23) (TRef.of (T := ⟨S4x4096x1024, .f32⟩) main_call2_v5) (TRef.of (T := ⟨S4x4096x1024, .f32⟩) main_v24) mulf,
    unary main_v12 main_v25 ((extractStridedSlice S4x4096x1024 ![0, 0, 2048] · slices_S4x4096x3072_S4x4096x1024_0_0_2048) : (⟨S4x4096x3072, .f32⟩ : BufTy).Contents (Elt F) → (⟨S4x4096x1024, .f32⟩ : BufTy).Contents (Elt F)),
    unary main_v25 main_v26 (Host.negf : (⟨S4x4096x1024, .f32⟩ : BufTy).Contents (Elt F) → (⟨S4x4096x1024, .f32⟩ : BufTy).Contents (Elt F)),
    unary main_v26 main_v27 (Host.exp : (⟨S4x4096x1024, .f32⟩ : BufTy).Contents (Elt F) → (⟨S4x4096x1024, .f32⟩ : BufTy).Contents (Elt F)),
    nullary main_cst_6 (constant S_ .f32 0x3F800000#32),
    unary main_cst_6 main_v28 (broadcastInDim S4x4096x1024 ![] bcast_S_S4x4096x1024 : (⟨S_, .f32⟩ : BufTy).Contents (Elt F) → (⟨S4x4096x1024, .f32⟩ : BufTy).Contents (Elt F)),
    binary main_v28 main_v27 main_v29 (addf : (⟨S4x4096x1024, .f32⟩ : BufTy).Contents (Elt F) → (⟨S4x4096x1024, .f32⟩ : BufTy).Contents (Elt F) → (⟨S4x4096x1024, .f32⟩ : BufTy).Contents (Elt F)),
    nullary main_cst_7 (constant S_ .f32 0x3F800000#32),
    unary main_cst_7 main_v30 (broadcastInDim S4x4096x1024 ![] bcast_S_S4x4096x1024 : (⟨S_, .f32⟩ : BufTy).Contents (Elt F) → (⟨S4x4096x1024, .f32⟩ : BufTy).Contents (Elt F)),
    binary main_v30 main_v29 main_v31 (Host.divf : (⟨S4x4096x1024, .f32⟩ : BufTy).Contents (Elt F) → (⟨S4x4096x1024, .f32⟩ : BufTy).Contents (Elt F) → (⟨S4x4096x1024, .f32⟩ : BufTy).Contents (Elt F)),
    nullary main_cst_8 (constant S_ .f32 0x3F800000#32),
    unary main_cst_8 main_v32 (broadcastInDim S4x4096x1024 ![] bcast_S_S4x4096x1024 : (⟨S_, .f32⟩ : BufTy).Contents (Elt F) → (⟨S4x4096x1024, .f32⟩ : BufTy).Contents (Elt F)),
    binary main_v32 main_v22 main_v33 (subf : (⟨S4x4096x1024, .f32⟩ : BufTy).Contents (Elt F) → (⟨S4x4096x1024, .f32⟩ : BufTy).Contents (Elt F) → (⟨S4x4096x1024, .f32⟩ : BufTy).Contents (Elt F)),
    binary main_v33 main_v24 main_v34 (mulf : (⟨S4x4096x1024, .f32⟩ : BufTy).Contents (Elt F) → (⟨S4x4096x1024, .f32⟩ : BufTy).Contents (Elt F) → (⟨S4x4096x1024, .f32⟩ : BufTy).Contents (Elt F)) ]

/-- Doubling round 0 of the scan over time: both coefficient arrays shifted by 1 steps (ones, zeros shifted in) and combined. -/
abbrev r0 : List (HloOp τ sig (Elt F)) :=
  [ unary main_v22 main_v35 ((extractStridedSlice S4x1x1024 ![0, 0, 0] · slices_S4x4096x1024_S4x1x1024_0_0_0) : (⟨S4x4096x1024, .f32⟩ : BufTy).Contents (Elt F) → (⟨S4x1x1024, .f32⟩ : BufTy).Contents (Elt F)),
    nullary main_cst_9 (constant S_ .f32 0x3F800000#32),
    unary main_cst_9 main_v36 (broadcastInDim S4x1x1024 ![] bcast_S_S4x1x1024 : (⟨S_, .f32⟩ : BufTy).Contents (Elt F) → (⟨S4x1x1024, .f32⟩ : BufTy).Contents (Elt F)),
    unary main_v22 main_v37 ((extractStridedSlice S4x4095x1024 ![0, 0, 0] · slices_S4x4096x1024_S4x4095x1024_0_0_0) : (⟨S4x4096x1024, .f32⟩ : BufTy).Contents (Elt F) → (⟨S4x4095x1024, .f32⟩ : BufTy).Contents (Elt F)),
    binary main_v36 main_v37 main_v38 ((fun a b => concatenate S4x4096x1024 1 [⟨S4x1x1024, a⟩, ⟨S4x4095x1024, b⟩] concatenates_S4x1x1024_S4x4095x1024_S4x4096x1024_d1) : (⟨S4x1x1024, .f32⟩ : BufTy).Contents (Elt F) → (⟨S4x4095x1024, .f32⟩ : BufTy).Contents (Elt F) → (⟨S4x4096x1024, .f32⟩ : BufTy).Contents (Elt F)),
    unary main_v34 main_v39 ((extractStridedSlice S4x1x1024 ![0, 0, 0] · slices_S4x4096x1024_S4x1x1024_0_0_0) : (⟨S4x4096x1024, .f32⟩ : BufTy).Contents (Elt F) → (⟨S4x1x1024, .f32⟩ : BufTy).Contents (Elt F)),
    nullary main_cst_10 (constant S_ .f32 0x00000000#32),
    unary main_cst_10 main_v40 (broadcastInDim S4x1x1024 ![] bcast_S_S4x1x1024 : (⟨S_, .f32⟩ : BufTy).Contents (Elt F) → (⟨S4x1x1024, .f32⟩ : BufTy).Contents (Elt F)),
    unary main_v34 main_v41 ((extractStridedSlice S4x4095x1024 ![0, 0, 0] · slices_S4x4096x1024_S4x4095x1024_0_0_0) : (⟨S4x4096x1024, .f32⟩ : BufTy).Contents (Elt F) → (⟨S4x4095x1024, .f32⟩ : BufTy).Contents (Elt F)),
    binary main_v40 main_v41 main_v42 ((fun a b => concatenate S4x4096x1024 1 [⟨S4x1x1024, a⟩, ⟨S4x4095x1024, b⟩] concatenates_S4x1x1024_S4x4095x1024_S4x4096x1024_d1) : (⟨S4x1x1024, .f32⟩ : BufTy).Contents (Elt F) → (⟨S4x4095x1024, .f32⟩ : BufTy).Contents (Elt F) → (⟨S4x4096x1024, .f32⟩ : BufTy).Contents (Elt F)),
    binary main_v22 main_v42 main_v43 (mulf : (⟨S4x4096x1024, .f32⟩ : BufTy).Contents (Elt F) → (⟨S4x4096x1024, .f32⟩ : BufTy).Contents (Elt F) → (⟨S4x4096x1024, .f32⟩ : BufTy).Contents (Elt F)),
    binary main_v43 main_v34 main_v44 (addf : (⟨S4x4096x1024, .f32⟩ : BufTy).Contents (Elt F) → (⟨S4x4096x1024, .f32⟩ : BufTy).Contents (Elt F) → (⟨S4x4096x1024, .f32⟩ : BufTy).Contents (Elt F)),
    binary main_v22 main_v38 main_v45 (mulf : (⟨S4x4096x1024, .f32⟩ : BufTy).Contents (Elt F) → (⟨S4x4096x1024, .f32⟩ : BufTy).Contents (Elt F) → (⟨S4x4096x1024, .f32⟩ : BufTy).Contents (Elt F)) ]

/-- Doubling round 1 of the scan over time: both coefficient arrays shifted by 2 steps (ones, zeros shifted in) and combined. -/
abbrev r1 : List (HloOp τ sig (Elt F)) :=
  [ unary main_v45 main_v46 ((extractStridedSlice S4x2x1024 ![0, 0, 0] · slices_S4x4096x1024_S4x2x1024_0_0_0) : (⟨S4x4096x1024, .f32⟩ : BufTy).Contents (Elt F) → (⟨S4x2x1024, .f32⟩ : BufTy).Contents (Elt F)),
    nullary main_cst_11 (constant S_ .f32 0x3F800000#32),
    unary main_cst_11 main_v47 (broadcastInDim S4x2x1024 ![] bcast_S_S4x2x1024 : (⟨S_, .f32⟩ : BufTy).Contents (Elt F) → (⟨S4x2x1024, .f32⟩ : BufTy).Contents (Elt F)),
    unary main_v45 main_v48 ((extractStridedSlice S4x4094x1024 ![0, 0, 0] · slices_S4x4096x1024_S4x4094x1024_0_0_0) : (⟨S4x4096x1024, .f32⟩ : BufTy).Contents (Elt F) → (⟨S4x4094x1024, .f32⟩ : BufTy).Contents (Elt F)),
    binary main_v47 main_v48 main_v49 ((fun a b => concatenate S4x4096x1024 1 [⟨S4x2x1024, a⟩, ⟨S4x4094x1024, b⟩] concatenates_S4x2x1024_S4x4094x1024_S4x4096x1024_d1) : (⟨S4x2x1024, .f32⟩ : BufTy).Contents (Elt F) → (⟨S4x4094x1024, .f32⟩ : BufTy).Contents (Elt F) → (⟨S4x4096x1024, .f32⟩ : BufTy).Contents (Elt F)),
    unary main_v44 main_v50 ((extractStridedSlice S4x2x1024 ![0, 0, 0] · slices_S4x4096x1024_S4x2x1024_0_0_0) : (⟨S4x4096x1024, .f32⟩ : BufTy).Contents (Elt F) → (⟨S4x2x1024, .f32⟩ : BufTy).Contents (Elt F)),
    nullary main_cst_12 (constant S_ .f32 0x00000000#32),
    unary main_cst_12 main_v51 (broadcastInDim S4x2x1024 ![] bcast_S_S4x2x1024 : (⟨S_, .f32⟩ : BufTy).Contents (Elt F) → (⟨S4x2x1024, .f32⟩ : BufTy).Contents (Elt F)),
    unary main_v44 main_v52 ((extractStridedSlice S4x4094x1024 ![0, 0, 0] · slices_S4x4096x1024_S4x4094x1024_0_0_0) : (⟨S4x4096x1024, .f32⟩ : BufTy).Contents (Elt F) → (⟨S4x4094x1024, .f32⟩ : BufTy).Contents (Elt F)),
    binary main_v51 main_v52 main_v53 ((fun a b => concatenate S4x4096x1024 1 [⟨S4x2x1024, a⟩, ⟨S4x4094x1024, b⟩] concatenates_S4x2x1024_S4x4094x1024_S4x4096x1024_d1) : (⟨S4x2x1024, .f32⟩ : BufTy).Contents (Elt F) → (⟨S4x4094x1024, .f32⟩ : BufTy).Contents (Elt F) → (⟨S4x4096x1024, .f32⟩ : BufTy).Contents (Elt F)),
    binary main_v45 main_v53 main_v54 (mulf : (⟨S4x4096x1024, .f32⟩ : BufTy).Contents (Elt F) → (⟨S4x4096x1024, .f32⟩ : BufTy).Contents (Elt F) → (⟨S4x4096x1024, .f32⟩ : BufTy).Contents (Elt F)),
    binary main_v54 main_v44 main_v55 (addf : (⟨S4x4096x1024, .f32⟩ : BufTy).Contents (Elt F) → (⟨S4x4096x1024, .f32⟩ : BufTy).Contents (Elt F) → (⟨S4x4096x1024, .f32⟩ : BufTy).Contents (Elt F)),
    binary main_v45 main_v49 main_v56 (mulf : (⟨S4x4096x1024, .f32⟩ : BufTy).Contents (Elt F) → (⟨S4x4096x1024, .f32⟩ : BufTy).Contents (Elt F) → (⟨S4x4096x1024, .f32⟩ : BufTy).Contents (Elt F)) ]

/-- Doubling round 2 of the scan over time: both coefficient arrays shifted by 4 steps (ones, zeros shifted in) and combined. -/
abbrev r2 : List (HloOp τ sig (Elt F)) :=
  [ unary main_v56 main_v57 ((extractStridedSlice S4x4x1024 ![0, 0, 0] · slices_S4x4096x1024_S4x4x1024_0_0_0) : (⟨S4x4096x1024, .f32⟩ : BufTy).Contents (Elt F) → (⟨S4x4x1024, .f32⟩ : BufTy).Contents (Elt F)),
    nullary main_cst_13 (constant S_ .f32 0x3F800000#32),
    unary main_cst_13 main_v58 (broadcastInDim S4x4x1024 ![] bcast_S_S4x4x1024 : (⟨S_, .f32⟩ : BufTy).Contents (Elt F) → (⟨S4x4x1024, .f32⟩ : BufTy).Contents (Elt F)),
    unary main_v56 main_v59 ((extractStridedSlice S4x4092x1024 ![0, 0, 0] · slices_S4x4096x1024_S4x4092x1024_0_0_0) : (⟨S4x4096x1024, .f32⟩ : BufTy).Contents (Elt F) → (⟨S4x4092x1024, .f32⟩ : BufTy).Contents (Elt F)),
    binary main_v58 main_v59 main_v60 ((fun a b => concatenate S4x4096x1024 1 [⟨S4x4x1024, a⟩, ⟨S4x4092x1024, b⟩] concatenates_S4x4x1024_S4x4092x1024_S4x4096x1024_d1) : (⟨S4x4x1024, .f32⟩ : BufTy).Contents (Elt F) → (⟨S4x4092x1024, .f32⟩ : BufTy).Contents (Elt F) → (⟨S4x4096x1024, .f32⟩ : BufTy).Contents (Elt F)),
    unary main_v55 main_v61 ((extractStridedSlice S4x4x1024 ![0, 0, 0] · slices_S4x4096x1024_S4x4x1024_0_0_0) : (⟨S4x4096x1024, .f32⟩ : BufTy).Contents (Elt F) → (⟨S4x4x1024, .f32⟩ : BufTy).Contents (Elt F)),
    nullary main_cst_14 (constant S_ .f32 0x00000000#32),
    unary main_cst_14 main_v62 (broadcastInDim S4x4x1024 ![] bcast_S_S4x4x1024 : (⟨S_, .f32⟩ : BufTy).Contents (Elt F) → (⟨S4x4x1024, .f32⟩ : BufTy).Contents (Elt F)),
    unary main_v55 main_v63 ((extractStridedSlice S4x4092x1024 ![0, 0, 0] · slices_S4x4096x1024_S4x4092x1024_0_0_0) : (⟨S4x4096x1024, .f32⟩ : BufTy).Contents (Elt F) → (⟨S4x4092x1024, .f32⟩ : BufTy).Contents (Elt F)),
    binary main_v62 main_v63 main_v64 ((fun a b => concatenate S4x4096x1024 1 [⟨S4x4x1024, a⟩, ⟨S4x4092x1024, b⟩] concatenates_S4x4x1024_S4x4092x1024_S4x4096x1024_d1) : (⟨S4x4x1024, .f32⟩ : BufTy).Contents (Elt F) → (⟨S4x4092x1024, .f32⟩ : BufTy).Contents (Elt F) → (⟨S4x4096x1024, .f32⟩ : BufTy).Contents (Elt F)),
    binary main_v56 main_v64 main_v65 (mulf : (⟨S4x4096x1024, .f32⟩ : BufTy).Contents (Elt F) → (⟨S4x4096x1024, .f32⟩ : BufTy).Contents (Elt F) → (⟨S4x4096x1024, .f32⟩ : BufTy).Contents (Elt F)),
    binary main_v65 main_v55 main_v66 (addf : (⟨S4x4096x1024, .f32⟩ : BufTy).Contents (Elt F) → (⟨S4x4096x1024, .f32⟩ : BufTy).Contents (Elt F) → (⟨S4x4096x1024, .f32⟩ : BufTy).Contents (Elt F)),
    binary main_v56 main_v60 main_v67 (mulf : (⟨S4x4096x1024, .f32⟩ : BufTy).Contents (Elt F) → (⟨S4x4096x1024, .f32⟩ : BufTy).Contents (Elt F) → (⟨S4x4096x1024, .f32⟩ : BufTy).Contents (Elt F)) ]

/-- Doubling round 3 of the scan over time: both coefficient arrays shifted by 8 steps (ones, zeros shifted in) and combined. -/
abbrev r3 : List (HloOp τ sig (Elt F)) :=
  [ unary main_v67 main_v68 ((extractStridedSlice S4x8x1024 ![0, 0, 0] · slices_S4x4096x1024_S4x8x1024_0_0_0) : (⟨S4x4096x1024, .f32⟩ : BufTy).Contents (Elt F) → (⟨S4x8x1024, .f32⟩ : BufTy).Contents (Elt F)),
    nullary main_cst_15 (constant S_ .f32 0x3F800000#32),
    unary main_cst_15 main_v69 (broadcastInDim S4x8x1024 ![] bcast_S_S4x8x1024 : (⟨S_, .f32⟩ : BufTy).Contents (Elt F) → (⟨S4x8x1024, .f32⟩ : BufTy).Contents (Elt F)),
    unary main_v67 main_v70 ((extractStridedSlice S4x4088x1024 ![0, 0, 0] · slices_S4x4096x1024_S4x4088x1024_0_0_0) : (⟨S4x4096x1024, .f32⟩ : BufTy).Contents (Elt F) → (⟨S4x4088x1024, .f32⟩ : BufTy).Contents (Elt F)),
    binary main_v69 main_v70 main_v71 ((fun a b => concatenate S4x4096x1024 1 [⟨S4x8x1024, a⟩, ⟨S4x4088x1024, b⟩] concatenates_S4x8x1024_S4x4088x1024_S4x4096x1024_d1) : (⟨S4x8x1024, .f32⟩ : BufTy).Contents (Elt F) → (⟨S4x4088x1024, .f32⟩ : BufTy).Contents (Elt F) → (⟨S4x4096x1024, .f32⟩ : BufTy).Contents (Elt F)),
    unary main_v66 main_v72 ((extractStridedSlice S4x8x1024 ![0, 0, 0] · slices_S4x4096x1024_S4x8x1024_0_0_0) : (⟨S4x4096x1024, .f32⟩ : BufTy).Contents (Elt F) → (⟨S4x8x1024, .f32⟩ : BufTy).Contents (Elt F)),
    nullary main_cst_16 (constant S_ .f32 0x00000000#32),
    unary main_cst_16 main_v73 (broadcastInDim S4x8x1024 ![] bcast_S_S4x8x1024 : (⟨S_, .f32⟩ : BufTy).Contents (Elt F) → (⟨S4x8x1024, .f32⟩ : BufTy).Contents (Elt F)),
    unary main_v66 main_v74 ((extractStridedSlice S4x4088x1024 ![0, 0, 0] · slices_S4x4096x1024_S4x4088x1024_0_0_0) : (⟨S4x4096x1024, .f32⟩ : BufTy).Contents (Elt F) → (⟨S4x4088x1024, .f32⟩ : BufTy).Contents (Elt F)),
    binary main_v73 main_v74 main_v75 ((fun a b => concatenate S4x4096x1024 1 [⟨S4x8x1024, a⟩, ⟨S4x4088x1024, b⟩] concatenates_S4x8x1024_S4x4088x1024_S4x4096x1024_d1) : (⟨S4x8x1024, .f32⟩ : BufTy).Contents (Elt F) → (⟨S4x4088x1024, .f32⟩ : BufTy).Contents (Elt F) → (⟨S4x4096x1024, .f32⟩ : BufTy).Contents (Elt F)),
    binary main_v67 main_v75 main_v76 (mulf : (⟨S4x4096x1024, .f32⟩ : BufTy).Contents (Elt F) → (⟨S4x4096x1024, .f32⟩ : BufTy).Contents (Elt F) → (⟨S4x4096x1024, .f32⟩ : BufTy).Contents (Elt F)),
    binary main_v76 main_v66 main_v77 (addf : (⟨S4x4096x1024, .f32⟩ : BufTy).Contents (Elt F) → (⟨S4x4096x1024, .f32⟩ : BufTy).Contents (Elt F) → (⟨S4x4096x1024, .f32⟩ : BufTy).Contents (Elt F)),
    binary main_v67 main_v71 main_v78 (mulf : (⟨S4x4096x1024, .f32⟩ : BufTy).Contents (Elt F) → (⟨S4x4096x1024, .f32⟩ : BufTy).Contents (Elt F) → (⟨S4x4096x1024, .f32⟩ : BufTy).Contents (Elt F)) ]

/-- Doubling round 4 of the scan over time: both coefficient arrays shifted by 16 steps (ones, zeros shifted in) and combined. -/
abbrev r4 : List (HloOp τ sig (Elt F)) :=
  [ unary main_v78 main_v79 ((extractStridedSlice S4x16x1024 ![0, 0, 0] · slices_S4x4096x1024_S4x16x1024_0_0_0) : (⟨S4x4096x1024, .f32⟩ : BufTy).Contents (Elt F) → (⟨S4x16x1024, .f32⟩ : BufTy).Contents (Elt F)),
    nullary main_cst_17 (constant S_ .f32 0x3F800000#32),
    unary main_cst_17 main_v80 (broadcastInDim S4x16x1024 ![] bcast_S_S4x16x1024 : (⟨S_, .f32⟩ : BufTy).Contents (Elt F) → (⟨S4x16x1024, .f32⟩ : BufTy).Contents (Elt F)),
    unary main_v78 main_v81 ((extractStridedSlice S4x4080x1024 ![0, 0, 0] · slices_S4x4096x1024_S4x4080x1024_0_0_0) : (⟨S4x4096x1024, .f32⟩ : BufTy).Contents (Elt F) → (⟨S4x4080x1024, .f32⟩ : BufTy).Contents (Elt F)),
    binary main_v80 main_v81 main_v82 ((fun a b => concatenate S4x4096x1024 1 [⟨S4x16x1024, a⟩, ⟨S4x4080x1024, b⟩] concatenates_S4x16x1024_S4x4080x1024_S4x4096x1024_d1) : (⟨S4x16x1024, .f32⟩ : BufTy).Contents (Elt F) → (⟨S4x4080x1024, .f32⟩ : BufTy).Contents (Elt F) → (⟨S4x4096x1024, .f32⟩ : BufTy).Contents (Elt F)),
    unary main_v77 main_v83 ((extractStridedSlice S4x16x1024 ![0, 0, 0] · slices_S4x4096x1024_S4x16x1024_0_0_0) : (⟨S4x4096x1024, .f32⟩ : BufTy).Contents (Elt F) → (⟨S4x16x1024, .f32⟩ : BufTy).Contents (Elt F)),
    nullary main_cst_18 (constant S_ .f32 0x00000000#32),
    unary main_cst_18 main_v84 (broadcastInDim S4x16x1024 ![] bcast_S_S4x16x1024 : (⟨S_, .f32⟩ : BufTy).Contents (Elt F) → (⟨S4x16x1024, .f32⟩ : BufTy).Contents (Elt F)),
    unary main_v77 main_v85 ((extractStridedSlice S4x4080x1024 ![0, 0, 0] · slices_S4x4096x1024_S4x4080x1024_0_0_0) : (⟨S4x4096x1024, .f32⟩ : BufTy).Contents (Elt F) → (⟨S4x4080x1024, .f32⟩ : BufTy).Contents (Elt F)),
    binary main_v84 main_v85 main_v86 ((fun a b => concatenate S4x4096x1024 1 [⟨S4x16x1024, a⟩, ⟨S4x4080x1024, b⟩] concatenates_S4x16x1024_S4x4080x1024_S4x4096x1024_d1) : (⟨S4x16x1024, .f32⟩ : BufTy).Contents (Elt F) → (⟨S4x4080x1024, .f32⟩ : BufTy).Contents (Elt F) → (⟨S4x4096x1024, .f32⟩ : BufTy).Contents (Elt F)),
    binary main_v78 main_v86 main_v87 (mulf : (⟨S4x4096x1024, .f32⟩ : BufTy).Contents (Elt F) → (⟨S4x4096x1024, .f32⟩ : BufTy).Contents (Elt F) → (⟨S4x4096x1024, .f32⟩ : BufTy).Contents (Elt F)),
    binary main_v87 main_v77 main_v88 (addf : (⟨S4x4096x1024, .f32⟩ : BufTy).Contents (Elt F) → (⟨S4x4096x1024, .f32⟩ : BufTy).Contents (Elt F) → (⟨S4x4096x1024, .f32⟩ : BufTy).Contents (Elt F)),
    binary main_v78 main_v82 main_v89 (mulf : (⟨S4x4096x1024, .f32⟩ : BufTy).Contents (Elt F) → (⟨S4x4096x1024, .f32⟩ : BufTy).Contents (Elt F) → (⟨S4x4096x1024, .f32⟩ : BufTy).Contents (Elt F)) ]

/-- Doubling round 5 of the scan over time: both coefficient arrays shifted by 32 steps (ones, zeros shifted in) and combined. -/
abbrev r5 : List (HloOp τ sig (Elt F)) :=
  [ unary main_v89 main_v90 ((extractStridedSlice S4x32x1024 ![0, 0, 0] · slices_S4x4096x1024_S4x32x1024_0_0_0) : (⟨S4x4096x1024, .f32⟩ : BufTy).Contents (Elt F) → (⟨S4x32x1024, .f32⟩ : BufTy).Contents (Elt F)),
    nullary main_cst_19 (constant S_ .f32 0x3F800000#32),
    unary main_cst_19 main_v91 (broadcastInDim S4x32x1024 ![] bcast_S_S4x32x1024 : (⟨S_, .f32⟩ : BufTy).Contents (Elt F) → (⟨S4x32x1024, .f32⟩ : BufTy).Contents (Elt F)),
    unary main_v89 main_v92 ((extractStridedSlice S4x4064x1024 ![0, 0, 0] · slices_S4x4096x1024_S4x4064x1024_0_0_0) : (⟨S4x4096x1024, .f32⟩ : BufTy).Contents (Elt F) → (⟨S4x4064x1024, .f32⟩ : BufTy).Contents (Elt F)),
    binary main_v91 main_v92 main_v93 ((fun a b => concatenate S4x4096x1024 1 [⟨S4x32x1024, a⟩, ⟨S4x4064x1024, b⟩] concatenates_S4x32x1024_S4x4064x1024_S4x4096x1024_d1) : (⟨S4x32x1024, .f32⟩ : BufTy).Contents (Elt F) → (⟨S4x4064x1024, .f32⟩ : BufTy).Contents (Elt F) → (⟨S4x4096x1024, .f32⟩ : BufTy).Contents (Elt F)),
    unary main_v88 main_v94 ((extractStridedSlice S4x32x1024 ![0, 0, 0] · slices_S4x4096x1024_S4x32x1024_0_0_0) : (⟨S4x4096x1024, .f32⟩ : BufTy).Contents (Elt F) → (⟨S4x32x1024, .f32⟩ : BufTy).Contents (Elt F)),
    nullary main_cst_20 (constant S_ .f32 0x00000000#32),
    unary main_cst_20 main_v95 (broadcastInDim S4x32x1024 ![] bcast_S_S4x32x1024 : (⟨S_, .f32⟩ : BufTy).Contents (Elt F) → (⟨S4x32x1024, .f32⟩ : BufTy).Contents (Elt F)),
    unary main_v88 main_v96 ((extractStridedSlice S4x4064x1024 ![0, 0, 0] · slices_S4x4096x1024_S4x4064x1024_0_0_0) : (⟨S4x4096x1024, .f32⟩ : BufTy).Contents (Elt F) → (⟨S4x4064x1024, .f32⟩ : BufTy).Contents (Elt F)),
    binary main_v95 main_v96 main_v97 ((fun a b => concatenate S4x4096x1024 1 [⟨S4x32x1024, a⟩, ⟨S4x4064x1024, b⟩] concatenates_S4x32x1024_S4x4064x1024_S4x4096x1024_d1) : (⟨S4x32x1024, .f32⟩ : BufTy).Contents (Elt F) → (⟨S4x4064x1024, .f32⟩ : BufTy).Contents (Elt F) → (⟨S4x4096x1024, .f32⟩ : BufTy).Contents (Elt F)),
    binary main_v89 main_v97 main_v98 (mulf : (⟨S4x4096x1024, .f32⟩ : BufTy).Contents (Elt F) → (⟨S4x4096x1024, .f32⟩ : BufTy).Contents (Elt F) → (⟨S4x4096x1024, .f32⟩ : BufTy).Contents (Elt F)),
    binary main_v98 main_v88 main_v99 (addf : (⟨S4x4096x1024, .f32⟩ : BufTy).Contents (Elt F) → (⟨S4x4096x1024, .f32⟩ : BufTy).Contents (Elt F) → (⟨S4x4096x1024, .f32⟩ : BufTy).Contents (Elt F)),
    binary main_v89 main_v93 main_v100 (mulf : (⟨S4x4096x1024, .f32⟩ : BufTy).Contents (Elt F) → (⟨S4x4096x1024, .f32⟩ : BufTy).Contents (Elt F) → (⟨S4x4096x1024, .f32⟩ : BufTy).Contents (Elt F)) ]

/-- Doubling round 6 of the scan over time: both coefficient arrays shifted by 64 steps (ones, zeros shifted in) and combined. -/
abbrev r6 : List (HloOp τ sig (Elt F)) :=
  [ unary main_v100 main_v101 ((extractStridedSlice S4x64x1024 ![0, 0, 0] · slices_S4x4096x1024_S4x64x1024_0_0_0) : (⟨S4x4096x1024, .f32⟩ : BufTy).Contents (Elt F) → (⟨S4x64x1024, .f32⟩ : BufTy).Contents (Elt F)),
    nullary main_cst_21 (constant S_ .f32 0x3F800000#32),
    unary main_cst_21 main_v102 (broadcastInDim S4x64x1024 ![] bcast_S_S4x64x1024 : (⟨S_, .f32⟩ : BufTy).Contents (Elt F) → (⟨S4x64x1024, .f32⟩ : BufTy).Contents (Elt F)),
    unary main_v100 main_v103 ((extractStridedSlice S4x4032x1024 ![0, 0, 0] · slices_S4x4096x1024_S4x4032x1024_0_0_0) : (⟨S4x4096x1024, .f32⟩ : BufTy).Contents (Elt F) → (⟨S4x4032x1024, .f32⟩ : BufTy).Contents (Elt F)),
    binary main_v102 main_v103 main_v104 ((fun a b => concatenate S4x4096x1024 1 [⟨S4x64x1024, a⟩, ⟨S4x4032x1024, b⟩] concatenates_S4x64x1024_S4x4032x1024_S4x4096x1024_d1) : (⟨S4x64x1024, .f32⟩ : BufTy).Contents (Elt F) → (⟨S4x4032x1024, .f32⟩ : BufTy).Contents (Elt F) → (⟨S4x4096x1024, .f32⟩ : BufTy).Contents (Elt F)),
    unary main_v99 main_v105 ((extractStridedSlice S4x64x1024 ![0, 0, 0] · slices_S4x4096x1024_S4x64x1024_0_0_0) : (⟨S4x4096x1024, .f32⟩ : BufTy).Contents (Elt F) → (⟨S4x64x1024, .f32⟩ : BufTy).Contents (Elt F)),
    nullary main_cst_22 (constant S_ .f32 0x00000000#32),
    unary main_cst_22 main_v106 (broadcastInDim S4x64x1024 ![] bcast_S_S4x64x1024 : (⟨S_, .f32⟩ : BufTy).Contents (Elt F) → (⟨S4x64x1024, .f32⟩ : BufTy).Contents (Elt F)),
    unary main_v99 main_v107 ((extractStridedSlice S4x4032x1024 ![0, 0, 0] · slices_S4x4096x1024_S4x4032x1024_0_0_0) : (⟨S4x4096x1024, .f32⟩ : BufTy).Contents (Elt F) → (⟨S4x4032x1024, .f32⟩ : BufTy).Contents (Elt F)),
    binary main_v106 main_v107 main_v108 ((fun a b => concatenate S4x4096x1024 1 [⟨S4x64x1024, a⟩, ⟨S4x4032x1024, b⟩] concatenates_S4x64x1024_S4x4032x1024_S4x4096x1024_d1) : (⟨S4x64x1024, .f32⟩ : BufTy).Contents (Elt F) → (⟨S4x4032x1024, .f32⟩ : BufTy).Contents (Elt F) → (⟨S4x4096x1024, .f32⟩ : BufTy).Contents (Elt F)),
    binary main_v100 main_v108 main_v109 (mulf : (⟨S4x4096x1024, .f32⟩ : BufTy).Contents (Elt F) → (⟨S4x4096x1024, .f32⟩ : BufTy).Contents (Elt F) → (⟨S4x4096x1024, .f32⟩ : BufTy).Contents (Elt F)),
    binary main_v109 main_v99 main_v110 (addf : (⟨S4x4096x1024, .f32⟩ : BufTy).Contents (Elt F) → (⟨S4x4096x1024, .f32⟩ : BufTy).Contents (Elt F) → (⟨S4x4096x1024, .f32⟩ : BufTy).Contents (Elt F)),
    binary main_v100 main_v104 main_v111 (mulf : (⟨S4x4096x1024, .f32⟩ : BufTy).Contents (Elt F) → (⟨S4x4096x1024, .f32⟩ : BufTy).Contents (Elt F) → (⟨S4x4096x1024, .f32⟩ : BufTy).Contents (Elt F)) ]

/-- Doubling round 7 of the scan over time: both coefficient arrays shifted by 128 steps (ones, zeros shifted in) and combined. -/
abbrev r7 : List (HloOp τ sig (Elt F)) :=
  [ unary main_v111 main_v112 ((extractStridedSlice S4x128x1024 ![0, 0, 0] · slices_S4x4096x1024_S4x128x1024_0_0_0) : (⟨S4x4096x1024, .f32⟩ : BufTy).Contents (Elt F) → (⟨S4x128x1024, .f32⟩ : BufTy).Contents (Elt F)),
    nullary main_cst_23 (constant S_ .f32 0x3F800000#32),
    unary main_cst_23 main_v113 (broadcastInDim S4x128x1024 ![] bcast_S_S4x128x1024 : (⟨S_, .f32⟩ : BufTy).Contents (Elt F) → (⟨S4x128x1024, .f32⟩ : BufTy).Contents (Elt F)),
    unary main_v111 main_v114 ((extractStridedSlice S4x3968x1024 ![0, 0, 0] · slices_S4x4096x1024_S4x3968x1024_0_0_0) : (⟨S4x4096x1024, .f32⟩ : BufTy).Contents (Elt F) → (⟨S4x3968x1024, .f32⟩ : BufTy).Contents (Elt F)),
    binary main_v113 main_v114 main_v115 ((fun a b => concatenate S4x4096x1024 1 [⟨S4x128x1024, a⟩, ⟨S4x3968x1024, b⟩] concatenates_S4x128x1024_S4x3968x1024_S4x4096x1024_d1) : (⟨S4x128x1024, .f32⟩ : BufTy).Contents (Elt F) → (⟨S4x3968x1024, .f32⟩ : BufTy).Contents (Elt F) → (⟨S4x4096x1024, .f32⟩ : BufTy).Contents (Elt F)),
    unary main_v110 main_v116 ((extractStridedSlice S4x128x1024 ![0, 0, 0] · slices_S4x4096x1024_S4x128x1024_0_0_0) : (⟨S4x4096x1024, .f32⟩ : BufTy).Contents (Elt F) → (⟨S4x128x1024, .f32⟩ : BufTy).Contents (Elt F)),
    nullary main_cst_24 (constant S_ .f32 0x00000000#32),
    unary main_cst_24 main_v117 (broadcastInDim S4x128x1024 ![] bcast_S_S4x128x1024 : (⟨S_, .f32⟩ : BufTy).Contents (Elt F) → (⟨S4x128x1024, .f32⟩ : BufTy).Contents (Elt F)),
    unary main_v110 main_v118 ((extractStridedSlice S4x3968x1024 ![0, 0, 0] · slices_S4x4096x1024_S4x3968x1024_0_0_0) : (⟨S4x4096x1024, .f32⟩ : BufTy).Contents (Elt F) → (⟨S4x3968x1024, .f32⟩ : BufTy).Contents (Elt F)),
    binary main_v117 main_v118 main_v119 ((fun a b => concatenate S4x4096x1024 1 [⟨S4x128x1024, a⟩, ⟨S4x3968x1024, b⟩] concatenates_S4x128x1024_S4x3968x1024_S4x4096x1024_d1) : (⟨S4x128x1024, .f32⟩ : BufTy).Contents (Elt F) → (⟨S4x3968x1024, .f32⟩ : BufTy).Contents (Elt F) → (⟨S4x4096x1024, .f32⟩ : BufTy).Contents (Elt F)),
    binary main_v111 main_v119 main_v120 (mulf : (⟨S4x4096x1024, .f32⟩ : BufTy).Contents (Elt F) → (⟨S4x4096x1024, .f32⟩ : BufTy).Contents (Elt F) → (⟨S4x4096x1024, .f32⟩ : BufTy).Contents (Elt F)),
    binary main_v120 main_v110 main_v121 (addf : (⟨S4x4096x1024, .f32⟩ : BufTy).Contents (Elt F) → (⟨S4x4096x1024, .f32⟩ : BufTy).Contents (Elt F) → (⟨S4x4096x1024, .f32⟩ : BufTy).Contents (Elt F)),
    binary main_v111 main_v115 main_v122 (mulf : (⟨S4x4096x1024, .f32⟩ : BufTy).Contents (Elt F) → (⟨S4x4096x1024, .f32⟩ : BufTy).Contents (Elt F) → (⟨S4x4096x1024, .f32⟩ : BufTy).Contents (Elt F)) ]

/-- Doubling round 8 of the scan over time: both coefficient arrays shifted by 256 steps (ones, zeros shifted in) and combined. -/
abbrev r8 : List (HloOp τ sig (Elt F)) :=
  [ unary main_v122 main_v123 ((extractStridedSlice S4x256x1024 ![0, 0, 0] · slices_S4x4096x1024_S4x256x1024_0_0_0) : (⟨S4x4096x1024, .f32⟩ : BufTy).Contents (Elt F) → (⟨S4x256x1024, .f32⟩ : BufTy).Contents (Elt F)),
    nullary main_cst_25 (constant S_ .f32 0x3F800000#32),
    unary main_cst_25 main_v124 (broadcastInDim S4x256x1024 ![] bcast_S_S4x256x1024 : (⟨S_, .f32⟩ : BufTy).Contents (Elt F) → (⟨S4x256x1024, .f32⟩ : BufTy).Contents (Elt F)),
    unary main_v122 main_v125 ((extractStridedSlice S4x3840x1024 ![0, 0, 0] · slices_S4x4096x1024_S4x3840x1024_0_0_0) : (⟨S4x4096x1024, .f32⟩ : BufTy).Contents (Elt F) → (⟨S4x3840x1024, .f32⟩ : BufTy).Contents (Elt F)),
    binary main_v124 main_v125 main_v126 ((fun a b => concatenate S4x4096x1024 1 [⟨S4x256x1024, a⟩, ⟨S4x3840x1024, b⟩] concatenates_S4x256x1024_S4x3840x1024_S4x4096x1024_d1) : (⟨S4x256x1024, .f32⟩ : BufTy).Contents (Elt F) → (⟨S4x3840x1024, .f32⟩ : BufTy).Contents (Elt F) → (⟨S4x4096x1024, .f32⟩ : BufTy).Contents (Elt F)),
    unary main_v121 main_v127 ((extractStridedSlice S4x256x1024 ![0, 0, 0] · slices_S4x4096x1024_S4x256x1024_0_0_0) : (⟨S4x4096x1024, .f32⟩ : BufTy).Contents (Elt F) → (⟨S4x256x1024, .f32⟩ : BufTy).Contents (Elt F)),
    nullary main_cst_26 (constant S_ .f32 0x00000000#32),
    unary main_cst_26 main_v128 (broadcastInDim S4x256x1024 ![] bcast_S_S4x256x1024 : (⟨S_, .f32⟩ : BufTy).Contents (Elt F) → (⟨S4x256x1024, .f32⟩ : BufTy).Contents (Elt F)),
    unary main_v121 main_v129 ((extractStridedSlice S4x3840x1024 ![0, 0, 0] · slices_S4x4096x1024_S4x3840x1024_0_0_0) : (⟨S4x4096x1024, .f32⟩ : BufTy).Contents (Elt F) → (⟨S4x3840x1024, .f32⟩ : BufTy).Contents (Elt F)),
    binary main_v128 main_v129 main_v130 ((fun a b => concatenate S4x4096x1024 1 [⟨S4x256x1024, a⟩, ⟨S4x3840x1024, b⟩] concatenates_S4x256x1024_S4x3840x1024_S4x4096x1024_d1) : (⟨S4x256x1024, .f32⟩ : BufTy).Contents (Elt F) → (⟨S4x3840x1024, .f32⟩ : BufTy).Contents (Elt F) → (⟨S4x4096x1024, .f32⟩ : BufTy).Contents (Elt F)),
    binary main_v122 main_v130 main_v131 (mulf : (⟨S4x4096x1024, .f32⟩ : BufTy).Contents (Elt F) → (⟨S4x4096x1024, .f32⟩ : BufTy).Contents (Elt F) → (⟨S4x4096x1024, .f32⟩ : BufTy).Contents (Elt F)),
    binary main_v131 main_v121 main_v132 (addf : (⟨S4x4096x1024, .f32⟩ : BufTy).Contents (Elt F) → (⟨S4x4096x1024, .f32⟩ : BufTy).Contents (Elt F) → (⟨S4x4096x1024, .f32⟩ : BufTy).Contents (Elt F)),
    binary main_v122 main_v126 main_v133 (mulf : (⟨S4x4096x1024, .f32⟩ : BufTy).Contents (Elt F) → (⟨S4x4096x1024, .f32⟩ : BufTy).Contents (Elt F) → (⟨S4x4096x1024, .f32⟩ : BufTy).Contents (Elt F)) ]

/-- Doubling round 9 of the scan over time: both coefficient arrays shifted by 512 steps (ones, zeros shifted in) and combined. -/
abbrev r9 : List (HloOp τ sig (Elt F)) :=
  [ unary main_v133 main_v134 ((extractStridedSlice S4x512x1024 ![0, 0, 0] · slices_S4x4096x1024_S4x512x1024_0_0_0) : (⟨S4x4096x1024, .f32⟩ : BufTy).Contents (Elt F) → (⟨S4x512x1024, .f32⟩ : BufTy).Contents (Elt F)),
    nullary main_cst_27 (constant S_ .f32 0x3F800000#32),
    unary main_cst_27 main_v135 (broadcastInDim S4x512x1024 ![] bcast_S_S4x512x1024 : (⟨S_, .f32⟩ : BufTy).Contents (Elt F) → (⟨S4x512x1024, .f32⟩ : BufTy).Contents (Elt F)),
    unary main_v133 main_v136 ((extractStridedSlice S4x3584x1024 ![0, 0, 0] · slices_S4x4096x1024_S4x3584x1024_0_0_0) : (⟨S4x4096x1024, .f32⟩ : BufTy).Contents (Elt F) → (⟨S4x3584x1024, .f32⟩ : BufTy).Contents (Elt F)),
    binary main_v135 main_v136 main_v137 ((fun a b => concatenate S4x4096x1024 1 [⟨S4x512x1024, a⟩, ⟨S4x3584x1024, b⟩] concatenates_S4x512x1024_S4x3584x1024_S4x4096x1024_d1) : (⟨S4x512x1024, .f32⟩ : BufTy).Contents (Elt F) → (⟨S4x3584x1024, .f32⟩ : BufTy).Contents (Elt F) → (⟨S4x4096x1024, .f32⟩ : BufTy).Contents (Elt F)),
    unary main_v132 main_v138 ((extractStridedSlice S4x512x1024 ![0, 0, 0] · slices_S4x4096x1024_S4x512x1024_0_0_0) : (⟨S4x4096x1024, .f32⟩ : BufTy).Contents (Elt F) → (⟨S4x512x1024, .f32⟩ : BufTy).Contents (Elt F)),
    nullary main_cst_28 (constant S_ .f32 0x00000000#32),
    unary main_cst_28 main_v139 (broadcastInDim S4x512x1024 ![] bcast_S_S4x512x1024 : (⟨S_, .f32⟩ : BufTy).Contents (Elt F) → (⟨S4x512x1024, .f32⟩ : BufTy).Contents (Elt F)),
    unary main_v132 main_v140 ((extractStridedSlice S4x3584x1024 ![0, 0, 0] · slices_S4x4096x1024_S4x3584x1024_0_0_0) : (⟨S4x4096x1024, .f32⟩ : BufTy).Contents (Elt F) → (⟨S4x3584x1024, .f32⟩ : BufTy).Contents (Elt F)),
    binary main_v139 main_v140 main_v141 ((fun a b => concatenate S4x4096x1024 1 [⟨S4x512x1024, a⟩, ⟨S4x3584x1024, b⟩] concatenates_S4x512x1024_S4x3584x1024_S4x4096x1024_d1) : (⟨S4x512x1024, .f32⟩ : BufTy).Contents (Elt F) → (⟨S4x3584x1024, .f32⟩ : BufTy).Contents (Elt F) → (⟨S4x4096x1024, .f32⟩ : BufTy).Contents (Elt F)),
    binary main_v133 main_v141 main_v142 (mulf : (⟨S4x4096x1024, .f32⟩ : BufTy).Contents (Elt F) → (⟨S4x4096x1024, .f32⟩ : BufTy).Contents (Elt F) → (⟨S4x4096x1024, .f32⟩ : BufTy).Contents (Elt F)),
    binary main_v142 main_v132 main_v143 (addf : (⟨S4x4096x1024, .f32⟩ : BufTy).Contents (Elt F) → (⟨S4x4096x1024, .f32⟩ : BufTy).Contents (Elt F) → (⟨S4x4096x1024, .f32⟩ : BufTy).Contents (Elt F)),
    binary main_v133 main_v137 main_v144 (mulf : (⟨S4x4096x1024, .f32⟩ : BufTy).Contents (Elt F) → (⟨S4x4096x1024, .f32⟩ : BufTy).Contents (Elt F) → (⟨S4x4096x1024, .f32⟩ : BufTy).Contents (Elt F)) ]

/-- Doubling round 10 of the scan over time: both coefficient arrays shifted by 1024 steps (ones, zeros shifted in) and combined. -/
abbrev r10 : List (HloOp τ sig (Elt F)) :=
  [ unary main_v144 main_v145 ((extractStridedSlice S4x1024x1024 ![0, 0, 0] · slices_S4x4096x1024_S4x1024x1024_0_0_0) : (⟨S4x4096x1024, .f32⟩ : BufTy).Contents (Elt F) → (⟨S4x1024x1024, .f32⟩ : BufTy).Contents (Elt F)),
    nullary main_cst_29 (constant S_ .f32 0x3F800000#32),
    unary main_cst_29 main_v146 (broadcastInDim S4x1024x1024 ![] bcast_S_S4x1024x1024 : (⟨S_, .f32⟩ : BufTy).Contents (Elt F) → (⟨S4x1024x1024, .f32⟩ : BufTy).Contents (Elt F)),
    unary main_v144 main_v147 ((extractStridedSlice S4x3072x1024 ![0, 0, 0] · slices_S4x4096x1024_S4x3072x1024_0_0_0) : (⟨S4x4096x1024, .f32⟩ : BufTy).Contents (Elt F) → (⟨S4x3072x1024, .f32⟩ : BufTy).Contents (Elt F)),
    binary main_v146 main_v147 main_v148 ((fun a b => concatenate S4x4096x1024 1 [⟨S4x1024x1024, a⟩, ⟨S4x3072x1024, b⟩] concatenates_S4x1024x1024_S4x3072x1024_S4x4096x1024_d1) : (⟨S4x1024x1024, .f32⟩ : BufTy).Contents (Elt F) → (⟨S4x3072x1024, .f32⟩ : BufTy).Contents (Elt F) → (⟨S4x4096x1024, .f32⟩ : BufTy).Contents (Elt F)),
    unary main_v143 main_v149 ((extractStridedSlice S4x1024x1024 ![0, 0, 0] · slices_S4x4096x1024_S4x1024x1024_0_0_0) : (⟨S4x4096x1024, .f32⟩ : BufTy).Contents (Elt F) → (⟨S4x1024x1024, .f32⟩ : BufTy).Contents (Elt F)),
    nullary main_cst_30 (constant S_ .f32 0x00000000#32),
    unary main_cst_30 main_v150 (broadcastInDim S4x1024x1024 ![] bcast_S_S4x1024x1024 : (⟨S_, .f32⟩ : BufTy).Contents (Elt F) → (⟨S4x1024x1024, .f32⟩ : BufTy).Contents (Elt F)),
    unary main_v143 main_v151 ((extractStridedSlice S4x3072x1024 ![0, 0, 0] · slices_S4x4096x1024_S4x3072x1024_0_0_0) : (⟨S4x4096x1024, .f32⟩ : BufTy).Contents (Elt F) → (⟨S4x3072x1024, .f32⟩ : BufTy).Contents (Elt F)),
    binary main_v150 main_v151 main_v152 ((fun a b => concatenate S4x4096x1024 1 [⟨S4x1024x1024, a⟩, ⟨S4x3072x1024, b⟩] concatenates_S4x1024x1024_S4x3072x1024_S4x4096x1024_d1) : (⟨S4x1024x1024, .f32⟩ : BufTy).Contents (Elt F) → (⟨S4x3072x1024, .f32⟩ : BufTy).Contents (Elt F) → (⟨S4x4096x1024, .f32⟩ : BufTy).Contents (Elt F)),
    binary main_v144 main_v152 main_v153 (mulf : (⟨S4x4096x1024, .f32⟩ : BufTy).Contents (Elt F) → (⟨S4x4096x1024, .f32⟩ : BufTy).Contents (Elt F) → (⟨S4x4096x1024, .f32⟩ : BufTy).Contents (Elt F)),
    binary main_v153 main_v143 main_v154 (addf : (⟨S4x4096x1024, .f32⟩ : BufTy).Contents (Elt F) → (⟨S4x4096x1024, .f32⟩ : BufTy).Contents (Elt F) → (⟨S4x4096x1024, .f32⟩ : BufTy).Contents (Elt F)),
    binary main_v144 main_v148 main_v155 (mulf : (⟨S4x4096x1024, .f32⟩ : BufTy).Contents (Elt F) → (⟨S4x4096x1024, .f32⟩ : BufTy).Contents (Elt F) → (⟨S4x4096x1024, .f32⟩ : BufTy).Contents (Elt F)) ]

/-- Doubling round 11 of the scan over time: both coefficient arrays shifted by 2048 steps (ones, zeros shifted in) and combined. -/
abbrev r11 : List (HloOp τ sig (Elt F)) :=
  [ unary main_v155 main_v156 ((extractStridedSlice S4x2048x1024 ![0, 0, 0] · slices_S4x4096x1024_S4x2048x1024_0_0_0) : (⟨S4x4096x1024, .f32⟩ : BufTy).Contents (Elt F) → (⟨S4x2048x1024, .f32⟩ : BufTy).Contents (Elt F)),
    nullary main_cst_31 (constant S_ .f32 0x3F800000#32),
    unary main_cst_31 main_v157 (broadcastInDim S4x2048x1024 ![] bcast_S_S4x2048x1024 : (⟨S_, .f32⟩ : BufTy).Contents (Elt F) → (⟨S4x2048x1024, .f32⟩ : BufTy).Contents (Elt F)),
    unary main_v155 main_v158 ((extractStridedSlice S4x2048x1024 ![0, 0, 0] · slices_S4x4096x1024_S4x2048x1024_0_0_0) : (⟨S4x4096x1024, .f32⟩ : BufTy).Contents (Elt F) → (⟨S4x2048x1024, .f32⟩ : BufTy).Contents (Elt F)),
    binary main_v157 main_v158 main_v159 ((fun a b => concatenate S4x4096x1024 1 [⟨S4x2048x1024, a⟩, ⟨S4x2048x1024, b⟩] concatenates_S4x2048x1024_S4x2048x1024_S4x4096x1024_d1) : (⟨S4x2048x1024, .f32⟩ : BufTy).Contents (Elt F) → (⟨S4x2048x1024, .f32⟩ : BufTy).Contents (Elt F) → (⟨S4x4096x1024, .f32⟩ : BufTy).Contents (Elt F)),
    unary main_v154 main_v160 ((extractStridedSlice S4x2048x1024 ![0, 0, 0] · slices_S4x4096x1024_S4x2048x1024_0_0_0) : (⟨S4x4096x1024, .f32⟩ : BufTy).Contents (Elt F) → (⟨S4x2048x1024, .f32⟩ : BufTy).Contents (Elt F)),
    nullary main_cst_32 (constant S_ .f32 0x00000000#32),
    unary main_cst_32 main_v161 (broadcastInDim S4x2048x1024 ![] bcast_S_S4x2048x1024 : (⟨S_, .f32⟩ : BufTy).Contents (Elt F) → (⟨S4x2048x1024, .f32⟩ : BufTy).Contents (Elt F)),
    unary main_v154 main_v162 ((extractStridedSlice S4x2048x1024 ![0, 0, 0] · slices_S4x4096x1024_S4x2048x1024_0_0_0) : (⟨S4x4096x1024, .f32⟩ : BufTy).Contents (Elt F) → (⟨S4x2048x1024, .f32⟩ : BufTy).Contents (Elt F)),
    binary main_v161 main_v162 main_v163 ((fun a b => concatenate S4x4096x1024 1 [⟨S4x2048x1024, a⟩, ⟨S4x2048x1024, b⟩] concatenates_S4x2048x1024_S4x2048x1024_S4x4096x1024_d1) : (⟨S4x2048x1024, .f32⟩ : BufTy).Contents (Elt F) → (⟨S4x2048x1024, .f32⟩ : BufTy).Contents (Elt F) → (⟨S4x4096x1024, .f32⟩ : BufTy).Contents (Elt F)),
    binary main_v155 main_v163 main_v164 (mulf : (⟨S4x4096x1024, .f32⟩ : BufTy).Contents (Elt F) → (⟨S4x4096x1024, .f32⟩ : BufTy).Contents (Elt F) → (⟨S4x4096x1024, .f32⟩ : BufTy).Contents (Elt F)),
    binary main_v164 main_v154 main_v165 (addf : (⟨S4x4096x1024, .f32⟩ : BufTy).Contents (Elt F) → (⟨S4x4096x1024, .f32⟩ : BufTy).Contents (Elt F) → (⟨S4x4096x1024, .f32⟩ : BufTy).Contents (Elt F)),
    binary main_v155 main_v159 main_v166 (mulf : (⟨S4x4096x1024, .f32⟩ : BufTy).Contents (Elt F) → (⟨S4x4096x1024, .f32⟩ : BufTy).Contents (Elt F) → (⟨S4x4096x1024, .f32⟩ : BufTy).Contents (Elt F)) ]

/-- The lines that ternarise the output weights (%167 to %178). -/
abbrev sWo : List (HloOp τ sig (Elt F)) :=
  [ unary main_arg2 main_v167 (Host.absf : (⟨S1024x1024, .f32⟩ : BufTy).Contents (Elt F) → (⟨S1024x1024, .f32⟩ : BufTy).Contents (Elt F)),
    nullary main_cst_33 (constant S_ .f32 0x00000000#32),
    binary main_v167 main_cst_33 main_v168 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
    nullary main_cst_34 (constant S_ .f32 0x49800000#32),
    binary main_v168 main_cst_34 main_v169 (Host.divf : (⟨S_, .f32⟩ : BufTy).Contents (Elt F) → (⟨S_, .f32⟩ : BufTy).Contents (Elt F) → (⟨S_, .f32⟩ : BufTy).Contents (Elt F)),
    nullary main_cst_35 (constant S_ .f32 0x322BCC77#32),
    binary main_v169 main_cst_35 main_v170 (addf : (⟨S_, .f32⟩ : BufTy).Contents (Elt F) → (⟨S_, .f32⟩ : BufTy).Contents (Elt F) → (⟨S_, .f32⟩ : BufTy).Contents (Elt F)),
    unary main_v170 main_v171 (broadcastInDim S1024x1024 ![] bcast_S_S1024x1024 : (⟨S_, .f32⟩ : BufTy).Contents (Elt F) → (⟨S1024x1024, .f32⟩ : BufTy).Contents (Elt F)),
    binary main_arg2 main_v171 main_v172 (Host.divf : (⟨S1024x1024, .f32⟩ : BufTy).Contents (Elt F) → (⟨S1024x1024, .f32⟩ : BufTy).Contents (Elt F) → (⟨S1024x1024, .f32⟩ : BufTy).Contents (Elt F)),
    TRef.unary (TRef.of (T := ⟨S1024x1024, .f32⟩) main_v172) (TRef.of (T := ⟨S1024x1024, .f32⟩) main_v173) Host.roundeven,
    nullary main_cst_36 (constant S_ .f32 0xBF800000#32),
    nullary main_cst_37 (constant S_ .f32 0x3F800000#32),
    TRef.unary (TRef.of (T := ⟨S_, .f32⟩) main_cst_36) (TRef.of (T := ⟨S_, .f32⟩) main_call4_v0) id,
    TRef.unary (TRef.of (T := ⟨S_, .f32⟩) main_call4_v0) (TRef.of (T := ⟨S1024x1024, .f32⟩) main_call4_v1) (broadcastInDim S1024x1024 ![] bcast_S_S1024x1024),
    TRef.binary (TRef.of (T := ⟨S1024x1024, .f32⟩) main_call4_v1) (TRef.of (T := ⟨S1024x1024, .f32⟩) main_v173) (TRef.of (T := ⟨S1024x1024, .f32⟩) main_call4_v2) maximumf,
    TRef.unary (TRef.of (T := ⟨S_, .f32⟩) main_cst_37) (TRef.of (T := ⟨S_, .f32⟩) main_call4_v3) id,
    TRef.unary (TRef.of (T := ⟨S_, .f32⟩) main_call4_v3) (TRef.of (T := ⟨S1024x1024, .f32⟩) main_call4_v4) (broadcastInDim S1024x1024 ![] bcast_S_S1024x1024),
    TRef.binary (TRef.of (T := ⟨S1024x1024, .f32⟩) main_call4_v4) (TRef.of (T := ⟨S1024x1024, .f32⟩) main_call4_v2) (TRef.of (T := ⟨S1024x1024, .f32⟩) main_v174) minimumf,
    unary main_v170 main_v175 (broadcastInDim S1024x1024 ![] bcast_S_S1024x1024 : (⟨S_, .f32⟩ : BufTy).Contents (Elt F) → (⟨S1024x1024, .f32⟩ : BufTy).Contents (Elt F)),
    binary main_v174 main_v175 main_v176 (mulf : (⟨S1024x1024, .f32⟩ : BufTy).Contents (Elt F) → (⟨S1024x1024, .f32⟩ : BufTy).Contents (Elt F) → (⟨S1024x1024, .f32⟩ : BufTy).Contents (Elt F)),
    binary main_v176 main_arg2 main_v177 (subf : (⟨S1024x1024, .f32⟩ : BufTy).Contents (Elt F) → (⟨S1024x1024, .f32⟩ : BufTy).Contents (Elt F) → (⟨S1024x1024, .f32⟩ : BufTy).Contents (Elt F)),
    binary main_arg2 main_v177 main_v178 (addf : (⟨S1024x1024, .f32⟩ : BufTy).Contents (Elt F) → (⟨S1024x1024, .f32⟩ : BufTy).Contents (Elt F) → (⟨S1024x1024, .f32⟩ : BufTy).Contents (Elt F)) ]

/-- The gated hidden state and the output projection (%179, %180). -/
abbrev sTail : List (HloOp τ sig (Elt F)) :=
  [ binary main_v165 main_v31 main_v179 (mulf : (⟨S4x4096x1024, .f32⟩ : BufTy).Contents (Elt F) → (⟨S4x4096x1024, .f32⟩ : BufTy).Contents (Elt F) → (⟨S4x4096x1024, .f32⟩ : BufTy).Contents (Elt F)),
    binary main_v179 main_v178 main_v180 ((fun l r => Host.dotGeneral dot_S4x4096x1024_S1024x1024_S4x4096x1024_2_1_01_0_n_n none l r) : (⟨S4x4096x1024, .f32⟩ : BufTy).Contents (Elt F) → (⟨S1024x1024, .f32⟩ : BufTy).Contents (Elt F) → (⟨S4x4096x1024, .f32⟩ : BufTy).Contents (Elt F)) ]

/-- The program's 238 operations in order: the stretches end to end. -/
abbrev ops : List (HloOp τ sig (Elt F)) :=
  sWg ++ (sGates ++ (r0 ++ (r1 ++ (r2 ++ (r3 ++ (r4 ++ (r5 ++ (r6 ++ (r7 ++ (r8 ++ (r9 ++ (r10 ++ (r11 ++ (sWo ++ (sTail)))))))))))))))

theorem sWg_sub : (sWg : List (HloOp τ sig (Elt F))).Forall fun op => op.bufs ⊆ tcRefs τ sig :=
  ⟨unary_bufs_sub .., nullary_bufs_sub .., binary_bufs_sub .., nullary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub ..⟩
theorem sWg_fresh : (sWg : List (HloOp τ sig (Elt F))).Forall fun op => op.fresh = ∅ := by
  simp only [List.Forall]; repeat' constructor
theorem sGates_sub : (sGates : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub ..⟩
theorem sGates_fresh : (sGates : List (HloOp τ sig (Elt F))).Forall fun op => op.fresh = ∅ := by
  simp only [List.Forall]; repeat' constructor
theorem r0_sub : (r0 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., binary_bufs_sub .., binary_bufs_sub .., binary_bufs_sub .., binary_bufs_sub ..⟩
theorem r0_fresh : (r0 : List (HloOp τ sig (Elt F))).Forall fun op => op.fresh = ∅ := by
  simp only [List.Forall]; repeat' constructor
theorem r1_sub : (r1 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., binary_bufs_sub .., binary_bufs_sub .., binary_bufs_sub .., binary_bufs_sub ..⟩
theorem r1_fresh : (r1 : List (HloOp τ sig (Elt F))).Forall fun op => op.fresh = ∅ := by
  simp only [List.Forall]; repeat' constructor
theorem r2_sub : (r2 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., binary_bufs_sub .., binary_bufs_sub .., binary_bufs_sub .., binary_bufs_sub ..⟩
theorem r2_fresh : (r2 : List (HloOp τ sig (Elt F))).Forall fun op => op.fresh = ∅ := by
  simp only [List.Forall]; repeat' constructor
theorem r3_sub : (r3 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., binary_bufs_sub .., binary_bufs_sub .., binary_bufs_sub .., binary_bufs_sub ..⟩
theorem r3_fresh : (r3 : List (HloOp τ sig (Elt F))).Forall fun op => op.fresh = ∅ := by
  simp only [List.Forall]; repeat' constructor
theorem r4_sub : (r4 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., binary_bufs_sub .., binary_bufs_sub .., binary_bufs_sub .., binary_bufs_sub ..⟩
theorem r4_fresh : (r4 : List (HloOp τ sig (Elt F))).Forall fun op => op.fresh = ∅ := by
  simp only [List.Forall]; repeat' constructor
theorem r5_sub : (r5 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., binary_bufs_sub .., binary_bufs_sub .., binary_bufs_sub .., binary_bufs_sub ..⟩
theorem r5_fresh : (r5 : List (HloOp τ sig (Elt F))).Forall fun op => op.fresh = ∅ := by
  simp only [List.Forall]; repeat' constructor
theorem r6_sub : (r6 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., binary_bufs_sub .., binary_bufs_sub .., binary_bufs_sub .., binary_bufs_sub ..⟩
theorem r6_fresh : (r6 : List (HloOp τ sig (Elt F))).Forall fun op => op.fresh = ∅ := by
  simp only [List.Forall]; repeat' constructor
theorem r7_sub : (r7 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., binary_bufs_sub .., binary_bufs_sub .., binary_bufs_sub .., binary_bufs_sub ..⟩
theorem r7_fresh : (r7 : List (HloOp τ sig (Elt F))).Forall fun op => op.fresh = ∅ := by
  simp only [List.Forall]; repeat' constructor
theorem r8_sub : (r8 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., binary_bufs_sub .., binary_bufs_sub .., binary_bufs_sub .., binary_bufs_sub ..⟩
theorem r8_fresh : (r8 : List (HloOp τ sig (Elt F))).Forall fun op => op.fresh = ∅ := by
  simp only [List.Forall]; repeat' constructor
theorem r9_sub : (r9 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., binary_bufs_sub .., binary_bufs_sub .., binary_bufs_sub .., binary_bufs_sub ..⟩
theorem r9_fresh : (r9 : List (HloOp τ sig (Elt F))).Forall fun op => op.fresh = ∅ := by
  simp only [List.Forall]; repeat' constructor
theorem r10_sub : (r10 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., binary_bufs_sub .., binary_bufs_sub .., binary_bufs_sub .., binary_bufs_sub ..⟩
theorem r10_fresh : (r10 : List (HloOp τ sig (Elt F))).Forall fun op => op.fresh = ∅ := by
  simp only [List.Forall]; repeat' constructor
theorem r11_sub : (r11 : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., unary_bufs_sub .., unary_bufs_sub .., binary_bufs_sub .., binary_bufs_sub .., binary_bufs_sub .., binary_bufs_sub ..⟩
theorem r11_fresh : (r11 : List (HloOp τ sig (Elt F))).Forall fun op => op.fresh = ∅ := by
  simp only [List.Forall]; repeat' constructor
theorem sWo_sub : (sWo : List (HloOp τ sig (Elt F))).Forall fun op => op.bufs ⊆ tcRefs τ sig :=
  ⟨unary_bufs_sub .., nullary_bufs_sub .., binary_bufs_sub .., nullary_bufs_sub .., binary_bufs_sub .., nullary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., binary_bufs_sub .., binary_bufs_sub ..⟩
theorem sWo_fresh : (sWo : List (HloOp τ sig (Elt F))).Forall fun op => op.fresh = ∅ := by
  simp only [List.Forall]; repeat' constructor
theorem sTail_sub : (sTail : List (HloOp τ sig (Elt F))).Forall fun op => op.bufs ⊆ tcRefs τ sig :=
  ⟨binary_bufs_sub .., binary_bufs_sub ..⟩
theorem sTail_fresh : (sTail : List (HloOp τ sig (Elt F))).Forall fun op => op.fresh = ∅ := by
  simp only [List.Forall]; repeat' constructor

/-- Each operation touches TensorCore references only. -/
theorem ops_sub : (ops : List (HloOp τ sig (Elt F))).Forall fun op => op.bufs ⊆ tcRefs τ sig := by
  simp only [ops, List.forall_append]
  exact ⟨sWg_sub, sGates_sub, r0_sub, r1_sub, r2_sub, r3_sub, r4_sub, r5_sub, r6_sub, r7_sub, r8_sub, r9_sub, r10_sub, r11_sub, sWo_sub, sTail_sub⟩
/-- Each operation determines its results. -/
theorem ops_fresh : ∀ op ∈ (ops : List (HloOp τ sig (Elt F))), op.fresh = ∅ := by
  refine List.forall_iff_forall_mem.mp ?_
  simp only [ops, List.forall_append]
  exact ⟨sWg_fresh, sGates_fresh, r0_fresh, r1_fresh, r2_fresh, r3_fresh, r4_fresh, r5_fresh, r6_fresh, r7_fresh, r8_fresh, r9_fresh, r10_fresh, r11_fresh, sWo_fresh, sTail_fresh⟩

/-! ## The program is the line -/

theorem seq_bind_pure {nD : Nat} {τ : Topo} {sig : RefSig} {Val : EltTy → Type} {Λ : Labels} (l : List (HloOp τ sig Val)) :
    ((seq l : Prog (TpuEff nD τ sig Val Λ .tc) PUnit) >>= fun _ => pure ⟨⟩) = seq l := by
  have h := seq_append (nD := nD) (Λ := Λ) l []
  rw [List.append_nil] at h
  exact h.symm

set_option maxRecDepth 8192 in
/-- The program is its stretches run one after the other: both sides unfold to the same sequence of steps. -/
theorem main_chain (c : Dev nD) : main (F := F) c = (Pipeline.chain
  [ seq sWg,
    seq sGates,
    seq r0,
    seq r1,
    seq r2,
    seq r3,
    seq r4,
    seq r5,
    seq r6,
    seq r7,
    seq r8,
    seq r9,
    seq r10,
    seq r11,
    seq sWo,
    seq sTail ] : Prog (TpuEff nD τ sig (Elt F) (Pipeline.Sig Λ₀ (Fin 0) fun p => (pcfgs (F := F) p).Adm) .tc) PUnit) := by
  chain_rfl

/-- The program is the line of its operations. -/
theorem main_eq (c : Dev nD) : main (F := F) c = seq ops := by
  rw [main_chain]
  simp only [ops, Pipeline.chain_cons, Pipeline.chain_nil, seq_append, seq_bind_pure]

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every weakly fair execution terminates with each buffer at the fold of the operations' results over the launch contents. -/
theorem ends (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

theorem after_append {τ : Topo} {sig : RefSig} {Val : EltTy → Type} (A B : List (HloOp τ sig Val)) (W : Valuation τ sig Val) :
    StableHlo.after (A ++ B) W = StableHlo.after B (StableHlo.after A W) := by
  induction A generalizing W with
  | nil => rfl
  | cons a A ih => simp only [List.cons_append, StableHlo.after_cons, ih]

/-! ## Each stretch over an arbitrary valuation

A stretch's result, at the buffers later stretches read, is the named stage of the arguments as soon as the buffers it
reads hold their stages; the buffers it does not write keep what they hold. -/

/-- A two-piece concatenation depends on its pieces only through their values. -/
theorem concatenate_pair_congr {α : Type} {t s₁ s₂ : Shape} {a : Fin t.rank} {x₁ x₁' : s₁.Idx → α} {x₂ x₂' : s₂.Idx → α}
    (h₁ : x₁ = x₁') (h₂ : x₂ = x₂') (h : Shape.Concatenates [s₁, s₂] t a) :
    concatenate t a [⟨s₁, x₁⟩, ⟨s₂, x₂⟩] h = concatenate t a [⟨s₁, x₁'⟩, ⟨s₂, x₂'⟩] h := by
  subst h₁; subst h₂; rfl
attribute [local congr] concatenate_pair_congr

theorem sWg_main_v11 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_arg1) = x1) :
    StableHlo.after (sWg (F := F)) W (Proc.devRef .tc main_v11) = Stages.val_main_v11 (F := F) x1 := by
  simp only [sWg]
  after_results_simp
  simp only [h0]
  rfl
theorem sWg_keeps_main_arg0 (W : Valuation τ sig (Elt F)) :
    StableHlo.after (sWg (F := F)) W (Proc.devRef .tc main_arg0) = W (Proc.devRef .tc main_arg0) := by
  simp only [sWg]
  after_results_simp
theorem sWg_keeps_main_arg1 (W : Valuation τ sig (Elt F)) :
    StableHlo.after (sWg (F := F)) W (Proc.devRef .tc main_arg1) = W (Proc.devRef .tc main_arg1) := by
  simp only [sWg]
  after_results_simp
theorem sWg_keeps_main_arg2 (W : Valuation τ sig (Elt F)) :
    StableHlo.after (sWg (F := F)) W (Proc.devRef .tc main_arg2) = W (Proc.devRef .tc main_arg2) := by
  simp only [sWg]
  after_results_simp
theorem sWg_keeps_main_arg3 (W : Valuation τ sig (Elt F)) :
    StableHlo.after (sWg (F := F)) W (Proc.devRef .tc main_arg3) = W (Proc.devRef .tc main_arg3) := by
  simp only [sWg]
  after_results_simp

theorem sGates_main_v22 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_arg0) = x0)
    (h1 : W (Proc.devRef .tc main_v11) = Stages.val_main_v11 (F := F) x1)
    (h2 : W (Proc.devRef .tc main_arg3) = x3) :
    StableHlo.after (sGates (F := F)) W (Proc.devRef .tc main_v22) = Stages.val_main_v22 (F := F) x0 x1 x3 := by
  simp only [sGates]
  after_results_simp
  simp only [h0, h1, h2]
  rfl
theorem sGates_main_v34 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_arg0) = x0)
    (h1 : W (Proc.devRef .tc main_v11) = Stages.val_main_v11 (F := F) x1)
    (h2 : W (Proc.devRef .tc main_arg3) = x3) :
    StableHlo.after (sGates (F := F)) W (Proc.devRef .tc main_v34) = Stages.val_main_v34 (F := F) x0 x1 x3 := by
  simp only [sGates]
  after_results_simp
  simp only [h0, h1, h2]
  rfl
theorem sGates_main_v31 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_arg0) = x0)
    (h1 : W (Proc.devRef .tc main_v11) = Stages.val_main_v11 (F := F) x1)
    (h2 : W (Proc.devRef .tc main_arg3) = x3) :
    StableHlo.after (sGates (F := F)) W (Proc.devRef .tc main_v31) = Stages.val_main_v31 (F := F) x0 x1 := by
  simp only [sGates]
  after_results_simp
  simp only [h0, h1, h2]
  rfl
theorem sGates_keeps_main_arg0 (W : Valuation τ sig (Elt F)) :
    StableHlo.after (sGates (F := F)) W (Proc.devRef .tc main_arg0) = W (Proc.devRef .tc main_arg0) := by
  simp only [sGates]
  after_results_simp
theorem sGates_keeps_main_arg1 (W : Valuation τ sig (Elt F)) :
    StableHlo.after (sGates (F := F)) W (Proc.devRef .tc main_arg1) = W (Proc.devRef .tc main_arg1) := by
  simp only [sGates]
  after_results_simp
theorem sGates_keeps_main_arg2 (W : Valuation τ sig (Elt F)) :
    StableHlo.after (sGates (F := F)) W (Proc.devRef .tc main_arg2) = W (Proc.devRef .tc main_arg2) := by
  simp only [sGates]
  after_results_simp
theorem sGates_keeps_main_arg3 (W : Valuation τ sig (Elt F)) :
    StableHlo.after (sGates (F := F)) W (Proc.devRef .tc main_arg3) = W (Proc.devRef .tc main_arg3) := by
  simp only [sGates]
  after_results_simp

theorem r0_main_v44 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v22) = Stages.val_main_v22 (F := F) x0 x1 x3)
    (h1 : W (Proc.devRef .tc main_v34) = Stages.val_main_v34 (F := F) x0 x1 x3) :
    StableHlo.after (r0 (F := F)) W (Proc.devRef .tc main_v44) = Stages.val_main_v44 (F := F) x0 x1 x3 := by
  simp only [r0]
  after_results_simp
  simp only [h0, h1]
  rfl
theorem r0_main_v45 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v22) = Stages.val_main_v22 (F := F) x0 x1 x3)
    (h1 : W (Proc.devRef .tc main_v34) = Stages.val_main_v34 (F := F) x0 x1 x3) :
    StableHlo.after (r0 (F := F)) W (Proc.devRef .tc main_v45) = Stages.val_main_v45 (F := F) x0 x1 x3 := by
  simp only [r0]
  after_results_simp
  simp only [h0, h1]
  rfl
theorem r0_keeps_main_v31 (W : Valuation τ sig (Elt F)) :
    StableHlo.after (r0 (F := F)) W (Proc.devRef .tc main_v31) = W (Proc.devRef .tc main_v31) := by
  simp only [r0]
  after_results_simp
theorem r0_keeps_main_arg0 (W : Valuation τ sig (Elt F)) :
    StableHlo.after (r0 (F := F)) W (Proc.devRef .tc main_arg0) = W (Proc.devRef .tc main_arg0) := by
  simp only [r0]
  after_results_simp
theorem r0_keeps_main_arg1 (W : Valuation τ sig (Elt F)) :
    StableHlo.after (r0 (F := F)) W (Proc.devRef .tc main_arg1) = W (Proc.devRef .tc main_arg1) := by
  simp only [r0]
  after_results_simp
theorem r0_keeps_main_arg2 (W : Valuation τ sig (Elt F)) :
    StableHlo.after (r0 (F := F)) W (Proc.devRef .tc main_arg2) = W (Proc.devRef .tc main_arg2) := by
  simp only [r0]
  after_results_simp
theorem r0_keeps_main_arg3 (W : Valuation τ sig (Elt F)) :
    StableHlo.after (r0 (F := F)) W (Proc.devRef .tc main_arg3) = W (Proc.devRef .tc main_arg3) := by
  simp only [r0]
  after_results_simp

theorem r1_main_v55 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v45) = Stages.val_main_v45 (F := F) x0 x1 x3)
    (h1 : W (Proc.devRef .tc main_v44) = Stages.val_main_v44 (F := F) x0 x1 x3) :
    StableHlo.after (r1 (F := F)) W (Proc.devRef .tc main_v55) = Stages.val_main_v55 (F := F) x0 x1 x3 := by
  simp only [r1]
  after_results_simp
  simp only [h0, h1]
  rfl
theorem r1_main_v56 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v45) = Stages.val_main_v45 (F := F) x0 x1 x3)
    (h1 : W (Proc.devRef .tc main_v44) = Stages.val_main_v44 (F := F) x0 x1 x3) :
    StableHlo.after (r1 (F := F)) W (Proc.devRef .tc main_v56) = Stages.val_main_v56 (F := F) x0 x1 x3 := by
  simp only [r1]
  after_results_simp
  simp only [h0, h1]
  rfl
theorem r1_keeps_main_v31 (W : Valuation τ sig (Elt F)) :
    StableHlo.after (r1 (F := F)) W (Proc.devRef .tc main_v31) = W (Proc.devRef .tc main_v31) := by
  simp only [r1]
  after_results_simp
theorem r1_keeps_main_arg0 (W : Valuation τ sig (Elt F)) :
    StableHlo.after (r1 (F := F)) W (Proc.devRef .tc main_arg0) = W (Proc.devRef .tc main_arg0) := by
  simp only [r1]
  after_results_simp
theorem r1_keeps_main_arg1 (W : Valuation τ sig (Elt F)) :
    StableHlo.after (r1 (F := F)) W (Proc.devRef .tc main_arg1) = W (Proc.devRef .tc main_arg1) := by
  simp only [r1]
  after_results_simp
theorem r1_keeps_main_arg2 (W : Valuation τ sig (Elt F)) :
    StableHlo.after (r1 (F := F)) W (Proc.devRef .tc main_arg2) = W (Proc.devRef .tc main_arg2) := by
  simp only [r1]
  after_results_simp
theorem r1_keeps_main_arg3 (W : Valuation τ sig (Elt F)) :
    StableHlo.after (r1 (F := F)) W (Proc.devRef .tc main_arg3) = W (Proc.devRef .tc main_arg3) := by
  simp only [r1]
  after_results_simp

theorem r2_main_v66 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v56) = Stages.val_main_v56 (F := F) x0 x1 x3)
    (h1 : W (Proc.devRef .tc main_v55) = Stages.val_main_v55 (F := F) x0 x1 x3) :
    StableHlo.after (r2 (F := F)) W (Proc.devRef .tc main_v66) = Stages.val_main_v66 (F := F) x0 x1 x3 := by
  simp only [r2]
  after_results_simp
  simp only [h0, h1]
  rfl
theorem r2_main_v67 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v56) = Stages.val_main_v56 (F := F) x0 x1 x3)
    (h1 : W (Proc.devRef .tc main_v55) = Stages.val_main_v55 (F := F) x0 x1 x3) :
    StableHlo.after (r2 (F := F)) W (Proc.devRef .tc main_v67) = Stages.val_main_v67 (F := F) x0 x1 x3 := by
  simp only [r2]
  after_results_simp
  simp only [h0, h1]
  rfl
theorem r2_keeps_main_v31 (W : Valuation τ sig (Elt F)) :
    StableHlo.after (r2 (F := F)) W (Proc.devRef .tc main_v31) = W (Proc.devRef .tc main_v31) := by
  simp only [r2]
  after_results_simp
theorem r2_keeps_main_arg0 (W : Valuation τ sig (Elt F)) :
    StableHlo.after (r2 (F := F)) W (Proc.devRef .tc main_arg0) = W (Proc.devRef .tc main_arg0) := by
  simp only [r2]
  after_results_simp
theorem r2_keeps_main_arg1 (W : Valuation τ sig (Elt F)) :
    StableHlo.after (r2 (F := F)) W (Proc.devRef .tc main_arg1) = W (Proc.devRef .tc main_arg1) := by
  simp only [r2]
  after_results_simp
theorem r2_keeps_main_arg2 (W : Valuation τ sig (Elt F)) :
    StableHlo.after (r2 (F := F)) W (Proc.devRef .tc main_arg2) = W (Proc.devRef .tc main_arg2) := by
  simp only [r2]
  after_results_simp
theorem r2_keeps_main_arg3 (W : Valuation τ sig (Elt F)) :
    StableHlo.after (r2 (F := F)) W (Proc.devRef .tc main_arg3) = W (Proc.devRef .tc main_arg3) := by
  simp only [r2]
  after_results_simp

theorem r3_main_v77 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v67) = Stages.val_main_v67 (F := F) x0 x1 x3)
    (h1 : W (Proc.devRef .tc main_v66) = Stages.val_main_v66 (F := F) x0 x1 x3) :
    StableHlo.after (r3 (F := F)) W (Proc.devRef .tc main_v77) = Stages.val_main_v77 (F := F) x0 x1 x3 := by
  simp only [r3]
  after_results_simp
  simp only [h0, h1]
  rfl
theorem r3_main_v78 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v67) = Stages.val_main_v67 (F := F) x0 x1 x3)
    (h1 : W (Proc.devRef .tc main_v66) = Stages.val_main_v66 (F := F) x0 x1 x3) :
    StableHlo.after (r3 (F := F)) W (Proc.devRef .tc main_v78) = Stages.val_main_v78 (F := F) x0 x1 x3 := by
  simp only [r3]
  after_results_simp
  simp only [h0, h1]
  rfl
theorem r3_keeps_main_v31 (W : Valuation τ sig (Elt F)) :
    StableHlo.after (r3 (F := F)) W (Proc.devRef .tc main_v31) = W (Proc.devRef .tc main_v31) := by
  simp only [r3]
  after_results_simp
theorem r3_keeps_main_arg0 (W : Valuation τ sig (Elt F)) :
    StableHlo.after (r3 (F := F)) W (Proc.devRef .tc main_arg0) = W (Proc.devRef .tc main_arg0) := by
  simp only [r3]
  after_results_simp
theorem r3_keeps_main_arg1 (W : Valuation τ sig (Elt F)) :
    StableHlo.after (r3 (F := F)) W (Proc.devRef .tc main_arg1) = W (Proc.devRef .tc main_arg1) := by
  simp only [r3]
  after_results_simp
theorem r3_keeps_main_arg2 (W : Valuation τ sig (Elt F)) :
    StableHlo.after (r3 (F := F)) W (Proc.devRef .tc main_arg2) = W (Proc.devRef .tc main_arg2) := by
  simp only [r3]
  after_results_simp
theorem r3_keeps_main_arg3 (W : Valuation τ sig (Elt F)) :
    StableHlo.after (r3 (F := F)) W (Proc.devRef .tc main_arg3) = W (Proc.devRef .tc main_arg3) := by
  simp only [r3]
  after_results_simp

theorem r4_main_v88 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v78) = Stages.val_main_v78 (F := F) x0 x1 x3)
    (h1 : W (Proc.devRef .tc main_v77) = Stages.val_main_v77 (F := F) x0 x1 x3) :
    StableHlo.after (r4 (F := F)) W (Proc.devRef .tc main_v88) = Stages.val_main_v88 (F := F) x0 x1 x3 := by
  simp only [r4]
  after_results_simp
  simp only [h0, h1]
  rfl
theorem r4_main_v89 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v78) = Stages.val_main_v78 (F := F) x0 x1 x3)
    (h1 : W (Proc.devRef .tc main_v77) = Stages.val_main_v77 (F := F) x0 x1 x3) :
    StableHlo.after (r4 (F := F)) W (Proc.devRef .tc main_v89) = Stages.val_main_v89 (F := F) x0 x1 x3 := by
  simp only [r4]
  after_results_simp
  simp only [h0, h1]
  rfl
theorem r4_keeps_main_v31 (W : Valuation τ sig (Elt F)) :
    StableHlo.after (r4 (F := F)) W (Proc.devRef .tc main_v31) = W (Proc.devRef .tc main_v31) := by
  simp only [r4]
  after_results_simp
theorem r4_keeps_main_arg0 (W : Valuation τ sig (Elt F)) :
    StableHlo.after (r4 (F := F)) W (Proc.devRef .tc main_arg0) = W (Proc.devRef .tc main_arg0) := by
  simp only [r4]
  after_results_simp
theorem r4_keeps_main_arg1 (W : Valuation τ sig (Elt F)) :
    StableHlo.after (r4 (F := F)) W (Proc.devRef .tc main_arg1) = W (Proc.devRef .tc main_arg1) := by
  simp only [r4]
  after_results_simp
theorem r4_keeps_main_arg2 (W : Valuation τ sig (Elt F)) :
    StableHlo.after (r4 (F := F)) W (Proc.devRef .tc main_arg2) = W (Proc.devRef .tc main_arg2) := by
  simp only [r4]
  after_results_simp
theorem r4_keeps_main_arg3 (W : Valuation τ sig (Elt F)) :
    StableHlo.after (r4 (F := F)) W (Proc.devRef .tc main_arg3) = W (Proc.devRef .tc main_arg3) := by
  simp only [r4]
  after_results_simp

theorem r5_main_v99 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v89) = Stages.val_main_v89 (F := F) x0 x1 x3)
    (h1 : W (Proc.devRef .tc main_v88) = Stages.val_main_v88 (F := F) x0 x1 x3) :
    StableHlo.after (r5 (F := F)) W (Proc.devRef .tc main_v99) = Stages.val_main_v99 (F := F) x0 x1 x3 := by
  simp only [r5]
  after_results_simp
  simp only [h0, h1]
  rfl
theorem r5_main_v100 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v89) = Stages.val_main_v89 (F := F) x0 x1 x3)
    (h1 : W (Proc.devRef .tc main_v88) = Stages.val_main_v88 (F := F) x0 x1 x3) :
    StableHlo.after (r5 (F := F)) W (Proc.devRef .tc main_v100) = Stages.val_main_v100 (F := F) x0 x1 x3 := by
  simp only [r5]
  after_results_simp
  simp only [h0, h1]
  rfl
theorem r5_keeps_main_v31 (W : Valuation τ sig (Elt F)) :
    StableHlo.after (r5 (F := F)) W (Proc.devRef .tc main_v31) = W (Proc.devRef .tc main_v31) := by
  simp only [r5]
  after_results_simp
theorem r5_keeps_main_arg0 (W : Valuation τ sig (Elt F)) :
    StableHlo.after (r5 (F := F)) W (Proc.devRef .tc main_arg0) = W (Proc.devRef .tc main_arg0) := by
  simp only [r5]
  after_results_simp
theorem r5_keeps_main_arg1 (W : Valuation τ sig (Elt F)) :
    StableHlo.after (r5 (F := F)) W (Proc.devRef .tc main_arg1) = W (Proc.devRef .tc main_arg1) := by
  simp only [r5]
  after_results_simp
theorem r5_keeps_main_arg2 (W : Valuation τ sig (Elt F)) :
    StableHlo.after (r5 (F := F)) W (Proc.devRef .tc main_arg2) = W (Proc.devRef .tc main_arg2) := by
  simp only [r5]
  after_results_simp
theorem r5_keeps_main_arg3 (W : Valuation τ sig (Elt F)) :
    StableHlo.after (r5 (F := F)) W (Proc.devRef .tc main_arg3) = W (Proc.devRef .tc main_arg3) := by
  simp only [r5]
  after_results_simp

theorem r6_main_v110 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v100) = Stages.val_main_v100 (F := F) x0 x1 x3)
    (h1 : W (Proc.devRef .tc main_v99) = Stages.val_main_v99 (F := F) x0 x1 x3) :
    StableHlo.after (r6 (F := F)) W (Proc.devRef .tc main_v110) = Stages.val_main_v110 (F := F) x0 x1 x3 := by
  simp only [r6]
  after_results_simp
  simp only [h0, h1]
  rfl
theorem r6_main_v111 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v100) = Stages.val_main_v100 (F := F) x0 x1 x3)
    (h1 : W (Proc.devRef .tc main_v99) = Stages.val_main_v99 (F := F) x0 x1 x3) :
    StableHlo.after (r6 (F := F)) W (Proc.devRef .tc main_v111) = Stages.val_main_v111 (F := F) x0 x1 x3 := by
  simp only [r6]
  after_results_simp
  simp only [h0, h1]
  rfl
theorem r6_keeps_main_v31 (W : Valuation τ sig (Elt F)) :
    StableHlo.after (r6 (F := F)) W (Proc.devRef .tc main_v31) = W (Proc.devRef .tc main_v31) := by
  simp only [r6]
  after_results_simp
theorem r6_keeps_main_arg0 (W : Valuation τ sig (Elt F)) :
    StableHlo.after (r6 (F := F)) W (Proc.devRef .tc main_arg0) = W (Proc.devRef .tc main_arg0) := by
  simp only [r6]
  after_results_simp
theorem r6_keeps_main_arg1 (W : Valuation τ sig (Elt F)) :
    StableHlo.after (r6 (F := F)) W (Proc.devRef .tc main_arg1) = W (Proc.devRef .tc main_arg1) := by
  simp only [r6]
  after_results_simp
theorem r6_keeps_main_arg2 (W : Valuation τ sig (Elt F)) :
    StableHlo.after (r6 (F := F)) W (Proc.devRef .tc main_arg2) = W (Proc.devRef .tc main_arg2) := by
  simp only [r6]
  after_results_simp
theorem r6_keeps_main_arg3 (W : Valuation τ sig (Elt F)) :
    StableHlo.after (r6 (F := F)) W (Proc.devRef .tc main_arg3) = W (Proc.devRef .tc main_arg3) := by
  simp only [r6]
  after_results_simp

theorem r7_main_v121 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v111) = Stages.val_main_v111 (F := F) x0 x1 x3)
    (h1 : W (Proc.devRef .tc main_v110) = Stages.val_main_v110 (F := F) x0 x1 x3) :
    StableHlo.after (r7 (F := F)) W (Proc.devRef .tc main_v121) = Stages.val_main_v121 (F := F) x0 x1 x3 := by
  simp only [r7]
  after_results_simp
  simp only [h0, h1]
  rfl
theorem r7_main_v122 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v111) = Stages.val_main_v111 (F := F) x0 x1 x3)
    (h1 : W (Proc.devRef .tc main_v110) = Stages.val_main_v110 (F := F) x0 x1 x3) :
    StableHlo.after (r7 (F := F)) W (Proc.devRef .tc main_v122) = Stages.val_main_v122 (F := F) x0 x1 x3 := by
  simp only [r7]
  after_results_simp
  simp only [h0, h1]
  rfl
theorem r7_keeps_main_v31 (W : Valuation τ sig (Elt F)) :
    StableHlo.after (r7 (F := F)) W (Proc.devRef .tc main_v31) = W (Proc.devRef .tc main_v31) := by
  simp only [r7]
  after_results_simp
theorem r7_keeps_main_arg0 (W : Valuation τ sig (Elt F)) :
    StableHlo.after (r7 (F := F)) W (Proc.devRef .tc main_arg0) = W (Proc.devRef .tc main_arg0) := by
  simp only [r7]
  after_results_simp
theorem r7_keeps_main_arg1 (W : Valuation τ sig (Elt F)) :
    StableHlo.after (r7 (F := F)) W (Proc.devRef .tc main_arg1) = W (Proc.devRef .tc main_arg1) := by
  simp only [r7]
  after_results_simp
theorem r7_keeps_main_arg2 (W : Valuation τ sig (Elt F)) :
    StableHlo.after (r7 (F := F)) W (Proc.devRef .tc main_arg2) = W (Proc.devRef .tc main_arg2) := by
  simp only [r7]
  after_results_simp
theorem r7_keeps_main_arg3 (W : Valuation τ sig (Elt F)) :
    StableHlo.after (r7 (F := F)) W (Proc.devRef .tc main_arg3) = W (Proc.devRef .tc main_arg3) := by
  simp only [r7]
  after_results_simp

theorem r8_main_v132 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v122) = Stages.val_main_v122 (F := F) x0 x1 x3)
    (h1 : W (Proc.devRef .tc main_v121) = Stages.val_main_v121 (F := F) x0 x1 x3) :
    StableHlo.after (r8 (F := F)) W (Proc.devRef .tc main_v132) = Stages.val_main_v132 (F := F) x0 x1 x3 := by
  simp only [r8]
  after_results_simp
  simp only [h0, h1]
  rfl
theorem r8_main_v133 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v122) = Stages.val_main_v122 (F := F) x0 x1 x3)
    (h1 : W (Proc.devRef .tc main_v121) = Stages.val_main_v121 (F := F) x0 x1 x3) :
    StableHlo.after (r8 (F := F)) W (Proc.devRef .tc main_v133) = Stages.val_main_v133 (F := F) x0 x1 x3 := by
  simp only [r8]
  after_results_simp
  simp only [h0, h1]
  rfl
theorem r8_keeps_main_v31 (W : Valuation τ sig (Elt F)) :
    StableHlo.after (r8 (F := F)) W (Proc.devRef .tc main_v31) = W (Proc.devRef .tc main_v31) := by
  simp only [r8]
  after_results_simp
theorem r8_keeps_main_arg0 (W : Valuation τ sig (Elt F)) :
    StableHlo.after (r8 (F := F)) W (Proc.devRef .tc main_arg0) = W (Proc.devRef .tc main_arg0) := by
  simp only [r8]
  after_results_simp
theorem r8_keeps_main_arg1 (W : Valuation τ sig (Elt F)) :
    StableHlo.after (r8 (F := F)) W (Proc.devRef .tc main_arg1) = W (Proc.devRef .tc main_arg1) := by
  simp only [r8]
  after_results_simp
theorem r8_keeps_main_arg2 (W : Valuation τ sig (Elt F)) :
    StableHlo.after (r8 (F := F)) W (Proc.devRef .tc main_arg2) = W (Proc.devRef .tc main_arg2) := by
  simp only [r8]
  after_results_simp
theorem r8_keeps_main_arg3 (W : Valuation τ sig (Elt F)) :
    StableHlo.after (r8 (F := F)) W (Proc.devRef .tc main_arg3) = W (Proc.devRef .tc main_arg3) := by
  simp only [r8]
  after_results_simp

theorem r9_main_v143 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v133) = Stages.val_main_v133 (F := F) x0 x1 x3)
    (h1 : W (Proc.devRef .tc main_v132) = Stages.val_main_v132 (F := F) x0 x1 x3) :
    StableHlo.after (r9 (F := F)) W (Proc.devRef .tc main_v143) = Stages.val_main_v143 (F := F) x0 x1 x3 := by
  simp only [r9]
  after_results_simp
  simp only [h0, h1]
  rfl
theorem r9_main_v144 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v133) = Stages.val_main_v133 (F := F) x0 x1 x3)
    (h1 : W (Proc.devRef .tc main_v132) = Stages.val_main_v132 (F := F) x0 x1 x3) :
    StableHlo.after (r9 (F := F)) W (Proc.devRef .tc main_v144) = Stages.val_main_v144 (F := F) x0 x1 x3 := by
  simp only [r9]
  after_results_simp
  simp only [h0, h1]
  rfl
theorem r9_keeps_main_v31 (W : Valuation τ sig (Elt F)) :
    StableHlo.after (r9 (F := F)) W (Proc.devRef .tc main_v31) = W (Proc.devRef .tc main_v31) := by
  simp only [r9]
  after_results_simp
theorem r9_keeps_main_arg0 (W : Valuation τ sig (Elt F)) :
    StableHlo.after (r9 (F := F)) W (Proc.devRef .tc main_arg0) = W (Proc.devRef .tc main_arg0) := by
  simp only [r9]
  after_results_simp
theorem r9_keeps_main_arg1 (W : Valuation τ sig (Elt F)) :
    StableHlo.after (r9 (F := F)) W (Proc.devRef .tc main_arg1) = W (Proc.devRef .tc main_arg1) := by
  simp only [r9]
  after_results_simp
theorem r9_keeps_main_arg2 (W : Valuation τ sig (Elt F)) :
    StableHlo.after (r9 (F := F)) W (Proc.devRef .tc main_arg2) = W (Proc.devRef .tc main_arg2) := by
  simp only [r9]
  after_results_simp
theorem r9_keeps_main_arg3 (W : Valuation τ sig (Elt F)) :
    StableHlo.after (r9 (F := F)) W (Proc.devRef .tc main_arg3) = W (Proc.devRef .tc main_arg3) := by
  simp only [r9]
  after_results_simp

theorem r10_main_v154 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v144) = Stages.val_main_v144 (F := F) x0 x1 x3)
    (h1 : W (Proc.devRef .tc main_v143) = Stages.val_main_v143 (F := F) x0 x1 x3) :
    StableHlo.after (r10 (F := F)) W (Proc.devRef .tc main_v154) = Stages.val_main_v154 (F := F) x0 x1 x3 := by
  simp only [r10]
  after_results_simp
  simp only [h0, h1]
  rfl
theorem r10_main_v155 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v144) = Stages.val_main_v144 (F := F) x0 x1 x3)
    (h1 : W (Proc.devRef .tc main_v143) = Stages.val_main_v143 (F := F) x0 x1 x3) :
    StableHlo.after (r10 (F := F)) W (Proc.devRef .tc main_v155) = Stages.val_main_v155 (F := F) x0 x1 x3 := by
  simp only [r10]
  after_results_simp
  simp only [h0, h1]
  rfl
theorem r10_keeps_main_v31 (W : Valuation τ sig (Elt F)) :
    StableHlo.after (r10 (F := F)) W (Proc.devRef .tc main_v31) = W (Proc.devRef .tc main_v31) := by
  simp only [r10]
  after_results_simp
theorem r10_keeps_main_arg0 (W : Valuation τ sig (Elt F)) :
    StableHlo.after (r10 (F := F)) W (Proc.devRef .tc main_arg0) = W (Proc.devRef .tc main_arg0) := by
  simp only [r10]
  after_results_simp
theorem r10_keeps_main_arg1 (W : Valuation τ sig (Elt F)) :
    StableHlo.after (r10 (F := F)) W (Proc.devRef .tc main_arg1) = W (Proc.devRef .tc main_arg1) := by
  simp only [r10]
  after_results_simp
theorem r10_keeps_main_arg2 (W : Valuation τ sig (Elt F)) :
    StableHlo.after (r10 (F := F)) W (Proc.devRef .tc main_arg2) = W (Proc.devRef .tc main_arg2) := by
  simp only [r10]
  after_results_simp
theorem r10_keeps_main_arg3 (W : Valuation τ sig (Elt F)) :
    StableHlo.after (r10 (F := F)) W (Proc.devRef .tc main_arg3) = W (Proc.devRef .tc main_arg3) := by
  simp only [r10]
  after_results_simp

theorem r11_main_v165 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v155) = Stages.val_main_v155 (F := F) x0 x1 x3)
    (h1 : W (Proc.devRef .tc main_v154) = Stages.val_main_v154 (F := F) x0 x1 x3) :
    StableHlo.after (r11 (F := F)) W (Proc.devRef .tc main_v165) = Stages.val_main_v165 (F := F) x0 x1 x3 := by
  simp only [r11]
  after_results_simp
  simp only [h0, h1]
  rfl
theorem r11_keeps_main_v31 (W : Valuation τ sig (Elt F)) :
    StableHlo.after (r11 (F := F)) W (Proc.devRef .tc main_v31) = W (Proc.devRef .tc main_v31) := by
  simp only [r11]
  after_results_simp
theorem r11_keeps_main_arg0 (W : Valuation τ sig (Elt F)) :
    StableHlo.after (r11 (F := F)) W (Proc.devRef .tc main_arg0) = W (Proc.devRef .tc main_arg0) := by
  simp only [r11]
  after_results_simp
theorem r11_keeps_main_arg1 (W : Valuation τ sig (Elt F)) :
    StableHlo.after (r11 (F := F)) W (Proc.devRef .tc main_arg1) = W (Proc.devRef .tc main_arg1) := by
  simp only [r11]
  after_results_simp
theorem r11_keeps_main_arg2 (W : Valuation τ sig (Elt F)) :
    StableHlo.after (r11 (F := F)) W (Proc.devRef .tc main_arg2) = W (Proc.devRef .tc main_arg2) := by
  simp only [r11]
  after_results_simp
theorem r11_keeps_main_arg3 (W : Valuation τ sig (Elt F)) :
    StableHlo.after (r11 (F := F)) W (Proc.devRef .tc main_arg3) = W (Proc.devRef .tc main_arg3) := by
  simp only [r11]
  after_results_simp

theorem sWo_main_v178 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_arg2) = x2) :
    StableHlo.after (sWo (F := F)) W (Proc.devRef .tc main_v178) = Stages.val_main_v178 (F := F) x2 := by
  simp only [sWo]
  after_results_simp
  simp only [h0]
  rfl
theorem sWo_keeps_main_v165 (W : Valuation τ sig (Elt F)) :
    StableHlo.after (sWo (F := F)) W (Proc.devRef .tc main_v165) = W (Proc.devRef .tc main_v165) := by
  simp only [sWo]
  after_results_simp
theorem sWo_keeps_main_v31 (W : Valuation τ sig (Elt F)) :
    StableHlo.after (sWo (F := F)) W (Proc.devRef .tc main_v31) = W (Proc.devRef .tc main_v31) := by
  simp only [sWo]
  after_results_simp
theorem sWo_keeps_main_arg0 (W : Valuation τ sig (Elt F)) :
    StableHlo.after (sWo (F := F)) W (Proc.devRef .tc main_arg0) = W (Proc.devRef .tc main_arg0) := by
  simp only [sWo]
  after_results_simp
theorem sWo_keeps_main_arg1 (W : Valuation τ sig (Elt F)) :
    StableHlo.after (sWo (F := F)) W (Proc.devRef .tc main_arg1) = W (Proc.devRef .tc main_arg1) := by
  simp only [sWo]
  after_results_simp
theorem sWo_keeps_main_arg2 (W : Valuation τ sig (Elt F)) :
    StableHlo.after (sWo (F := F)) W (Proc.devRef .tc main_arg2) = W (Proc.devRef .tc main_arg2) := by
  simp only [sWo]
  after_results_simp
theorem sWo_keeps_main_arg3 (W : Valuation τ sig (Elt F)) :
    StableHlo.after (sWo (F := F)) W (Proc.devRef .tc main_arg3) = W (Proc.devRef .tc main_arg3) := by
  simp only [sWo]
  after_results_simp

theorem sTail_main_v180 (W : Valuation τ sig (Elt F)) (x0 : (⟨S4x4096x1024, .f32⟩ : BufTy).Contents (Elt F)) (x1 : (⟨S3072x1024, .f32⟩ : BufTy).Contents (Elt F)) (x2 : (⟨S1024x1024, .f32⟩ : BufTy).Contents (Elt F)) (x3 : (⟨S1024, .f32⟩ : BufTy).Contents (Elt F))
    (h0 : W (Proc.devRef .tc main_v165) = Stages.val_main_v165 (F := F) x0 x1 x3)
    (h1 : W (Proc.devRef .tc main_v31) = Stages.val_main_v31 (F := F) x0 x1)
    (h2 : W (Proc.devRef .tc main_v178) = Stages.val_main_v178 (F := F) x2) :
    StableHlo.after (sTail (F := F)) W (Proc.devRef .tc main_v180) = Stages.val_main_v180 (F := F) x0 x1 x2 x3 := by
  simp only [sTail]
  after_results_simp
  simp only [h0, h1, h2]
  rfl
theorem sTail_keeps_main_arg0 (W : Valuation τ sig (Elt F)) :
    StableHlo.after (sTail (F := F)) W (Proc.devRef .tc main_arg0) = W (Proc.devRef .tc main_arg0) := by
  simp only [sTail]
  after_results_simp
theorem sTail_keeps_main_arg1 (W : Valuation τ sig (Elt F)) :
    StableHlo.after (sTail (F := F)) W (Proc.devRef .tc main_arg1) = W (Proc.devRef .tc main_arg1) := by
  simp only [sTail]
  after_results_simp
theorem sTail_keeps_main_arg2 (W : Valuation τ sig (Elt F)) :
    StableHlo.after (sTail (F := F)) W (Proc.devRef .tc main_arg2) = W (Proc.devRef .tc main_arg2) := by
  simp only [sTail]
  after_results_simp
theorem sTail_keeps_main_arg3 (W : Valuation τ sig (Elt F)) :
    StableHlo.after (sTail (F := F)) W (Proc.devRef .tc main_arg3) = W (Proc.devRef .tc main_arg3) := by
  simp only [sTail]
  after_results_simp

/-! ## The result, stage by stage -/

set_option maxRecDepth 8192 in
/-- What the line leaves in the result buffer is the last stage of the four arguments: each stretch's inputs hold
    their stages by the stretches before it, so its outputs hold theirs. -/
theorem result (m : (ℓ : Loc nD τ sig) → Buf (Elt F) ℓ) (c : Dev nD) :
    StableHlo.after (ops (F := F)) (launchContents m c) (Proc.devRef .tc main_v180)
      = Stages.out (F := F) (m ((c.tc : Thread nD τ).loc main_arg0)) (m ((c.tc : Thread nD τ).loc main_arg1))
          (m ((c.tc : Thread nD τ).loc main_arg2)) (m ((c.tc : Thread nD τ).loc main_arg3)) := by
  simp only [ops, after_append]
  let x0 : (⟨S4x4096x1024, .f32⟩ : BufTy).Contents (Elt F) := m ((c.tc : Thread nD τ).loc main_arg0)
  let x1 : (⟨S3072x1024, .f32⟩ : BufTy).Contents (Elt F) := m ((c.tc : Thread nD τ).loc main_arg1)
  let x2 : (⟨S1024x1024, .f32⟩ : BufTy).Contents (Elt F) := m ((c.tc : Thread nD τ).loc main_arg2)
  let x3 : (⟨S1024, .f32⟩ : BufTy).Contents (Elt F) := m ((c.tc : Thread nD τ).loc main_arg3)
  let W0 : Valuation τ sig (Elt F) := launchContents m c
  -- the gate weights ternarised
  let W1 : Valuation τ sig (Elt F) := StableHlo.after sWg W0
  have a1_v11 : W1 (Proc.devRef .tc main_v11) = Stages.val_main_v11 (F := F) x1 := sWg_main_v11 W0 x0 x1 x2 x3 rfl
  have a1_arg0 : W1 (Proc.devRef .tc main_arg0) = x0 := sWg_keeps_main_arg0 W0
  have a1_arg2 : W1 (Proc.devRef .tc main_arg2) = x2 := sWg_keeps_main_arg2 W0
  have a1_arg3 : W1 (Proc.devRef .tc main_arg3) = x3 := sWg_keeps_main_arg3 W0
  -- the gates
  let W2 : Valuation τ sig (Elt F) := StableHlo.after sGates W1
  have a2_A : W2 (Proc.devRef .tc main_v22) = Stages.val_main_v22 (F := F) x0 x1 x3 := sGates_main_v22 W1 x0 x1 x2 x3 a1_arg0 a1_v11 a1_arg3
  have a2_B : W2 (Proc.devRef .tc main_v34) = Stages.val_main_v34 (F := F) x0 x1 x3 := sGates_main_v34 W1 x0 x1 x2 x3 a1_arg0 a1_v11 a1_arg3
  have a2_o : W2 (Proc.devRef .tc main_v31) = Stages.val_main_v31 (F := F) x0 x1 := sGates_main_v31 W1 x0 x1 x2 x3 a1_arg0 a1_v11 a1_arg3
  have a2_arg2 : W2 (Proc.devRef .tc main_arg2) = x2 := (sGates_keeps_main_arg2 W1).trans a1_arg2
  -- the twelve doubling rounds
  let W3 : Valuation τ sig (Elt F) := StableHlo.after r0 W2
  have a3_B : W3 (Proc.devRef .tc main_v44) = Stages.val_main_v44 (F := F) x0 x1 x3 := r0_main_v44 W2 x0 x1 x2 x3 a2_A a2_B
  have a3_A : W3 (Proc.devRef .tc main_v45) = Stages.val_main_v45 (F := F) x0 x1 x3 := r0_main_v45 W2 x0 x1 x2 x3 a2_A a2_B
  have a3_o : W3 (Proc.devRef .tc main_v31) = Stages.val_main_v31 (F := F) x0 x1 := (r0_keeps_main_v31 W2).trans a2_o
  have a3_arg2 : W3 (Proc.devRef .tc main_arg2) = x2 := (r0_keeps_main_arg2 W2).trans a2_arg2
  let W4 : Valuation τ sig (Elt F) := StableHlo.after r1 W3
  have a4_B : W4 (Proc.devRef .tc main_v55) = Stages.val_main_v55 (F := F) x0 x1 x3 := r1_main_v55 W3 x0 x1 x2 x3 a3_A a3_B
  have a4_A : W4 (Proc.devRef .tc main_v56) = Stages.val_main_v56 (F := F) x0 x1 x3 := r1_main_v56 W3 x0 x1 x2 x3 a3_A a3_B
  have a4_o : W4 (Proc.devRef .tc main_v31) = Stages.val_main_v31 (F := F) x0 x1 := (r1_keeps_main_v31 W3).trans a3_o
  have a4_arg2 : W4 (Proc.devRef .tc main_arg2) = x2 := (r1_keeps_main_arg2 W3).trans a3_arg2
  let W5 : Valuation τ sig (Elt F) := StableHlo.after r2 W4
  have a5_B : W5 (Proc.devRef .tc main_v66) = Stages.val_main_v66 (F := F) x0 x1 x3 := r2_main_v66 W4 x0 x1 x2 x3 a4_A a4_B
  have a5_A : W5 (Proc.devRef .tc main_v67) = Stages.val_main_v67 (F := F) x0 x1 x3 := r2_main_v67 W4 x0 x1 x2 x3 a4_A a4_B
  have a5_o : W5 (Proc.devRef .tc main_v31) = Stages.val_main_v31 (F := F) x0 x1 := (r2_keeps_main_v31 W4).trans a4_o
  have a5_arg2 : W5 (Proc.devRef .tc main_arg2) = x2 := (r2_keeps_main_arg2 W4).trans a4_arg2
  let W6 : Valuation τ sig (Elt F) := StableHlo.after r3 W5
  have a6_B : W6 (Proc.devRef .tc main_v77) = Stages.val_main_v77 (F := F) x0 x1 x3 := r3_main_v77 W5 x0 x1 x2 x3 a5_A a5_B
  have a6_A : W6 (Proc.devRef .tc main_v78) = Stages.val_main_v78 (F := F) x0 x1 x3 := r3_main_v78 W5 x0 x1 x2 x3 a5_A a5_B
  have a6_o : W6 (Proc.devRef .tc main_v31) = Stages.val_main_v31 (F := F) x0 x1 := (r3_keeps_main_v31 W5).trans a5_o
  have a6_arg2 : W6 (Proc.devRef .tc main_arg2) = x2 := (r3_keeps_main_arg2 W5).trans a5_arg2
  let W7 : Valuation τ sig (Elt F) := StableHlo.after r4 W6
  have a7_B : W7 (Proc.devRef .tc main_v88) = Stages.val_main_v88 (F := F) x0 x1 x3 := r4_main_v88 W6 x0 x1 x2 x3 a6_A a6_B
  have a7_A : W7 (Proc.devRef .tc main_v89) = Stages.val_main_v89 (F := F) x0 x1 x3 := r4_main_v89 W6 x0 x1 x2 x3 a6_A a6_B
  have a7_o : W7 (Proc.devRef .tc main_v31) = Stages.val_main_v31 (F := F) x0 x1 := (r4_keeps_main_v31 W6).trans a6_o
  have a7_arg2 : W7 (Proc.devRef .tc main_arg2) = x2 := (r4_keeps_main_arg2 W6).trans a6_arg2
  let W8 : Valuation τ sig (Elt F) := StableHlo.after r5 W7
  have a8_B : W8 (Proc.devRef .tc main_v99) = Stages.val_main_v99 (F := F) x0 x1 x3 := r5_main_v99 W7 x0 x1 x2 x3 a7_A a7_B
  have a8_A : W8 (Proc.devRef .tc main_v100) = Stages.val_main_v100 (F := F) x0 x1 x3 := r5_main_v100 W7 x0 x1 x2 x3 a7_A a7_B
  have a8_o : W8 (Proc.devRef .tc main_v31) = Stages.val_main_v31 (F := F) x0 x1 := (r5_keeps_main_v31 W7).trans a7_o
  have a8_arg2 : W8 (Proc.devRef .tc main_arg2) = x2 := (r5_keeps_main_arg2 W7).trans a7_arg2
  let W9 : Valuation τ sig (Elt F) := StableHlo.after r6 W8
  have a9_B : W9 (Proc.devRef .tc main_v110) = Stages.val_main_v110 (F := F) x0 x1 x3 := r6_main_v110 W8 x0 x1 x2 x3 a8_A a8_B
  have a9_A : W9 (Proc.devRef .tc main_v111) = Stages.val_main_v111 (F := F) x0 x1 x3 := r6_main_v111 W8 x0 x1 x2 x3 a8_A a8_B
  have a9_o : W9 (Proc.devRef .tc main_v31) = Stages.val_main_v31 (F := F) x0 x1 := (r6_keeps_main_v31 W8).trans a8_o
  have a9_arg2 : W9 (Proc.devRef .tc main_arg2) = x2 := (r6_keeps_main_arg2 W8).trans a8_arg2
  let W10 : Valuation τ sig (Elt F) := StableHlo.after r7 W9
  have a10_B : W10 (Proc.devRef .tc main_v121) = Stages.val_main_v121 (F := F) x0 x1 x3 := r7_main_v121 W9 x0 x1 x2 x3 a9_A a9_B
  have a10_A : W10 (Proc.devRef .tc main_v122) = Stages.val_main_v122 (F := F) x0 x1 x3 := r7_main_v122 W9 x0 x1 x2 x3 a9_A a9_B
  have a10_o : W10 (Proc.devRef .tc main_v31) = Stages.val_main_v31 (F := F) x0 x1 := (r7_keeps_main_v31 W9).trans a9_o
  have a10_arg2 : W10 (Proc.devRef .tc main_arg2) = x2 := (r7_keeps_main_arg2 W9).trans a9_arg2
  let W11 : Valuation τ sig (Elt F) := StableHlo.after r8 W10
  have a11_B : W11 (Proc.devRef .tc main_v132) = Stages.val_main_v132 (F := F) x0 x1 x3 := r8_main_v132 W10 x0 x1 x2 x3 a10_A a10_B
  have a11_A : W11 (Proc.devRef .tc main_v133) = Stages.val_main_v133 (F := F) x0 x1 x3 := r8_main_v133 W10 x0 x1 x2 x3 a10_A a10_B
  have a11_o : W11 (Proc.devRef .tc main_v31) = Stages.val_main_v31 (F := F) x0 x1 := (r8_keeps_main_v31 W10).trans a10_o
  have a11_arg2 : W11 (Proc.devRef .tc main_arg2) = x2 := (r8_keeps_main_arg2 W10).trans a10_arg2
  let W12 : Valuation τ sig (Elt F) := StableHlo.after r9 W11
  have a12_B : W12 (Proc.devRef .tc main_v143) = Stages.val_main_v143 (F := F) x0 x1 x3 := r9_main_v143 W11 x0 x1 x2 x3 a11_A a11_B
  have a12_A : W12 (Proc.devRef .tc main_v144) = Stages.val_main_v144 (F := F) x0 x1 x3 := r9_main_v144 W11 x0 x1 x2 x3 a11_A a11_B
  have a12_o : W12 (Proc.devRef .tc main_v31) = Stages.val_main_v31 (F := F) x0 x1 := (r9_keeps_main_v31 W11).trans a11_o
  have a12_arg2 : W12 (Proc.devRef .tc main_arg2) = x2 := (r9_keeps_main_arg2 W11).trans a11_arg2
  let W13 : Valuation τ sig (Elt F) := StableHlo.after r10 W12
  have a13_B : W13 (Proc.devRef .tc main_v154) = Stages.val_main_v154 (F := F) x0 x1 x3 := r10_main_v154 W12 x0 x1 x2 x3 a12_A a12_B
  have a13_A : W13 (Proc.devRef .tc main_v155) = Stages.val_main_v155 (F := F) x0 x1 x3 := r10_main_v155 W12 x0 x1 x2 x3 a12_A a12_B
  have a13_o : W13 (Proc.devRef .tc main_v31) = Stages.val_main_v31 (F := F) x0 x1 := (r10_keeps_main_v31 W12).trans a12_o
  have a13_arg2 : W13 (Proc.devRef .tc main_arg2) = x2 := (r10_keeps_main_arg2 W12).trans a12_arg2
  let W14 : Valuation τ sig (Elt F) := StableHlo.after r11 W13
  have a14_B : W14 (Proc.devRef .tc main_v165) = Stages.val_main_v165 (F := F) x0 x1 x3 := r11_main_v165 W13 x0 x1 x2 x3 a13_A a13_B
  have a14_o : W14 (Proc.devRef .tc main_v31) = Stages.val_main_v31 (F := F) x0 x1 := (r11_keeps_main_v31 W13).trans a13_o
  have a14_arg2 : W14 (Proc.devRef .tc main_arg2) = x2 := (r11_keeps_main_arg2 W13).trans a13_arg2
  -- the output weights ternarised
  let W15 : Valuation τ sig (Elt F) := StableHlo.after sWo W14
  have a15_wo : W15 (Proc.devRef .tc main_v178) = Stages.val_main_v178 (F := F) x2 := sWo_main_v178 W14 x0 x1 x2 x3 a14_arg2
  have a15_h : W15 (Proc.devRef .tc main_v165) = Stages.val_main_v165 (F := F) x0 x1 x3 := (sWo_keeps_main_v165 W14).trans a14_B
  have a15_o : W15 (Proc.devRef .tc main_v31) = Stages.val_main_v31 (F := F) x0 x1 := (sWo_keeps_main_v31 W14).trans a14_o
  -- the gated hidden state, projected
  exact sTail_main_v180 W15 x0 x1 x2 x3 a15_h a15_o a15_wo

/-- No operation writes an argument array. -/
theorem ops_keep_arg0 (V : Valuation τ sig (Elt F)) :
    StableHlo.after (ops (F := F)) V (Proc.devRef .tc main_arg0) = V (Proc.devRef .tc main_arg0) := by
  simp only [ops, after_append]
  rw [sTail_keeps_main_arg0, sWo_keeps_main_arg0, r11_keeps_main_arg0, r10_keeps_main_arg0, r9_keeps_main_arg0, r8_keeps_main_arg0, r7_keeps_main_arg0, r6_keeps_main_arg0, r5_keeps_main_arg0, r4_keeps_main_arg0, r3_keeps_main_arg0, r2_keeps_main_arg0, r1_keeps_main_arg0, r0_keeps_main_arg0, sGates_keeps_main_arg0, sWg_keeps_main_arg0]
theorem ops_keep_arg1 (V : Valuation τ sig (Elt F)) :
    StableHlo.after (ops (F := F)) V (Proc.devRef .tc main_arg1) = V (Proc.devRef .tc main_arg1) := by
  simp only [ops, after_append]
  rw [sTail_keeps_main_arg1, sWo_keeps_main_arg1, r11_keeps_main_arg1, r10_keeps_main_arg1, r9_keeps_main_arg1, r8_keeps_main_arg1, r7_keeps_main_arg1, r6_keeps_main_arg1, r5_keeps_main_arg1, r4_keeps_main_arg1, r3_keeps_main_arg1, r2_keeps_main_arg1, r1_keeps_main_arg1, r0_keeps_main_arg1, sGates_keeps_main_arg1, sWg_keeps_main_arg1]
theorem ops_keep_arg2 (V : Valuation τ sig (Elt F)) :
    StableHlo.after (ops (F := F)) V (Proc.devRef .tc main_arg2) = V (Proc.devRef .tc main_arg2) := by
  simp only [ops, after_append]
  rw [sTail_keeps_main_arg2, sWo_keeps_main_arg2, r11_keeps_main_arg2, r10_keeps_main_arg2, r9_keeps_main_arg2, r8_keeps_main_arg2, r7_keeps_main_arg2, r6_keeps_main_arg2, r5_keeps_main_arg2, r4_keeps_main_arg2, r3_keeps_main_arg2, r2_keeps_main_arg2, r1_keeps_main_arg2, r0_keeps_main_arg2, sGates_keeps_main_arg2, sWg_keeps_main_arg2]
theorem ops_keep_arg3 (V : Valuation τ sig (Elt F)) :
    StableHlo.after (ops (F := F)) V (Proc.devRef .tc main_arg3) = V (Proc.devRef .tc main_arg3) := by
  simp only [ops, after_append]
  rw [sTail_keeps_main_arg3, sWo_keeps_main_arg3, r11_keeps_main_arg3, r10_keeps_main_arg3, r9_keeps_main_arg3, r8_keeps_main_arg3, r7_keeps_main_arg3, r6_keeps_main_arg3, r5_keeps_main_arg3, r4_keeps_main_arg3, r3_keeps_main_arg3, r2_keeps_main_arg3, r1_keeps_main_arg3, r0_keeps_main_arg3, sGates_keeps_main_arg3, sWg_keeps_main_arg3]

/-! ## The run -/

set_option maxRecDepth 8192 in
/-- On every device, for any float values, from any memory with zero counters: every weakly fair execution of the
    reference program terminates with the result buffer at the last stage of the four arguments, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v180)
          = Stages.out (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v180).trans (result m c),
      (h c main_arg0).trans (ops_keep_arg0 _),
      (h c main_arg1).trans (ops_keep_arg1 _),
      (h c main_arg2).trans (ops_keep_arg2 _),
      (h c main_arg3).trans (ops_keep_arg3 _)⟩)
    (ends m ρ)

end Cert.ReferenceIdeal.HandRun
end
-- ==== Proof.KShared.lean ====
/-
  What the frame and value proofs of the kernel as printed share. The program is: the ternarisation of the two weight
  matrices and the re-laying of the gate weights on the host, then ONE region over the grid (batch, time chunk, feature
  chunk) = 4 x 8 x 4. This module states (1) the buffers as the region finds them — the launch contents overwritten by the
  host lines, all nine stretches of them in order —, (2) the two conditions the body branches on, in closed form over the
  128 grid points: "first feature chunk" (the time chunk's rows are cast and cached) and "last feature chunk" (the output
  projection is computed and the output block stored), (3) where the output window is idle, (4) the staging memrefs and
  the three scratch memrefs the body is called with, and (5) the region's invariant with the three scratch buffers owned
  at some contents.
-/
import proofs.«116791_j19533511262472_2_alg».proof.Proof.Gen.Kernel.Launch
import proofs.«116791_j19533511262472_2_alg».proof.Proof.Gen.Kernel.Skeleton
import proofs.«116791_j19533511262472_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- The nine stretches of host operations before the region, in program order. -/
abbrev opss : List (List (HloOp τ sig (Elt F))) :=
  [hostOps0, hostOps0_1, hostOps0_2, hostOps0_3, hostOps0_4, hostOps0_5, hostOps0_6, hostOps0_7, hostOps0_8]

/-- Core `c`'s buffers when the region is entered: the launch contents after all host lines. -/
abbrev V (c : Dev nD) (b : Ref sig .tc) : Buf (Elt F) ((c : Thread nD τ).loc b) :=
  StableHlo.after (List.flatten (opss (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- The program up to the region: the host lines run one after the other, then the region is entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (opss (F := F))
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩)
    main_chain

/-- No host line writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions, in closed form -/

/-- "This is the first feature chunk of its time chunk" (the body's first conditional), from the grid coordinates. -/
abbrev cond0 (i : grid0.Coords) : Prop := (Scalar.cmpi .ne (Scalar.extui (Scalar.cmpi .eq (BitVec.ofNat 32 (i 2).val) 0#32)) 0#32) = 1#1
/-- It holds exactly at the points whose number is a multiple of 4 (the feature chunk is the fastest grid axis, of extent 4). -/
theorem hcond0 : ∀ t : Fin cfg0.N, cond0 (grid0.coords t) ↔ t.val % 4 = 0 :=
  (by decide +kernel : ∀ t : Fin grid0.N, cond0 (grid0.coords t) ↔ t.val % 4 = 0)

/-- "This is the last feature chunk of its time chunk" (the body's second conditional). -/
abbrev cond1 (i : grid0.Coords) : Prop := k0_cond2 i = 1#1
/-- It holds exactly at the points congruent to 3 modulo 4. -/
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last feature chunk the output block is not stored into, and not written back. -/
theorem idleAt4 : ∀ t : Fin cfg0.N, ¬cond1 (grid0.coords t) → cfg0.idle 4 (grid0.coords t) = true := by decide +kernel
theorem noFlush4 : ∀ t : Fin cfg0.N, ¬cond1 (grid0.coords t) → (cfg0.win 4).flush t = false := by decide +kernel
/-- At the last feature chunk the output block is stored whole. -/
theorem liveAt4 : ∀ t : Fin cfg0.N, cond1 (grid0.coords t) → cfg0.idle 4 (grid0.coords t) = false := by decide +kernel

/-! ## The memrefs the body is called with -/

abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x768x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x1024 .f32 := win0_4.stage (cfg0.slots t 4)
abbrev hs4 (t : Fin cfg0.N) : (ms4 t).IsWhole := hstage0_4 ((cfg0.slots t 4).cast nbuf0_4)
/-- The carried recurrent state: one row of 1024 features. -/
abbrev scCarry : Memref sig .tc .vmem S1x1024 .f32 := Memref.whole cc0_scratch0
/-- The staged gated hidden state of the current time chunk: 512 rows by 1024 features. -/
abbrev scHid : Memref sig .tc .vmem S512x1024 .bf16 := Memref.whole cc0_scratch1
/-- The cached cast of the current time chunk of the input. -/
abbrev scX : Memref sig .tc .vmem S512x1024 .bf16 := Memref.whole cc0_scratch2

/-- The region's invariant: the three scratch buffers owned at some contents, and the generator register at some state. -/
theorem PhiA_eq (c : Dev nD) :
    (Pipeline.ΦA spec0 c : sProp 𝕄)
      = iprop(iprop((∃ d, owns (c : Thread nD τ) scCarry fullShare d) ∗ (∃ d, owns (c : Thread nD τ) scHid fullShare d) ∗ (∃ d, owns (c : Thread nD τ) scX fullShare d)) ∗ (∃ r, prngReg c r)) := by
  unfold Pipeline.ΦA; rw [scopedRest0_eq]; simp only [scCarry, scHid, scX, owns_whole]; try rfl

end Cert.Kernel.Fr

end
-- ==== Proof.KRunB.lean ====
/-
  The body at a point of a MIDDLE feature chunk (neither the first nor the last of its time chunk): it reads the cached
  cast of the input rows, the gate weights' block and the bias slice, computes the three gates for its 256 features, scans
  them over the chunk's 512 rows, combines with the carried state, and stores (a) the last row of the new state into the
  carry's 256 columns and (b) the gated state into the staged hidden state's 256 columns. Nothing else is written: the
  output block, the input blocks and the cached cast come back as they were. The stores are recorded as pieces over the
  previous contents of the two scratch buffers.
-/
import proofs.«116791_j19533511262472_2_alg».proof.Proof.KShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The middle-chunk run: the pieces stored into the carry and into the staged hidden state, with the proof that the body
    runs from the buffers at the given contents to the continuation holding them with those pieces written. -/
noncomputable def runB (c : Dev nD) (i : grid0.Coords) (arg3 : Memref sig .tc .vmem S1x512x1024 .f32) (harg3 : arg3.IsWhole) (arg4 : Memref sig .tc .vmem S1x768x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x1024 .bf16) (harg10 : arg10.IsWhole) (hc0 : ¬cond0 i) (hc1 : ¬cond1 i)
    (x0 : Vec F S1x512x1024 .f32) (x1 : Vec F S1x768x1024 .bf16) (x2 : Vec F S1x1024 .f32) (x3 : Vec F S1024x1024 .bf16) (xs8 : Vec F S1x1024 .f32) (xs9 : Vec F S512x1024 .bf16) (xs10 : Vec F S512x1024 .bf16) :
    Σ' (LS8 : List (View.Piece (Elt F) S1x1024 .f32)), { LS9 : List (View.Piece (Elt F) S512x1024 .bf16) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs8 ∗ owns (c : Thread nD τ) arg9 fullShare xs9 ∗ owns (c : Thread nD τ) arg10 fullShare xs10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9) ∗ owns (c : Thread nD τ) arg10 fullShare xs10) -∗ K ⟨⟩))
          ⊢ wp frame (wpE (defs₀ (F := F)) Variants.none c none) E (cc0__gated_kernel i arg3 harg3 arg4 harg4 arg5 harg5 arg6 harg6 arg7 harg7 arg8 harg8 arg9 harg9 arg10 harg10) K } := by
  refine ⟨?_, ?_, fun xi4 E K => ?run⟩
  case run =>
    simp only [cc0__gated_kernel_eq_skeleton]; unfold cc0__gated_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs8, %hfs8, HS8⟩, ⟨%fs9, %hfs9, HS9⟩, ⟨%fs10, %hfs10, HS10⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS8]; · iexact HS8
    isplitl [HS9]; · iexact HS9
    iexists _; isplitr; · ipureintro; exact harg10.read_unread _
    iexact HS10

end Cert.Kernel.Fr

end
-- ==== Proof.KRunA.lean ====
/-
  The body at a point of the FIRST feature chunk of a time chunk: before anything else it casts the chunk's 512 input rows
  and stores them whole into the cache; then it does what every point does for its 256 features (gates, scan over the 512
  rows, combination with the carried state) and stores the last row of the new state into the carry's columns and the gated
  state into the staged hidden state's columns. The output block is not touched.
-/
import proofs.«116791_j19533511262472_2_alg».proof.Proof.KRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first-chunk run: the pieces stored into the carry, the staged hidden state and the cache, with the proof that the
    body runs from the buffers at the given contents to the continuation holding them with those pieces written. -/
noncomputable def runA (c : Dev nD) (i : grid0.Coords) (arg3 : Memref sig .tc .vmem S1x512x1024 .f32) (harg3 : arg3.IsWhole) (arg4 : Memref sig .tc .vmem S1x768x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x1024 .bf16) (harg10 : arg10.IsWhole) (hc0 : cond0 i) (hc1 : ¬cond1 i)
    (x0 : Vec F S1x512x1024 .f32) (x1 : Vec F S1x768x1024 .bf16) (x2 : Vec F S1x1024 .f32) (x3 : Vec F S1024x1024 .bf16) (xs8 : Vec F S1x1024 .f32) (xs9 : Vec F S512x1024 .bf16) (xs10 : Vec F S512x1024 .bf16) :
    Σ' (LS8 : List (View.Piece (Elt F) S1x1024 .f32)) (LS9 : List (View.Piece (Elt F) S512x1024 .bf16)), { LS10 : List (View.Piece (Elt F) S512x1024 .bf16) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs8 ∗ owns (c : Thread nD τ) arg9 fullShare xs9 ∗ owns (c : Thread nD τ) arg10 fullShare xs10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9) ∗ (arg10.view.loc (c : Thread nD τ) ↦[arg10.view.set]{fullShare} arg10.view.writes (Elt F) (harg10.unread xs10) LS10)) -∗ K ⟨⟩))
          ⊢ wp frame (wpE (defs₀ (F := F)) Variants.none c none) E (cc0__gated_kernel i arg3 harg3 arg4 harg4 arg5 harg5 arg6 harg6 arg7 harg7 arg8 harg8 arg9 harg9 arg10 harg10) K } := by
  refine ⟨?_, ?_, ?_, fun xi4 E K => ?run⟩
  case run =>
    simp only [cc0__gated_kernel_eq_skeleton]; unfold cc0__gated_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs8, %hfs8, HS8⟩, ⟨%fs9, %hfs9, HS9⟩, ⟨%fs10, %hfs10, HS10⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS8]; · iexact HS8
    isplitl [HS9]; · iexact HS9
    iexact HS10

end Cert.Kernel.Fr

end
-- ==== Proof.KRunC.lean ====
/-
  The body at a point of the LAST feature chunk of a time chunk: it does what every point does for its 256 features and
  stores the last row of the new state into the carry's columns and the gated state into the staged hidden state's columns;
  then, every feature chunk of this time chunk being staged, it loads the whole staged hidden state and the whole output
  projection weights, multiplies them, and stores the 512 x 1024 result whole into the output block.
-/
import proofs.«116791_j19533511262472_2_alg».proof.Proof.KRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last-chunk run: the pieces stored into the output block, the carry and the staged hidden state, with the proof that
    the body runs from the buffers at the given contents to the continuation holding them with those pieces written. -/
noncomputable def runC (c : Dev nD) (i : grid0.Coords) (arg3 : Memref sig .tc .vmem S1x512x1024 .f32) (harg3 : arg3.IsWhole) (arg4 : Memref sig .tc .vmem S1x768x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x1024 .bf16) (harg10 : arg10.IsWhole) (hc0 : ¬cond0 i) (hc1 : cond1 i)
    (x0 : Vec F S1x512x1024 .f32) (x1 : Vec F S1x768x1024 .bf16) (x2 : Vec F S1x1024 .f32) (x3 : Vec F S1024x1024 .bf16) (xs8 : Vec F S1x1024 .f32) (xs9 : Vec F S512x1024 .bf16) (xs10 : Vec F S512x1024 .bf16) :
    Σ' (L4 : List (View.Piece (Elt F) S1x512x1024 .f32)) (LS8 : List (View.Piece (Elt F) S1x1024 .f32)), { LS9 : List (View.Piece (Elt F) S512x1024 .bf16) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs8 ∗ owns (c : Thread nD τ) arg9 fullShare xs9 ∗ owns (c : Thread nD τ) arg10 fullShare xs10
            ∗ (iprop(owns (c : Thread nD τ) arg3 fullShare x0 ∗ owns (c : Thread nD τ) arg4 fullShare x1 ∗ owns (c : Thread nD τ) arg5 fullShare x2 ∗ owns (c : Thread nD τ) arg6 fullShare x3 ∗ (arg7.view.loc (c : Thread nD τ) ↦[arg7.view.set]{fullShare} arg7.view.writes (Elt F) (harg7.unread xi4) L4) ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9) ∗ owns (c : Thread nD τ) arg10 fullShare xs10) -∗ K ⟨⟩))
          ⊢ wp frame (wpE (defs₀ (F := F)) Variants.none c none) E (cc0__gated_kernel i arg3 harg3 arg4 harg4 arg5 harg5 arg6 harg6 arg7 harg7 arg8 harg8 arg9 harg9 arg10 harg10) K } := by
  refine ⟨?_, ?_, ?_, fun xi4 E K => ?run⟩
  case run =>
    simp only [cc0__gated_kernel_eq_skeleton]; unfold cc0__gated_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs8, %hfs8, HS8⟩, ⟨%fs9, %hfs9, HS9⟩, ⟨%fs10, %hfs10, HS10⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [HS8]; · iexact HS8
    isplitl [HS9]; · iexact HS9
    iexists _; isplitr; · ipureintro; exact harg10.read_unread _
    iexact HS10

end Cert.Kernel.Fr

end
-- ==== Proof.KFrameR.lean ====
/-
  THE FRAME of the program at any float instance: it runs to the end from any memory, nothing faults, and the four
  argument arrays end as they began. Nothing is said here about what the body computes: the proof data constrain no
  buffer's contents (every relation is "anything"), the invariant is the three scratch buffers at some contents, and the
  body obligation is the three runs — first, middle and last feature chunk of a time chunk — chosen by the point's number
  modulo 4. The launch is the library's frame run over relational proof data; the argument arrays are read off its post:
  the input (window 0's array) is never written by the pipeline, and the weights and the bias are staged by no window and
  written by no host line.
-/
import proofs.«116791_j19533511262472_2_alg».proof.Proof.KRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Relational proof data that say nothing of the buffers' contents: arrays at the region-entry contents, any contents
    may be left in any staging buffer, the invariant the scratch buffers at anything. -/
def rdats (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

abbrev g8 : (scCarry : Memref sig .tc .vmem S1x1024 .f32).IsWhole := Memref.isWhole_whole _
abbrev g9 : (scHid : Memref sig .tc .vmem S512x1024 .bf16).IsWhole := Memref.isWhole_whole _
abbrev g10 : (scX : Memref sig .tc .vmem S512x1024 .bf16).IsWhole := Memref.isWhole_whole _

/-- A scratch or staging buffer read back after pieces were written over given contents. -/
def rdF8 (d : Vec F S1x1024 .f32) (L : List (View.Piece (Elt F) S1x1024 .f32)) : Vec F S1x1024 .f32 :=
  scCarry.view.read (Elt F) (scCarry.view.writes (Elt F) (g8.unread d) L)
def rdF9 (d : Vec F S512x1024 .bf16) (L : List (View.Piece (Elt F) S512x1024 .bf16)) : Vec F S512x1024 .bf16 :=
  scHid.view.read (Elt F) (scHid.view.writes (Elt F) (g9.unread d) L)
def rdF10 (d : Vec F S512x1024 .bf16) (L : List (View.Piece (Elt F) S512x1024 .bf16)) : Vec F S512x1024 .bf16 :=
  scX.view.read (Elt F) (scX.view.writes (Elt F) (g10.unread d) L)
def rdF4 (t : Fin cfg0.N) (d : Vec F S1x512x1024 .f32) (L : List (View.Piece (Elt F) S1x512x1024 .f32)) : Vec F S1x512x1024 .f32 :=
  (ms4 t).view.read (Elt F) ((ms4 t).view.writes (Elt F) ((hs4 t).unread d) L)

set_option maxHeartbeats 4000000 in
/-- The body at any point, from any contents of the five staging buffers and of the three scratch buffers: it runs, and
    hands every buffer back at some contents (those it stored into: the pieces read back over what was there). -/
theorem sound_bodyR (c : Dev nD) (t : Fin cfg0.N) (y0 : Vec F S1x512x1024 .f32) (y1 : Vec F S1x768x1024 .bf16) (y2 : Vec F S1x1024 .f32)
    (y3 : Vec F S1024x1024 .bf16) (y4 : Vec F S1x512x1024 .f32) :
    iprop(Pipeline.ΦA spec0 c ∗ (rdats m c).owesAt () t.castSucc
        ∗ owns (c : Thread nD τ) (ms0 t) fullShare y0 ∗ owns (c : Thread nD τ) (ms1 t) fullShare y1 ∗ owns (c : Thread nD τ) (ms2 t) fullShare y2 ∗ owns (c : Thread nD τ) (ms3 t) fullShare y3 ∗ owns (c : Thread nD τ) (ms4 t) fullShare y4)
      ⊢ wp frame (wpE (defs₀ (F := F)) Variants.none c none) Set.univ (bodyAt0 t) (fun _ =>
          iprop(Pipeline.ΦA spec0 c ∗ (rdats m c).owesAt () t.castSucc
            ∗ (∃ X, ⌜True⌝ ∗ owns (c : Thread nD τ) (ms0 t) fullShare X) ∗ (∃ X, ⌜True⌝ ∗ owns (c : Thread nD τ) (ms1 t) fullShare X) ∗ (∃ X, ⌜True⌝ ∗ owns (c : Thread nD τ) (ms2 t) fullShare X) ∗ (∃ X, ⌜True⌝ ∗ owns (c : Thread nD τ) (ms3 t) fullShare X) ∗ (∃ X, ⌜True⌝ ∗ owns (c : Thread nD τ) (ms4 t) fullShare X))) := by
  rw [PhiA_eq]
  unfold bodyAt0
  iintro ⟨⟨⟨⟨%d8, HS8⟩, ⟨%d9, HS9⟩, ⟨%d10, HS10⟩⟩, Hg⟩, Ho, H0, H1, H2, H3, H4⟩
  by_cases h0 : t.val % 4 = 0
  · have h1 : ¬ t.val % 4 = 3 := by omega
    iapply ((runA c (grid0.coords t) (ms0 t) (hs0 t) (ms1 t) (hs1 t) (ms2 t) (hs2 t) (ms3 t) (hs3 t) (ms4 t) (hs4 t) scCarry g8 scHid g9 scX g10 ((hcond0 t).mpr h0) (fun h => h1 ((hcond1 t).mp h)) y0 y1 y2 y3 d8 d9 d10).2.2.2 y4 Set.univ _)
    isplitl [H0]; · iexact H0
    isplitl [H1]; · iexact H1
    isplitl [H2]; · iexact H2
    isplitl [H3]; · iexact H3
    isplitl [H4]; · iexact H4
    isplitl [HS8]; · iexact HS8
    isplitl [HS9]; · iexact HS9
    isplitl [HS10]; · iexact HS10
    iintro ⟨H0, H1, H2, H3, H4, HS8, HS9, HS10⟩
    isplitl [HS8 HS9 HS10 Hg]
    · isplitr [Hg]
      · isplitl [HS8]
        · iexists (rdF8 d8 (runA c (grid0.coords t) (ms0 t) (hs0 t) (ms1 t) (hs1 t) (ms2 t) (hs2 t) (ms3 t) (hs3 t) (ms4 t) (hs4 t) scCarry g8 scHid g9 scX g10 ((hcond0 t).mpr h0) (fun h => h1 ((hcond1 t).mp h)) y0 y1 y2 y3 d8 d9 d10).1)
          unfold owns; iexists _; isplitr; · ipureintro; rfl
          iexact HS8
        isplitl [HS9]
        · iexists (rdF9 d9 (runA c (grid0.coords t) (ms0 t) (hs0 t) (ms1 t) (hs1 t) (ms2 t) (hs2 t) (ms3 t) (hs3 t) (ms4 t) (hs4 t) scCarry g8 scHid g9 scX g10 ((hcond0 t).mpr h0) (fun h => h1 ((hcond1 t).mp h)) y0 y1 y2 y3 d8 d9 d10).2.1)
          unfold owns; iexists _; isplitr; · ipureintro; rfl
          iexact HS9
        · iexists (rdF10 d10 (runA c (grid0.coords t) (ms0 t) (hs0 t) (ms1 t) (hs1 t) (ms2 t) (hs2 t) (ms3 t) (hs3 t) (ms4 t) (hs4 t) scCarry g8 scHid g9 scX g10 ((hcond0 t).mpr h0) (fun h => h1 ((hcond1 t).mp h)) y0 y1 y2 y3 d8 d9 d10).2.2.1)
          unfold owns; iexists _; isplitr; · ipureintro; rfl
          iexact HS10
      iexact Hg
    isplitl [Ho]; · iexact Ho
    isplitl [H0]
    · iexists y0; isplitr; · ipureintro; trivial
      iexact H0
    isplitl [H1]
    · iexists y1; isplitr; · ipureintro; trivial
      iexact H1
    isplitl [H2]
    · iexists y2; isplitr; · ipureintro; trivial
      iexact H2
    isplitl [H3]
    · iexists y3; isplitr; · ipureintro; trivial
      iexact H3
    iexists y4; isplitr; · ipureintro; trivial
    iexact H4
  · by_cases h1 : t.val % 4 = 3
    · iapply ((runC c (grid0.coords t) (ms0 t) (hs0 t) (ms1 t) (hs1 t) (ms2 t) (hs2 t) (ms3 t) (hs3 t) (ms4 t) (hs4 t) scCarry g8 scHid g9 scX g10 (fun h => h0 ((hcond0 t).mp h)) ((hcond1 t).mpr h1) y0 y1 y2 y3 d8 d9 d10).2.2.2 y4 Set.univ _)
      isplitl [H0]; · iexact H0
      isplitl [H1]; · iexact H1
      isplitl [H2]; · iexact H2
      isplitl [H3]; · iexact H3
      isplitl [H4]; · iexact H4
      isplitl [HS8]; · iexact HS8
      isplitl [HS9]; · iexact HS9
      isplitl [HS10]; · iexact HS10
      iintro ⟨H0, H1, H2, H3, H4, HS8, HS9, HS10⟩
      isplitl [HS8 HS9 HS10 Hg]
      · isplitr [Hg]
        · isplitl [HS8]
          · iexists (rdF8 d8 (runC c (grid0.coords t) (ms0 t) (hs0 t) (ms1 t) (hs1 t) (ms2 t) (hs2 t) (ms3 t) (hs3 t) (ms4 t) (hs4 t) scCarry g8 scHid g9 scX g10 (fun h => h0 ((hcond0 t).mp h)) ((hcond1 t).mpr h1) y0 y1 y2 y3 d8 d9 d10).2.1)
            unfold owns; iexists _; isplitr; · ipureintro; rfl
            iexact HS8
          isplitl [HS9]
          · iexists (rdF9 d9 (runC c (grid0.coords t) (ms0 t) (hs0 t) (ms1 t) (hs1 t) (ms2 t) (hs2 t) (ms3 t) (hs3 t) (ms4 t) (hs4 t) scCarry g8 scHid g9 scX g10 (fun h => h0 ((hcond0 t).mp h)) ((hcond1 t).mpr h1) y0 y1 y2 y3 d8 d9 d10).2.2.1)
            unfold owns; iexists _; isplitr; · ipureintro; rfl
            iexact HS9
          · iexists d10; iexact HS10
        iexact Hg
      isplitl [Ho]; · iexact Ho
      isplitl [H0]
      · iexists y0; isplitr; · ipureintro; trivial
        iexact H0
      isplitl [H1]
      · iexists y1; isplitr; · ipureintro; trivial
        iexact H1
      isplitl [H2]
      · iexists y2; isplitr; · ipureintro; trivial
        iexact H2
      isplitl [H3]
      · iexists y3; isplitr; · ipureintro; trivial
        iexact H3
      iexists (rdF4 t y4 (runC c (grid0.coords t) (ms0 t) (hs0 t) (ms1 t) (hs1 t) (ms2 t) (hs2 t) (ms3 t) (hs3 t) (ms4 t) (hs4 t) scCarry g8 scHid g9 scX g10 (fun h => h0 ((hcond0 t).mp h)) ((hcond1 t).mpr h1) y0 y1 y2 y3 d8 d9 d10).1); isplitr; · ipureintro; trivial
      unfold owns; iexists _; isplitr; · ipureintro; rfl
      iexact H4
    · iapply ((runB c (grid0.coords t) (ms0 t) (hs0 t) (ms1 t) (hs1 t) (ms2 t) (hs2 t) (ms3 t) (hs3 t) (ms4 t) (hs4 t) scCarry g8 scHid g9 scX g10 (fun h => h0 ((hcond0 t).mp h)) (fun h => h1 ((hcond1 t).mp h)) y0 y1 y2 y3 d8 d9 d10).2.2 y4 Set.univ _)
      isplitl [H0]; · iexact H0
      isplitl [H1]; · iexact H1
      isplitl [H2]; · iexact H2
      isplitl [H3]; · iexact H3
      isplitl [H4]; · iexact H4
      isplitl [HS8]; · iexact HS8
      isplitl [HS9]; · iexact HS9
      isplitl [HS10]; · iexact HS10
      iintro ⟨H0, H1, H2, H3, H4, HS8, HS9, HS10⟩
      isplitl [HS8 HS9 HS10 Hg]
      · isplitr [Hg]
        · isplitl [HS8]
          · iexists (rdF8 d8 (runB c (grid0.coords t) (ms0 t) (hs0 t) (ms1 t) (hs1 t) (ms2 t) (hs2 t) (ms3 t) (hs3 t) (ms4 t) (hs4 t) scCarry g8 scHid g9 scX g10 (fun h => h0 ((hcond0 t).mp h)) (fun h => h1 ((hcond1 t).mp h)) y0 y1 y2 y3 d8 d9 d10).1)
            unfold owns; iexists _; isplitr; · ipureintro; rfl
            iexact HS8
          isplitl [HS9]
          · iexists (rdF9 d9 (runB c (grid0.coords t) (ms0 t) (hs0 t) (ms1 t) (hs1 t) (ms2 t) (hs2 t) (ms3 t) (hs3 t) (ms4 t) (hs4 t) scCarry g8 scHid g9 scX g10 (fun h => h0 ((hcond0 t).mp h)) (fun h => h1 ((hcond1 t).mp h)) y0 y1 y2 y3 d8 d9 d10).2.1)
            unfold owns; iexists _; isplitr; · ipureintro; rfl
            iexact HS9
          · iexists d10; iexact HS10
        iexact Hg
      isplitl [Ho]; · iexact Ho
      isplitl [H0]
      · iexists y0; isplitr; · ipureintro; trivial
        iexact H0
      isplitl [H1]
      · iexists y1; isplitr; · ipureintro; trivial
        iexact H1
      isplitl [H2]
      · iexists y2; isplitr; · ipureintro; trivial
        iexact H2
      isplitl [H3]
      · iexists y3; isplitr; · ipureintro; trivial
        iexact H3
      iexists y4; isplitr; · ipureintro; trivial
      iexact H4

/-- The library's body obligation of the relational data. -/
theorem body_obligationR (c : Dev nD) : (rdats (F := F) m c).BodyObligation (defs₀ (F := F)) Variants.none () Set.univ := fun t Y _ => by
  rw [bigSep_W0, bigSep_W0]
  exact sound_bodyR m c t (Y 0) (Y 1) (Y 2) (Y 3) (Y 4)

theorem shareR (c : Dev nD) (w : Fin cfg0.W) : (rdats (F := F) m c).share w = fullShare := by
  unfold Pipeline.RDat.share; split <;> rfl

set_option backward.isDefEq.respectTransparency.types false in
/-- Every weakly fair execution of the program terminates without a fault, each array of the pipeline ending at contents
    the relational data allow and every other unscoped buffer as the region found it. -/
theorem run_mainR : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := body_obligationR m) (hshare := shareR m) (howed := fun _ _ => rfl) (V := V m)
    (hmain := hmain m Variants.none) (hA := fun _ _ => rfl) (hΦ := fun _ _ => rfl)

/-- THE FRAME: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    refine ⟨?_, ?_, ?_, ?_⟩
    · have e := (h c).1 0
      rw [Pipeline.RDat.ArrAt_in _ 0 rfl] at e
      exact e.trans (V_main_arg0 m c)
    · exact ((h c).2 main_arg1 (Pipeline.mem_restRefs_of main_arg1 rfl (by decide))).trans (V_main_arg1 m c)
    · exact ((h c).2 main_arg2 (Pipeline.mem_restRefs_of main_arg2 rfl (by decide))).trans (V_main_arg2 m c)
    · exact ((h c).2 main_arg3 (Pipeline.mem_restRefs_of main_arg3 rfl (by decide))).trans (V_main_arg3 m c)) (run_mainR m ρ)

end Cert.Kernel.Fr

end
-- ==== Proof.KIShared.lean ====
/-
  What the frame and value proofs of the idealized kernel share. The program is: the ternarisation of the two weight
  matrices and the re-laying of the gate weights on the host, then ONE region over the grid (batch, time chunk, feature
  chunk) = 4 x 8 x 4. This module states (1) the buffers as the region finds them — the launch contents overwritten by the
  host lines, all nine stretches of them in order —, (2) the two conditions the body branches on, in closed form over the
  128 grid points: "first feature chunk" (the time chunk's rows are cast and cached) and "last feature chunk" (the output
  projection is computed and the output block stored), (3) where the output window is idle, (4) the staging memrefs and
  the three scratch memrefs the body is called with, and (5) the region's invariant with the three scratch buffers owned
  at some contents.
-/
import proofs.«116791_j19533511262472_2_alg».proof.Proof.Gen.KernelIdeal.Launch
import proofs.«116791_j19533511262472_2_alg».proof.Proof.Gen.KernelIdeal.Skeleton
import proofs.«116791_j19533511262472_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- The nine stretches of host operations before the region, in program order. -/
abbrev opss : List (List (HloOp τ sig (Elt F))) :=
  [hostOps0, hostOps0_1, hostOps0_2, hostOps0_3, hostOps0_4, hostOps0_5, hostOps0_6, hostOps0_7, hostOps0_8]

/-- Core `c`'s buffers when the region is entered: the launch contents after all host lines. -/
abbrev V (c : Dev nD) (b : Ref sig .tc) : Buf (Elt F) ((c : Thread nD τ).loc b) :=
  StableHlo.after (List.flatten (opss (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- The program up to the region: the host lines run one after the other, then the region is entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (opss (F := F))
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩)
    main_chain

/-- No host line writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.unary, StableHlo.TRef.binary, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions, in closed form -/

/-- "This is the first feature chunk of its time chunk" (the body's first conditional), from the grid coordinates. -/
abbrev cond0 (i : grid0.Coords) : Prop := (Scalar.cmpi .ne (Scalar.extui (Scalar.cmpi .eq (BitVec.ofNat 32 (i 2).val) 0#32)) 0#32) = 1#1
/-- It holds exactly at the points whose number is a multiple of 4 (the feature chunk is the fastest grid axis, of extent 4). -/
theorem hcond0 : ∀ t : Fin cfg0.N, cond0 (grid0.coords t) ↔ t.val % 4 = 0 :=
  (by decide +kernel : ∀ t : Fin grid0.N, cond0 (grid0.coords t) ↔ t.val % 4 = 0)

/-- "This is the last feature chunk of its time chunk" (the body's second conditional). -/
abbrev cond1 (i : grid0.Coords) : Prop := k0_cond2 i = 1#1
/-- It holds exactly at the points congruent to 3 modulo 4. -/
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last feature chunk the output block is not stored into, and not written back. -/
theorem idleAt4 : ∀ t : Fin cfg0.N, ¬cond1 (grid0.coords t) → cfg0.idle 4 (grid0.coords t) = true := by decide +kernel
theorem noFlush4 : ∀ t : Fin cfg0.N, ¬cond1 (grid0.coords t) → (cfg0.win 4).flush t = false := by decide +kernel
/-- At the last feature chunk the output block is stored whole. -/
theorem liveAt4 : ∀ t : Fin cfg0.N, cond1 (grid0.coords t) → cfg0.idle 4 (grid0.coords t) = false := by decide +kernel

/-! ## The memrefs the body is called with -/

abbrev ms0 (t : Fin cfg0.N) : Memref sig .tc .vmem S1x512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x768x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x1024 .f32 := win0_4.stage (cfg0.slots t 4)
abbrev hs4 (t : Fin cfg0.N) : (ms4 t).IsWhole := hstage0_4 ((cfg0.slots t 4).cast nbuf0_4)
/-- The carried recurrent state: one row of 1024 features. -/
abbrev scCarry : Memref sig .tc .vmem S1x1024 .f32 := Memref.whole cc0_scratch0
/-- The staged gated hidden state of the current time chunk: 512 rows by 1024 features. -/
abbrev scHid : Memref sig .tc .vmem S512x1024 .bf16 := Memref.whole cc0_scratch1
/-- The cached cast of the current time chunk of the input. -/
abbrev scX : Memref sig .tc .vmem S512x1024 .bf16 := Memref.whole cc0_scratch2

/-- The region's invariant: the three scratch buffers owned at some contents, and the generator register at some state. -/
theorem PhiA_eq (c : Dev nD) :
    (Pipeline.ΦA spec0 c : sProp 𝕄)
      = iprop(iprop((∃ d, owns (c : Thread nD τ) scCarry fullShare d) ∗ (∃ d, owns (c : Thread nD τ) scHid fullShare d) ∗ (∃ d, owns (c : Thread nD τ) scX fullShare d)) ∗ (∃ r, prngReg c r)) := by
  unfold Pipeline.ΦA; rw [scopedRest0_eq]; simp only [scCarry, scHid, scX, owns_whole]; try rfl

end Cert.KernelIdeal.Fr

end
-- ==== Proof.KIRunB.lean ====
/-
  The body at a point of a MIDDLE feature chunk (neither the first nor the last of its time chunk): it reads the cached
  cast of the input rows, the gate weights' block and the bias slice, computes the three gates for its 256 features, scans
  them over the chunk's 512 rows, combines with the carried state, and stores (a) the last row of the new state into the
  carry's 256 columns and (b) the gated state into the staged hidden state's 256 columns. Nothing else is written: the
  output block, the input blocks and the cached cast come back as they were. The stores are recorded as pieces over the
  previous contents of the two scratch buffers.
-/
import proofs.«116791_j19533511262472_2_alg».proof.Proof.KIShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The middle-chunk run: the pieces stored into the carry and into the staged hidden state, with the proof that the body
    runs from the buffers at the given contents to the continuation holding them with those pieces written. -/
noncomputable def runB (c : Dev nD) (i : grid0.Coords) (arg3 : Memref sig .tc .vmem S1x512x1024 .f32) (harg3 : arg3.IsWhole) (arg4 : Memref sig .tc .vmem S1x768x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x1024 .bf16) (harg10 : arg10.IsWhole) (hc0 : ¬cond0 i) (hc1 : ¬cond1 i)
    (x0 : Vec F S1x512x1024 .f32) (x1 : Vec F S1x768x1024 .bf16) (x2 : Vec F S1x1024 .f32) (x3 : Vec F S1024x1024 .bf16) (xs8 : Vec F S1x1024 .f32) (xs9 : Vec F S512x1024 .bf16) (xs10 : Vec F S512x1024 .bf16) :
    Σ' (LS8 : List (View.Piece (Elt F) S1x1024 .f32)), { LS9 : List (View.Piece (Elt F) S512x1024 .bf16) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs8 ∗ owns (c : Thread nD τ) arg9 fullShare xs9 ∗ owns (c : Thread nD τ) arg10 fullShare xs10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9) ∗ owns (c : Thread nD τ) arg10 fullShare xs10) -∗ K ⟨⟩))
          ⊢ wp frame (wpE (defs₀ (F := F)) Variants.none c none) E (cc0__gated_kernel i arg3 harg3 arg4 harg4 arg5 harg5 arg6 harg6 arg7 harg7 arg8 harg8 arg9 harg9 arg10 harg10) K } := by
  refine ⟨?_, ?_, fun xi4 E K => ?run⟩
  case run =>
    simp only [cc0__gated_kernel_eq_skeleton]; unfold cc0__gated_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs8, %hfs8, HS8⟩, ⟨%fs9, %hfs9, HS9⟩, ⟨%fs10, %hfs10, HS10⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS8]; · iexact HS8
    isplitl [HS9]; · iexact HS9
    iexists _; isplitr; · ipureintro; exact harg10.read_unread _
    iexact HS10

end Cert.KernelIdeal.Fr

end
-- ==== Proof.KIRunA.lean ====
/-
  The body at a point of the FIRST feature chunk of a time chunk: before anything else it casts the chunk's 512 input rows
  and stores them whole into the cache; then it does what every point does for its 256 features (gates, scan over the 512
  rows, combination with the carried state) and stores the last row of the new state into the carry's columns and the gated
  state into the staged hidden state's columns. The output block is not touched.
-/
import proofs.«116791_j19533511262472_2_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first-chunk run: the pieces stored into the carry, the staged hidden state and the cache, with the proof that the
    body runs from the buffers at the given contents to the continuation holding them with those pieces written. -/
noncomputable def runA (c : Dev nD) (i : grid0.Coords) (arg3 : Memref sig .tc .vmem S1x512x1024 .f32) (harg3 : arg3.IsWhole) (arg4 : Memref sig .tc .vmem S1x768x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x1024 .bf16) (harg10 : arg10.IsWhole) (hc0 : cond0 i) (hc1 : ¬cond1 i)
    (x0 : Vec F S1x512x1024 .f32) (x1 : Vec F S1x768x1024 .bf16) (x2 : Vec F S1x1024 .f32) (x3 : Vec F S1024x1024 .bf16) (xs8 : Vec F S1x1024 .f32) (xs9 : Vec F S512x1024 .bf16) (xs10 : Vec F S512x1024 .bf16) :
    Σ' (LS8 : List (View.Piece (Elt F) S1x1024 .f32)) (LS9 : List (View.Piece (Elt F) S512x1024 .bf16)), { LS10 : List (View.Piece (Elt F) S512x1024 .bf16) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs8 ∗ owns (c : Thread nD τ) arg9 fullShare xs9 ∗ owns (c : Thread nD τ) arg10 fullShare xs10
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9) ∗ (arg10.view.loc (c : Thread nD τ) ↦[arg10.view.set]{fullShare} arg10.view.writes (Elt F) (harg10.unread xs10) LS10)) -∗ K ⟨⟩))
          ⊢ wp frame (wpE (defs₀ (F := F)) Variants.none c none) E (cc0__gated_kernel i arg3 harg3 arg4 harg4 arg5 harg5 arg6 harg6 arg7 harg7 arg8 harg8 arg9 harg9 arg10 harg10) K } := by
  refine ⟨?_, ?_, ?_, fun xi4 E K => ?run⟩
  case run =>
    simp only [cc0__gated_kernel_eq_skeleton]; unfold cc0__gated_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs8, %hfs8, HS8⟩, ⟨%fs9, %hfs9, HS9⟩, ⟨%fs10, %hfs10, HS10⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS8]; · iexact HS8
    isplitl [HS9]; · iexact HS9
    iexact HS10

end Cert.KernelIdeal.Fr

end
-- ==== Proof.KIRunC.lean ====
/-
  The body at a point of the LAST feature chunk of a time chunk: it does what every point does for its 256 features and
  stores the last row of the new state into the carry's columns and the gated state into the staged hidden state's columns;
  then, every feature chunk of this time chunk being staged, it loads the whole staged hidden state and the whole output
  projection weights, multiplies them, and stores the 512 x 1024 result whole into the output block.
-/
import proofs.«116791_j19533511262472_2_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last-chunk run: the pieces stored into the output block, the carry and the staged hidden state, with the proof that
    the body runs from the buffers at the given contents to the continuation holding them with those pieces written. -/
noncomputable def runC (c : Dev nD) (i : grid0.Coords) (arg3 : Memref sig .tc .vmem S1x512x1024 .f32) (harg3 : arg3.IsWhole) (arg4 : Memref sig .tc .vmem S1x768x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x1024 .bf16) (harg10 : arg10.IsWhole) (hc0 : ¬cond0 i) (hc1 : cond1 i)
    (x0 : Vec F S1x512x1024 .f32) (x1 : Vec F S1x768x1024 .bf16) (x2 : Vec F S1x1024 .f32) (x3 : Vec F S1024x1024 .bf16) (xs8 : Vec F S1x1024 .f32) (xs9 : Vec F S512x1024 .bf16) (xs10 : Vec F S512x1024 .bf16) :
    Σ' (L4 : List (View.Piece (Elt F) S1x512x1024 .f32)) (LS8 : List (View.Piece (Elt F) S1x1024 .f32)), { LS9 : List (View.Piece (Elt F) S512x1024 .bf16) //
      ∀ (xi4 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs8 ∗ owns (c : Thread nD τ) arg9 fullShare xs9 ∗ owns (c : Thread nD τ) arg10 fullShare xs10
            ∗ (iprop(owns (c : Thread nD τ) arg3 fullShare x0 ∗ owns (c : Thread nD τ) arg4 fullShare x1 ∗ owns (c : Thread nD τ) arg5 fullShare x2 ∗ owns (c : Thread nD τ) arg6 fullShare x3 ∗ (arg7.view.loc (c : Thread nD τ) ↦[arg7.view.set]{fullShare} arg7.view.writes (Elt F) (harg7.unread xi4) L4) ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9) ∗ owns (c : Thread nD τ) arg10 fullShare xs10) -∗ K ⟨⟩))
          ⊢ wp frame (wpE (defs₀ (F := F)) Variants.none c none) E (cc0__gated_kernel i arg3 harg3 arg4 harg4 arg5 harg5 arg6 harg6 arg7 harg7 arg8 harg8 arg9 harg9 arg10 harg10) K } := by
  refine ⟨?_, ?_, ?_, fun xi4 E K => ?run⟩
  case run =>
    simp only [cc0__gated_kernel_eq_skeleton]; unfold cc0__gated_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs8, %hfs8, HS8⟩, ⟨%fs9, %hfs9, HS9⟩, ⟨%fs10, %hfs10, HS10⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hfs8; obtain rfl := harg9.eq_unread hfs9; obtain rfl := harg10.eq_unread hfs10
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [HS8]; · iexact HS8
    isplitl [HS9]; · iexact HS9
    iexists _; isplitr; · ipureintro; exact harg10.read_unread _
    iexact HS10

end Cert.KernelIdeal.Fr

end
-- ==== Proof.KIFrameR.lean ====
/-
  THE FRAME of the program at any float instance: it runs to the end from any memory, nothing faults, and the four
  argument arrays end as they began. Nothing is said here about what the body computes: the proof data constrain no
  buffer's contents (every relation is "anything"), the invariant is the three scratch buffers at some contents, and the
  body obligation is the three runs — first, middle and last feature chunk of a time chunk — chosen by the point's number
  modulo 4. The launch is the library's frame run over relational proof data; the argument arrays are read off its post:
  the input (window 0's array) is never written by the pipeline, and the weights and the bias are staged by no window and
  written by no host line.
-/
import proofs.«116791_j19533511262472_2_alg».proof.Proof.KIRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Relational proof data that say nothing of the buffers' contents: arrays at the region-entry contents, any contents
    may be left in any staging buffer, the invariant the scratch buffers at anything. -/
def rdats (c : Dev nD) : Pipeline.RDat τ (Elt F) Unit ℕ (UR sig nD τ) ℕ cfg0 c where
  A w := V m c (Pipeline.arrRef spec0 w)
  after _ _ _ _ := True
  Φ _ := Pipeline.ΦA spec0 c
  q _ := fullShare
  owed _ := 0

abbrev g8 : (scCarry : Memref sig .tc .vmem S1x1024 .f32).IsWhole := Memref.isWhole_whole _
abbrev g9 : (scHid : Memref sig .tc .vmem S512x1024 .bf16).IsWhole := Memref.isWhole_whole _
abbrev g10 : (scX : Memref sig .tc .vmem S512x1024 .bf16).IsWhole := Memref.isWhole_whole _

/-- A scratch or staging buffer read back after pieces were written over given contents. -/
def rdF8 (d : Vec F S1x1024 .f32) (L : List (View.Piece (Elt F) S1x1024 .f32)) : Vec F S1x1024 .f32 :=
  scCarry.view.read (Elt F) (scCarry.view.writes (Elt F) (g8.unread d) L)
def rdF9 (d : Vec F S512x1024 .bf16) (L : List (View.Piece (Elt F) S512x1024 .bf16)) : Vec F S512x1024 .bf16 :=
  scHid.view.read (Elt F) (scHid.view.writes (Elt F) (g9.unread d) L)
def rdF10 (d : Vec F S512x1024 .bf16) (L : List (View.Piece (Elt F) S512x1024 .bf16)) : Vec F S512x1024 .bf16 :=
  scX.view.read (Elt F) (scX.view.writes (Elt F) (g10.unread d) L)
def rdF4 (t : Fin cfg0.N) (d : Vec F S1x512x1024 .f32) (L : List (View.Piece (Elt F) S1x512x1024 .f32)) : Vec F S1x512x1024 .f32 :=
  (ms4 t).view.read (Elt F) ((ms4 t).view.writes (Elt F) ((hs4 t).unread d) L)

set_option maxHeartbeats 4000000 in
/-- The body at any point, from any contents of the five staging buffers and of the three scratch buffers: it runs, and
    hands every buffer back at some contents (those it stored into: the pieces read back over what was there). -/
theorem sound_bodyR (c : Dev nD) (t : Fin cfg0.N) (y0 : Vec F S1x512x1024 .f32) (y1 : Vec F S1x768x1024 .bf16) (y2 : Vec F S1x1024 .f32)
    (y3 : Vec F S1024x1024 .bf16) (y4 : Vec F S1x512x1024 .f32) :
    iprop(Pipeline.ΦA spec0 c ∗ (rdats m c).owesAt () t.castSucc
        ∗ owns (c : Thread nD τ) (ms0 t) fullShare y0 ∗ owns (c : Thread nD τ) (ms1 t) fullShare y1 ∗ owns (c : Thread nD τ) (ms2 t) fullShare y2 ∗ owns (c : Thread nD τ) (ms3 t) fullShare y3 ∗ owns (c : Thread nD τ) (ms4 t) fullShare y4)
      ⊢ wp frame (wpE (defs₀ (F := F)) Variants.none c none) Set.univ (bodyAt0 t) (fun _ =>
          iprop(Pipeline.ΦA spec0 c ∗ (rdats m c).owesAt () t.castSucc
            ∗ (∃ X, ⌜True⌝ ∗ owns (c : Thread nD τ) (ms0 t) fullShare X) ∗ (∃ X, ⌜True⌝ ∗ owns (c : Thread nD τ) (ms1 t) fullShare X) ∗ (∃ X, ⌜True⌝ ∗ owns (c : Thread nD τ) (ms2 t) fullShare X) ∗ (∃ X, ⌜True⌝ ∗ owns (c : Thread nD τ) (ms3 t) fullShare X) ∗ (∃ X, ⌜True⌝ ∗ owns (c : Thread nD τ) (ms4 t) fullShare X))) := by
  rw [PhiA_eq]
  unfold bodyAt0
  iintro ⟨⟨⟨⟨%d8, HS8⟩, ⟨%d9, HS9⟩, ⟨%d10, HS10⟩⟩, Hg⟩, Ho, H0, H1, H2, H3, H4⟩
  by_cases h0 : t.val % 4 = 0
  · have h1 : ¬ t.val % 4 = 3 := by omega
    iapply ((runA c (grid0.coords t) (ms0 t) (hs0 t) (ms1 t) (hs1 t) (ms2 t) (hs2 t) (ms3 t) (hs3 t) (ms4 t) (hs4 t) scCarry g8 scHid g9 scX g10 ((hcond0 t).mpr h0) (fun h => h1 ((hcond1 t).mp h)) y0 y1 y2 y3 d8 d9 d10).2.2.2 y4 Set.univ _)
    isplitl [H0]; · iexact H0
    isplitl [H1]; · iexact H1
    isplitl [H2]; · iexact H2
    isplitl [H3]; · iexact H3
    isplitl [H4]; · iexact H4
    isplitl [HS8]; · iexact HS8
    isplitl [HS9]; · iexact HS9
    isplitl [HS10]; · iexact HS10
    iintro ⟨H0, H1, H2, H3, H4, HS8, HS9, HS10⟩
    isplitl [HS8 HS9 HS10 Hg]
    · isplitr [Hg]
      · isplitl [HS8]
        · iexists (rdF8 d8 (runA c (grid0.coords t) (ms0 t) (hs0 t) (ms1 t) (hs1 t) (ms2 t) (hs2 t) (ms3 t) (hs3 t) (ms4 t) (hs4 t) scCarry g8 scHid g9 scX g10 ((hcond0 t).mpr h0) (fun h => h1 ((hcond1 t).mp h)) y0 y1 y2 y3 d8 d9 d10).1)
          unfold owns; iexists _; isplitr; · ipureintro; rfl
          iexact HS8
        isplitl [HS9]
        · iexists (rdF9 d9 (runA c (grid0.coords t) (ms0 t) (hs0 t) (ms1 t) (hs1 t) (ms2 t) (hs2 t) (ms3 t) (hs3 t) (ms4 t) (hs4 t) scCarry g8 scHid g9 scX g10 ((hcond0 t).mpr h0) (fun h => h1 ((hcond1 t).mp h)) y0 y1 y2 y3 d8 d9 d10).2.1)
          unfold owns; iexists _; isplitr; · ipureintro; rfl
          iexact HS9
        · iexists (rdF10 d10 (runA c (grid0.coords t) (ms0 t) (hs0 t) (ms1 t) (hs1 t) (ms2 t) (hs2 t) (ms3 t) (hs3 t) (ms4 t) (hs4 t) scCarry g8 scHid g9 scX g10 ((hcond0 t).mpr h0) (fun h => h1 ((hcond1 t).mp h)) y0 y1 y2 y3 d8 d9 d10).2.2.1)
          unfold owns; iexists _; isplitr; · ipureintro; rfl
          iexact HS10
      iexact Hg
    isplitl [Ho]; · iexact Ho
    isplitl [H0]
    · iexists y0; isplitr; · ipureintro; trivial
      iexact H0
    isplitl [H1]
    · iexists y1; isplitr; · ipureintro; trivial
      iexact H1
    isplitl [H2]
    · iexists y2; isplitr; · ipureintro; trivial
      iexact H2
    isplitl [H3]
    · iexists y3; isplitr; · ipureintro; trivial
      iexact H3
    iexists y4; isplitr; · ipureintro; trivial
    iexact H4
  · by_cases h1 : t.val % 4 = 3
    · iapply ((runC c (grid0.coords t) (ms0 t) (hs0 t) (ms1 t) (hs1 t) (ms2 t) (hs2 t) (ms3 t) (hs3 t) (ms4 t) (hs4 t) scCarry g8 scHid g9 scX g10 (fun h => h0 ((hcond0 t).mp h)) ((hcond1 t).mpr h1) y0 y1 y2 y3 d8 d9 d10).2.2.2 y4 Set.univ _)
      isplitl [H0]; · iexact H0
      isplitl [H1]; · iexact H1
      isplitl [H2]; · iexact H2
      isplitl [H3]; · iexact H3
      isplitl [H4]; · iexact H4
      isplitl [HS8]; · iexact HS8
      isplitl [HS9]; · iexact HS9
      isplitl [HS10]; · iexact HS10
      iintro ⟨H0, H1, H2, H3, H4, HS8, HS9, HS10⟩
      isplitl [HS8 HS9 HS10 Hg]
      · isplitr [Hg]
        · isplitl [HS8]
          · iexists (rdF8 d8 (runC c (grid0.coords t) (ms0 t) (hs0 t) (ms1 t) (hs1 t) (ms2 t) (hs2 t) (ms3 t) (hs3 t) (ms4 t) (hs4 t) scCarry g8 scHid g9 scX g10 (fun h => h0 ((hcond0 t).mp h)) ((hcond1 t).mpr h1) y0 y1 y2 y3 d8 d9 d10).2.1)
            unfold owns; iexists _; isplitr; · ipureintro; rfl
            iexact HS8
          isplitl [HS9]
          · iexists (rdF9 d9 (runC c (grid0.coords t) (ms0 t) (hs0 t) (ms1 t) (hs1 t) (ms2 t) (hs2 t) (ms3 t) (hs3 t) (ms4 t) (hs4 t) scCarry g8 scHid g9 scX g10 (fun h => h0 ((hcond0 t).mp h)) ((hcond1 t).mpr h1) y0 y1 y2 y3 d8 d9 d10).2.2.1)
            unfold owns; iexists _; isplitr; · ipureintro; rfl
            iexact HS9
          · iexists d10; iexact HS10
        iexact Hg
      isplitl [Ho]; · iexact Ho
      isplitl [H0]
      · iexists y0; isplitr; · ipureintro; trivial
        iexact H0
      isplitl [H1]
      · iexists y1; isplitr; · ipureintro; trivial
        iexact H1
      isplitl [H2]
      · iexists y2; isplitr; · ipureintro; trivial
        iexact H2
      isplitl [H3]
      · iexists y3; isplitr; · ipureintro; trivial
        iexact H3
      iexists (rdF4 t y4 (runC c (grid0.coords t) (ms0 t) (hs0 t) (ms1 t) (hs1 t) (ms2 t) (hs2 t) (ms3 t) (hs3 t) (ms4 t) (hs4 t) scCarry g8 scHid g9 scX g10 (fun h => h0 ((hcond0 t).mp h)) ((hcond1 t).mpr h1) y0 y1 y2 y3 d8 d9 d10).1); isplitr; · ipureintro; trivial
      unfold owns; iexists _; isplitr; · ipureintro; rfl
      iexact H4
    · iapply ((runB c (grid0.coords t) (ms0 t) (hs0 t) (ms1 t) (hs1 t) (ms2 t) (hs2 t) (ms3 t) (hs3 t) (ms4 t) (hs4 t) scCarry g8 scHid g9 scX g10 (fun h => h0 ((hcond0 t).mp h)) (fun h => h1 ((hcond1 t).mp h)) y0 y1 y2 y3 d8 d9 d10).2.2 y4 Set.univ _)
      isplitl [H0]; · iexact H0
      isplitl [H1]; · iexact H1
      isplitl [H2]; · iexact H2
      isplitl [H3]; · iexact H3
      isplitl [H4]; · iexact H4
      isplitl [HS8]; · iexact HS8
      isplitl [HS9]; · iexact HS9
      isplitl [HS10]; · iexact HS10
      iintro ⟨H0, H1, H2, H3, H4, HS8, HS9, HS10⟩
      isplitl [HS8 HS9 HS10 Hg]
      · isplitr [Hg]
        · isplitl [HS8]
          · iexists (rdF8 d8 (runB c (grid0.coords t) (ms0 t) (hs0 t) (ms1 t) (hs1 t) (ms2 t) (hs2 t) (ms3 t) (hs3 t) (ms4 t) (hs4 t) scCarry g8 scHid g9 scX g10 (fun h => h0 ((hcond0 t).mp h)) (fun h => h1 ((hcond1 t).mp h)) y0 y1 y2 y3 d8 d9 d10).1)
            unfold owns; iexists _; isplitr; · ipureintro; rfl
            iexact HS8
          isplitl [HS9]
          · iexists (rdF9 d9 (runB c (grid0.coords t) (ms0 t) (hs0 t) (ms1 t) (hs1 t) (ms2 t) (hs2 t) (ms3 t) (hs3 t) (ms4 t) (hs4 t) scCarry g8 scHid g9 scX g10 (fun h => h0 ((hcond0 t).mp h)) (fun h => h1 ((hcond1 t).mp h)) y0 y1 y2 y3 d8 d9 d10).2.1)
            unfold owns; iexists _; isplitr; · ipureintro; rfl
            iexact HS9
          · iexists d10; iexact HS10
        iexact Hg
      isplitl [Ho]; · iexact Ho
      isplitl [H0]
      · iexists y0; isplitr; · ipureintro; trivial
        iexact H0
      isplitl [H1]
      · iexists y1; isplitr; · ipureintro; trivial
        iexact H1
      isplitl [H2]
      · iexists y2; isplitr; · ipureintro; trivial
        iexact H2
      isplitl [H3]
      · iexists y3; isplitr; · ipureintro; trivial
        iexact H3
      iexists y4; isplitr; · ipureintro; trivial
      iexact H4

/-- The library's body obligation of the relational data. -/
theorem body_obligationR (c : Dev nD) : (rdats (F := F) m c).BodyObligation (defs₀ (F := F)) Variants.none () Set.univ := fun t Y _ => by
  rw [bigSep_W0, bigSep_W0]
  exact sound_bodyR m c t (Y 0) (Y 1) (Y 2) (Y 3) (Y 4)

theorem shareR (c : Dev nD) (w : Fin cfg0.W) : (rdats (F := F) m c).share w = fullShare := by
  unfold Pipeline.RDat.share; split <;> rfl

set_option backward.isDefEq.respectTransparency.types false in
/-- Every weakly fair execution of the program terminates without a fault, each array of the pipeline ending at contents
    the relational data allow and every other unscoped buffer as the region found it. -/
theorem run_mainR : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := body_obligationR m) (hshare := shareR m) (howed := fun _ _ => rfl) (V := V m)
    (hmain := hmain m Variants.none) (hA := fun _ _ => rfl) (hΦ := fun _ _ => rfl)

/-- THE FRAME: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    refine ⟨?_, ?_, ?_, ?_⟩
    · have e := (h c).1 0
      rw [Pipeline.RDat.ArrAt_in _ 0 rfl] at e
      exact e.trans (V_main_arg0 m c)
    · exact ((h c).2 main_arg1 (Pipeline.mem_restRefs_of main_arg1 rfl (by decide))).trans (V_main_arg1 m c)
    · exact ((h c).2 main_arg2 (Pipeline.mem_restRefs_of main_arg2 rfl (by decide))).trans (V_main_arg2 m c)
    · exact ((h c).2 main_arg3 (Pipeline.mem_restRefs_of main_arg3 rfl (by decide))).trans (V_main_arg3 m c)) (run_mainR m ρ)

end Cert.KernelIdeal.Fr

end
-- ==== Proof.LibScan.lean ====
import Mathlib.Data.EReal.Inv

/-!
# The doubling (Hillis–Steele) scan of a linear recurrence over the extended reals

The recurrence is h t = a t * h (t - 1) + b t.  A pair (multiplier, value) stands for the affine
map x ↦ multiplier * x + value, and composing the map at position t after the map at position
t - s gives (A t * A (t - s), A t * B (t - s) + B t).  One doubling round does this for every
position at once; after rounds with shifts 1, 2, 4, …, 2 ^ (k - 1) position t holds the
composition of the last min (2 ^ k) (t + 1) maps ending at t.

The multipliers are coercions of nonnegative reals, the values are arbitrary extended reals, so the
only distributivity used is that of a nonnegative real over a sum.
-/

namespace ScanLib

/-- One doubling round with shift s on a pair (multiplier sequence, value sequence): positions
t < s combine with the identity (1, 0), positions t ≥ s with position t - s. -/
noncomputable def dbl (s : ℕ) (p : (ℕ → EReal) × (ℕ → EReal)) : (ℕ → EReal) × (ℕ → EReal) :=
  (fun t => p.1 t * (if s ≤ t then p.1 (t - s) else 1),
   fun t => p.1 t * (if s ≤ t then p.2 (t - s) else 0) + p.2 t)

/-- k rounds with shifts 1, 2, 4, …, 2 ^ (k - 1), in that order. -/
noncomputable def iter : ℕ → (ℕ → EReal) × (ℕ → EReal) → (ℕ → EReal) × (ℕ → EReal)
  | 0, p => p
  | k + 1, p => dbl (2 ^ k) (iter k p)

/-- The sequential recurrence started from h0: h 0 = a 0 * h0 + b 0 and
h (t + 1) = a (t + 1) * h t + b (t + 1). -/
noncomputable def seqRec (a b : ℕ → EReal) (h0 : EReal) : ℕ → EReal
  | 0 => a 0 * h0 + b 0
  | t + 1 => a (t + 1) * seqRec a b h0 t + b (t + 1)

/-- The window product: the product a t * a (t - 1) * ⋯ of the n multipliers ending at position t
(with truncated subtraction, so it is only meaningful for n ≤ t + 1). -/
noncomputable def winProd (a : ℕ → EReal) : ℕ → ℕ → EReal
  | _, 0 => 1
  | t, n + 1 => a t * winProd a (t - 1) n

/-- The windowed recurrence: the value at position t of the recurrence run over the n steps ending
at t, started from 0 (meaningful for n ≤ t + 1). -/
noncomputable def winRec (a b : ℕ → EReal) : ℕ → ℕ → EReal
  | _, 0 => 0
  | t, n + 1 => a t * winRec a b (t - 1) n + b t

/-- The empty window product is 1. -/
theorem winProd_zero (a : ℕ → EReal) (t : ℕ) : winProd a t 0 = 1 := rfl

/-- Peeling the top multiplier off a window product. -/
theorem winProd_succ (a : ℕ → EReal) (t n : ℕ) :
    winProd a t (n + 1) = a t * winProd a (t - 1) n := rfl

/-- The recurrence over an empty window is 0. -/
theorem winRec_zero (a b : ℕ → EReal) (t : ℕ) : winRec a b t 0 = 0 := rfl

/-- Peeling the top step off a windowed recurrence. -/
theorem winRec_succ (a b : ℕ → EReal) (t n : ℕ) :
    winRec a b t (n + 1) = a t * winRec a b (t - 1) n + b t := rfl

/-- A nonnegative real distributes over a sum of arbitrary extended reals. -/
theorem mul_add_of_real {x : EReal} (hx : ∃ r : ℝ, 0 ≤ r ∧ x = (r : EReal)) (y z : EReal) :
    x * (y + z) = x * y + x * z := by
  obtain ⟨r, hr0, rfl⟩ := hx
  exact EReal.left_distrib_of_nonneg_of_ne_top (EReal.coe_nonneg.2 hr0) (EReal.coe_ne_top r) y z

/-- A window of n + m multipliers splits into the upper n and the lower m. -/
theorem winProd_add (a : ℕ → EReal) (n m t : ℕ) :
    winProd a t (n + m) = winProd a t n * winProd a (t - n) m := by
  induction n generalizing t with
  | zero => simp [winProd_zero]
  | succ n ih =>
    rw [Nat.add_right_comm n 1 m, winProd_succ, winProd_succ, ih, Nat.sub_sub, Nat.add_comm 1 n,
      mul_assoc]

/-- The splitting law: the recurrence over the last n + m steps is the recurrence over the lower
m steps pushed through the upper n multipliers, plus the recurrence over the upper n steps. -/
theorem winRec_add (a b : ℕ → EReal) (ha : ∀ t, ∃ r : ℝ, 0 ≤ r ∧ a t = (r : EReal))
    (n m t : ℕ) :
    winRec a b t (n + m) = winProd a t n * winRec a b (t - n) m + winRec a b t n := by
  induction n generalizing t with
  | zero => simp [winProd_zero, winRec_zero]
  | succ n ih =>
    rw [Nat.add_right_comm n 1 m, winRec_succ, winRec_succ, winProd_succ, ih,
      mul_add_of_real (ha t), Nat.sub_sub, Nat.add_comm 1 n, mul_assoc, add_assoc]

/-- The invariant of the doubling scan: after k rounds position t holds the window product and the
windowed recurrence over the last min (2 ^ k) (t + 1) positions ending at t. -/
theorem iter_eq_win (a b : ℕ → EReal) (ha : ∀ t, ∃ r : ℝ, 0 ≤ r ∧ a t = (r : EReal))
    (k t : ℕ) :
    (iter k (a, b)).1 t = winProd a t (min (2 ^ k) (t + 1)) ∧
      (iter k (a, b)).2 t = winRec a b t (min (2 ^ k) (t + 1)) := by
  induction k generalizing t with
  | zero =>
    have e : min (2 ^ 0) (t + 1) = 0 + 1 := by simp
    rw [e, winProd_succ, winRec_succ, winProd_zero, winRec_zero]
    simp [iter]
  | succ k ih =>
    have hp : 2 ^ (k + 1) = 2 * 2 ^ k := by rw [pow_succ, Nat.mul_comm]
    simp only [iter, dbl]
    by_cases h : 2 ^ k ≤ t
    · have e1 : min (2 ^ k) (t + 1) = 2 ^ k := by omega
      have e2 : min (2 ^ (k + 1)) (t + 1) = 2 ^ k + min (2 ^ k) (t - 2 ^ k + 1) := by omega
      rw [if_pos h, if_pos h, (ih t).1, (ih t).2, (ih (t - 2 ^ k)).1, (ih (t - 2 ^ k)).2, e1, e2,
        winProd_add, winRec_add a b ha]
      exact ⟨rfl, rfl⟩
    · have e1 : min (2 ^ k) (t + 1) = t + 1 := by omega
      have e2 : min (2 ^ (k + 1)) (t + 1) = t + 1 := by omega
      rw [if_neg h, if_neg h, (ih t).1, (ih t).2, e1, e2]
      simp

/-- The sequential recurrence from h0 is the full window product times h0 plus the full windowed
recurrence. -/
theorem seqRec_eq_win (a b : ℕ → EReal) (ha : ∀ t, ∃ r : ℝ, 0 ≤ r ∧ a t = (r : EReal))
    (h0 : EReal) (t : ℕ) :
    seqRec a b h0 t = winProd a t (t + 1) * h0 + winRec a b t (t + 1) := by
  induction t with
  | zero =>
    rw [winProd_succ, winRec_succ, winProd_zero, winRec_zero]
    simp [seqRec]
  | succ t ih =>
    rw [winProd_succ a (t + 1), winRec_succ a b (t + 1), Nat.add_sub_cancel]
    simp only [seqRec]
    rw [ih, mul_add_of_real (ha (t + 1)), mul_assoc, add_assoc]

/-- The first step of the sequential recurrence. -/
theorem seqRec_zero (a b : ℕ → EReal) (h0 : EReal) : seqRec a b h0 0 = a 0 * h0 + b 0 := rfl

/-- A later step of the sequential recurrence. -/
theorem seqRec_succ (a b : ℕ → EReal) (h0 : EReal) (t : ℕ) :
    seqRec a b h0 (t + 1) = a (t + 1) * seqRec a b h0 t + b (t + 1) := rfl

/-- Restarting the recurrence at position c: the recurrence of the shifted sequences
t ↦ a (c + t), t ↦ b (c + t), started from the value the original recurrence has just before
position c (or from 0 when c = 0), reproduces the original recurrence at position c + r. -/
theorem seqRec_shift (a b : ℕ → EReal) (c r : ℕ) :
    seqRec (fun t => a (c + t)) (fun t => b (c + t))
      (if c = 0 then 0 else seqRec a b 0 (c - 1)) r = seqRec a b 0 (c + r) := by
  induction r with
  | zero =>
    cases c with
    | zero => simp [seqRec_zero]
    | succ c => simp [seqRec_zero, seqRec_succ]
  | succ r ih =>
    rw [seqRec_succ, ih, ← Nat.add_assoc, seqRec_succ]

/-- The whole axis: for t < 2 ^ k, after k doubling rounds the value at position t is the
sequential recurrence started from 0. -/
theorem iter_eq_seqRec (a b : ℕ → EReal) (ha : ∀ t, ∃ r : ℝ, 0 ≤ r ∧ a t = (r : EReal))
    (k t : ℕ) (ht : t < 2 ^ k) : (iter k (a, b)).2 t = seqRec a b 0 t := by
  have e : min (2 ^ k) (t + 1) = t + 1 := by omega
  rw [(iter_eq_win a b ha k t).2, e, seqRec_eq_win a b ha 0 t, mul_zero, zero_add]

/-- One chunk with a carried state, for an arbitrary start value: for r < 2 ^ k, the pair that
k doubling rounds leave at position r, applied to h0, is the sequential recurrence from h0. -/
theorem iter_apply_eq_seqRec (a b : ℕ → EReal) (ha : ∀ t, ∃ r : ℝ, 0 ≤ r ∧ a t = (r : EReal))
    (h0 : EReal) (k r : ℕ) (hr : r < 2 ^ k) :
    (iter k (a, b)).1 r * h0 + (iter k (a, b)).2 r = seqRec a b h0 r := by
  have e : min (2 ^ k) (r + 1) = r + 1 := by omega
  rw [(iter_eq_win a b ha k r).1, (iter_eq_win a b ha k r).2, e, seqRec_eq_win a b ha h0 r]

/-- One chunk of length 2 ^ k with the carry from the previous chunk: the scan of chunk j, applied
to the value of the recurrence at the end of chunk j - 1 (0 for the first chunk), gives the
recurrence of the whole axis at position 2 ^ k * j + r. -/
theorem chunk_eq_seqRec (a b : ℕ → EReal) (ha : ∀ t, ∃ r : ℝ, 0 ≤ r ∧ a t = (r : EReal))
    (k j r : ℕ) (hr : r < 2 ^ k) :
    (iter k (fun t => a (2 ^ k * j + t), fun t => b (2 ^ k * j + t))).1 r *
        (if j = 0 then 0 else seqRec a b 0 (2 ^ k * j - 1)) +
      (iter k (fun t => a (2 ^ k * j + t), fun t => b (2 ^ k * j + t))).2 r =
      seqRec a b 0 (2 ^ k * j + r) := by
  have ha' : ∀ t, ∃ x : ℝ, 0 ≤ x ∧ a (2 ^ k * j + t) = (x : EReal) := fun t => ha _
  rw [iter_apply_eq_seqRec (fun t => a (2 ^ k * j + t)) (fun t => b (2 ^ k * j + t)) ha' _ k r hr,
    ← seqRec_shift a b (2 ^ k * j) r]
  by_cases hj : j = 0
  · have hc : 2 ^ k * j = 0 := by rw [hj, Nat.mul_zero]
    rw [if_pos hj, if_pos hc]
  · have hc : 2 ^ k * j ≠ 0 := Nat.mul_ne_zero (pow_ne_zero k (by decide)) hj
    rw [if_neg hj, if_neg hc]

/-- Nine rounds written out: shifts 1, 2, 4, …, 256. -/
theorem iter_nine (p : (ℕ → EReal) × (ℕ → EReal)) :
    iter 9 p = dbl 256 (dbl 128 (dbl 64 (dbl 32 (dbl 16 (dbl 8 (dbl 4 (dbl 2 (dbl 1 p)))))))) :=
  rfl

/-- Twelve rounds written out: shifts 1, 2, 4, …, 2048. -/
theorem iter_twelve (p : (ℕ → EReal) × (ℕ → EReal)) :
    iter 12 p =
      dbl 2048 (dbl 1024 (dbl 512 (dbl 256 (dbl 128 (dbl 64 (dbl 32 (dbl 16 (dbl 8 (dbl 4
        (dbl 2 (dbl 1 p))))))))))) :=
  rfl

end ScanLib
-- ==== Proof.Spec.lean ====
/-
  The function both programs compute, over plain coordinates (batch b < 4, time t < 4096, feature d < 1024), at the ideal
  instance where a float is an extended real and every operation is exact.

  From the input x[b,t,k], the (already ternarised) gate weights wg[e,k] (3072 rows: forget, candidate, output gate, 1024
  each), the (already ternarised) output weights wo[e,k] and the forget bias:
    gate[b,t,e] = sum over k of x[b,t,k] * wg[e,k]
    f = logistic(gate[.., d] + bias[d]),   c = g * logistic(g) with g = gate[.., 1024 + d],   o = logistic(gate[.., 2048 + d])
    h[b,t,d]    = f[b,t,d] * h[b,t-1,d] + (1 - f[b,t,d]) * c[b,t,d],   h[b,-1,d] = 0        (the recurrence along time)
    out[b,t,e]  = sum over k of (h[b,t,k] * o[b,t,k]) * wo[e,k]
  The recurrence is the sequential one; that the two programs' doubling scans compute it is the scan library's theorem,
  which needs only that the multiplier f is a nonnegative real — true of the logistic function at every extended real.
-/
import Idealize.ShloMosaic.Lib.ValueIdx
import proofs.«116791_j19533511262472_2_alg».proof.Proof.LibScan

noncomputable section

open scoped BigOperators

namespace Cert.Spec

open Idealize.ShloMosaic

/-- The logistic function takes every extended real to a real in [0, 1]: 0 at -∞, 1 at +∞, 1/(1+e^(-r)) at a real r. -/
theorem logistic_real (y : EReal) : ∃ r : ℝ, 0 ≤ r ∧ Ideal.logistic y = (r : EReal) := by
  induction y using EReal.rec with
  | bot => exact ⟨0, le_refl _, by rw [Ideal.logistic_bot]; rfl⟩
  | coe r => exact ⟨(1 + Real.exp (-r))⁻¹, inv_nonneg.mpr (by positivity), Ideal.logistic_coe r⟩
  | top => exact ⟨1, zero_le_one, by rw [Ideal.logistic_top]; rfl⟩

variable (x : Fin 4 → Fin 4096 → Fin 1024 → EReal) (wg : Fin 3072 → Fin 1024 → EReal)
  (wo : Fin 1024 → Fin 1024 → EReal) (bias : Fin 1024 → EReal)

/-- A gate's pre-activation: row (b, t) of the input against row e of the gate weights. -/
def gate (b : Fin 4) (t : Fin 4096) (e : Fin 3072) : EReal := ∑ k : Fin 1024, x b t k * wg e k

/-- Feature d's row among the forget-gate rows (the first 1024 rows of the gate weights). -/
def eF (d : Fin 1024) : Fin 3072 := ⟨d.val, by have := d.isLt; omega⟩
/-- Feature d's row among the candidate rows (rows 1024 to 2047). -/
def eC (d : Fin 1024) : Fin 3072 := ⟨1024 + d.val, by have := d.isLt; omega⟩
/-- Feature d's row among the output-gate rows (rows 2048 to 3071). -/
def eO (d : Fin 1024) : Fin 3072 := ⟨2048 + d.val, by have := d.isLt; omega⟩

/-- The forget gate. -/
def fG (b : Fin 4) (t : Fin 4096) (d : Fin 1024) : EReal := Ideal.logistic (gate x wg b t (eF d) + bias d)
/-- The candidate: g * logistic g. -/
def cG (b : Fin 4) (t : Fin 4096) (d : Fin 1024) : EReal := gate x wg b t (eC d) * Ideal.logistic (gate x wg b t (eC d))
/-- The output gate. -/
def oG (b : Fin 4) (t : Fin 4096) (d : Fin 1024) : EReal := Ideal.logistic (gate x wg b t (eO d))
/-- The recurrence's additive term: (1 - f) * c. -/
def bT (b : Fin 4) (t : Fin 4096) (d : Fin 1024) : EReal := (1 - fG x wg bias b t d) * cG x wg b t d

/-- The multipliers of (batch b, feature d) as a sequence along time (0 past the end: never read). -/
def aSeq (b : Fin 4) (d : Fin 1024) (t : ℕ) : EReal := if h : t < 4096 then fG x wg bias b ⟨t, h⟩ d else 0
/-- The additive terms of (batch b, feature d) as a sequence along time. -/
def bSeq (b : Fin 4) (d : Fin 1024) (t : ℕ) : EReal := if h : t < 4096 then bT x wg bias b ⟨t, h⟩ d else 0

/-- Every multiplier is a nonnegative real. -/
theorem aSeq_real (b : Fin 4) (d : Fin 1024) (t : ℕ) : ∃ r : ℝ, 0 ≤ r ∧ aSeq x wg bias b d t = (r : EReal) := by
  unfold aSeq
  split
  · exact logistic_real _
  · exact ⟨0, le_refl _, rfl⟩

/-- The hidden state: the sequential recurrence along time, from 0. -/
def hid (b : Fin 4) (d : Fin 1024) (t : ℕ) : EReal := ScanLib.seqRec (aSeq x wg bias b d) (bSeq x wg bias b d) 0 t

/-- The result: the gated hidden state of row (b, t) against row e of the output weights. -/
def out (b : Fin 4) (t : Fin 4096) (e : Fin 1024) : EReal := ∑ k : Fin 1024, (hid x wg bias b k t.val * oG x wg b t k) * wo e k

end Cert.Spec

end
-- ==== Proof.KIInv.lean ====
/-
  What the three scratch buffers hold between grid points, and what a time chunk's last point stores into the output block,
  in terms of the specification (at the ideal instance). A grid point t is (batch t/32, time chunk (t/4)%8, feature chunk
  t%4), the feature chunk the fastest. Before point t, with q = t % 4 feature chunks of the current time chunk done:
    (cache)   if q > 0 the cache holds the time chunk's 512 input rows;
    (staged)  columns below 256 q of the staged hidden state hold h * o at the chunk's rows;
    (carry)   columns below 256 q of the carry hold h at the chunk's LAST row (the state handed to the next chunk), and, if
              this is not the batch's first time chunk, the other columns hold h at the previous chunk's last row.
  After the fourth feature chunk (q = 4) every column of the carry holds h at the chunk's last row: that is the statement
  "other columns" of the next time chunk at q = 0, so the invariant goes round.
-/
import proofs.«116791_j19533511262472_2_alg».proof.Proof.KIShared
import proofs.«116791_j19533511262472_2_alg».proof.Proof.Spec
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (c : Dev nD)

/-! ## The specification's inputs, read off the buffers the region finds -/

/-- The input, by coordinates. -/
def X : Fin 4 → Fin 4096 → Fin 1024 → EReal := fun b t k => (V m c main_arg0 : S4x4096x1024.Idx → EReal) (ix3 b t k)
/-- The ternarised gate weights (the host computed them before the region). -/
def WG : Fin 3072 → Fin 1024 → EReal := fun e k => (V m c main_v11 : S3072x1024.Idx → EReal) (ix2 e k)
/-- The ternarised output weights. -/
def WO : Fin 1024 → Fin 1024 → EReal := fun e k => (V m c main_v23 : S1024x1024.Idx → EReal) (ix2 e k)
/-- The forget bias. -/
def BI : Fin 1024 → EReal := fun d => (V m c main_arg3 : S1024.Idx → EReal) (ix1 d)

/-- The hidden state of the specification at these inputs. -/
def H (b : Fin 4) (d : Fin 1024) (t : ℕ) : EReal := Spec.hid (X m c) (WG m c) (BI m c) b d t
/-- The output gate of the specification at these inputs. -/
def O (b : Fin 4) (t : Fin 4096) (d : Fin 1024) : EReal := Spec.oG (X m c) (WG m c) b t d

/-- THE RESULT: the whole output array as one function of the inputs, entry by entry. -/
def G : S4x4096x1024.Idx → EReal := fun i => Spec.out (X m c) (WG m c) (WO m c) (BI m c) (i 0) (i 1) (i 2)

/-! ## A grid point's coordinates -/

/-- A time-chunk number tc < 32 is (batch tc / 8, chunk tc % 8). -/
def bOf (tc : ℕ) (h : tc < 32) : Fin 4 := ⟨tc / 8, by omega⟩
/-- Row r of time chunk tc % 8, as a time index. -/
def rowOf (tc : ℕ) (r : Fin 512) : Fin 4096 := ⟨512 * (tc % 8) + r.val, by have := r.isLt; omega⟩

/-- What the last feature chunk's point of time chunk tc stores into the output block: the result's rows 512 (tc % 8) + r. -/
def outBlk (tc : ℕ) (h : tc < 32) : S1x512x1024.Idx → EReal := fun y =>
  Spec.out (X m c) (WG m c) (WO m c) (BI m c) (bOf tc h) (rowOf tc (y 1)) (y 2)

/-! ## The invariant -/

/-- The scratch buffers' contents with `q` feature chunks (q ≤ 4) of time chunk `tc` done. -/
structure InvQ (tc : ℕ) (h : tc < 32) (q : ℕ) (d8 : S1x1024.Idx → EReal) (d9 : S512x1024.Idx → EReal) (d10 : S512x1024.Idx → EReal) : Prop where
  /-- the cache holds the chunk's input rows -/
  cache : 0 < q → ∀ (r : Fin 512) (k : Fin 1024), d10 (ix2 r k) = X m c (bOf tc h) (rowOf tc r) k
  /-- the done columns of the staged hidden state hold h * o -/
  staged : ∀ (r : Fin 512) (col : Fin 1024), col.val / 256 < q → d9 (ix2 r col) = H m c (bOf tc h) col (rowOf tc r).val * O m c (bOf tc h) (rowOf tc r) col
  /-- the done columns of the carry hold h at the chunk's last row -/
  carryNew : ∀ col : Fin 1024, col.val / 256 < q → d8 (ix2 0 col) = H m c (bOf tc h) col (512 * (tc % 8) + 511)
  /-- the other columns hold h at the previous chunk's last row -/
  carryOld : 0 < tc % 8 → ∀ col : Fin 1024, q ≤ col.val / 256 → d8 (ix2 0 col) = H m c (bOf tc h) col (512 * (tc % 8) - 1)

/-- The invariant before point n (n ≤ 128): nothing before the first point and after the last; otherwise `InvQ` of the
    point's time chunk with its feature-chunk number. -/
def Inv (n : ℕ) (d8 : S1x1024.Idx → EReal) (d9 : S512x1024.Idx → EReal) (d10 : S512x1024.Idx → EReal) : Prop :=
  if h : n / 4 < 32 then InvQ m c (n / 4) h (n % 4) d8 d9 d10 else True

/-- Finishing a time chunk: all four feature chunks done is the next time chunk with none done. -/
theorem InvQ.next {tc : ℕ} (h : tc < 32) (h' : tc + 1 < 32) {d8 d9 d10} (hq : InvQ m c tc h 4 d8 d9 d10) : InvQ m c (tc + 1) h' 0 d8 d9 d10 where
  cache := fun hq0 => absurd hq0 (lt_irrefl 0)
  staged := fun r col hc => absurd hc (Nat.not_lt_zero _)
  carryNew := fun col hc => absurd hc (Nat.not_lt_zero _)
  carryOld := fun htn col _ => by
    have hb : bOf (tc + 1) h' = bOf tc h := by unfold bOf; apply Fin.ext; show (tc + 1) / 8 = tc / 8; omega
    have hrow : 512 * ((tc + 1) % 8) - 1 = 512 * (tc % 8) + 511 := by omega
    rw [hb, hrow]
    exact hq.carryNew col (by have := col.isLt; omega)

end Cert.KernelIdeal.Val

end
-- ==== Proof.KIPay.lean ====
/-
  CLOSED FORMS, AT AN ENTRY, OF WHAT THE KERNEL BODY STORES, at the ideal instance: a float is an extended real, every
  operation is exact, and a change of float format is the identity.

  The body of one grid step (time chunk of 512 rows, feature block of 256 columns) computes, from the cached input rows
  x (512 × 1024), the gate-weights block w (768 × 1024: rows 0–255 forget, 256–511 candidate, 512–767 output gate), the
  bias slice and the carried state:
    g[r, e]  = sum over k of x[r, k] * w[e, k]                                  (the gate product)
    f = logistic (g[r, j] + bias[j]),  c = g[r, 256 + j] * logistic (g[r, 256 + j]),  o = logistic (g[r, 512 + j])
    a doubling scan along the rows, nine rounds with shifts 1, 2, 4, …, 256, of the pairs (f, (1 - f) * c): one
    round is  a' = a * select (row ≥ s, a rotated down by s rows, 1),  b' = a * select (row ≥ s, b rotated down by s
    rows, 0) + b,  the rotation along the rows modulo 512 and the comparison a signed one of the row number against s
    h = a₉ * carry + b₉   with carry the loaded carry slice, or 0 at the first time chunk.
  It stores the last row of h as the new carry, h * o as the staged hidden state, and — at the first and last feature
  blocks — the cached input rows and the output product of the staged hidden state with the output weights.

  This module reads each of these at an entry: the gate product and the gates (pay6_apply, pay7_apply, pay8_apply,
  btV_apply), one generic doubling round at a column (rnd_apply: if the two blocks hold sequences p.1 and p.2 down a
  column, the round's results hold ScanLib.dbl s p), the nine rounds chained (scan_apply), the new state
  (stateBlk_apply), and the four stores (carryRow_apply, hidBlk_apply, pay5_apply, pay4_apply).
-/
import proofs.«116791_j19533511262472_2_alg».proof.Proof.Gen.KernelIdeal.Skeleton
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.Lib.Affine
import Idealize.ShloMosaic.PureOps.Ideal.Laws
import proofs.«116791_j19533511262472_2_alg».proof.Proof.LibScan

noncomputable section

open scoped BigOperators

namespace Cert.KernelIdeal.Pay

open Cert.KernelIdeal Cert.KernelIdeal.Gen Idealize.ShloMosaic Idealize.ShloMosaic.ValueIdx

/-- Row r of the cached input against row e of the gate-weights block: the gate pre-activation. -/
def gate (v5 : Vec Ideal S512x1024 .bf16) (v6 : Vec Ideal S1x768x1024 .bf16) (r : Fin 512) (e : Fin 768) : EReal :=
  ∑ k : Fin 1024, v5 (ix2 r k) * v6 (ix3 (0 : Fin 1) e k)

/-! The operand indices of the gate product: at output entry (r, e) and contraction coordinate k the left operand is
read at (r, k) and the right at (k, e). -/

theorem dotG_lhs0 (i : S512x768.Idx) (q : dot_S512x1024_S1024x768_S512x768_1_0_0_1_n_n.contr.Idx) : (dot_S512x1024_S1024x768_S512x768_1_0_0_1_n_n.lhsIdx i q 0).val = (i 0).val := by
  unfold DotDims.lhsIdx
  rw [dif_neg (show ¬(0 : Fin S512x1024.rank) ∈ dot_S512x1024_S1024x768_S512x768_1_0_0_1_n_n.lhsBatch by decide),
    dif_pos (show (0 : Fin S512x1024.rank) ∈ dot_S512x1024_S1024x768_S512x768_1_0_0_1_n_n.lhsNonContracting by decide)]
  rfl
theorem dotG_lhs1 (i : S512x768.Idx) (q : dot_S512x1024_S1024x768_S512x768_1_0_0_1_n_n.contr.Idx) : (dot_S512x1024_S1024x768_S512x768_1_0_0_1_n_n.lhsIdx i q 1).val = (q ⟨0, by decide⟩).val :=
  dot_S512x1024_S1024x768_S512x768_1_0_0_1_n_n.lhsIdx_val_of_single rfl i q
theorem dotG_rhs0 (i : S512x768.Idx) (q : dot_S512x1024_S1024x768_S512x768_1_0_0_1_n_n.contr.Idx) : (dot_S512x1024_S1024x768_S512x768_1_0_0_1_n_n.rhsIdx i q 0).val = (q ⟨0, by decide⟩).val :=
  dot_S512x1024_S1024x768_S512x768_1_0_0_1_n_n.rhsIdx_val_of_single rfl i q
theorem dotG_rhs1 (i : S512x768.Idx) (q : dot_S512x1024_S1024x768_S512x768_1_0_0_1_n_n.contr.Idx) : (dot_S512x1024_S1024x768_S512x768_1_0_0_1_n_n.rhsIdx i q 1).val = (i 1).val := by
  unfold DotDims.rhsIdx
  rw [dif_neg (show ¬(1 : Fin S1024x768.rank) ∈ dot_S512x1024_S1024x768_S512x768_1_0_0_1_n_n.rhsBatch by decide),
    dif_pos (show (1 : Fin S1024x768.rank) ∈ dot_S512x1024_S1024x768_S512x768_1_0_0_1_n_n.rhsNonContracting by decide)]
  rfl

/-- The gate product at entry (r, e): the sum over the 1024 input features. -/
theorem pay6_apply (v5 : Vec Ideal S512x1024 .bf16) (v6 : Vec Ideal S1x768x1024 .bf16) (r : Fin 512) (e : Fin 768) :
    k0_pay6 (F := Ideal) v5 v6 (ix2 r e) = gate v5 v6 r e := by
  unfold k0_pay6 gate
  simp only [matmul]
  rw [Ideal.matmul_constant_zero_apply,
    ← Equiv.sum_comp (contrEquiv1 dot_S512x1024_S1024x768_S512x768_1_0_0_1_n_n 1024 rfl rfl).symm]
  refine Finset.sum_congr rfl fun k _ => ?_
  have hk := contrEquiv1_symm_val dot_S512x1024_S1024x768_S512x768_1_0_0_1_n_n 1024 rfl rfl k
  have el : dot_S512x1024_S1024x768_S512x768_1_0_0_1_n_n.lhsIdx (ix2 r e) ((contrEquiv1 dot_S512x1024_S1024x768_S512x768_1_0_0_1_n_n 1024 rfl rfl).symm k) = ix2 r k :=
    funext fun a => Fin.ext (by
      match a with
      | ⟨0, _⟩ => exact dotG_lhs0 _ _
      | ⟨1, _⟩ => exact (dotG_lhs1 _ _).trans hk)
  have er : dot_S512x1024_S1024x768_S512x768_1_0_0_1_n_n.rhsIdx (ix2 r e) ((contrEquiv1 dot_S512x1024_S1024x768_S512x768_1_0_0_1_n_n 1024 rfl rfl).symm k) = ix2 k e :=
    funext fun a => Fin.ext (by
      match a with
      | ⟨0, _⟩ => exact (dotG_rhs0 _ _).trans hk
      | ⟨1, _⟩ => exact dotG_rhs1 _ _)
  rw [el, er]
  refine congrArg (v5 (ix2 r k) * ·) ?_
  refine (transpose_ix2_apply _ transposes_S768x1024_p1_0_S1024x768 k e).trans ?_
  exact shapeCast_1ab_ab_apply v6 shapeCasts_S1x768x1024_S768x1024 e k

/-- The forget gate's pre-activation of feature j: rows 0–255 of the weights block. -/
def gF (v5 : Vec Ideal S512x1024 .bf16) (v6 : Vec Ideal S1x768x1024 .bf16) (r : Fin 512) (j : Fin 256) : EReal :=
  gate v5 v6 r ⟨j.val, by have := j.isLt; omega⟩
/-- The candidate's pre-activation: rows 256–511. -/
def gC (v5 : Vec Ideal S512x1024 .bf16) (v6 : Vec Ideal S1x768x1024 .bf16) (r : Fin 512) (j : Fin 256) : EReal :=
  gate v5 v6 r ⟨256 + j.val, by have := j.isLt; omega⟩
/-- The output gate's pre-activation: rows 512–767. -/
def gO (v5 : Vec Ideal S512x1024 .bf16) (v6 : Vec Ideal S1x768x1024 .bf16) (r : Fin 512) (j : Fin 256) : EReal :=
  gate v5 v6 r ⟨512 + j.val, by have := j.isLt; omega⟩

/-- The forget gate f = logistic (g_f + bias). -/
def fG (v5 : Vec Ideal S512x1024 .bf16) (v6 : Vec Ideal S1x768x1024 .bf16) (v9 : Vec Ideal S1x256 .f32)
    (r : Fin 512) (j : Fin 256) : EReal := Ideal.logistic (gF v5 v6 r j + v9 (ix2 (0 : Fin 1) j))
/-- The candidate c = g_c * logistic g_c. -/
def cG (v5 : Vec Ideal S512x1024 .bf16) (v6 : Vec Ideal S1x768x1024 .bf16) (r : Fin 512) (j : Fin 256) : EReal :=
  gC v5 v6 r j * Ideal.logistic (gC v5 v6 r j)
/-- The output gate o = logistic g_o. -/
def oG (v5 : Vec Ideal S512x1024 .bf16) (v6 : Vec Ideal S1x768x1024 .bf16) (r : Fin 512) (j : Fin 256) : EReal :=
  Ideal.logistic (gO v5 v6 r j)
/-- The recurrence's additive term (1 - f) * c. -/
def bT (v5 : Vec Ideal S512x1024 .bf16) (v6 : Vec Ideal S1x768x1024 .bf16) (v9 : Vec Ideal S1x256 .f32)
    (r : Fin 512) (j : Fin 256) : EReal := (1 - fG v5 v6 v9 r j) * cG v5 v6 r j

/-- The forget gate as the body computes it, at (r, j). -/
theorem pay7_apply (v5 : Vec Ideal S512x1024 .bf16) (v6 : Vec Ideal S1x768x1024 .bf16) (v9 : Vec Ideal S1x256 .f32)
    (r : Fin 512) (j : Fin 256) : k0_pay7 (F := Ideal) v5 v6 v9 (ix2 r j) = fG v5 v6 v9 r j := by
  unfold k0_pay7 fG gF
  show Ideal.logistic (extractStridedSlice S512x256 ![0, 0] (k0_pay6 (F := Ideal) v5 v6) slices_S512x768_o0_0_S512x256 (ix2 r j)
      + broadcastTo S512x256 (shapeCast S1x256 v9 shapeCasts_S1x256_S1x256) broadcasts_S1x256_S512x256 (ix2 r j)) = _
  refine congrArg Ideal.logistic (congrArg₂ (· + ·) ?_ ?_)
  · exact (slice2_axis1_apply 0 _ slices_S512x768_o0_0_S512x256 r j ⟨j.val, by have := j.isLt; omega⟩
      (Nat.zero_add _).symm).trans (pay6_apply v5 v6 r _)
  · refine (broadcastTo_1b_ab_apply _ broadcasts_S1x256_S512x256 r j).trans ?_
    rw [shapeCast_self]

/-- The output gate as the body computes it, at (r, j). -/
theorem pay8_apply (v5 : Vec Ideal S512x1024 .bf16) (v6 : Vec Ideal S1x768x1024 .bf16)
    (r : Fin 512) (j : Fin 256) : k0_pay8 (F := Ideal) v5 v6 (ix2 r j) = oG v5 v6 r j := by
  unfold k0_pay8 oG gO
  show Ideal.logistic (extractStridedSlice S512x256 ![0, 512] (k0_pay6 (F := Ideal) v5 v6) slices_S512x768_o0_512_S512x256 (ix2 r j)) = _
  refine congrArg Ideal.logistic ?_
  exact (slice2_axis1_apply 512 _ slices_S512x768_o0_512_S512x256 r j ⟨512 + j.val, by have := j.isLt; omega⟩
    rfl).trans (pay6_apply v5 v6 r _)

/-- The additive term (1 - f) * c as the body computes it before the first doubling round. -/
def btV (v5 : Vec Ideal S512x1024 .bf16) (v6 : Vec Ideal S1x768x1024 .bf16) (v9 : Vec Ideal S1x256 .f32) :
    FVec Ideal S512x256 .f32 :=
  mulf (subf (broadcast S512x256 (Scalar.ofBits (F := Ideal) .f32 0x3F800000#32)) (k0_pay7 (F := Ideal) v5 v6 v9))
    (mulf (extractStridedSlice S512x256 ![0, 256] (k0_pay6 (F := Ideal) v5 v6) slices_S512x768_o0_256_S512x256)
      (logistic (extractStridedSlice S512x256 ![0, 256] (k0_pay6 (F := Ideal) v5 v6) slices_S512x768_o0_256_S512x256)))

/-- The additive term at (r, j). -/
theorem btV_apply (v5 : Vec Ideal S512x1024 .bf16) (v6 : Vec Ideal S1x768x1024 .bf16) (v9 : Vec Ideal S1x256 .f32)
    (r : Fin 512) (j : Fin 256) : btV v5 v6 v9 (ix2 r j) = bT v5 v6 v9 r j := by
  have hc : extractStridedSlice S512x256 ![0, 256] (k0_pay6 (F := Ideal) v5 v6) slices_S512x768_o0_256_S512x256 (ix2 r j)
      = gC v5 v6 r j :=
    (slice2_axis1_apply 256 _ slices_S512x768_o0_256_S512x256 r j ⟨256 + j.val, by have := j.isLt; omega⟩
      rfl).trans (pay6_apply v5 v6 r _)
  unfold btV bT cG
  show (Ideal.ofBits .f32 0x3F800000#32 - k0_pay7 (F := Ideal) v5 v6 v9 (ix2 r j))
      * (extractStridedSlice S512x256 ![0, 256] (k0_pay6 (F := Ideal) v5 v6) slices_S512x768_o0_256_S512x256 (ix2 r j)
        * Ideal.logistic (extractStridedSlice S512x256 ![0, 256] (k0_pay6 (F := Ideal) v5 v6) slices_S512x768_o0_256_S512x256 (ix2 r j))) = _
  rw [hc, pay7_apply, Ideal.ofBits_one_f32]

/-! ## One doubling round of the scan, read at an entry -/

/-- The round's row mask: the row iota compared, signed, at-or-above against the splat shift. -/
def maskOf (sb : BitVec 32) : IVec S512x256 1 :=
  cmpi .sge (iota .tc S512x256 32 [0] iota_S512x256_d0_w32) (broadcast S512x256 sb)

/-- The round's new multiplier block: a * select (row ≥ s, a rotated down by s rows, 1). -/
def rndA (sb : BitVec 32) (m : IVec S512x256 1) (A : FVec Ideal S512x256 .f32) : FVec Ideal S512x256 .f32 :=
  mulf A (select m (dynamicRotate 0 sb none A rotates_S512x256_d0)
    (broadcast S512x256 (Scalar.ofBits (F := Ideal) .f32 0x3F800000#32)))

/-- The round's new value block: a * select (row ≥ s, b rotated down by s rows, 0) + b. -/
def rndB (sb : BitVec 32) (m : IVec S512x256 1) (A B : FVec Ideal S512x256 .f32) : FVec Ideal S512x256 .f32 :=
  addf (mulf A (select m (dynamicRotate 0 sb none B rotates_S512x256_d0)
    (broadcast S512x256 (Scalar.ofBits (F := Ideal) .f32 0x00000000#32)))) B

/-- The mask at (r, j): set exactly when the row is at or past the shift (the shift at most 256, the rows below 512, so
the signed reading of both words is the natural number). -/
theorem maskOf_apply (s : ℕ) (hs : s ≤ 256) (r : Fin 512) (j : Fin 256) :
    maskOf (BitVec.ofNat 32 s) (ix2 r j) = if s ≤ r.val then 1#1 else 0#1 := by
  have hr := r.isLt
  have toInt_small : ∀ n : ℕ, n < 512 → (BitVec.ofNat 32 n).toInt = (n : ℤ) := fun n hn => by
    have hm : (BitVec.ofNat 32 n).toNat = n := by rw [BitVec.toNat_ofNat]; omega
    rw [BitVec.toInt_eq_toNat_of_lt (by rw [hm]; omega), hm]
  have e1 : (BitVec.ofNat 32 r.val).toInt = (r.val : ℤ) := toInt_small _ hr
  have e2 : (BitVec.ofNat 32 s).toInt = (s : ℤ) := toInt_small _ (by omega)
  unfold maskOf
  show IntOp.cmpi .sge (iota .tc S512x256 32 [0] iota_S512x256_d0_w32 (ix2 r j)) (BitVec.ofNat 32 s) = _
  rw [iota_single_apply]
  show IntOp.cmpi .sge (BitVec.ofNat 32 r.val) (BitVec.ofNat 32 s) = _
  by_cases h : s ≤ r.val
  · rw [if_pos h]
    exact IntOp.cmpi_sge.mpr (by rw [e1, e2]; exact_mod_cast h)
  · rw [if_neg h]
    refine eq_zero_of_ne_one fun h1 => h ?_
    have := IntOp.cmpi_sge.mp h1
    rw [e1, e2] at this
    exact_mod_cast this

/-- A block rotated down by s rows, read at a row at or past s: the entry s rows up. -/
theorem rot_apply {α : Type} (sb : BitVec 32) (s : ℕ) (hsb : sb.toNat = s) (X : S512x256.Idx → α)
    (r : Fin 512) (j : Fin 256) (hs : s ≤ r.val) :
    dynamicRotate 0 sb none X rotates_S512x256_d0 (ix2 r j) = X (ix2 ⟨r.val - s, by have := r.isLt; omega⟩ j) := by
  have hr := r.isLt
  refine dynamicRotate_apply (0 : Fin S512x256.rank) sb X rotates_S512x256_d0 _ _ fun b => ?_
  match b with
  | ⟨0, _⟩ =>
    show r.val - s = (r.val + 512 - sb.toNat % 512) % 512
    rw [hsb]; omega
  | ⟨1, _⟩ => rfl

/-- ONE ROUND at column j: if the multiplier block and the value block hold, down column j, the sequences p.1 and p.2
(on the 512 rows), the round's results hold the doubled sequences. -/
theorem rnd_apply (s : ℕ) (hs : s ≤ 256) (A B : FVec Ideal S512x256 .f32) (j : Fin 256)
    (p : (ℕ → EReal) × (ℕ → EReal))
    (hA : ∀ r : Fin 512, A (ix2 r j) = p.1 r.val) (hB : ∀ r : Fin 512, B (ix2 r j) = p.2 r.val) :
    (∀ r : Fin 512, rndA (BitVec.ofNat 32 s) (maskOf (BitVec.ofNat 32 s)) A (ix2 r j) = (ScanLib.dbl s p).1 r.val) ∧
    (∀ r : Fin 512, rndB (BitVec.ofNat 32 s) (maskOf (BitVec.ofNat 32 s)) A B (ix2 r j) = (ScanLib.dbl s p).2 r.val) := by
  have hsb : (BitVec.ofNat 32 s).toNat = s := by rw [BitVec.toNat_ofNat]; omega
  constructor
  · intro r
    show A (ix2 r j) * Scalar.select (maskOf (BitVec.ofNat 32 s) (ix2 r j))
        (dynamicRotate 0 (BitVec.ofNat 32 s) none A rotates_S512x256_d0 (ix2 r j)) (Ideal.ofBits .f32 0x3F800000#32)
      = p.1 r.val * (if s ≤ r.val then p.1 (r.val - s) else 1)
    rw [maskOf_apply s hs, hA r]
    by_cases h : s ≤ r.val
    · rw [if_pos h, if_pos h, select_one, rot_apply _ s hsb A r j h, hA]
    · rw [if_neg h, if_neg h, select_zero, Ideal.ofBits_one_f32]
  · intro r
    show A (ix2 r j) * Scalar.select (maskOf (BitVec.ofNat 32 s) (ix2 r j))
        (dynamicRotate 0 (BitVec.ofNat 32 s) none B rotates_S512x256_d0 (ix2 r j)) (Ideal.ofBits .f32 0x00000000#32)
        + B (ix2 r j)
      = p.1 r.val * (if s ≤ r.val then p.2 (r.val - s) else 0) + p.2 r.val
    rw [maskOf_apply s hs, hA r, hB r]
    by_cases h : s ≤ r.val
    · rw [if_pos h, if_pos h, select_one, rot_apply _ s hsb B r j h, hB]
    · rw [if_neg h, if_neg h, select_zero, Ideal.ofBits_zero_f32]

/-! ## The payloads as rounds

Each scan payload of the body is, by unfolding, one of the two round blocks applied to earlier payloads (the first
round sits inside the two payloads the first part returns, the fifth is split over two payloads, the ninth is finished
in the state's own payload). -/

/-- The row iota the three parts share. -/
def v25 : IVec S512x256 32 := iota .tc S512x256 32 [0] iota_S512x256_d0_w32

section Rounds
variable (w25 : IVec S512x256 32) (a b v69 v75 v79 : FVec Ideal S512x256 .f32) (m : IVec S512x256 1)
  (v5 : Vec Ideal S512x1024 .bf16) (v6 : Vec Ideal S1x768x1024 .bf16) (v9 v126 : Vec Ideal S1x256 .f32) (arg1 : BitVec 32)

theorem pay9_eq : k0_pay9 = maskOf 1#32 := rfl
theorem pay12_eq : k0_pay12 = maskOf 2#32 := rfl
theorem pay14_eq : k0_pay14 v25 = maskOf 4#32 := rfl
theorem pay16_eq : k0_pay16 v25 = maskOf 8#32 := rfl
theorem pay18_eq : k0_pay18 v25 = maskOf 16#32 := rfl
theorem pay22_eq : k0_pay22 v25 = maskOf 32#32 := rfl
theorem pay24_eq : k0_pay24 v25 = maskOf 64#32 := rfl
theorem pay26_eq : k0_pay26 v25 = maskOf 128#32 := rfl
theorem pay29_eq : k0_pay29 v25 = maskOf 256#32 := rfl

theorem pay11_eq : k0_pay11 (F := Ideal) v5 v6 v9 = rndA 1#32 k0_pay9 (k0_pay7 (F := Ideal) v5 v6 v9) := rfl
theorem pay10_eq : k0_pay10 (F := Ideal) v5 v6 v9 = rndB 1#32 k0_pay9 (k0_pay7 (F := Ideal) v5 v6 v9) (btV v5 v6 v9) := rfl
theorem pay13_eq : k0_pay13 (F := Ideal) a m = rndA 2#32 m a := rfl
theorem pay15_eq : k0_pay15 (F := Ideal) w25 a m = rndA 4#32 (k0_pay14 w25) (k0_pay13 (F := Ideal) a m) := rfl
theorem pay17_eq : k0_pay17 (F := Ideal) w25 a m = rndA 8#32 (k0_pay16 w25) (k0_pay15 (F := Ideal) w25 a m) := rfl
theorem pay21_eq : k0_pay21 (F := Ideal) (k0_pay17 (F := Ideal) w25 a m) (k0_pay19 (F := Ideal) w25 a m)
    = rndA 16#32 (k0_pay18 w25) (k0_pay17 (F := Ideal) w25 a m) := rfl
theorem pay20_eq : k0_pay20 (F := Ideal) w25 b a m
    = rndB 16#32 (k0_pay18 w25) (k0_pay17 (F := Ideal) w25 a m)
        (rndB 8#32 (k0_pay16 w25) (k0_pay15 (F := Ideal) w25 a m)
          (rndB 4#32 (k0_pay14 w25) (k0_pay13 (F := Ideal) a m) (rndB 2#32 m a b))) := rfl
theorem pay23_eq : k0_pay23 (F := Ideal) w25 v69 v75 = rndA 32#32 (k0_pay22 w25) (k0_pay21 (F := Ideal) v69 v75) := rfl
theorem pay25_eq : k0_pay25 (F := Ideal) w25 v69 v75 = rndA 64#32 (k0_pay24 w25) (k0_pay23 (F := Ideal) w25 v69 v75) := rfl
theorem pay28_eq : k0_pay28 (F := Ideal) w25 v69 v75 = rndA 128#32 (k0_pay26 w25) (k0_pay25 (F := Ideal) w25 v69 v75) := rfl
theorem pay27_eq : k0_pay27 (F := Ideal) w25 v69 v75 v79
    = rndB 128#32 (k0_pay26 w25) (k0_pay25 (F := Ideal) w25 v69 v75)
        (rndB 64#32 (k0_pay24 w25) (k0_pay23 (F := Ideal) w25 v69 v75)
          (rndB 32#32 (k0_pay22 w25) (k0_pay21 (F := Ideal) v69 v75) v79)) := rfl

/-- The carried-in state as the body spreads it over the rows: zero at the first time chunk, the loaded carry after. -/
def carryB (arg1 : BitVec 32) (v126 : Vec Ideal S1x256 .f32) : FVec Ideal S512x256 .f32 :=
  broadcastTo S512x256
    (shapeCast S1x256
      (Scalar.select (Scalar.cmpi .eq arg1 0#32)
        (broadcast S1x256 (Scalar.ofBits (F := Ideal) .f32 0x00000000#32)) v126)
      shapeCasts_S1x256_S1x256)
    broadcasts_S1x256_S512x256

theorem pay1_eq : k0_pay1 (F := Ideal) arg1 (k0_pay27 (F := Ideal) w25 v69 v75 v79) (k0_pay28 (F := Ideal) w25 v69 v75)
      (k0_pay29 w25) (k0_pay30 (F := Ideal) w25 v69 v75 v79) (k0_pay31 (F := Ideal) w25 v69 v75)
      (Scalar.ofBits (F := Ideal) .f32 0x00000000#32) v126
    = addf (mulf (rndA 256#32 (k0_pay29 w25) (k0_pay28 (F := Ideal) w25 v69 v75)) (carryB arg1 v126))
        (rndB 256#32 (k0_pay29 w25) (k0_pay28 (F := Ideal) w25 v69 v75) (k0_pay27 (F := Ideal) w25 v69 v75 v79)) := rfl

/-- The carried-in state at (r, j). -/
theorem carryB_apply (r : Fin 512) (j : Fin 256) :
    carryB arg1 v126 (ix2 r j) = if arg1 = 0#32 then 0 else v126 (ix2 (0 : Fin 1) j) := by
  unfold carryB
  refine (broadcastTo_1b_ab_apply _ broadcasts_S1x256_S512x256 r j).trans ?_
  rw [shapeCast_self]
  by_cases h : arg1 = 0#32
  · have hc : Scalar.cmpi .eq arg1 0#32 = 1#1 := IntOp.cmpi_eq.mpr h
    rw [hc, select_one, if_pos h]
    exact Ideal.ofBits_zero_f32
  · have hc : Scalar.cmpi .eq arg1 0#32 = 0#1 := eq_zero_of_ne_one fun h1 => h (IntOp.cmpi_eq.mp h1)
    rw [hc, select_zero, if_neg h]

end Rounds

/-! ## The composite payloads, exactly as the body's parts feed them -/

section Composite
variable (arg1 : BitVec 32) (v5 : Vec Ideal S512x1024 .bf16) (v6 : Vec Ideal S1x768x1024 .bf16)
  (v9 v126 : Vec Ideal S1x256 .f32)

/-- The value block after the first round (shift 1). -/
def v35 : FVec Ideal S512x256 .f32 := k0_pay10 (F := Ideal) v5 v6 v9
/-- The multiplier block after the first round. -/
def v36 : FVec Ideal S512x256 .f32 := k0_pay11 (F := Ideal) v5 v6 v9
/-- The second round's mask. -/
def v38 : IVec S512x256 1 := k0_pay12
/-- The multiplier block after the fourth round (shift 8). -/
def v69 : FVec Ideal S512x256 .f32 := k0_pay17 (F := Ideal) v25 (v36 v5 v6 v9) v38
/-- The fifth round's selected rotated multiplier. -/
def v75 : FVec Ideal S512x256 .f32 := k0_pay19 (F := Ideal) v25 (v36 v5 v6 v9) v38
/-- The value block after the fifth round (shift 16). -/
def v79 : FVec Ideal S512x256 .f32 := k0_pay20 (F := Ideal) v25 (v35 v5 v6 v9) (v36 v5 v6 v9) v38
/-- The value block after the eighth round (shift 128). -/
def v112 : FVec Ideal S512x256 .f32 := k0_pay27 (F := Ideal) v25 (v69 v5 v6 v9) (v75 v5 v6 v9) (v79 v5 v6 v9)
/-- The multiplier block after the eighth round. -/
def v113 : FVec Ideal S512x256 .f32 := k0_pay28 (F := Ideal) v25 (v69 v5 v6 v9) (v75 v5 v6 v9)
/-- The ninth round's mask. -/
def v115 : IVec S512x256 1 := k0_pay29 v25
/-- The ninth round's rotated value block. -/
def v117 : FVec Ideal S512x256 .f32 := k0_pay30 (F := Ideal) v25 (v69 v5 v6 v9) (v75 v5 v6 v9) (v79 v5 v6 v9)
/-- The ninth round's selected rotated multiplier. -/
def v119 : FVec Ideal S512x256 .f32 := k0_pay31 (F := Ideal) v25 (v69 v5 v6 v9) (v75 v5 v6 v9)
/-- The zero the third part returns. -/
def cst43 : Ideal .f32 := Scalar.ofBits (F := Ideal) .f32 0x00000000#32

/-- The new state over the chunk's 512 rows and the block's 256 features. -/
def stateBlk : FVec Ideal S512x256 .f32 :=
  k0_pay1 (F := Ideal) arg1 (v112 v5 v6 v9) (v113 v5 v6 v9) v115 (v117 v5 v6 v9) (v119 v5 v6 v9) cst43 v126
/-- What is stored into the carry's 256 columns. -/
def carryRow : FVec Ideal S1x256 .f32 :=
  k0_pay2 (F := Ideal) arg1 (v112 v5 v6 v9) (v113 v5 v6 v9) v115 (v117 v5 v6 v9) (v119 v5 v6 v9) cst43 v126
/-- What is stored into the staged hidden state's 256 columns. -/
def hidBlk : FVec Ideal S512x256 .bf16 :=
  k0_pay3 (F := Ideal) arg1 (k0_pay8 (F := Ideal) v5 v6) (v112 v5 v6 v9) (v113 v5 v6 v9) v115 (v117 v5 v6 v9)
    (v119 v5 v6 v9) cst43 v126

/-- Column j's multipliers down the chunk's rows, as a sequence (0 past the end: never read). -/
def aS (j : Fin 256) (t : ℕ) : EReal := if h : t < 512 then fG v5 v6 v9 ⟨t, h⟩ j else 0
/-- Column j's additive terms down the chunk's rows, as a sequence. -/
def bS (j : Fin 256) (t : ℕ) : EReal := if h : t < 512 then bT v5 v6 v9 ⟨t, h⟩ j else 0

/-- On the chunk's rows the multiplier sequence is the forget gate. -/
theorem aS_of_lt (j : Fin 256) (t : ℕ) (h : t < 512) : aS v5 v6 v9 j t = fG v5 v6 v9 ⟨t, h⟩ j := dif_pos h
/-- On the chunk's rows the value sequence is the additive term. -/
theorem bS_of_lt (j : Fin 256) (t : ℕ) (h : t < 512) : bS v5 v6 v9 j t = bT v5 v6 v9 ⟨t, h⟩ j := dif_pos h

/-- THE NINE ROUNDS at column j: the last round's two blocks hold the nine-fold doubling of the column's sequences. -/
theorem scan_apply (j : Fin 256) :
    (∀ r : Fin 512, rndA 256#32 v115 (v113 v5 v6 v9) (ix2 r j)
        = (ScanLib.iter 9 (aS v5 v6 v9 j, bS v5 v6 v9 j)).1 r.val) ∧
    (∀ r : Fin 512, rndB 256#32 v115 (v113 v5 v6 v9) (v112 v5 v6 v9) (ix2 r j)
        = (ScanLib.iter 9 (aS v5 v6 v9 j, bS v5 v6 v9 j)).2 r.val) := by
  rw [ScanLib.iter_nine]
  have h0A : ∀ r : Fin 512, k0_pay7 (F := Ideal) v5 v6 v9 (ix2 r j) = (aS v5 v6 v9 j, bS v5 v6 v9 j).1 r.val := fun r => by
    rw [pay7_apply]
    show _ = aS v5 v6 v9 j r.val
    unfold aS
    rw [dif_pos r.isLt]
  have h0B : ∀ r : Fin 512, btV v5 v6 v9 (ix2 r j) = (aS v5 v6 v9 j, bS v5 v6 v9 j).2 r.val := fun r => by
    rw [btV_apply]
    show _ = bS v5 v6 v9 j r.val
    unfold bS
    rw [dif_pos r.isLt]
  -- shift 1: inside the first part's two payloads
  have h1 := rnd_apply 1 (by norm_num) (k0_pay7 (F := Ideal) v5 v6 v9) (btV v5 v6 v9) j _ h0A h0B
  -- shifts 2, 4, 8
  have h2 := rnd_apply 2 (by norm_num) (v36 v5 v6 v9) (v35 v5 v6 v9) j _ h1.1 h1.2
  have h3 := rnd_apply 4 (by norm_num) (k0_pay13 (F := Ideal) (v36 v5 v6 v9) v38)
    (rndB 2#32 v38 (v36 v5 v6 v9) (v35 v5 v6 v9)) j _ h2.1 h2.2
  have h4 := rnd_apply 8 (by norm_num) (k0_pay15 (F := Ideal) v25 (v36 v5 v6 v9) v38)
    (rndB 4#32 (k0_pay14 v25) (k0_pay13 (F := Ideal) (v36 v5 v6 v9) v38)
      (rndB 2#32 v38 (v36 v5 v6 v9) (v35 v5 v6 v9))) j _ h3.1 h3.2
  -- shift 16: the multiplier split over two payloads, the value block the second part's third payload
  have h5 := rnd_apply 16 (by norm_num) (v69 v5 v6 v9)
    (rndB 8#32 (k0_pay16 v25) (k0_pay15 (F := Ideal) v25 (v36 v5 v6 v9) v38)
      (rndB 4#32 (k0_pay14 v25) (k0_pay13 (F := Ideal) (v36 v5 v6 v9) v38)
        (rndB 2#32 v38 (v36 v5 v6 v9) (v35 v5 v6 v9)))) j _ h4.1 h4.2
  -- shifts 32, 64, 128
  have h6 := rnd_apply 32 (by norm_num) (k0_pay21 (F := Ideal) (v69 v5 v6 v9) (v75 v5 v6 v9)) (v79 v5 v6 v9) j _ h5.1 h5.2
  have h7 := rnd_apply 64 (by norm_num) (k0_pay23 (F := Ideal) v25 (v69 v5 v6 v9) (v75 v5 v6 v9))
    (rndB 32#32 (k0_pay22 v25) (k0_pay21 (F := Ideal) (v69 v5 v6 v9) (v75 v5 v6 v9)) (v79 v5 v6 v9)) j _ h6.1 h6.2
  have h8 := rnd_apply 128 (by norm_num) (k0_pay25 (F := Ideal) v25 (v69 v5 v6 v9) (v75 v5 v6 v9))
    (rndB 64#32 (k0_pay24 v25) (k0_pay23 (F := Ideal) v25 (v69 v5 v6 v9) (v75 v5 v6 v9))
      (rndB 32#32 (k0_pay22 v25) (k0_pay21 (F := Ideal) (v69 v5 v6 v9) (v75 v5 v6 v9)) (v79 v5 v6 v9))) j _ h7.1 h7.2
  -- shift 256: finished inside the state's payload
  exact rnd_apply 256 (by norm_num) (v113 v5 v6 v9) (v112 v5 v6 v9) j _ h8.1 h8.2

/-- THE NEW STATE at (r, j): the nine-fold doubled multiplier times the carried-in state (0 at the first time chunk)
plus the nine-fold doubled value. -/
theorem stateBlk_apply (r : Fin 512) (j : Fin 256) :
    stateBlk arg1 v5 v6 v9 v126 (ix2 r j)
      = (ScanLib.iter 9 (aS v5 v6 v9 j, bS v5 v6 v9 j)).1 r.val * (if arg1 = 0#32 then 0 else v126 (ix2 (0 : Fin 1) j))
        + (ScanLib.iter 9 (aS v5 v6 v9 j, bS v5 v6 v9 j)).2 r.val := by
  have h := scan_apply v5 v6 v9 j
  show rndA 256#32 v115 (v113 v5 v6 v9) (ix2 r j) * carryB arg1 v126 (ix2 r j)
      + rndB 256#32 v115 (v113 v5 v6 v9) (v112 v5 v6 v9) (ix2 r j) = _
  rw [h.1 r, h.2 r, carryB_apply]

/-! ## The stores -/

/-- The carry's new columns are the new state's last row. -/
theorem carryRow_apply (j : Fin 256) :
    carryRow arg1 v5 v6 v9 v126 (ix2 (0 : Fin 1) j) = stateBlk arg1 v5 v6 v9 v126 (ix2 (⟨511, by norm_num⟩ : Fin 512) j) := by
  show shapeCast S1x256 (extractStridedSlice S1x256 ![511, 0] (stateBlk arg1 v5 v6 v9 v126)
      slices_S512x256_o511_0_S1x256) shapeCasts_S1x256_S1x256 (ix2 (0 : Fin 1) j) = _
  rw [shapeCast_self]
  exact slice2_axis0_apply 511 _ slices_S512x256_o511_0_S1x256 (0 : Fin 1) j ⟨511, by norm_num⟩ rfl

/-- The staged hidden state's new columns are the new state times the output gate. -/
theorem hidBlk_apply (r : Fin 512) (j : Fin 256) :
    hidBlk arg1 v5 v6 v9 v126 (ix2 r j) = stateBlk arg1 v5 v6 v9 v126 (ix2 r j) * oG v5 v6 r j := by
  show shapeCast S512x256 (truncf .bf16 (mulf (stateBlk arg1 v5 v6 v9 v126) (k0_pay8 (F := Ideal) v5 v6)) bitsLt_bf16_f32)
      shapeCasts_S512x256_S512x256 (ix2 r j) = _
  rw [shapeCast_self]
  show stateBlk arg1 v5 v6 v9 v126 (ix2 r j) * k0_pay8 (F := Ideal) v5 v6 (ix2 r j) = _
  rw [pay8_apply]

end Composite

/-- The cached input rows are the input block's rows. -/
theorem pay5_apply (x0 : Vec Ideal S1x512x1024 .f32) (r : Fin 512) (k : Fin 1024) :
    k0_pay5 (F := Ideal) x0 (ix2 r k) = x0 (ix3 (0 : Fin 1) r k) := by
  show shapeCast S512x1024 (truncf (F := Ideal) .bf16 (shapeCast S512x1024 x0 shapeCasts_S1x512x1024_S512x1024 : FVec Ideal S512x1024 .f32) bitsLt_bf16_f32)
      shapeCasts_S512x1024_S512x1024 (ix2 r k) = _
  rw [shapeCast_self]
  exact shapeCast_1ab_ab_apply x0 shapeCasts_S1x512x1024_S512x1024 r k

/-! The operand indices of the output product: at output entry (r, e) and contraction coordinate k the left operand is
read at (r, k) and the right at (k, e). -/

theorem dotO_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem dotO_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem dotO_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem dotO_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The output block at (0, r, e): row r of the staged hidden state against row e of the output weights. -/
theorem pay4_apply (x3 : Vec Ideal S1024x1024 .bf16) (hid : Vec Ideal S512x1024 .bf16) (r : Fin 512) (e : Fin 1024) :
    k0_pay4 (F := Ideal) x3 hid (ix3 (0 : Fin 1) r e) = ∑ k : Fin 1024, hid (ix2 r k) * x3 (ix2 e k) := by
  unfold k0_pay4
  refine (shapeCast_ab_1ab_apply _ shapeCasts_S512x1024_S1x512x1024 (0 : Fin 1) r e).trans ?_
  simp only [matmul]
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e) ((contrEquiv1 dot_S512x1024_S1024x1024_S512x1024_1_0_0_1_n_n 1024 rfl rfl).symm k) = ix2 r k :=
    funext fun a => Fin.ext (by
      match a with
      | ⟨0, _⟩ => exact dotO_lhs0 _ _
      | ⟨1, _⟩ => exact (dotO_lhs1 _ _).trans hk)
  have er : dot_S512x1024_S1024x1024_S512x1024_1_0_0_1_n_n.rhsIdx (ix2 r e) ((contrEquiv1 dot_S512x1024_S1024x1024_S512x1024_1_0_0_1_n_n 1024 rfl rfl).symm k) = ix2 k e :=
    funext fun a => Fin.ext (by
      match a with
      | ⟨0, _⟩ => exact (dotO_rhs0 _ _).trans hk
      | ⟨1, _⟩ => exact dotO_rhs1 _ _)
  rw [el, er]
  refine congrArg (hid (ix2 r k) * ·) ?_
  refine (transpose_ix2_apply _ transposes_S1024x1024_p1_0_S1024x1024 k e).trans ?_
  rw [shapeCast_self]

end Cert.KernelIdeal.Pay

end
-- ==== Proof.KIBlocks.lean ====
/-
  The geometry of the pipeline's blocks. The region runs over the grid (batch, time chunk, feature chunk) = 4 x 8 x 4, point
  number t having batch t / 32, time chunk t / 4 % 8 and feature chunk t % 4. This module reads each window's block at a
  point in the coordinates of the whole array: the input block is rows 512 * (t / 4 % 8) … of batch t / 32, the gate-weight
  block is slab t % 4 of the re-laid weights, the bias row and the output weights are whole; the output block sits where the
  input block does, is written back at the last feature chunk (t % 4 = 3), and the 32 blocks written back tile the output
  array — so an output whose every written-back block is that block of one whole-array function ends holding that function.
  Every relation between the printed index maps and the point number is decided once over the 128 points; an entry of a
  block sits in the array, on each axis, at the block index times the block's size plus its own coordinate.
-/
import proofs.«116791_j19533511262472_2_alg».proof.Proof.KIShared
import Idealize.ShloMosaic.Lib.Pipeline.Value
import Idealize.ShloMosaic.Lib.ValueIdx

set_option maxRecDepth 16384

noncomputable section

namespace Cert.KernelIdeal.Blk

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)
open Facts₀ Facts

variable {F : FTy → Type} [FloatOps F]
variable (m : (ℓ : Loc nD τ sig) → Buf (Elt F) ℓ)

/-! ## The grid point's coordinates

Point number `t` of the 4 x 8 x 4 grid has batch `t / 32`, time chunk `t / 4 % 8` and feature chunk `t % 4` (the feature
chunk is the fastest axis). -/

/-- The grid has 128 points. -/
theorem t_lt (t : Fin cfg0.N) : t.val < 128 := t.isLt

/-- The three coordinates of point `t`. -/
theorem coords_facts : ∀ t : Fin cfg0.N, (grid0.coords t 0).val = t.val / 32 ∧ (grid0.coords t 1).val = t.val / 4 % 8
    ∧ (grid0.coords t 2).val = t.val % 4 :=
  (by decide +kernel : ∀ t : Fin grid0.N, (grid0.coords t 0).val = t.val / 32 ∧ (grid0.coords t 1).val = t.val / 4 % 8
    ∧ (grid0.coords t 2).val = t.val % 4)

/-- The column offset the body slices the bias row, the carried row and the staged hidden state at: 256 times the feature chunk. -/
theorem off1_facts : ∀ t : Fin cfg0.N, k0_off1 (grid0.coords t) 0 = 0 ∧ k0_off1 (grid0.coords t) 1 = 256 * (t.val % 4) :=
  (by decide +kernel : ∀ t : Fin grid0.N, k0_off1 (grid0.coords t) 0 = 0 ∧ k0_off1 (grid0.coords t) 1 = 256 * (t.val % 4))
theorem off2_facts : ∀ t : Fin cfg0.N, k0_off2 (grid0.coords t) 0 = 0 ∧ k0_off2 (grid0.coords t) 1 = 256 * (t.val % 4) :=
  (by decide +kernel : ∀ t : Fin grid0.N, k0_off2 (grid0.coords t) 0 = 0 ∧ k0_off2 (grid0.coords t) 1 = 256 * (t.val % 4))

/-- The same, as functions of the axis. -/
theorem off1_eq (t : Fin cfg0.N) : k0_off1 (grid0.coords t) = ![0, 256 * (t.val % 4)] := by
  obtain ⟨e0, e1⟩ := off1_facts t
  funext a
  match a with
  | ⟨0, _⟩ => exact e0
  | ⟨1, _⟩ => exact e1
theorem off2_eq (t : Fin cfg0.N) : k0_off2 (grid0.coords t) = ![0, 256 * (t.val % 4)] := by
  obtain ⟨e0, e1⟩ := off2_facts t
  funext a
  match a with
  | ⟨0, _⟩ => exact e0
  | ⟨1, _⟩ => exact e1

/-! ## The block indices, decided over the grid -/

/-- The input's block index at point `t`: (batch, time chunk, 0). -/
theorem idx_facts0 : ∀ t : Fin cfg0.N, win0_0.index t (0 : Fin 3) = t.val / 32 ∧ win0_0.index t (1 : Fin 3) = t.val / 4 % 8
    ∧ win0_0.index t (2 : Fin 3) = 0 :=
  (by decide +kernel : ∀ t : Fin grid0.N, _)
/-- The gate weights' block index: (feature chunk, 0, 0). -/
theorem idx_facts1 : ∀ t : Fin cfg0.N, win0_1.index t (0 : Fin 3) = t.val % 4 ∧ win0_1.index t (1 : Fin 3) = 0
    ∧ win0_1.index t (2 : Fin 3) = 0 :=
  (by decide +kernel : ∀ t : Fin grid0.N, _)
/-- The bias row's block is the whole array. -/
theorem idx_facts2 : ∀ t : Fin cfg0.N, win0_2.index t (0 : Fin 2) = 0 ∧ win0_2.index t (1 : Fin 2) = 0 :=
  (by decide +kernel : ∀ t : Fin grid0.N, _)
/-- The output weights' block is the whole array. -/
theorem idx_facts3 : ∀ t : Fin cfg0.N, win0_3.index t (0 : Fin 2) = 0 ∧ win0_3.index t (1 : Fin 2) = 0 :=
  (by decide +kernel : ∀ t : Fin grid0.N, _)
/-- The output's block index: (batch, time chunk, 0). -/
theorem idx_facts4 : ∀ t : Fin cfg0.N, win0_4.index t (0 : Fin 3) = t.val / 32 ∧ win0_4.index t (1 : Fin 3) = t.val / 4 % 8
    ∧ win0_4.index t (2 : Fin 3) = 0 :=
  (by decide +kernel : ∀ t : Fin grid0.N, _)

/-! ## The input blocks, entry by entry

An entry of a block sits in the array, on each axis, at the block index times the block's size plus its own coordinate. -/

/-- The input block at point `t`: rows `512 * (t / 4 % 8) …` of batch `t / 32`. -/
theorem iblk0 (c : Dev nD) (t : Fin cfg0.N) (r : Fin 512) (k : Fin 1024) :
    iblk m c 0 t (ix3 (0 : Fin 1) r k : S1x512x1024.Idx)
      = V m c main_arg0 (ix3 (⟨t.val / 32, by have := t_lt t; omega⟩ : Fin 4)
          (⟨512 * (t.val / 4 % 8) + r.val, by have := r.isLt; omega⟩ : Fin 4096) k) := by
  obtain ⟨e0, e1, e2⟩ := idx_facts0 t
  show V m c main_arg0 (((cfg0.win 0).blk t).view.emb _) = V m c main_arg0 _
  congr 1
  funext a; apply Fin.ext
  match a with
  | ⟨0, _⟩ => show win0_0.index t (0 : Fin 3) * 1 + 1 * 0 = t.val / 32; omega
  | ⟨1, _⟩ => show win0_0.index t (1 : Fin 3) * 512 + 1 * r.val = 512 * (t.val / 4 % 8) + r.val; omega
  | ⟨2, _⟩ => show win0_0.index t (2 : Fin 3) * 1024 + 1 * k.val = k.val; omega

/-- The gate-weight block at point `t`: slab `t % 4` of the re-laid weights. -/
theorem iblk1 (c : Dev nD) (t : Fin cfg0.N) (q : Fin 768) (k : Fin 1024) :
    iblk m c 1 t (ix3 (0 : Fin 1) q k : S1x768x1024.Idx)
      = V m c main_v35 (ix3 (⟨t.val % 4, by omega⟩ : Fin 4) q k) := by
  obtain ⟨e0, e1, e2⟩ := idx_facts1 t
  show V m c main_v35 (((cfg0.win 1).blk t).view.emb _) = V m c main_v35 _
  congr 1
  funext a; apply Fin.ext
  match a with
  | ⟨0, _⟩ => show win0_1.index t (0 : Fin 3) * 1 + 1 * 0 = t.val % 4; omega
  | ⟨1, _⟩ => show win0_1.index t (1 : Fin 3) * 768 + 1 * q.val = q.val; omega
  | ⟨2, _⟩ => show win0_1.index t (2 : Fin 3) * 1024 + 1 * k.val = k.val; omega

/-- The bias block is the bias row. -/
theorem iblk2 (c : Dev nD) (t : Fin cfg0.N) (z : Fin 1) (d : Fin 1024) :
    iblk m c 2 t (ix2 z d : S1x1024.Idx) = V m c main_v37 (ix2 z d) := by
  obtain ⟨e0, e1⟩ := idx_facts2 t
  show V m c main_v37 (((cfg0.win 2).blk t).view.emb _) = V m c main_v37 _
  congr 1
  funext a; apply Fin.ext
  match a with
  | ⟨0, _⟩ => show win0_2.index t (0 : Fin 2) * 1 + 1 * z.val = z.val; omega
  | ⟨1, _⟩ => show win0_2.index t (1 : Fin 2) * 1024 + 1 * d.val = d.val; omega

/-- The output-weight block is the whole matrix. -/
theorem iblk3 (c : Dev nD) (t : Fin cfg0.N) (e : Fin 1024) (k : Fin 1024) :
    iblk m c 3 t (ix2 e k : S1024x1024.Idx) = V m c main_v36 (ix2 e k) := by
  obtain ⟨e0, e1⟩ := idx_facts3 t
  show V m c main_v36 (((cfg0.win 3).blk t).view.emb _) = V m c main_v36 _
  congr 1
  funext a; apply Fin.ext
  match a with
  | ⟨0, _⟩ => show win0_3.index t (0 : Fin 2) * 1024 + 1 * e.val = e.val; omega
  | ⟨1, _⟩ => show win0_3.index t (1 : Fin 2) * 1024 + 1 * k.val = k.val; omega

/-! ## The output window

Point `t`'s output block is rows `512 * (t / 4 % 8) …` of batch `t / 32`; it is written back at the last feature chunk
(`t % 4 = 3`), and the 32 blocks written back tile the array. -/

/-- Where an entry of point `t`'s output block sits in the output array. -/
theorem emb4 (t : Fin cfg0.N) (y : ((cfg0.win 4).xblock (cfg0.grid.coords t)).Idx) :
    ((cfg0.win 4).blk t).view.emb y
      = (ix3 (⟨t.val / 32, by have := t_lt t; omega⟩ : Fin 4)
          (⟨512 * (t.val / 4 % 8) + (y 1).val, by have h : (y 1).val < 512 := (y 1).isLt; omega⟩ : Fin 4096)
          (⟨(y 2).val, (y 2).isLt⟩ : Fin 1024) : S4x4096x1024.Idx) := by
  obtain ⟨e0, e1, e2⟩ := idx_facts4 t
  have h0 : (y 0).val < 1 := (y 0).isLt
  funext a; apply Fin.ext
  match a with
  | ⟨0, _⟩ => show win0_4.index t (0 : Fin 3) * 1 + 1 * (y 0).val = t.val / 32; omega
  | ⟨1, _⟩ => show win0_4.index t (1 : Fin 3) * 512 + 1 * (y 1).val = 512 * (t.val / 4 % 8) + (y 1).val; omega
  | ⟨2, _⟩ => show win0_4.index t (2 : Fin 3) * 1024 + 1 * (y 2).val = (y 2).val; omega

/-- The same at explicit coordinates of the block. -/
theorem emb4_ix (t : Fin cfg0.N) (r : Fin 512) (k : Fin 1024) :
    ((cfg0.win 4).blk t).view.emb (ix3 (0 : Fin 1) r k : S1x512x1024.Idx)
      = (ix3 (⟨t.val / 32, by have := t_lt t; omega⟩ : Fin 4)
          (⟨512 * (t.val / 4 % 8) + r.val, by have := r.isLt; omega⟩ : Fin 4096) k : S4x4096x1024.Idx) :=
  emb4 t _

/-- An index of the output array is in point `t`'s block iff each coordinate is in the block's range on its axis. -/
theorem mem_blk4 (t : Fin cfg0.N) (i : S4x4096x1024.Idx) :
    i ∈ ((cfg0.win 4).blk t).view.set ↔ ∀ a : Fin 3, win0_4.index t a * S1x512x1024.size a ≤ (i a).val
      ∧ (i a).val < win0_4.index t a * S1x512x1024.size a + S1x512x1024.size a := by
  show i ∈ ((View.whole main_v38).slice (win0_4.rect t)).set ↔ _
  rw [View.set_slice_whole, Rect.mem_set_unit]
  exact Iff.rfl

/-- In closed form: the batch is the point's, the row is in the point's time chunk. -/
theorem mem_blk4_iff (t : Fin cfg0.N) (i : S4x4096x1024.Idx) :
    i ∈ ((cfg0.win 4).blk t).view.set ↔ (i 0).val = t.val / 32 ∧ (i 1).val / 512 = t.val / 4 % 8 := by
  rw [mem_blk4]
  obtain ⟨e0, e1, e2⟩ := idx_facts4 t
  have h2 : (i 2).val < 1024 := (i 2).isLt
  constructor
  · intro h
    have b0 : win0_4.index t (0 : Fin 3) * 1 ≤ (i 0).val ∧ (i 0).val < win0_4.index t (0 : Fin 3) * 1 + 1 := h 0
    have b1 : win0_4.index t (1 : Fin 3) * 512 ≤ (i 1).val ∧ (i 1).val < win0_4.index t (1 : Fin 3) * 512 + 512 := h 1
    omega
  · rintro ⟨h0, h1⟩ a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 512 ≤ (i 1).val ∧ (i 1).val < win0_4.index t (1 : Fin 3) * 512 + 512; omega
    | ⟨2, _⟩ => show win0_4.index t (2 : Fin 3) * 1024 ≤ (i 2).val ∧ (i 2).val < win0_4.index t (2 : Fin 3) * 1024 + 1024; omega

/-- The output block is written back exactly at the last feature chunk. -/
theorem flush4_iff (t : Fin cfg0.N) : (cfg0.win 4).flush t = true ↔ t.val % 4 = 3 := flush0_4 t
theorem flush4_of (t : Fin cfg0.N) (h : t.val % 4 = 3) : (cfg0.win 4).flush t = true := (flush0_4 t).mpr h
theorem not_flush4_of (t : Fin cfg0.N) (h : t.val % 4 ≠ 3) : (cfg0.win 4).flush t = false := by
  cases hf : (cfg0.win 4).flush t
  · rfl
  · exact absurd ((flush0_4 t).mp hf) h

/-- The point that writes back the block holding index `i`: batch `i 0`, time chunk `i 1 / 512`, last feature chunk. -/
def coverPt (i : S4x4096x1024.Idx) : Fin cfg0.N :=
  ⟨32 * (i 0).val + 4 * ((i 1).val / 512) + 3, by
    have h0 : (i 0).val < 4 := (i 0).isLt
    have h1 : (i 1).val < 4096 := (i 1).isLt
    show 32 * (i 0).val + 4 * ((i 1).val / 512) + 3 < 128
    omega⟩

theorem coverPt_val (i : S4x4096x1024.Idx) : (coverPt i).val = 32 * (i 0).val + 4 * ((i 1).val / 512) + 3 := rfl

theorem coverPt_flush (i : S4x4096x1024.Idx) : (cfg0.win 4).flush (coverPt i) = true :=
  flush4_of _ (by rw [coverPt_val]; omega)

theorem coverPt_mem (i : S4x4096x1024.Idx) : i ∈ ((cfg0.win 4).blk (coverPt i)).view.set := by
  rw [mem_blk4_iff, coverPt_val]
  have h0 : (i 0).val < 4 := (i 0).isLt
  have h1 : (i 1).val < 4096 := (i 1).isLt
  constructor <;> omega

/-- THE COVER: every index of the output array is in the block of a point that writes it back. -/
theorem cover4 (i : S4x4096x1024.Idx) :
    ∃ t : Fin cfg0.N, (cfg0.win 4).flush t = true ∧ i ∈ ((cfg0.win 4).blk t).view.set :=
  ⟨coverPt i, coverPt_flush i, coverPt_mem i⟩

/-- So an output array whose every written-back block is that block of one whole-array function `G` ends holding `G`. -/
theorem final4_of_flushed (c : Dev nD) (dat : Dat τ (Elt F) Unit ℕ (UR sig nD τ) ℕ cfg0 c)
    (G : S4x4096x1024.Idx → Elt F .f32)
    (hG : ∀ t, (cfg0.win 4).flush t = true → dat.flushed 4 t = ((cfg0.win 4).blk t).view.read (Elt F) G) :
    dat.arrAt 4 cfg0.N = G :=
  dat.arrAt_eq_of_cover 4 G hG cover4

/-! ## Reading a whole-array function at the output block -/

/-- An index of a block of one row-slab has batch coordinate 0. -/
theorem blk_idx3 {n1 n2 : Nat} (y : (⟨3, ![1, n1, n2]⟩ : Shape).Idx) : y = ix3 (0 : Fin 1) (y 1) (y 2) := by
  funext a
  match a with
  | ⟨0, _⟩ => exact Fin.ext (by have h : (y 0).val < 1 := (y 0).isLt; show (y 0).val = 0; omega)
  | ⟨1, _⟩ => rfl
  | ⟨2, _⟩ => rfl

/-- Point `t`'s output block of a whole-array function `G`, entry by entry. -/
theorem read_blk4 (G : S4x4096x1024.Idx → Elt F .f32) (t : Fin cfg0.N) (r : Fin 512) (k : Fin 1024) :
    ((cfg0.win 4).blk t).view.read (Elt F) G (ix3 (0 : Fin 1) r k : S1x512x1024.Idx)
      = G (ix3 (⟨t.val / 32, by have := t_lt t; omega⟩ : Fin 4)
          (⟨512 * (t.val / 4 % 8) + r.val, by have := r.isLt; omega⟩ : Fin 4096) k) := by
  show G (((cfg0.win 4).blk t).view.emb (ix3 (0 : Fin 1) r k : S1x512x1024.Idx)) = G _
  exact congrArg G (emb4_ix t r k)

/-! ## The same, at a variable index of the block

With the block's index a variable on the left, these rewrite any entry of the block, however its index is spelled. -/

/-- The input block at any of its indices. -/
theorem iblk0_y (c : Dev nD) (t : Fin cfg0.N) (y : ((cfg0.win 0).xblock (cfg0.grid.coords t)).Idx) :
    iblk m c 0 t y
      = V m c main_arg0 (ix3 (⟨t.val / 32, by have := t_lt t; omega⟩ : Fin 4)
          (⟨512 * (t.val / 4 % 8) + (y 1).val, by have h : (y 1).val < 512 := (y 1).isLt; omega⟩ : Fin 4096)
          (⟨(y 2).val, (y 2).isLt⟩ : Fin 1024)) := by
  obtain ⟨e0, e1, e2⟩ := idx_facts0 t
  have h0 : (y 0).val < 1 := (y 0).isLt
  show V m c main_arg0 (((cfg0.win 0).blk t).view.emb y) = V m c main_arg0 _
  congr 1
  funext a; apply Fin.ext
  match a with
  | ⟨0, _⟩ => show win0_0.index t (0 : Fin 3) * 1 + 1 * (y 0).val = t.val / 32; omega
  | ⟨1, _⟩ => show win0_0.index t (1 : Fin 3) * 512 + 1 * (y 1).val = 512 * (t.val / 4 % 8) + (y 1).val; omega
  | ⟨2, _⟩ => show win0_0.index t (2 : Fin 3) * 1024 + 1 * (y 2).val = (y 2).val; omega

/-- The gate-weight block at any of its indices. -/
theorem iblk1_y (c : Dev nD) (t : Fin cfg0.N) (y : ((cfg0.win 1).xblock (cfg0.grid.coords t)).Idx) :
    iblk m c 1 t y
      = V m c main_v35 (ix3 (⟨t.val % 4, by omega⟩ : Fin 4) (⟨(y 1).val, (y 1).isLt⟩ : Fin 768) (⟨(y 2).val, (y 2).isLt⟩ : Fin 1024)) := by
  obtain ⟨e0, e1, e2⟩ := idx_facts1 t
  have h0 : (y 0).val < 1 := (y 0).isLt
  show V m c main_v35 (((cfg0.win 1).blk t).view.emb y) = V m c main_v35 _
  congr 1
  funext a; apply Fin.ext
  match a with
  | ⟨0, _⟩ => show win0_1.index t (0 : Fin 3) * 1 + 1 * (y 0).val = t.val % 4; omega
  | ⟨1, _⟩ => show win0_1.index t (1 : Fin 3) * 768 + 1 * (y 1).val = (y 1).val; omega
  | ⟨2, _⟩ => show win0_1.index t (2 : Fin 3) * 1024 + 1 * (y 2).val = (y 2).val; omega

/-- The bias block is the bias row, as functions. -/
theorem iblk2_eq (c : Dev nD) (t : Fin cfg0.N) : iblk m c 2 t = V m c main_v37 := by
  funext y
  rw [eq_ix2 y]
  exact iblk2 m c t _ _

/-- The output-weight block is the whole matrix, as functions. -/
theorem iblk3_eq (c : Dev nD) (t : Fin cfg0.N) : iblk m c 3 t = V m c main_v36 := by
  funext y
  rw [eq_ix2 y]
  exact iblk3 m c t _ _

/-- Point `t`'s output block of a whole-array function, at any of its indices. -/
theorem read_blk4_y (G : S4x4096x1024.Idx → Elt F .f32) (t : Fin cfg0.N) (y : ((cfg0.win 4).xblock (cfg0.grid.coords t)).Idx) :
    ((cfg0.win 4).blk t).view.read (Elt F) G y
      = G (ix3 (⟨t.val / 32, by have := t_lt t; omega⟩ : Fin 4)
          (⟨512 * (t.val / 4 % 8) + (y 1).val, by have h : (y 1).val < 512 := (y 1).isLt; omega⟩ : Fin 4096)
          (⟨(y 2).val, (y 2).isLt⟩ : Fin 1024)) := by
  show G (((cfg0.win 4).blk t).view.emb y) = G _
  exact congrArg G (emb4 t y)

end Cert.KernelIdeal.Blk

end
-- ==== Proof.KIHost.lean ====
/-
  The host lines before the region, read at an index. Before it launches the region the program ternarises the two
  weight matrices, and then only RE-LAYS what it has: the gate weights [3072, 1024] are cut into the three gates' blocks
  of 1024 rows, each block into 4 chunks of 256 rows, the three gates' chunks of the same number are put side by side
  ([4, 3, 256, 1024]) and flattened to [4, 768, 1024], in the narrower float format; the output weights only change
  float format; the bias becomes a row. At the ideal instance a change of float format is the identity, so each of the
  three arrays the region is launched on is, entry by entry, an entry of a ternarised matrix or of the bias:

    re-laid gate weights (dn, 256 g + j, k)  =  ternarised gate weights (1024 g + 256 dn + j, k)
    output weights as launched (e, k)        =  ternarised output weights (e, k)
    bias row (0, d)                          =  bias (d).

  The ternarisation itself is never opened here: the last fourteen host lines are read over an arbitrary valuation of the
  buffers, and the earlier lines only enter as the valuation they leave behind.
-/
import proofs.«116791_j19533511262472_2_alg».proof.Proof.KIShared
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (c : Dev nD)

/-! ## The line of host operations cut in two

The last fourteen host operations only re-lay arrays that the earlier ones computed: they slice the ternarised gate
weights into the three gates' blocks, reshape, stack and flatten them, change the float format of the two weight arrays,
and view the bias as a row. Reading them over an ARBITRARY valuation of the buffers keeps the ternarisation out of
sight. -/

/-- What runs before the re-laying: everything up to and including the ternarised output weights. -/
abbrev pre : List (HloOp τ sig (Elt Ideal)) :=
  hostOps0 ++ hostOps0_1 ++ hostOps0_2 ++ hostOps0_3 ++ hostOps0_4 ++ hostOps0_5 ++ hostOps0_6 ++ hostOps0_7 ++ (hostOps0_8 (F := Ideal)).take 4

/-- The re-laying operations, in program order. -/
abbrev relayOps : List (HloOp τ sig (Elt Ideal)) := (hostOps0_8 (F := Ideal)).drop 4

theorem ops_split : List.flatten (opss (F := Ideal)) = pre ++ relayOps := by
  simp only [opss, pre, relayOps, List.flatten_cons, List.flatten_nil, List.append_nil, List.append_assoc, List.take_append_drop]

theorem after_append {τ : Topo} {sig : RefSig} {Val : EltTy → Type} (A B : List (HloOp τ sig Val)) (W : Valuation τ sig Val) :
    StableHlo.after (A ++ B) W = StableHlo.after B (StableHlo.after A W) := by
  induction A generalizing W with
  | nil => rfl
  | cons a A ih => simp only [List.cons_append, StableHlo.after_cons, ih]

/-- The buffers once everything before the re-laying has run. -/
abbrev W0 : Valuation τ sig (Elt Ideal) := StableHlo.after pre (fun b => m (c, b))

theorem V_eq (b : Ref sig .tc) : V m c b = StableHlo.after relayOps (W0 m c) (Proc.devRef .tc b) := by
  show StableHlo.after (List.flatten (opss (F := Ideal))) (fun b => m (c, b)) (Proc.devRef .tc b) = _
  rw [ops_split, after_append]

theorem relay_v36 (W : Valuation τ sig (Elt Ideal)) :
    (StableHlo.after relayOps W (Proc.devRef .tc main_v36) : S1024x1024.Idx → EReal) = (W (Proc.devRef .tc main_v23) : S1024x1024.Idx → EReal) := by
  simp only [relayOps, hostOps0_8, List.drop_succ_cons, List.drop_zero]
  after_results
  rfl

theorem relay_v23 (W : Valuation τ sig (Elt Ideal)) :
    StableHlo.after relayOps W (Proc.devRef .tc main_v23) = W (Proc.devRef .tc main_v23) := by
  simp only [relayOps, hostOps0_8, List.drop_succ_cons, List.drop_zero]
  after_results

theorem relay_v11 (W : Valuation τ sig (Elt Ideal)) :
    StableHlo.after relayOps W (Proc.devRef .tc main_v11) = W (Proc.devRef .tc main_v11) := by
  simp only [relayOps, hostOps0_8, List.drop_succ_cons, List.drop_zero]
  after_results

theorem relay_v37 (W : Valuation τ sig (Elt Ideal)) :
    (StableHlo.after relayOps W (Proc.devRef .tc main_v37) : S1x1024.Idx → EReal)
      = shapeCast S1x1024 (W (Proc.devRef .tc main_arg3) : S1024.Idx → EReal) shapeCasts_S1024_S1x1024 := by
  simp only [relayOps, hostOps0_8, List.drop_succ_cons, List.drop_zero]
  after_results
  rfl

/-! ## The gate weights re-laid, as a function of the ternarised weights -/

/-- One gate's 1024 rows of the weights (from row `off`), cut into 4 chunks of 256 rows, under a unit axis. -/
abbrev gate (Wg : S3072x1024.Idx → EReal) (off : Nat) (h : S3072x1024.Slices ![off, 0] S1024x1024) : S4x1x256x1024.Idx → EReal :=
  broadcastInDim S4x1x256x1024 ![0, 2, 3] bcast_S4x256x1024_S4x1x256x1024_0_2_3
    (shapeCast S4x256x1024 (extractStridedSlice S1024x1024 ![off, 0] Wg h) shapeCasts_S1024x1024_S4x256x1024)

/-- The three gates' chunks, in the order they are stacked: forget, candidate, output. -/
abbrev pieces (Wg : S3072x1024.Idx → EReal) : List ((s : Shape) × (s.Idx → EReal)) :=
  [⟨S4x1x256x1024, gate Wg 0 slices_S3072x1024_S1024x1024_0_0⟩,
   ⟨S4x1x256x1024, gate Wg 1024 slices_S3072x1024_S1024x1024_1024_0⟩,
   ⟨S4x1x256x1024, gate Wg 2048 slices_S3072x1024_S1024x1024_2048_0⟩]

/-- The three gates' chunks stacked along the unit axis, the stack flattened chunk by chunk, in the narrower float format. -/
abbrev relay (Wg : S3072x1024.Idx → EReal) : S4x768x1024.Idx → EReal :=
  truncf (F := Ideal) .bf16
    (shapeCast S4x768x1024
      (concatenate S4x3x256x1024 1 (pieces Wg) concatenates_S4x1x256x1024_S4x1x256x1024_S4x1x256x1024_S4x3x256x1024_d1)
      shapeCasts_S4x3x256x1024_S4x768x1024)
    bitsLt_bf16_f32

/-- Each operation's result read at a buffer: its function's value at the buffer it writes, what was there at any other;
    repeated until no operation is left to read through. -/
local macro "read_results" : tactic =>
  `(tactic| repeat (first
      | rw [StableHlo.unary_result] | rw [StableHlo.reshape_result]
      | (rw [StableHlo.unary_result_ne]; rotate_left; decide)
      | (rw [StableHlo.reshape_result_ne]; rotate_left; decide)
      | (rw [StableHlo.nary_result_ne]; rotate_left; decide)))

theorem relay_v35 (W : Valuation τ sig (Elt Ideal)) :
    (StableHlo.after relayOps W (Proc.devRef .tc main_v35) : S4x768x1024.Idx → EReal)
      = relay (W (Proc.devRef .tc main_v11) : S3072x1024.Idx → EReal) := by
  simp only [relayOps, hostOps0_8, List.drop_succ_cons, List.drop_zero]
  after_results
  dsimp only [Matrix.cons_val]
  read_results
  rfl

/-! ## The re-laid gate weights read at an index -/

/-- Chunk `dn`, row `j` of the gate whose rows start at `off` is row `off + 256 dn + j` of the weights. -/
theorem gate_apply (Wg : S3072x1024.Idx → EReal) (off : Nat) (h : S3072x1024.Slices ![off, 0] S1024x1024)
    (dn : Fin 4) (u : Fin 1) (j : Fin 256) (k : Fin 1024) (r : Fin 3072) (hr : r.val = off + (256 * dn.val + j.val)) :
    gate Wg off h (ix4 dn u j k) = Wg (ix2 r k) := by
  have hdn := dn.isLt
  have hj := j.isLt
  -- the unit axis is ignored
  refine (broadcastInDim_apply _ _ _ (ix4 dn u j k) (ix3 dn j k) (fun a => ?_)).trans ?_
  · match a with
    | ⟨0, _⟩ => rfl
    | ⟨1, _⟩ => rfl
    | ⟨2, _⟩ => rfl
  -- chunk `dn`, row `j` of the 4 x 256 rows is row `256 dn + j` of the 1024
  refine (shapeCast_apply _ _ (ix3 dn j k) (ix2 (⟨256 * dn.val + j.val, by omega⟩ : Fin 1024) k) ?_).trans ?_
  · rw [Shape.rowMajor_val_two, Shape.rowMajor_val_three]
    show (256 * dn.val + j.val) * 1024 + k.val = (dn.val * 256 + j.val) * 1024 + k.val
    omega
  -- and the gate's rows start at `off`
  exact slice2_axis0_apply off Wg h _ k r hr

/-- Block `dn`, row `256 g + j` of the re-laid weights is gate `g`'s feature `256 dn + j`: row `1024 g + 256 dn + j` of
    the weights. -/
theorem relay_apply (Wg : S3072x1024.Idx → EReal) (dn : Fin 4) (g : Fin 3) (j : Fin 256) (k : Fin 1024)
    (q : Fin 768) (hq : q.val = 256 * g.val + j.val) (r : Fin 3072) (hr : r.val = 1024 * g.val + 256 * dn.val + j.val) :
    relay Wg (ix3 dn q k) = Wg (ix2 r k) := by
  have hdn := dn.isLt
  have hj := j.isLt
  have hg := g.isLt
  -- the change of float format is the identity on extended reals; the flattening puts row `j` of chunk `g` at `256 g + j`
  refine (truncf_apply (ψ := .bf16) _ bitsLt_bf16_f32 (ix3 dn q k)).trans ?_
  refine (shapeCast_apply _ _ (ix3 dn q k) (ix4 dn g j k) ?_).trans ?_
  · rw [Shape.rowMajor_val_three, Shape.rowMajor_val_four]
    show ((dn.val * 3 + g.val) * 256 + j.val) * 1024 + k.val = (dn.val * 768 + q.val) * 1024 + k.val
    omega
  -- the stack along the unit axis reads gate `g`
  match g, hq, hr with
  | ⟨0, _⟩, hq, hr =>
    refine (concatenate_apply_piece (t := S4x3x256x1024) 1 (pieces Wg) concatenates_S4x1x256x1024_S4x1x256x1024_S4x1x256x1024_S4x3x256x1024_d1 _ 0 (by show (0 : Nat) < 3; omega) S4x1x256x1024 (gate Wg 0 slices_S3072x1024_S1024x1024_0_0) rfl rfl 0 rfl
      (ix4 dn 0 j k) (fun b hb => ?_) ?_).trans ?_
    · match b with
      | ⟨0, _⟩ => rfl
      | ⟨1, _⟩ => exact absurd rfl hb
      | ⟨2, _⟩ => rfl
      | ⟨3, _⟩ => rfl
    · rfl
    · have hr' : r.val = 1024 * 0 + 256 * dn.val + j.val := hr
      exact gate_apply Wg 0 _ dn 0 j k r (by omega)
  | ⟨1, _⟩, hq, hr =>
    refine (concatenate_apply_piece (t := S4x3x256x1024) 1 (pieces Wg) concatenates_S4x1x256x1024_S4x1x256x1024_S4x1x256x1024_S4x3x256x1024_d1 _ 1 (by show (1 : Nat) < 3; omega) S4x1x256x1024 (gate Wg 1024 slices_S3072x1024_S1024x1024_1024_0) rfl rfl 1 rfl
      (ix4 dn 0 j k) (fun b hb => ?_) ?_).trans ?_
    · match b with
      | ⟨0, _⟩ => rfl
      | ⟨1, _⟩ => exact absurd rfl hb
      | ⟨2, _⟩ => rfl
      | ⟨3, _⟩ => rfl
    · rfl
    · have hr' : r.val = 1024 * 1 + 256 * dn.val + j.val := hr
      exact gate_apply Wg 1024 _ dn 0 j k r (by omega)
  | ⟨2, _⟩, hq, hr =>
    refine (concatenate_apply_piece (t := S4x3x256x1024) 1 (pieces Wg) concatenates_S4x1x256x1024_S4x1x256x1024_S4x1x256x1024_S4x3x256x1024_d1 _ 2 (by show (2 : Nat) < 3; omega) S4x1x256x1024 (gate Wg 2048 slices_S3072x1024_S1024x1024_2048_0) rfl rfl 2 rfl
      (ix4 dn 0 j k) (fun b hb => ?_) ?_).trans ?_
    · match b with
      | ⟨0, _⟩ => rfl
      | ⟨1, _⟩ => exact absurd rfl hb
      | ⟨2, _⟩ => rfl
      | ⟨3, _⟩ => rfl
    · rfl
    · have hr' : r.val = 1024 * 2 + 256 * dn.val + j.val := hr
      exact gate_apply Wg 2048 _ dn 0 j k r (by omega)

/-! ## The three computed arrays, as the region finds them -/

theorem relay_arg3 (W : Valuation τ sig (Elt Ideal)) :
    StableHlo.after relayOps W (Proc.devRef .tc main_arg3) = W (Proc.devRef .tc main_arg3) := by
  simp only [relayOps, hostOps0_8, List.drop_succ_cons, List.drop_zero]
  after_results

/-- The re-laid gate weights are the re-laying of the ternarised gate weights, whatever those are. -/
theorem V_v35_fun :
    (V m c main_v35 : S4x768x1024.Idx → EReal) = relay (V m c main_v11 : S3072x1024.Idx → EReal) :=
  (V_eq m c main_v35).trans ((relay_v35 (W0 m c)).trans
    (congrArg relay ((V_eq m c main_v11).trans (relay_v11 (W0 m c))).symm))

/-- Row `256 g + j` of block `dn` of the re-laid gate weights is row `1024 g + 256 dn + j` of the ternarised gate weights:
    gate `g`, feature `256 dn + j`. -/
theorem V_v35_gate (dn : Fin 4) (g : Fin 3) (j : Fin 256) (k : Fin 1024) :
    (V m c main_v35 : S4x768x1024.Idx → EReal) (ix3 dn (⟨256 * g.val + j.val, by omega⟩ : Fin 768) k)
      = (V m c main_v11 : S3072x1024.Idx → EReal) (ix2 (⟨1024 * g.val + 256 * dn.val + j.val, by omega⟩ : Fin 3072) k) :=
  (congrFun (V_v35_fun m c) _).trans (relay_apply _ dn g j k _ rfl _ rfl)

/-- The same with the row `q` of the block given whole: gate `q / 256`, feature `256 dn + q % 256`. -/
theorem V_v35 (dn : Fin 4) (q : Fin 768) (k : Fin 1024) :
    (V m c main_v35 : S4x768x1024.Idx → EReal) (ix3 dn q k)
      = (V m c main_v11 : S3072x1024.Idx → EReal)
          (ix2 (⟨1024 * (q.val / 256) + 256 * dn.val + q.val % 256, by omega⟩ : Fin 3072) k) :=
  (congrFun (V_v35_fun m c) _).trans
    (relay_apply _ dn (⟨q.val / 256, by omega⟩ : Fin 3) (⟨q.val % 256, by omega⟩ : Fin 256) k q
      (Nat.div_add_mod q.val 256).symm _ rfl)

/-- The output weights reach the region as ternarised: the change of float format is the identity on extended reals. -/
theorem V_v36_fun : (V m c main_v36 : S1024x1024.Idx → EReal) = (V m c main_v23 : S1024x1024.Idx → EReal) :=
  (V_eq m c main_v36).trans ((relay_v36 (W0 m c)).trans ((V_eq m c main_v23).trans (relay_v23 (W0 m c))).symm)

theorem V_v36 (e k : Fin 1024) :
    (V m c main_v36 : S1024x1024.Idx → EReal) (ix2 e k) = (V m c main_v23 : S1024x1024.Idx → EReal) (ix2 e k) :=
  congrFun (V_v36_fun m c) _

/-- The bias reaches the region as one row: entry `d` of the row is entry `d` of the bias argument. -/
theorem V_v37 (d : Fin 1024) :
    (V m c main_v37 : S1x1024.Idx → EReal) (ix2 0 d) = (m ((c : Thread nD τ).loc main_arg3) : S1024.Idx → EReal) (ix1 d) := by
  have e : (V m c main_v37 : S1x1024.Idx → EReal)
      = shapeCast S1x1024 (m ((c : Thread nD τ).loc main_arg3) : S1024.Idx → EReal) shapeCasts_S1024_S1x1024 :=
    (V_eq m c main_v37).trans ((relay_v37 (W0 m c)).trans
      (congrArg (fun x : S1024.Idx → EReal => shapeCast S1x1024 x shapeCasts_S1024_S1x1024)
        (((V_eq m c main_arg3).trans (relay_arg3 (W0 m c))).symm.trans (V_main_arg3 m c))))
  exact (congrFun e _).trans (shapeCast_a_1a_apply _ shapeCasts_S1024_S1x1024 0 d)

end Cert.KernelIdeal.HostVal
end
-- ==== Proof.KIStepLemmas.lean ====
/-
  The lemmas under one grid point's effect on the scratch buffers.

  (1) The arithmetic, free of the machine: a feature chunk's local gates are the specification's gates at the chunk's rows
  and columns; nine doubling rounds over the chunk's 512 rows, applied to the state carried in from the previous time chunk,
  are the sequential recurrence at the chunk's rows (the doubling scan at row r reads only rows up to r, so the chunk's
  sequences may be replaced by the whole axis's shifted to the chunk); and an invariant with q feature chunks done, after the
  columns of chunk q are filled with the new values, is the invariant with q + 1 done.

  (2) The pieces the three runs of the body store, written out: the new state's last row (into the carry's 256 columns), the
  gated new state (into the staged hidden state's 256 columns), the cast input rows (into the cache, at the first feature
  chunk) and the output product (into the output block, at the last). The loads they depend on read the given contents: a
  whole buffer reads as its contents, a 256-column slice as the contents at the slice's columns; at the first feature chunk
  the cache is loaded after it was stored, and at the last the staged hidden state is loaded after this chunk's columns were
  stored. Read back entry by entry, a buffer with one piece written holds the stored value inside the piece's rectangle and
  its previous contents outside.

  (3) The two together at a grid point: with the blocks the pipeline hands the body (the input rows, the gate-weights slab,
  the bias row) read in the coordinates of the whole arrays, the carry and the staged hidden state read back after the
  point's pieces satisfy the invariant with one more feature chunk done.
-/
import proofs.«116791_j19533511262472_2_alg».proof.Proof.KIInv
import proofs.«116791_j19533511262472_2_alg».proof.Proof.KIPay
import proofs.«116791_j19533511262472_2_alg».proof.Proof.KIBlocks
import proofs.«116791_j19533511262472_2_alg».proof.Proof.KIHost
import proofs.«116791_j19533511262472_2_alg».proof.Proof.KIRunA
import proofs.«116791_j19533511262472_2_alg».proof.Proof.KIRunB
import proofs.«116791_j19533511262472_2_alg».proof.Proof.KIRunC
import Idealize.ShloMosaic.Lib.WritesUnit
import Idealize.ShloMosaic.Lib.Pipeline.Value
import Idealize.ShloMosaic.Lib.Pipeline.Frame
import Idealize.ShloMosaic.Lib.Pipeline.FrameBody

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem

/-! # (1) The arithmetic -/

/-- The doubling scan at position r reads its input sequences at positions up to r only. -/
theorem iter_congr (k : ℕ) : ∀ (p p' : (ℕ → EReal) × (ℕ → EReal)) (r : ℕ),
    (∀ t, t ≤ r → p.1 t = p'.1 t ∧ p.2 t = p'.2 t) →
    (ScanLib.iter k p).1 r = (ScanLib.iter k p').1 r ∧ (ScanLib.iter k p).2 r = (ScanLib.iter k p').2 r := by
  induction k with
  | zero => intro p p' r h; exact h r le_rfl
  | succ k ih =>
    intro p p' r h
    have h1 := ih p p' r h
    simp only [ScanLib.iter, ScanLib.dbl]
    by_cases hs : 2 ^ k ≤ r
    · have h2 := ih p p' (r - 2 ^ k) (fun t ht => h t (le_trans ht (Nat.sub_le _ _)))
      simp only [if_pos hs]
      rw [h1.1, h1.2, h2.1, h2.2]
      exact ⟨rfl, rfl⟩
    · simp only [if_neg hs]
      rw [h1.1, h1.2]
      exact ⟨rfl, rfl⟩

variable (m : (ℓ : Loc nD τ sig) → Buf (Elt Ideal) ℓ) (c : Dev nD)

/-- Column j of feature chunk q, as a feature index. -/
def colOf (q : ℕ) (hq : q < 4) (j : Fin 256) : Fin 1024 := ⟨256 * q + j.val, by have := j.isLt; omega⟩

theorem colOf_val (q : ℕ) (hq : q < 4) (j : Fin 256) : (colOf q hq j).val = 256 * q + j.val := rfl

section Local
variable (tc : ℕ) (h : tc < 32) (q : ℕ) (hq : q < 4)
  (v5 : Vec Ideal S512x1024 .bf16) (v6 : Vec Ideal S1x768x1024 .bf16) (v9 : Vec Ideal S1x256 .f32)
  (hv5 : ∀ (r : Fin 512) (k : Fin 1024), v5 (ix2 r k) = X m c (bOf tc h) (rowOf tc r) k)
  (hv6 : ∀ (e : Fin 768) (k : Fin 1024), v6 (ix3 (0 : Fin 1) e k)
    = WG m c ⟨1024 * (e.val / 256) + 256 * q + e.val % 256, by have := e.isLt; omega⟩ k)
  (hv9 : ∀ j : Fin 256, v9 (ix2 (0 : Fin 1) j) = BI m c (colOf q hq j))

include hv5 hv6 in
/-- The chunk's gate product is the specification's, at the chunk's row and at the weights row the block's row stands for. -/
theorem gate_eq (r : Fin 512) (e : Fin 768) :
    Pay.gate v5 v6 r e = Spec.gate (X m c) (WG m c) (bOf tc h) (rowOf tc r)
      ⟨1024 * (e.val / 256) + 256 * q + e.val % 256, by have := e.isLt; omega⟩ := by
  unfold Pay.gate Spec.gate
  exact Finset.sum_congr rfl fun k _ => by rw [hv5, hv6]

include hv5 hv6 hv9 in
/-- The local forget gate is the specification's. -/
theorem fG_eq (r : Fin 512) (j : Fin 256) :
    Pay.fG v5 v6 v9 r j = Spec.fG (X m c) (WG m c) (BI m c) (bOf tc h) (rowOf tc r) (colOf q hq j) := by
  have hj := j.isLt
  unfold Pay.fG Pay.gF Spec.fG
  rw [gate_eq m c tc h q hq v5 v6 hv5 hv6, hv9]
  have e : (⟨1024 * (j.val / 256) + 256 * q + j.val % 256, by omega⟩ : Fin 3072) = Spec.eF (colOf q hq j) :=
    Fin.ext (by show 1024 * (j.val / 256) + 256 * q + j.val % 256 = 256 * q + j.val; omega)
  exact congrArg (fun x => Ideal.logistic (Spec.gate (X m c) (WG m c) (bOf tc h) (rowOf tc r) x + BI m c (colOf q hq j))) e

include hv5 hv6 in
/-- The local candidate is the specification's. -/
theorem cG_eq (r : Fin 512) (j : Fin 256) :
    Pay.cG v5 v6 r j = Spec.cG (X m c) (WG m c) (bOf tc h) (rowOf tc r) (colOf q hq j) := by
  have hj := j.isLt
  unfold Pay.cG Pay.gC Spec.cG
  rw [gate_eq m c tc h q hq v5 v6 hv5 hv6]
  have e : (⟨1024 * ((256 + j.val) / 256) + 256 * q + (256 + j.val) % 256, by omega⟩ : Fin 3072) = Spec.eC (colOf q hq j) :=
    Fin.ext (by show 1024 * ((256 + j.val) / 256) + 256 * q + (256 + j.val) % 256 = 1024 + (256 * q + j.val); omega)
  exact congrArg (fun x => Spec.gate (X m c) (WG m c) (bOf tc h) (rowOf tc r) x
    * Ideal.logistic (Spec.gate (X m c) (WG m c) (bOf tc h) (rowOf tc r) x)) e

include hv5 hv6 in
/-- The local output gate is the specification's. -/
theorem oG_eq (r : Fin 512) (j : Fin 256) :
    Pay.oG v5 v6 r j = O m c (bOf tc h) (rowOf tc r) (colOf q hq j) := by
  have hj := j.isLt
  unfold Pay.oG Pay.gO O Spec.oG
  rw [gate_eq m c tc h q hq v5 v6 hv5 hv6]
  have e : (⟨1024 * ((512 + j.val) / 256) + 256 * q + (512 + j.val) % 256, by omega⟩ : Fin 3072) = Spec.eO (colOf q hq j) :=
    Fin.ext (by show 1024 * ((512 + j.val) / 256) + 256 * q + (512 + j.val) % 256 = 2048 + (256 * q + j.val); omega)
  exact congrArg (fun x => Ideal.logistic (Spec.gate (X m c) (WG m c) (bOf tc h) (rowOf tc r) x)) e

include hv5 hv6 hv9 in
/-- The local additive term is the specification's. -/
theorem bT_eq (r : Fin 512) (j : Fin 256) :
    Pay.bT v5 v6 v9 r j = Spec.bT (X m c) (WG m c) (BI m c) (bOf tc h) (rowOf tc r) (colOf q hq j) := by
  unfold Pay.bT Spec.bT
  rw [fG_eq m c tc h q hq v5 v6 v9 hv5 hv6 hv9, cG_eq m c tc h q hq v5 v6 hv5 hv6]

/-- Row t of time chunk tc is position 512 (tc % 8) + t of the time axis. -/
theorem rowOf_mk (t : ℕ) (ht : t < 512) (ht' : 512 * (tc % 8) + t < 4096) :
    rowOf tc ⟨t, ht⟩ = ⟨512 * (tc % 8) + t, ht'⟩ := rfl

include hv5 hv6 hv9 in
/-- On the chunk's rows the local multiplier sequence is the whole axis's, shifted to the chunk. -/
theorem aS_eq (j : Fin 256) (t : ℕ) (ht : t < 512) :
    Pay.aS v5 v6 v9 j t = Spec.aSeq (X m c) (WG m c) (BI m c) (bOf tc h) (colOf q hq j) (512 * (tc % 8) + t) := by
  have ht' : 512 * (tc % 8) + t < 4096 := by omega
  rw [Pay.aS_of_lt v5 v6 v9 j t ht, fG_eq m c tc h q hq v5 v6 v9 hv5 hv6 hv9]
  unfold Spec.aSeq
  rw [dif_pos ht']
  rfl

include hv5 hv6 hv9 in
/-- On the chunk's rows the local value sequence is the whole axis's, shifted to the chunk. -/
theorem bS_eq (j : Fin 256) (t : ℕ) (ht : t < 512) :
    Pay.bS v5 v6 v9 j t = Spec.bSeq (X m c) (WG m c) (BI m c) (bOf tc h) (colOf q hq j) (512 * (tc % 8) + t) := by
  have ht' : 512 * (tc % 8) + t < 4096 := by omega
  rw [Pay.bS_of_lt v5 v6 v9 j t ht, bT_eq m c tc h q hq v5 v6 v9 hv5 hv6 hv9]
  unfold Spec.bSeq
  rw [dif_pos ht']
  rfl

include hv5 hv6 hv9 in
/-- THE NEW STATE IS THE SPECIFICATION'S HIDDEN STATE at the chunk's rows: given that the carry's columns of this feature
chunk hold the hidden state at the previous time chunk's last row (nothing is asked at the batch's first time chunk, where
the body takes 0 instead). -/
theorem state_eq_H (arg1 : BitVec 32) (harg : arg1 = BitVec.ofNat 32 (tc % 8)) (v126 : Vec Ideal S1x256 .f32)
    (hold : 0 < tc % 8 → ∀ j : Fin 256, v126 (ix2 (0 : Fin 1) j) = H m c (bOf tc h) (colOf q hq j) (512 * (tc % 8) - 1))
    (r : Fin 512) (j : Fin 256) :
    Pay.stateBlk arg1 v5 v6 v9 v126 (ix2 r j) = H m c (bOf tc h) (colOf q hq j) (512 * (tc % 8) + r.val) := by
  have hr := r.isLt
  have ha := Spec.aSeq_real (X m c) (WG m c) (BI m c) (bOf tc h) (colOf q hq j)
  have hz : arg1 = 0#32 ↔ tc % 8 = 0 := by
    subst harg
    constructor
    · intro h0
      have := congrArg BitVec.toNat h0
      rw [BitVec.toNat_ofNat, BitVec.toNat_ofNat] at this
      omega
    · intro h0; rw [h0]
  have hc := iter_congr 9 (Pay.aS v5 v6 v9 j, Pay.bS v5 v6 v9 j)
    (fun t => Spec.aSeq (X m c) (WG m c) (BI m c) (bOf tc h) (colOf q hq j) (512 * (tc % 8) + t),
     fun t => Spec.bSeq (X m c) (WG m c) (BI m c) (bOf tc h) (colOf q hq j) (512 * (tc % 8) + t)) r.val
    (fun t ht => ⟨aS_eq m c tc h q hq v5 v6 v9 hv5 hv6 hv9 j t (by omega),
      bS_eq m c tc h q hq v5 v6 v9 hv5 hv6 hv9 j t (by omega)⟩)
  have hch := ScanLib.chunk_eq_seqRec (Spec.aSeq (X m c) (WG m c) (BI m c) (bOf tc h) (colOf q hq j))
    (Spec.bSeq (X m c) (WG m c) (BI m c) (bOf tc h) (colOf q hq j)) ha 9 (tc % 8) r.val (lt_of_lt_of_eq hr (by norm_num))
  have e512 : (2 : ℕ) ^ 9 = 512 := by norm_num
  rw [e512] at hch
  have hcarry : (if arg1 = 0#32 then (0 : EReal) else v126 (ix2 (0 : Fin 1) j))
      = if tc % 8 = 0 then 0 else ScanLib.seqRec (Spec.aSeq (X m c) (WG m c) (BI m c) (bOf tc h) (colOf q hq j))
          (Spec.bSeq (X m c) (WG m c) (BI m c) (bOf tc h) (colOf q hq j)) 0 (512 * (tc % 8) - 1) := by
    by_cases h0 : tc % 8 = 0
    · rw [if_pos (hz.mpr h0), if_pos h0]
    · rw [if_neg (fun h1 => h0 (hz.mp h1)), if_neg h0, hold (by omega) j]
      rfl
  rw [Pay.stateBlk_apply, hc.1, hc.2, hcarry]
  exact hch

end Local

/-! ## The invariant, one feature chunk on -/

/-- Filling the columns of feature chunk q with the new values turns the invariant with q chunks done into the invariant
with q + 1 done. -/
theorem InvQ_step (tc : ℕ) (h : tc < 32) (q : ℕ) (hq : q < 4) (d8 d8' : S1x1024.Idx → EReal) (d9 d9' d10 d10' : S512x1024.Idx → EReal)
    (hI : InvQ m c tc h q d8 d9 d10)
    (h10 : ∀ (r : Fin 512) (k : Fin 1024), d10' (ix2 r k) = X m c (bOf tc h) (rowOf tc r) k)
    (h8in : ∀ col : Fin 1024, col.val / 256 = q → d8' (ix2 0 col) = H m c (bOf tc h) col (512 * (tc % 8) + 511))
    (h8out : ∀ col : Fin 1024, col.val / 256 ≠ q → d8' (ix2 0 col) = d8 (ix2 0 col))
    (h9in : ∀ (r : Fin 512) (col : Fin 1024), col.val / 256 = q →
      d9' (ix2 r col) = H m c (bOf tc h) col (rowOf tc r).val * O m c (bOf tc h) (rowOf tc r) col)
    (h9out : ∀ (r : Fin 512) (col : Fin 1024), col.val / 256 ≠ q → d9' (ix2 r col) = d9 (ix2 r col)) :
    InvQ m c tc h (q + 1) d8' d9' d10' where
  cache := fun _ => h10
  staged := fun r col hc => by
    by_cases he : col.val / 256 = q
    · exact h9in r col he
    · rw [h9out r col he]; exact hI.staged r col (by omega)
  carryNew := fun col hc => by
    by_cases he : col.val / 256 = q
    · exact h8in col he
    · rw [h8out col he]; exact hI.carryNew col (by omega)
  carryOld := fun htn col hc => by
    rw [h8out col (by omega)]
    exact hI.carryOld htn col (by omega)

/-- The invariant before the next point, within a time chunk. -/
theorem Inv_succ_of_lt (t : ℕ) (htc : t / 4 < 32) (hq : t % 4 < 3) (d8 : S1x1024.Idx → EReal) (d9 d10 : S512x1024.Idx → EReal)
    (hI : InvQ m c (t / 4) htc (t % 4 + 1) d8 d9 d10) : Inv m c (t + 1) d8 d9 d10 := by
  have e1 : (t + 1) / 4 = t / 4 := by omega
  have e2 : (t + 1) % 4 = t % 4 + 1 := by omega
  unfold Inv
  rw [dif_pos (by omega)]
  have key : ∀ (tc' : ℕ) (h' : tc' < 32) (q' : ℕ), tc' = t / 4 → q' = t % 4 + 1 → InvQ m c tc' h' q' d8 d9 d10 := by
    rintro _ _ _ rfl rfl; exact hI
  exact key _ _ _ e1 e2

/-- The invariant before the next point, across the end of a time chunk. -/
theorem Inv_succ_of_last (t : ℕ) (htc : t / 4 < 32) (hq : t % 4 = 3) (d8 : S1x1024.Idx → EReal) (d9 d10 : S512x1024.Idx → EReal)
    (hI : InvQ m c (t / 4) htc 4 d8 d9 d10) : Inv m c (t + 1) d8 d9 d10 := by
  have e1 : (t + 1) / 4 = t / 4 + 1 := by omega
  have e2 : (t + 1) % 4 = 0 := by omega
  unfold Inv
  by_cases hn : (t + 1) / 4 < 32
  · rw [dif_pos hn]
    have key : ∀ (tc' : ℕ) (h' : tc' < 32) (q' : ℕ), tc' = t / 4 + 1 → q' = 0 → InvQ m c tc' h' q' d8 d9 d10 := by
      rintro _ h' _ rfl rfl; exact InvQ.next m c htc h' hI
    exact key _ _ _ e1 e2
  · rw [dif_neg hn]
    trivial

/-- The invariant before a point, opened. -/
theorem Inv_at (t : ℕ) (htc : t / 4 < 32) (d8 : S1x1024.Idx → EReal) (d9 d10 : S512x1024.Idx → EReal)
    (hI : Inv m c t d8 d9 d10) : InvQ m c (t / 4) htc (t % 4) d8 d9 d10 := by
  unfold Inv at hI
  rw [dif_pos htc] at hI
  exact hI

/-! # (2) The runs' pieces and the buffers read back -/

/-! ## Loads of given contents -/

section Loads
variable {sp : Space} {s : Shape} {e : EltTy}

/-- A load through a rectangle of a whole buffer at contents X reads X at the rectangle's indices. -/
theorem readAt_unread (M : Memref sig .tc sp s e) (hM : M.IsWhole) (r : Rect s) (X : s.Idx → Elt Ideal e) :
    View.readAt (Elt Ideal) M.view r.toLoadRect (hM.unread X) = View.ld X r := by
  rw [View.readAt_eq_ld, hM.read_unread]

/-- A load of the whole buffer reads its contents. -/
theorem readAt_unread_whole (M : Memref sig .tc sp s e) (hM : M.IsWhole) {off : Fin s.rank → ℕ} (h0 : off = fun _ => 0)
    (inb : ∀ a, off a + s.size a ≤ s.size a) (X : s.Idx → Elt Ideal e) :
    View.readAt (Elt Ideal) M.view (Rect.unit off s.size inb).toLoadRect (hM.unread X) = X := by
  rw [readAt_unread, View.ld_unit_zero h0]

/-- A load of the whole buffer after writes reads the written contents. -/
theorem readAt_writes_whole (M : Memref sig .tc sp s e) {off : Fin s.rank → ℕ} (h0 : off = fun _ => 0)
    (inb : ∀ a, off a + s.size a ≤ s.size a) (f : M.view.ty.Contents (Elt Ideal)) (L : List (View.Piece (Elt Ideal) s e)) :
    View.readAt (Elt Ideal) M.view (Rect.unit off s.size inb).toLoadRect (M.view.writes (Elt Ideal) f L)
      = M.view.read (Elt Ideal) (M.view.writes (Elt Ideal) f L) := by
  rw [View.readAt_eq_ld, View.ld_unit_zero h0]

end Loads

theorem zero2 : (![0, 0] : Fin 2 → ℕ) = fun _ => 0 := funext fun a => by
  match a with
  | ⟨0, _⟩ => rfl
  | ⟨1, _⟩ => rfl
theorem zero3 : (![0, 0, 0] : Fin 3 → ℕ) = fun _ => 0 := funext fun a => by
  match a with
  | ⟨0, _⟩ => rfl
  | ⟨1, _⟩ => rfl
  | ⟨2, _⟩ => rfl

/-! ## The three runs' pieces -/

section Pieces
variable (c : Dev nD) (i : grid0.Coords) (arg3 : Memref sig .tc .vmem S1x512x1024 .f32) (harg3 : arg3.IsWhole) (arg4 : Memref sig .tc .vmem S1x768x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S512x1024 .bf16) (harg10 : arg10.IsWhole)
  (x0 : Vec Ideal S1x512x1024 .f32) (x1 : Vec Ideal S1x768x1024 .bf16) (x2 : Vec Ideal S1x1024 .f32) (x3 : Vec Ideal S1024x1024 .bf16) (xs8 : Vec Ideal S1x1024 .f32) (xs9 : Vec Ideal S512x1024 .bf16) (xs10 : Vec Ideal S512x1024 .bf16)

/-- The first feature chunk's piece into the carry: the cache is loaded after the cast input rows were stored into it. -/
theorem runA_fst (hc0 : cond0 i) (hc1 : ¬cond1 i) :
    (runA (F := Ideal) c i arg3 harg3 arg4 harg4 arg5 harg5 arg6 harg6 arg7 harg7 arg8 harg8 arg9 harg9 arg10 harg10 hc0 hc1 x0 x1 x2 x3 xs8 xs9 xs10).1 = [⟨(Rect.unit (s := S1x1024) (k0_off1 i) S1x256.size (k0_off1_inb i)), Pay.carryRow (BitVec.ofNat 32 (i 1).val) (k0_pay5 (F := Ideal) x0) x1 (View.ld x2 (Rect.unit (s := S1x1024) (k0_off1 i) S1x256.size (k0_off1_inb i))) (View.ld xs8 (Rect.unit (s := S1x1024) (k0_off1 i) S1x256.size (k0_off1_inb i)))⟩] := by
  have key : (runA (F := Ideal) c i arg3 harg3 arg4 harg4 arg5 harg5 arg6 harg6 arg7 harg7 arg8 harg8 arg9 harg9 arg10 harg10 hc0 hc1 x0 x1 x2 x3 xs8 xs9 xs10).1
      = [⟨(Rect.unit (s := S1x1024) (k0_off1 i) S1x256.size (k0_off1_inb i)), Pay.carryRow (BitVec.ofNat 32 (i 1).val) (arg10.view.readCov [(⟨(Rect.unit (s := S512x1024) ![0, 0] S512x1024.size inb_S512x1024_S512x1024_0_0), k0_pay5 (F := Ideal) (View.readAt (Elt Ideal) arg3.view (Rect.unit (s := S1x512x1024) ![0, 0, 0] S1x512x1024.size inb_S1x512x1024_S1x512x1024_0_0_0).toLoadRect (harg3.unread x0))⟩ : View.Piece (Elt Ideal) S512x1024 .bf16)] (Rect.unit (s := S512x1024) ![0, 0] S512x1024.size inb_S512x1024_S512x1024_0_0).toLoadRect) (View.readAt (Elt Ideal) arg4.view (Rect.unit (s := S1x768x1024) ![0, 0, 0] S1x768x1024.size inb_S1x768x1024_S1x768x1024_0_0_0).toLoadRect (harg4.unread x1)) (View.readAt (Elt Ideal) arg5.view (Rect.unit (s := S1x1024) (k0_off1 i) S1x256.size (k0_off1_inb i)).toLoadRect (harg5.unread x2)) (View.readAt (Elt Ideal) arg8.view (Rect.unit (s := S1x1024) (k0_off1 i) S1x256.size (k0_off1_inb i)).toLoadRect (harg8.unread xs8))⟩] := by
    unfold runA
    rfl
  rw [key, View.readCov_unit_zero arg10.view zero2, readAt_unread_whole arg3 harg3 zero3, readAt_unread_whole arg4 harg4 zero3, readAt_unread arg5 harg5, readAt_unread arg8 harg8]

/-- The first feature chunk's piece into the staged hidden state. -/
theorem runA_snd (hc0 : cond0 i) (hc1 : ¬cond1 i) :
    (runA (F := Ideal) c i arg3 harg3 arg4 harg4 arg5 harg5 arg6 harg6 arg7 harg7 arg8 harg8 arg9 harg9 arg10 harg10 hc0 hc1 x0 x1 x2 x3 xs8 xs9 xs10).2.1 = [⟨(Rect.unit (s := S512x1024) (k0_off2 i) S512x256.size (k0_off2_inb i)), Pay.hidBlk (BitVec.ofNat 32 (i 1).val) (k0_pay5 (F := Ideal) x0) x1 (View.ld x2 (Rect.unit (s := S1x1024) (k0_off1 i) S1x256.size (k0_off1_inb i))) (View.ld xs8 (Rect.unit (s := S1x1024) (k0_off1 i) S1x256.size (k0_off1_inb i)))⟩] := by
  have key : (runA (F := Ideal) c i arg3 harg3 arg4 harg4 arg5 harg5 arg6 harg6 arg7 harg7 arg8 harg8 arg9 harg9 arg10 harg10 hc0 hc1 x0 x1 x2 x3 xs8 xs9 xs10).2.1
      = [⟨(Rect.unit (s := S512x1024) (k0_off2 i) S512x256.size (k0_off2_inb i)), Pay.hidBlk (BitVec.ofNat 32 (i 1).val) (arg10.view.readCov [(⟨(Rect.unit (s := S512x1024) ![0, 0] S512x1024.size inb_S512x1024_S512x1024_0_0), k0_pay5 (F := Ideal) (View.readAt (Elt Ideal) arg3.view (Rect.unit (s := S1x512x1024) ![0, 0, 0] S1x512x1024.size inb_S1x512x1024_S1x512x1024_0_0_0).toLoadRect (harg3.unread x0))⟩ : View.Piece (Elt Ideal) S512x1024 .bf16)] (Rect.unit (s := S512x1024) ![0, 0] S512x1024.size inb_S512x1024_S512x1024_0_0).toLoadRect) (View.readAt (Elt Ideal) arg4.view (Rect.unit (s := S1x768x1024) ![0, 0, 0] S1x768x1024.size inb_S1x768x1024_S1x768x1024_0_0_0).toLoadRect (harg4.unread x1)) (View.readAt (Elt Ideal) arg5.view (Rect.unit (s := S1x1024) (k0_off1 i) S1x256.size (k0_off1_inb i)).toLoadRect (harg5.unread x2)) (View.readAt (Elt Ideal) arg8.view (Rect.unit (s := S1x1024) (k0_off1 i) S1x256.size (k0_off1_inb i)).toLoadRect (harg8.unread xs8))⟩] := by
    unfold runA
    rfl
  rw [key, View.readCov_unit_zero arg10.view zero2, readAt_unread_whole arg3 harg3 zero3, readAt_unread_whole arg4 harg4 zero3, readAt_unread arg5 harg5, readAt_unread arg8 harg8]

/-- The first feature chunk's piece into the cache: the cast input rows, whole. -/
theorem runA_trd (hc0 : cond0 i) (hc1 : ¬cond1 i) :
    (runA (F := Ideal) c i arg3 harg3 arg4 harg4 arg5 harg5 arg6 harg6 arg7 harg7 arg8 harg8 arg9 harg9 arg10 harg10 hc0 hc1 x0 x1 x2 x3 xs8 xs9 xs10).2.2.1 = [⟨(Rect.unit (s := S512x1024) ![0, 0] S512x1024.size inb_S512x1024_S512x1024_0_0), k0_pay5 (F := Ideal) x0⟩] := by
  have key : (runA (F := Ideal) c i arg3 harg3 arg4 harg4 arg5 harg5 arg6 harg6 arg7 harg7 arg8 harg8 arg9 harg9 arg10 harg10 hc0 hc1 x0 x1 x2 x3 xs8 xs9 xs10).2.2.1
      = [⟨(Rect.unit (s := S512x1024) ![0, 0] S512x1024.size inb_S512x1024_S512x1024_0_0), k0_pay5 (F := Ideal) (View.readAt (Elt Ideal) arg3.view (Rect.unit (s := S1x512x1024) ![0, 0, 0] S1x512x1024.size inb_S1x512x1024_S1x512x1024_0_0_0).toLoadRect (harg3.unread x0))⟩] := by
    unfold runA
    rfl
  rw [key, readAt_unread_whole arg3 harg3 zero3]

/-- A middle feature chunk's piece into the carry. -/
theorem runB_fst (hc0 : ¬cond0 i) (hc1 : ¬cond1 i) :
    (runB (F := Ideal) c i arg3 harg3 arg4 harg4 arg5 harg5 arg6 harg6 arg7 harg7 arg8 harg8 arg9 harg9 arg10 harg10 hc0 hc1 x0 x1 x2 x3 xs8 xs9 xs10).1 = [⟨(Rect.unit (s := S1x1024) (k0_off1 i) S1x256.size (k0_off1_inb i)), Pay.carryRow (BitVec.ofNat 32 (i 1).val) xs10 x1 (View.ld x2 (Rect.unit (s := S1x1024) (k0_off1 i) S1x256.size (k0_off1_inb i))) (View.ld xs8 (Rect.unit (s := S1x1024) (k0_off1 i) S1x256.size (k0_off1_inb i)))⟩] := by
  have key : (runB (F := Ideal) c i arg3 harg3 arg4 harg4 arg5 harg5 arg6 harg6 arg7 harg7 arg8 harg8 arg9 harg9 arg10 harg10 hc0 hc1 x0 x1 x2 x3 xs8 xs9 xs10).1
      = [⟨(Rect.unit (s := S1x1024) (k0_off1 i) S1x256.size (k0_off1_inb i)), Pay.carryRow (BitVec.ofNat 32 (i 1).val) (View.readAt (Elt Ideal) arg10.view (Rect.unit (s := S512x1024) ![0, 0] S512x1024.size inb_S512x1024_S512x1024_0_0).toLoadRect (harg10.unread xs10)) (View.readAt (Elt Ideal) arg4.view (Rect.unit (s := S1x768x1024) ![0, 0, 0] S1x768x1024.size inb_S1x768x1024_S1x768x1024_0_0_0).toLoadRect (harg4.unread x1)) (View.readAt (Elt Ideal) arg5.view (Rect.unit (s := S1x1024) (k0_off1 i) S1x256.size (k0_off1_inb i)).toLoadRect (harg5.unread x2)) (View.readAt (Elt Ideal) arg8.view (Rect.unit (s := S1x1024) (k0_off1 i) S1x256.size (k0_off1_inb i)).toLoadRect (harg8.unread xs8))⟩] := by
    unfold runB
    rfl
  rw [key, readAt_unread_whole arg10 harg10 zero2, readAt_unread_whole arg4 harg4 zero3, readAt_unread arg5 harg5, readAt_unread arg8 harg8]

/-- A middle feature chunk's piece into the staged hidden state. -/
theorem runB_snd (hc0 : ¬cond0 i) (hc1 : ¬cond1 i) :
    (runB (F := Ideal) c i arg3 harg3 arg4 harg4 arg5 harg5 arg6 harg6 arg7 harg7 arg8 harg8 arg9 harg9 arg10 harg10 hc0 hc1 x0 x1 x2 x3 xs8 xs9 xs10).2.1 = [⟨(Rect.unit (s := S512x1024) (k0_off2 i) S512x256.size (k0_off2_inb i)), Pay.hidBlk (BitVec.ofNat 32 (i 1).val) xs10 x1 (View.ld x2 (Rect.unit (s := S1x1024) (k0_off1 i) S1x256.size (k0_off1_inb i))) (View.ld xs8 (Rect.unit (s := S1x1024) (k0_off1 i) S1x256.size (k0_off1_inb i)))⟩] := by
  have key : (runB (F := Ideal) c i arg3 harg3 arg4 harg4 arg5 harg5 arg6 harg6 arg7 harg7 arg8 harg8 arg9 harg9 arg10 harg10 hc0 hc1 x0 x1 x2 x3 xs8 xs9 xs10).2.1
      = [⟨(Rect.unit (s := S512x1024) (k0_off2 i) S512x256.size (k0_off2_inb i)), Pay.hidBlk (BitVec.ofNat 32 (i 1).val) (View.readAt (Elt Ideal) arg10.view (Rect.unit (s := S512x1024) ![0, 0] S512x1024.size inb_S512x1024_S512x1024_0_0).toLoadRect (harg10.unread xs10)) (View.readAt (Elt Ideal) arg4.view (Rect.unit (s := S1x768x1024) ![0, 0, 0] S1x768x1024.size inb_S1x768x1024_S1x768x1024_0_0_0).toLoadRect (harg4.unread x1)) (View.readAt (Elt Ideal) arg5.view (Rect.unit (s := S1x1024) (k0_off1 i) S1x256.size (k0_off1_inb i)).toLoadRect (harg5.unread x2)) (View.readAt (Elt Ideal) arg8.view (Rect.unit (s := S1x1024) (k0_off1 i) S1x256.size (k0_off1_inb i)).toLoadRect (harg8.unread xs8))⟩] := by
    unfold runB
    rfl
  rw [key, readAt_unread_whole arg10 harg10 zero2, readAt_unread_whole arg4 harg4 zero3, readAt_unread arg5 harg5, readAt_unread arg8 harg8]

/-- The last feature chunk's piece into the carry. -/
theorem runC_snd (hc0 : ¬cond0 i) (hc1 : cond1 i) :
    (runC (F := Ideal) c i arg3 harg3 arg4 harg4 arg5 harg5 arg6 harg6 arg7 harg7 arg8 harg8 arg9 harg9 arg10 harg10 hc0 hc1 x0 x1 x2 x3 xs8 xs9 xs10).2.1 = [⟨(Rect.unit (s := S1x1024) (k0_off1 i) S1x256.size (k0_off1_inb i)), Pay.carryRow (BitVec.ofNat 32 (i 1).val) xs10 x1 (View.ld x2 (Rect.unit (s := S1x1024) (k0_off1 i) S1x256.size (k0_off1_inb i))) (View.ld xs8 (Rect.unit (s := S1x1024) (k0_off1 i) S1x256.size (k0_off1_inb i)))⟩] := by
  have key : (runC (F := Ideal) c i arg3 harg3 arg4 harg4 arg5 harg5 arg6 harg6 arg7 harg7 arg8 harg8 arg9 harg9 arg10 harg10 hc0 hc1 x0 x1 x2 x3 xs8 xs9 xs10).2.1
      = [⟨(Rect.unit (s := S1x1024) (k0_off1 i) S1x256.size (k0_off1_inb i)), Pay.carryRow (BitVec.ofNat 32 (i 1).val) (View.readAt (Elt Ideal) arg10.view (Rect.unit (s := S512x1024) ![0, 0] S512x1024.size inb_S512x1024_S512x1024_0_0).toLoadRect (harg10.unread xs10)) (View.readAt (Elt Ideal) arg4.view (Rect.unit (s := S1x768x1024) ![0, 0, 0] S1x768x1024.size inb_S1x768x1024_S1x768x1024_0_0_0).toLoadRect (harg4.unread x1)) (View.readAt (Elt Ideal) arg5.view (Rect.unit (s := S1x1024) (k0_off1 i) S1x256.size (k0_off1_inb i)).toLoadRect (harg5.unread x2)) (View.readAt (Elt Ideal) arg8.view (Rect.unit (s := S1x1024) (k0_off1 i) S1x256.size (k0_off1_inb i)).toLoadRect (harg8.unread xs8))⟩] := by
    unfold runC
    rfl
  rw [key, readAt_unread_whole arg10 harg10 zero2, readAt_unread_whole arg4 harg4 zero3, readAt_unread arg5 harg5, readAt_unread arg8 harg8]

/-- The last feature chunk's piece into the staged hidden state. -/
theorem runC_trd (hc0 : ¬cond0 i) (hc1 : cond1 i) :
    (runC (F := Ideal) c i arg3 harg3 arg4 harg4 arg5 harg5 arg6 harg6 arg7 harg7 arg8 harg8 arg9 harg9 arg10 harg10 hc0 hc1 x0 x1 x2 x3 xs8 xs9 xs10).2.2.1 = [⟨(Rect.unit (s := S512x1024) (k0_off2 i) S512x256.size (k0_off2_inb i)), Pay.hidBlk (BitVec.ofNat 32 (i 1).val) xs10 x1 (View.ld x2 (Rect.unit (s := S1x1024) (k0_off1 i) S1x256.size (k0_off1_inb i))) (View.ld xs8 (Rect.unit (s := S1x1024) (k0_off1 i) S1x256.size (k0_off1_inb i)))⟩] := by
  have key : (runC (F := Ideal) c i arg3 harg3 arg4 harg4 arg5 harg5 arg6 harg6 arg7 harg7 arg8 harg8 arg9 harg9 arg10 harg10 hc0 hc1 x0 x1 x2 x3 xs8 xs9 xs10).2.2.1
      = [⟨(Rect.unit (s := S512x1024) (k0_off2 i) S512x256.size (k0_off2_inb i)), Pay.hidBlk (BitVec.ofNat 32 (i 1).val) (View.readAt (Elt Ideal) arg10.view (Rect.unit (s := S512x1024) ![0, 0] S512x1024.size inb_S512x1024_S512x1024_0_0).toLoadRect (harg10.unread xs10)) (View.readAt (Elt Ideal) arg4.view (Rect.unit (s := S1x768x1024) ![0, 0, 0] S1x768x1024.size inb_S1x768x1024_S1x768x1024_0_0_0).toLoadRect (harg4.unread x1)) (View.readAt (Elt Ideal) arg5.view (Rect.unit (s := S1x1024) (k0_off1 i) S1x256.size (k0_off1_inb i)).toLoadRect (harg5.unread x2)) (View.readAt (Elt Ideal) arg8.view (Rect.unit (s := S1x1024) (k0_off1 i) S1x256.size (k0_off1_inb i)).toLoadRect (harg8.unread xs8))⟩] := by
    unfold runC
    rfl
  rw [key, readAt_unread_whole arg10 harg10 zero2, readAt_unread_whole arg4 harg4 zero3, readAt_unread arg5 harg5, readAt_unread arg8 harg8]

/-- The last feature chunk's piece into the output block: the output product of the staged hidden state, loaded after this chunk's columns were stored, with the output weights; whole. -/
theorem runC_fst (hc0 : ¬cond0 i) (hc1 : cond1 i) :
    (runC (F := Ideal) c i arg3 harg3 arg4 harg4 arg5 harg5 arg6 harg6 arg7 harg7 arg8 harg8 arg9 harg9 arg10 harg10 hc0 hc1 x0 x1 x2 x3 xs8 xs9 xs10).1 = [⟨(Rect.unit (s := S1x512x1024) ![0, 0, 0] S1x512x1024.size inb_S1x512x1024_S1x512x1024_0_0_0), k0_pay4 (F := Ideal) x3 (arg9.view.read (Elt Ideal) (arg9.view.writes (Elt Ideal) (harg9.unread xs9) [⟨(Rect.unit (s := S512x1024) (k0_off2 i) S512x256.size (k0_off2_inb i)), Pay.hidBlk (BitVec.ofNat 32 (i 1).val) xs10 x1 (View.ld x2 (Rect.unit (s := S1x1024) (k0_off1 i) S1x256.size (k0_off1_inb i))) (View.ld xs8 (Rect.unit (s := S1x1024) (k0_off1 i) S1x256.size (k0_off1_inb i)))⟩]))⟩] := by
  have key : (runC (F := Ideal) c i arg3 harg3 arg4 harg4 arg5 harg5 arg6 harg6 arg7 harg7 arg8 harg8 arg9 harg9 arg10 harg10 hc0 hc1 x0 x1 x2 x3 xs8 xs9 xs10).1
      = [⟨(Rect.unit (s := S1x512x1024) ![0, 0, 0] S1x512x1024.size inb_S1x512x1024_S1x512x1024_0_0_0), k0_pay4 (F := Ideal) (View.readAt (Elt Ideal) arg6.view (Rect.unit (s := S1024x1024) ![0, 0] S1024x1024.size inb_S1024x1024_S1024x1024_0_0).toLoadRect (harg6.unread x3)) (View.readAt (Elt Ideal) arg9.view (Rect.unit (s := S512x1024) ![0, 0] S512x1024.size inb_S512x1024_S512x1024_0_0).toLoadRect (arg9.view.writes (Elt Ideal) (harg9.unread xs9) [⟨(Rect.unit (s := S512x1024) (k0_off2 i) S512x256.size (k0_off2_inb i)), Pay.hidBlk (BitVec.ofNat 32 (i 1).val) (View.readAt (Elt Ideal) arg10.view (Rect.unit (s := S512x1024) ![0, 0] S512x1024.size inb_S512x1024_S512x1024_0_0).toLoadRect (harg10.unread xs10)) (View.readAt (Elt Ideal) arg4.view (Rect.unit (s := S1x768x1024) ![0, 0, 0] S1x768x1024.size inb_S1x768x1024_S1x768x1024_0_0_0).toLoadRect (harg4.unread x1)) (View.readAt (Elt Ideal) arg5.view (Rect.unit (s := S1x1024) (k0_off1 i) S1x256.size (k0_off1_inb i)).toLoadRect (harg5.unread x2)) (View.readAt (Elt Ideal) arg8.view (Rect.unit (s := S1x1024) (k0_off1 i) S1x256.size (k0_off1_inb i)).toLoadRect (harg8.unread xs8))⟩]))⟩] := by
    unfold runC
    rfl
  rw [key, readAt_writes_whole arg9 zero2, readAt_unread_whole arg6 harg6 zero2, readAt_unread_whole arg10 harg10 zero2, readAt_unread_whole arg4 harg4 zero3, readAt_unread arg5 harg5, readAt_unread arg8 harg8]

end Pieces

/-! ## A buffer read back after one piece was written -/

section ReadBack
variable {sp : Space} {e : EltTy} {n N : ℕ}

/-- Inside the piece's columns [o, o + W): the stored value at the column minus o. -/
theorem read_cols_in {W : ℕ} (M : Memref sig .tc sp (⟨2, ![n, N]⟩ : Shape) e) (hM : M.IsWhole) (d : (⟨2, ![n, N]⟩ : Shape).Idx → Elt Ideal e)
    {off : Fin 2 → ℕ} (inb : ∀ a, off a + (![n, W] : Fin 2 → ℕ) a ≤ (⟨2, ![n, N]⟩ : Shape).size a)
    (w : (Rect.unit (s := ⟨2, ![n, N]⟩) off ![n, W] inb).shape.Idx → Elt Ideal e) (o : ℕ) (hoff : off = ![0, o])
    (r : Fin n) (col : Fin N) (j : Fin W) (hcol : col.val = o + j.val) :
    M.view.read (Elt Ideal) (M.view.writes (Elt Ideal) (hM.unread d)
        [(⟨Rect.unit (s := ⟨2, ![n, N]⟩) off ![n, W] inb, w⟩ : View.Piece (Elt Ideal) (⟨2, ![n, N]⟩ : Shape) e)]) (ix2 r col)
      = w (ix2 r j) :=
  View.read_writes_cons_unit_of_mem M.view (hM.unread d) inb w [] (ix2 r col) (ix2 r j) hoff fun a => by
    match a with
    | ⟨0, _⟩ => exact (Nat.zero_add _).symm
    | ⟨1, _⟩ => exact hcol

/-- Outside them: the previous contents. -/
theorem read_cols_out {W : ℕ} (M : Memref sig .tc sp (⟨2, ![n, N]⟩ : Shape) e) (hM : M.IsWhole) (d : (⟨2, ![n, N]⟩ : Shape).Idx → Elt Ideal e)
    {off : Fin 2 → ℕ} (inb : ∀ a, off a + (![n, W] : Fin 2 → ℕ) a ≤ (⟨2, ![n, N]⟩ : Shape).size a)
    (w : (Rect.unit (s := ⟨2, ![n, N]⟩) off ![n, W] inb).shape.Idx → Elt Ideal e) (o : ℕ) (hoff : off = ![0, o])
    (r : Fin n) (col : Fin N) (hcol : col.val < o ∨ o + W ≤ col.val) :
    M.view.read (Elt Ideal) (M.view.writes (Elt Ideal) (hM.unread d)
        [(⟨Rect.unit (s := ⟨2, ![n, N]⟩) off ![n, W] inb, w⟩ : View.Piece (Elt Ideal) (⟨2, ![n, N]⟩ : Shape) e)]) (ix2 r col)
      = d (ix2 r col) := by
  refine (View.read_writes_cons_unit_of_not_mem M.view (hM.unread d) inb w [] (ix2 r col) hoff (1 : Fin 2) hcol).trans ?_
  rw [View.writes_nil, hM.read_unread]

end ReadBack

/-- A buffer with one whole piece written holds the stored value. -/
theorem read_whole_piece {sp : Space} {s : Shape} {e : EltTy} (M : Memref sig .tc sp s e) (f : M.view.ty.Contents (Elt Ideal))
    {off : Fin s.rank → ℕ} (h0 : off = fun _ => 0) (inb : ∀ a, off a + s.size a ≤ s.size a)
    (w : (Rect.unit off s.size inb).shape.Idx → Elt Ideal e) :
    M.view.read (Elt Ideal) (M.view.writes (Elt Ideal) f [(⟨Rect.unit off s.size inb, w⟩ : View.Piece (Elt Ideal) s e)]) = w := by
  funext y
  refine View.read_writes_cons_unit_of_mem M.view f inb w [] y y h0 fun a => ?_
  show (y a).val = 0 + (y a).val
  omega

/-! # (3) A grid point -/

section Point
variable (m : (ℓ : Loc nD τ sig) → Buf (Elt Ideal) ℓ) (c : Dev nD) (t : Fin cfg0.N)

/-- A grid point's time chunk is one of the 32. -/
theorem tc_lt' : t.val / 4 < 32 := by
  have : t.val < 128 := Blk.t_lt t
  omega

/-- The index the 256-column slice of a one-row buffer reads at (0, j): column 256 (t % 4) + j. -/
theorem R1_idx (j : Fin 256) :
    ((Rect.unit (s := S1x1024) (k0_off1 (grid0.coords t)) S1x256.size (k0_off1_inb (grid0.coords t)))).idx (ix2 (0 : Fin 1) j : S1x256.Idx) = (ix2 (0 : Fin 1) (colOf (t.val % 4) (Nat.mod_lt _ (by norm_num)) j) : S1x1024.Idx) := by
  obtain ⟨e0, e1⟩ := Blk.off1_facts t
  funext a
  apply Fin.ext
  match a with
  | ⟨0, _⟩ => show k0_off1 (grid0.coords t) 0 + 1 * 0 = 0; omega
  | ⟨1, _⟩ => show k0_off1 (grid0.coords t) 1 + 1 * j.val = 256 * (t.val % 4) + j.val; omega

/-- The gate-weights block's row e stands for the weights row of gate e / 256 and feature 256 (t % 4) + e % 256. -/
theorem hv6_pt (e : Fin 768) (k : Fin 1024) :
    (iblk m c 1 t : S1x768x1024.Idx → EReal) (ix3 (0 : Fin 1) e k)
      = WG m c ⟨1024 * (e.val / 256) + 256 * (t.val % 4) + e.val % 256, by have := e.isLt; omega⟩ k :=
  (Blk.iblk1 m c t e k).trans (HostVal.V_v35 m c ⟨t.val % 4, Nat.mod_lt _ (by norm_num)⟩ e k)

/-- The bias slice's entry j is the bias of feature 256 (t % 4) + j. -/
theorem hv9_pt (j : Fin 256) :
    (View.ld (Val := Elt Ideal) (e' := EltTy.f32) (iblk m c 2 t) (Rect.unit (s := S1x1024) (k0_off1 (grid0.coords t)) S1x256.size (k0_off1_inb (grid0.coords t)))) (ix2 (0 : Fin 1) j : S1x256.Idx)
      = BI m c (colOf (t.val % 4) (Nat.mod_lt _ (by norm_num)) j) := by
  show (iblk m c 2 t : S1x1024.Idx → EReal) (((Rect.unit (s := S1x1024) (k0_off1 (grid0.coords t)) S1x256.size (k0_off1_inb (grid0.coords t)))).idx (ix2 (0 : Fin 1) j : S1x256.Idx)) = _
  rw [R1_idx, Blk.iblk2, HostVal.V_v37]
  show _ = (V m c main_arg3 : S1024.Idx → EReal) (ix1 _)
  rw [V_main_arg3]

/-- The carry read back after the point's piece, and the staged hidden state after the point's piece, over memrefs that
are whole buffers. -/
def new8 (M8 : Memref sig .tc .vmem S1x1024 .f32) (hM8 : M8.IsWhole) (d8 : S1x1024.Idx → EReal) (v5 : S512x1024.Idx → EReal) :
    S1x1024.Idx → EReal :=
  M8.view.read (Elt Ideal) (M8.view.writes (Elt Ideal) (hM8.unread d8)
    [⟨(Rect.unit (s := S1x1024) (k0_off1 (grid0.coords t)) S1x256.size (k0_off1_inb (grid0.coords t))), Pay.carryRow (BitVec.ofNat 32 (grid0.coords t 1).val) v5 (iblk m c 1 t) (View.ld (Val := Elt Ideal) (e' := EltTy.f32) (iblk m c 2 t) (Rect.unit (s := S1x1024) (k0_off1 (grid0.coords t)) S1x256.size (k0_off1_inb (grid0.coords t)))) (View.ld (Val := Elt Ideal) (e' := EltTy.f32) d8 (Rect.unit (s := S1x1024) (k0_off1 (grid0.coords t)) S1x256.size (k0_off1_inb (grid0.coords t))))⟩])
def new9 (M9 : Memref sig .tc .vmem S512x1024 .bf16) (hM9 : M9.IsWhole) (d8 : S1x1024.Idx → EReal) (d9 v5 : S512x1024.Idx → EReal) :
    S512x1024.Idx → EReal :=
  M9.view.read (Elt Ideal) (M9.view.writes (Elt Ideal) (hM9.unread d9)
    [⟨(Rect.unit (s := S512x1024) (k0_off2 (grid0.coords t)) S512x256.size (k0_off2_inb (grid0.coords t))), Pay.hidBlk (BitVec.ofNat 32 (grid0.coords t 1).val) v5 (iblk m c 1 t) (View.ld (Val := Elt Ideal) (e' := EltTy.f32) (iblk m c 2 t) (Rect.unit (s := S1x1024) (k0_off1 (grid0.coords t)) S1x256.size (k0_off1_inb (grid0.coords t)))) (View.ld (Val := Elt Ideal) (e' := EltTy.f32) d8 (Rect.unit (s := S1x1024) (k0_off1 (grid0.coords t)) S1x256.size (k0_off1_inb (grid0.coords t))))⟩])

/-- THE POINT'S STEP: with q = t % 4 feature chunks done and the body's input rows v5 the time chunk's rows, the carry and
the staged hidden state read back after the point's pieces, with any cache contents that hold the chunk's rows, satisfy the
invariant with q + 1 done. -/
theorem core_step (M8 : Memref sig .tc .vmem S1x1024 .f32) (hM8 : M8.IsWhole) (M9 : Memref sig .tc .vmem S512x1024 .bf16)
    (hM9 : M9.IsWhole) (q : ℕ) (hqe : t.val % 4 = q) (d8 : S1x1024.Idx → EReal) (d9 d10 d10' v5 : S512x1024.Idx → EReal)
    (hI : InvQ m c (t.val / 4) (tc_lt' t) q d8 d9 d10)
    (hv5 : ∀ (r : Fin 512) (k : Fin 1024), v5 (ix2 r k) = X m c (bOf (t.val / 4) (tc_lt' t)) (rowOf (t.val / 4) r) k)
    (h10 : ∀ (r : Fin 512) (k : Fin 1024), d10' (ix2 r k) = X m c (bOf (t.val / 4) (tc_lt' t)) (rowOf (t.val / 4) r) k) :
    InvQ m c (t.val / 4) (tc_lt' t) (q + 1) (new8 m c t M8 hM8 d8 v5) (new9 m c t M9 hM9 d8 d9 v5) d10' := by
  subst hqe
  have hq : t.val % 4 < 4 := Nat.mod_lt _ (by norm_num)
  obtain ⟨c0, c1, c2⟩ := Blk.coords_facts t
  have harg : (BitVec.ofNat 32 (grid0.coords t 1).val) = BitVec.ofNat 32 (t.val / 4 % 8) := by rw [c1]
  have hold : 0 < t.val / 4 % 8 → ∀ j : Fin 256, View.ld (Val := Elt Ideal) (e' := EltTy.f32) d8 (Rect.unit (s := S1x1024) (k0_off1 (grid0.coords t)) S1x256.size (k0_off1_inb (grid0.coords t))) (ix2 (0 : Fin 1) j : S1x256.Idx)
      = H m c (bOf (t.val / 4) (tc_lt' t)) (colOf (t.val % 4) hq j) (512 * (t.val / 4 % 8) - 1) := fun htn j => by
    show d8 (((Rect.unit (s := S1x1024) (k0_off1 (grid0.coords t)) S1x256.size (k0_off1_inb (grid0.coords t)))).idx (ix2 (0 : Fin 1) j : S1x256.Idx)) = _
    rw [R1_idx]
    exact hI.carryOld htn _ (by rw [colOf_val]; have := j.isLt; omega)
  have st := state_eq_H m c (t.val / 4) (tc_lt' t) (t.val % 4) hq v5 (iblk m c 1 t) (View.ld (Val := Elt Ideal) (e' := EltTy.f32) (iblk m c 2 t) (Rect.unit (s := S1x1024) (k0_off1 (grid0.coords t)) S1x256.size (k0_off1_inb (grid0.coords t))))
    hv5 (hv6_pt m c t) (hv9_pt m c t) (BitVec.ofNat 32 (grid0.coords t 1).val) harg (View.ld (Val := Elt Ideal) (e' := EltTy.f32) d8 (Rect.unit (s := S1x1024) (k0_off1 (grid0.coords t)) S1x256.size (k0_off1_inb (grid0.coords t)))) hold
  have og := oG_eq m c (t.val / 4) (tc_lt' t) (t.val % 4) hq v5 (iblk m c 1 t) hv5 (hv6_pt m c t)
  refine InvQ_step m c (t.val / 4) (tc_lt' t) (t.val % 4) hq d8 _ d9 _ d10 d10' hI h10 ?_ ?_ ?_ ?_
  · intro col hc
    have hcl := col.isLt
    have hcol : col.val = 256 * (t.val % 4) + (⟨col.val - 256 * (t.val % 4), by omega⟩ : Fin 256).val := by
      show col.val = 256 * (t.val % 4) + (col.val - 256 * (t.val % 4)); omega
    have ecol : colOf (t.val % 4) hq ⟨col.val - 256 * (t.val % 4), by omega⟩ = col := Fin.ext hcol.symm
    refine (read_cols_in M8 hM8 d8 _ _ (256 * (t.val % 4)) (Blk.off1_eq t) (0 : Fin 1) col
      ⟨col.val - 256 * (t.val % 4), by omega⟩ hcol).trans ?_
    rw [Pay.carryRow_apply, st, ecol]
  · intro col hc
    have hcl := col.isLt
    exact read_cols_out M8 hM8 d8 _ _ (256 * (t.val % 4)) (Blk.off1_eq t) (0 : Fin 1) col (by omega)
  · intro r col hc
    have hcl := col.isLt
    have hcol : col.val = 256 * (t.val % 4) + (⟨col.val - 256 * (t.val % 4), by omega⟩ : Fin 256).val := by
      show col.val = 256 * (t.val % 4) + (col.val - 256 * (t.val % 4)); omega
    have ecol : colOf (t.val % 4) hq ⟨col.val - 256 * (t.val % 4), by omega⟩ = col := Fin.ext hcol.symm
    refine (read_cols_in M9 hM9 d9 _ _ (256 * (t.val % 4)) (Blk.off2_eq t) r col
      ⟨col.val - 256 * (t.val % 4), by omega⟩ hcol).trans ?_
    rw [Pay.hidBlk_apply, st, og, ecol]
    rfl
  · intro r col hc
    have hcl := col.isLt
    exact read_cols_out M9 hM9 d9 _ _ (256 * (t.val % 4)) (Blk.off2_eq t) r col (by omega)

/-- At the first feature chunk the cast input rows are the time chunk's rows. -/
theorem hv5_first (r : Fin 512) (k : Fin 1024) :
    k0_pay5 (F := Ideal) (iblk m c 0 t) (ix2 r k) = X m c (bOf (t.val / 4) (tc_lt' t)) (rowOf (t.val / 4) r) k := by
  have ht := Blk.t_lt t
  rw [Pay.pay5_apply, Blk.iblk0]
  show (V m c main_arg0 : S4x4096x1024.Idx → EReal) _ = (V m c main_arg0 : S4x4096x1024.Idx → EReal) _
  refine congrArg _ (funext fun a => Fin.ext ?_)
  match a with
  | ⟨0, _⟩ => show t.val / 32 = t.val / 4 / 8; omega
  | ⟨1, _⟩ => rfl
  | ⟨2, _⟩ => rfl

/-- The output block the last feature chunk stores, from the staged hidden state with all four chunks done. -/
theorem out_eq (hid : S512x1024.Idx → EReal)
    (hst : ∀ (r : Fin 512) (col : Fin 1024), hid (ix2 r col)
      = H m c (bOf (t.val / 4) (tc_lt' t)) col (rowOf (t.val / 4) r).val * O m c (bOf (t.val / 4) (tc_lt' t)) (rowOf (t.val / 4) r) col) :
    k0_pay4 (F := Ideal) (iblk m c 3 t) hid = outBlk m c (t.val / 4) (tc_lt' t) := by
  funext y
  obtain ⟨r, e, rfl⟩ : ∃ (r : Fin 512) (e : Fin 1024), y = (ix3 (0 : Fin 1) r e : S1x512x1024.Idx) :=
    ⟨y 1, y 2, Blk.blk_idx3 y⟩
  rw [Pay.pay4_apply]
  show (∑ k : Fin 1024, hid (ix2 r k) * (iblk m c 3 t : S1024x1024.Idx → EReal) (ix2 e k))
    = ∑ k : Fin 1024, (H m c (bOf (t.val / 4) (tc_lt' t)) k (rowOf (t.val / 4) r).val
        * O m c (bOf (t.val / 4) (tc_lt' t)) (rowOf (t.val / 4) r) k) * WO m c e k
  refine Finset.sum_congr rfl fun k _ => ?_
  rw [hst, Blk.iblk3, HostVal.V_v36]
  rfl

end Point

end Cert.KernelIdeal.Val

end
-- ==== Proof.KIStep.lean ====
/-
  One grid point's effect on the scratch buffers, and what a time chunk's last point stores into the output block: the
  arithmetic heart of the value proof. Each of the three runs (first, middle, last feature chunk) leaves the carry and the
  staged hidden state as their previous contents with one 256-column piece written; read back entry by entry — inside the
  piece the stored value, outside it the previous contents — the new contents satisfy the invariant with one more feature
  chunk done. The stored values are the chunk's scan: nine doubling rounds over the chunk's 512 rows combined with the
  carried state, which by the scan library is the sequential recurrence at the chunk's rows.
-/
import proofs.«116791_j19533511262472_2_alg».proof.Proof.KIInv
import proofs.«116791_j19533511262472_2_alg».proof.Proof.KIRunC
import proofs.«116791_j19533511262472_2_alg».proof.Proof.KIStepLemmas

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (c : Dev nD)

abbrev h8 : (scCarry : Memref sig .tc .vmem S1x1024 .f32).IsWhole := Memref.isWhole_whole _
abbrev h9 : (scHid : Memref sig .tc .vmem S512x1024 .bf16).IsWhole := Memref.isWhole_whole _
abbrev h10 : (scX : Memref sig .tc .vmem S512x1024 .bf16).IsWhole := Memref.isWhole_whole _

/-- The carry read back after pieces `L` were written over contents `d`. -/
def rd8 (d : S1x1024.Idx → EReal) (L : List (View.Piece (Elt Ideal) S1x1024 .f32)) : S1x1024.Idx → EReal :=
  scCarry.view.read (Elt Ideal) (scCarry.view.writes (Elt Ideal) (h8.unread d) L)
/-- The staged hidden state read back after pieces `L` were written over contents `d`. -/
def rd9 (d : S512x1024.Idx → EReal) (L : List (View.Piece (Elt Ideal) S512x1024 .bf16)) : S512x1024.Idx → EReal :=
  scHid.view.read (Elt Ideal) (scHid.view.writes (Elt Ideal) (h9.unread d) L)
/-- The cache read back after pieces `L` were written over contents `d`. -/
def rd10 (d : S512x1024.Idx → EReal) (L : List (View.Piece (Elt Ideal) S512x1024 .bf16)) : S512x1024.Idx → EReal :=
  scX.view.read (Elt Ideal) (scX.view.writes (Elt Ideal) (h10.unread d) L)
/-- The output block's staging buffer read back after pieces `L` were written over contents `d`. -/
def rd4 (t : Fin cfg0.N) (d : S1x512x1024.Idx → EReal) (L : List (View.Piece (Elt Ideal) S1x512x1024 .f32)) : S1x512x1024.Idx → EReal :=
  (ms4 t).view.read (Elt Ideal) ((ms4 t).view.writes (Elt Ideal) ((hs4 t).unread d) L)

/-- The first-chunk run at point t, on the point's memrefs and blocks. -/
abbrev rA (t : Fin cfg0.N) (h0 : t.val % 4 = 0) (d8 : S1x1024.Idx → EReal) (d9 d10 : S512x1024.Idx → EReal) :=
  runA (F := Ideal) c (grid0.coords t) (ms0 t) (hs0 t) (ms1 t) (hs1 t) (ms2 t) (hs2 t) (ms3 t) (hs3 t) (ms4 t) (hs4 t) scCarry h8 scHid h9 scX h10 ((hcond0 t).mpr h0) (fun h => by have := (hcond1 t).mp h; omega) (iblk m c 0 t) (iblk m c 1 t) (iblk m c 2 t) (iblk m c 3 t) d8 d9 d10
/-- The middle-chunk run at point t. -/
abbrev rB (t : Fin cfg0.N) (h0 : ¬ t.val % 4 = 0) (h1 : ¬ t.val % 4 = 3) (d8 : S1x1024.Idx → EReal) (d9 d10 : S512x1024.Idx → EReal) :=
  runB (F := Ideal) c (grid0.coords t) (ms0 t) (hs0 t) (ms1 t) (hs1 t) (ms2 t) (hs2 t) (ms3 t) (hs3 t) (ms4 t) (hs4 t) scCarry h8 scHid h9 scX h10 (fun h => h0 ((hcond0 t).mp h)) (fun h => h1 ((hcond1 t).mp h)) (iblk m c 0 t) (iblk m c 1 t) (iblk m c 2 t) (iblk m c 3 t) d8 d9 d10
/-- The last-chunk run at point t. -/
abbrev rC (t : Fin cfg0.N) (h1 : t.val % 4 = 3) (d8 : S1x1024.Idx → EReal) (d9 d10 : S512x1024.Idx → EReal) :=
  runC (F := Ideal) c (grid0.coords t) (ms0 t) (hs0 t) (ms1 t) (hs1 t) (ms2 t) (hs2 t) (ms3 t) (hs3 t) (ms4 t) (hs4 t) scCarry h8 scHid h9 scX h10 (fun h => by have := (hcond0 t).mp h; omega) ((hcond1 t).mpr h1) (iblk m c 0 t) (iblk m c 1 t) (iblk m c 2 t) (iblk m c 3 t) d8 d9 d10

theorem tc_lt (t : Fin cfg0.N) : t.val / 4 < 32 := by
  have : t.val < 128 := lt_of_lt_of_eq t.isLt N_0
  omega

/-- The first feature chunk's point: the invariant with one more chunk done. -/
theorem stepA (t : Fin cfg0.N) (h0 : t.val % 4 = 0) (d8 : S1x1024.Idx → EReal) (d9 d10 : S512x1024.Idx → EReal)
    (hI : Inv m c t.val d8 d9 d10) :
    Inv m c (t.val + 1) (rd8 d8 (rA m c t h0 d8 d9 d10).1) (rd9 d9 (rA m c t h0 d8 d9 d10).2.1) (rd10 d10 (rA m c t h0 d8 d9 d10).2.2.1) := by
  have hIq := Inv_at m c t.val (tc_lt t) d8 d9 d10 hI
  have hstep := core_step m c t scCarry h8 scHid h9 (t.val % 4) rfl d8 d9 d10 (k0_pay5 (F := Ideal) (iblk m c 0 t))
    (k0_pay5 (F := Ideal) (iblk m c 0 t)) hIq (hv5_first m c t) (hv5_first m c t)
  have e8 : rd8 d8 (rA m c t h0 d8 d9 d10).1 = new8 m c t scCarry h8 d8 (k0_pay5 (F := Ideal) (iblk m c 0 t)) := by
    rw [runA_fst]; first | rfl | done
  have e9 : rd9 d9 (rA m c t h0 d8 d9 d10).2.1 = new9 m c t scHid h9 d8 d9 (k0_pay5 (F := Ideal) (iblk m c 0 t)) := by
    rw [runA_snd]; first | rfl | done
  have e10 : rd10 d10 (rA m c t h0 d8 d9 d10).2.2.1 = (k0_pay5 (F := Ideal) (iblk m c 0 t)) := by
    rw [runA_trd]
    exact read_whole_piece scX _ zero2 _ _
  rw [e8, e9, e10]
  exact Inv_succ_of_lt m c t.val (tc_lt t) (by omega) _ _ _ hstep

/-- A middle feature chunk's point. -/
theorem stepB (t : Fin cfg0.N) (h0 : ¬ t.val % 4 = 0) (h1 : ¬ t.val % 4 = 3) (d8 : S1x1024.Idx → EReal) (d9 d10 : S512x1024.Idx → EReal)
    (hI : Inv m c t.val d8 d9 d10) :
    Inv m c (t.val + 1) (rd8 d8 (rB m c t h0 h1 d8 d9 d10).1) (rd9 d9 (rB m c t h0 h1 d8 d9 d10).2.1) d10 := by
  have hIq := Inv_at m c t.val (tc_lt t) d8 d9 d10 hI
  have hstep := core_step m c t scCarry h8 scHid h9 (t.val % 4) rfl d8 d9 d10 d10 d10 hIq
    (hIq.cache (by omega)) (hIq.cache (by omega))
  have e8 : rd8 d8 (rB m c t h0 h1 d8 d9 d10).1 = new8 m c t scCarry h8 d8 d10 := by
    rw [runB_fst]; first | rfl | done
  have e9 : rd9 d9 (rB m c t h0 h1 d8 d9 d10).2.1 = new9 m c t scHid h9 d8 d9 d10 := by
    rw [runB_snd]; first | rfl | done
  rw [e8, e9]
  exact Inv_succ_of_lt m c t.val (tc_lt t) (by omega) _ _ _ hstep

/-- The last feature chunk's point. -/
theorem stepC (t : Fin cfg0.N) (h1 : t.val % 4 = 3) (d8 : S1x1024.Idx → EReal) (d9 d10 : S512x1024.Idx → EReal)
    (hI : Inv m c t.val d8 d9 d10) :
    Inv m c (t.val + 1) (rd8 d8 (rC m c t h1 d8 d9 d10).2.1) (rd9 d9 (rC m c t h1 d8 d9 d10).2.2.1) d10 := by
  have hIq := Inv_at m c t.val (tc_lt t) d8 d9 d10 hI
  rw [h1] at hIq
  have hstep := core_step m c t scCarry h8 scHid h9 3 h1 d8 d9 d10 d10 d10 hIq
    (hIq.cache (by norm_num)) (hIq.cache (by norm_num))
  have e8 : rd8 d8 (rC m c t h1 d8 d9 d10).2.1 = new8 m c t scCarry h8 d8 d10 := by
    rw [runC_snd]; first | rfl | done
  have e9 : rd9 d9 (rC m c t h1 d8 d9 d10).2.2.1 = new9 m c t scHid h9 d8 d9 d10 := by
    rw [runC_trd]; first | rfl | done
  rw [e8, e9]
  exact Inv_succ_of_last m c t.val (tc_lt t) h1 _ _ _ hstep

/-- What the last feature chunk's point stores into the output block: the result's rows of its time chunk. -/
theorem outC (t : Fin cfg0.N) (h1 : t.val % 4 = 3) (d8 : S1x1024.Idx → EReal) (d9 d10 : S512x1024.Idx → EReal)
    (hI : Inv m c t.val d8 d9 d10) (xi4 : S1x512x1024.Idx → EReal) :
    rd4 t xi4 (rC m c t h1 d8 d9 d10).1 = outBlk m c (t.val / 4) (tc_lt t) := by
  have hIq := Inv_at m c t.val (tc_lt t) d8 d9 d10 hI
  rw [h1] at hIq
  have hstep := core_step m c t scCarry h8 scHid h9 3 h1 d8 d9 d10 d10 d10 hIq
    (hIq.cache (by norm_num)) (hIq.cache (by norm_num))
  have e4 : (rC m c t h1 d8 d9 d10).1
      = [⟨Rect.unit (s := S1x512x1024) ![0, 0, 0] S1x512x1024.size inb_S1x512x1024_S1x512x1024_0_0_0,
          k0_pay4 (F := Ideal) (iblk m c 3 t) (new9 m c t scHid h9 d8 d9 d10)⟩] := by
    rw [runC_fst]; first | rfl | done
  rw [e4]
  unfold rd4
  rw [read_whole_piece (ms4 t) _ zero3]
  exact out_eq m c t _ fun r col => hstep.staged r col (by have := col.isLt; omega)

end Cert.KernelIdeal.Val

end
-- ==== Proof.KIValue.lean ====
/-
  THE VALUE RUN of the idealized kernel: every weakly fair execution terminates with the output array holding the
  specification's result, entry by entry, and the argument arrays unchanged. The proof data name what each staging buffer
  holds after the body at each point — an input window its block, the output window (at a time chunk's last point) the
  result's rows of that time chunk — and the invariant says the three scratch buffers hold SOME contents satisfying the
  invariant of KIInv (their unstored columns hold whatever the launch left there, which nothing reads). The body obligation
  is the three runs chosen by the point's number modulo 4, each followed by that case's step of the invariant. The final
  array is read off the library's frame post: the points that write the output back are the time chunks' last points, their
  blocks tile the array, and each block is the result's restriction.
-/
import proofs.«116791_j19533511262472_2_alg».proof.Proof.KIStep

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Idealize.ShloMosaic.ValueIdx

variable (m : (ℓ : Loc nD τ sig) → Buf (Elt Ideal) ℓ) (ρ : Dev nD → PrngReg) (c : Dev nD)

/-! ## The invariant as an assertion -/

/-- Before point n: the three scratch buffers at some contents satisfying the invariant, and the generator register. -/
def PhiV (n : ℕ) : sProp 𝕄 :=
  iprop((∃ (d8 : S1x1024.Idx → EReal) (d9 d10 : S512x1024.Idx → EReal), ⌜Inv m c n d8 d9 d10⌝
      ∗ owns (c : Thread nD τ) scCarry fullShare d8 ∗ owns (c : Thread nD τ) scHid fullShare d9 ∗ owns (c : Thread nD τ) scX fullShare d10)
    ∗ (∃ r, prngReg c r))

theorem Inv_zero (d8 : S1x1024.Idx → EReal) (d9 d10 : S512x1024.Idx → EReal) : Inv m c 0 d8 d9 d10 := by
  unfold Inv
  rw [dif_pos (by omega : 0 / 4 < 32)]
  exact ⟨fun h => absurd h (by omega), fun r col h => absurd h (by omega), fun col h => absurd h (by omega), fun h => absurd h (by omega)⟩

theorem Inv_last (d8 : S1x1024.Idx → EReal) (d9 d10 : S512x1024.Idx → EReal) : Inv m c 128 d8 d9 d10 := by
  unfold Inv
  rw [dif_neg (by omega : ¬ 128 / 4 < 32)]
  trivial

/-! ## The proof data -/

/-- What the output window's staging buffer holds after the body at point t: at a time chunk's last point the result's rows
    of that time chunk (elsewhere the window is idle and this value is never consulted). -/
def out4 (t : Fin cfg0.N) : S1x512x1024.Idx → EReal := outBlk m c (t.val / 4) (tc_lt t)

/-- The proof data: the arrays as the region finds them; after the body each input's buffer at its block and the output's
    at the result's rows; the invariant `PhiV`; nothing owed; full shares. -/
def dats : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
  Φ t := PhiV m c t.val
  q _ := fullShare
  owed _ := 0

theorem A_eq (w : Fin cfg0.W) : (dats m c).A w = V m c (Pipeline.arrRef spec0 w) := by dsimp only [dats]
theorem after0 (t : Fin cfg0.N) : (dats m c).after 0 t = iblk m c 0 t := by dsimp only [dats]
theorem after1 (t : Fin cfg0.N) : (dats m c).after 1 t = iblk m c 1 t := by dsimp only [dats]
theorem after2 (t : Fin cfg0.N) : (dats m c).after 2 t = iblk m c 2 t := by dsimp only [dats]
theorem after3 (t : Fin cfg0.N) : (dats m c).after 3 t = iblk m c 3 t := by dsimp only [dats]
theorem after4 (t : Fin cfg0.N) : (dats m c).after 4 t = out4 m c t := by dsimp only [dats]

/-- Input window 0's current staging buffer holds its block at every point, fetched there or not. -/
theorem before0 (t : Fin cfg0.N) (d) : (dats m c).before 0 t d = iblk m c 0 t :=
  ((dats m c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- Input window 1's current staging buffer holds its block at every point, fetched there or not. -/
theorem before1 (t : Fin cfg0.N) (d) : (dats m c).before 1 t d = iblk m c 1 t :=
  ((dats m c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- Input window 2's current staging buffer holds its block at every point, fetched there or not. -/
theorem before2 (t : Fin cfg0.N) (d) : (dats m c).before 2 t d = iblk m c 2 t :=
  ((dats m c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- Input window 3's current staging buffer holds its block at every point, fetched there or not. -/
theorem before3 (t : Fin cfg0.N) (d) : (dats m c).before 3 t d = iblk m c 3 t :=
  ((dats m c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation -/

/-- What the body is called with at point t, the windows one by one, -/
def bodyPre (t : Fin cfg0.N) : sProp 𝕄 :=
  iprop((dats m c).Φ t.castSucc ∗ (dats m c).owesAt () t.castSucc
    ∗ (∃ d, owns (c : Thread nD τ) (ms0 t) fullShare ((dats m c).before 0 t d))
    ∗ (∃ d, owns (c : Thread nD τ) (ms1 t) fullShare ((dats m c).before 1 t d))
    ∗ (∃ d, owns (c : Thread nD τ) (ms2 t) fullShare ((dats m c).before 2 t d))
    ∗ (∃ d, owns (c : Thread nD τ) (ms3 t) fullShare ((dats m c).before 3 t d))
    ∗ (∃ d, owns (c : Thread nD τ) (ms4 t) fullShare ((dats m c).before 4 t d)))

/-- and what it returns. -/
def bodyPost (t : Fin cfg0.N) : sProp 𝕄 :=
  iprop((dats m c).Φ t.succ ∗ (dats m c).owesAt () t.succ
    ∗ (dats m c).leavesExact 0 t ∗ (dats m c).leavesExact 1 t ∗ (dats m c).leavesExact 2 t ∗ (dats m c).leavesExact 3 t ∗ (dats m c).leavesExact 4 t)

set_option maxHeartbeats 4000000 in
/-- The body at any point: the inputs' buffers hold their blocks, the scratch buffers some contents satisfying the invariant;
    the point's case runs, and the contents it leaves satisfy the invariant at the next point; at a time chunk's last point
    the output block is left holding the result's rows. -/
theorem sound_body (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3]
  rw [show (dats m c).owesAt () t.succ = (dats m c).owesAt () t.castSucc from rfl]
  rw [show (dats m c).Φ t.succ = PhiV m c (t.val + 1) from rfl, show (dats m c).Φ t.castSucc = PhiV m c t.val from by dsimp only [dats]; simp only [Fin.coe_castSucc]]
  rw [show (dats m c).leavesExact 0 t = owns (c : Thread nD τ) (ms0 t) fullShare ((dats m c).after 0 t) from by
      unfold Dat.leavesExact; rw [liveAt0 t], after0]
  rw [show (dats m c).leavesExact 1 t = owns (c : Thread nD τ) (ms1 t) fullShare ((dats m c).after 1 t) from by
      unfold Dat.leavesExact; rw [liveAt1 t], after1]
  rw [show (dats m c).leavesExact 2 t = owns (c : Thread nD τ) (ms2 t) fullShare ((dats m c).after 2 t) from by
      unfold Dat.leavesExact; rw [liveAt2 t], after2]
  rw [show (dats m c).leavesExact 3 t = owns (c : Thread nD τ) (ms3 t) fullShare ((dats m c).after 3 t) from by
      unfold Dat.leavesExact; rw [liveAt3 t], after3]
  unfold PhiV
  iintro ⟨⟨⟨%d8, %d9, %d10, %hI, HS8, HS9, HS10⟩, Hg⟩, Ho, ⟨%e0, H0⟩, ⟨%e1, H1⟩, ⟨%e2, H2⟩, ⟨%e3, H3⟩, ⟨%e4, H4⟩⟩
  by_cases h0 : t.val % 4 = 0
  · have h1 : ¬ t.val % 4 = 3 := by omega
    rw [Dat.leavesExact_idle (dats m c) 4 t (idleAt4 t (fun h => h1 ((hcond1 t).mp h))) (noFlush4 t (fun h => h1 ((hcond1 t).mp h)))]
    iapply ((rA m c t h0 d8 d9 d10).2.2.2 _ Set.univ _)
    isplitl [H0]; · iexact H0
    isplitl [H1]; · iexact H1
    isplitl [H2]; · iexact H2
    isplitl [H3]; · iexact H3
    isplitl [H4]; · iexact H4
    isplitl [HS8]; · iexact HS8
    isplitl [HS9]; · iexact HS9
    isplitl [HS10]; · iexact HS10
    iintro ⟨H0, H1, H2, H3, H4, HS8, HS9, HS10⟩
    isplitl [HS8 HS9 HS10 Hg]
    · isplitr [Hg]
      · iexists (rd8 d8 (rA m c t h0 d8 d9 d10).1)
        iexists (rd9 d9 (rA m c t h0 d8 d9 d10).2.1)
        iexists (rd10 d10 (rA m c t h0 d8 d9 d10).2.2.1)
        isplitr; · ipureintro; exact stepA m c t h0 d8 d9 d10 hI
        isplitl [HS8]
        · unfold owns; iexists _; isplitr; · ipureintro; rfl
          iexact HS8
        isplitl [HS9]
        · unfold owns; iexists _; isplitr; · ipureintro; rfl
          iexact HS9
        · unfold owns; iexists _; isplitr; · ipureintro; rfl
          iexact HS10
      iexact Hg
    isplitl [Ho]; · iexact Ho
    isplitl [H0]; · iexact H0
    isplitl [H1]; · iexact H1
    isplitl [H2]; · iexact H2
    isplitl [H3]; · iexact H3
    iexists _; iexact H4
  · by_cases h1 : t.val % 4 = 3
    · rw [show (dats m c).leavesExact 4 t = owns (c : Thread nD τ) (ms4 t) fullShare ((dats m c).after 4 t) from by
        unfold Dat.leavesExact; rw [liveAt4 t ((hcond1 t).mpr h1)], after4]
      iapply ((rC m c t h1 d8 d9 d10).2.2.2 _ Set.univ _)
      isplitl [H0]; · iexact H0
      isplitl [H1]; · iexact H1
      isplitl [H2]; · iexact H2
      isplitl [H3]; · iexact H3
      isplitl [H4]; · iexact H4
      isplitl [HS8]; · iexact HS8
      isplitl [HS9]; · iexact HS9
      isplitl [HS10]; · iexact HS10
      iintro ⟨H0, H1, H2, H3, H4, HS8, HS9, HS10⟩
      isplitl [HS8 HS9 HS10 Hg]
      · isplitr [Hg]
        · iexists (rd8 d8 (rC m c t h1 d8 d9 d10).2.1)
          iexists (rd9 d9 (rC m c t h1 d8 d9 d10).2.2.1)
          iexists d10
          isplitr; · ipureintro; exact stepC m c t h1 d8 d9 d10 hI
          isplitl [HS8]
          · unfold owns; iexists _; isplitr; · ipureintro; rfl
            iexact HS8
          isplitl [HS9]
          · unfold owns; iexists _; isplitr; · ipureintro; rfl
            iexact HS9
          · iexact HS10
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact outC m c t h1 d8 d9 d10 hI _
    · rw [Dat.leavesExact_idle (dats m c) 4 t (idleAt4 t (fun h => h1 ((hcond1 t).mp h))) (noFlush4 t (fun h => h1 ((hcond1 t).mp h)))]
      iapply ((rB m c t h0 h1 d8 d9 d10).2.2 _ Set.univ _)
      isplitl [H0]; · iexact H0
      isplitl [H1]; · iexact H1
      isplitl [H2]; · iexact H2
      isplitl [H3]; · iexact H3
      isplitl [H4]; · iexact H4
      isplitl [HS8]; · iexact HS8
      isplitl [HS9]; · iexact HS9
      isplitl [HS10]; · iexact HS10
      iintro ⟨H0, H1, H2, H3, H4, HS8, HS9, HS10⟩
      isplitl [HS8 HS9 HS10 Hg]
      · isplitr [Hg]
        · iexists (rd8 d8 (rB m c t h0 h1 d8 d9 d10).1)
          iexists (rd9 d9 (rB m c t h0 h1 d8 d9 d10).2.1)
          iexists d10
          isplitr; · ipureintro; exact stepB m c t h0 h1 d8 d9 d10 hI
          isplitl [HS8]
          · unfold owns; iexists _; isplitr; · ipureintro; rfl
            iexact HS8
          isplitl [HS9]
          · unfold owns; iexists _; isplitr; · ipureintro; rfl
            iexact HS9
          · iexact HS10
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation : BodyObligation (dats m c) (defs₀ (F := Ideal)) Variants.none () Set.univ := fun t => by
  rw [bigSep_W0, bigSep_W0]
  exact sound_body m c t

/-- What the launch hands the region is the invariant before the first point. -/
theorem hin : Pipeline.ΦA spec0 c ⊢ (dats m c).Φ 0 := by
  rw [show (dats m c).Φ 0 = PhiV m c 0 from rfl, PhiA_eq]
  unfold PhiV
  iintro ⟨⟨⟨%d8, HS8⟩, ⟨%d9, HS9⟩, ⟨%d10, HS10⟩⟩, Hg⟩
  isplitr [Hg]
  · iexists d8
    iexists d9
    iexists d10
    isplitr; · ipureintro; exact Inv_zero m c d8 d9 d10
    isplitl [HS8]; · iexact HS8
    isplitl [HS9]; · iexact HS9
    iexact HS10
  iexact Hg

/-- After the last point the invariant gives the launch's back: the scratch contents are forgotten. -/
theorem hout : (dats m c).Φ (Fin.last cfg0.N) ⊢ Pipeline.ΦA spec0 c := by
  rw [show (dats m c).Φ (Fin.last cfg0.N) = PhiV m c (Fin.last cfg0.N).val from rfl, PhiA_eq]
  unfold PhiV
  iintro ⟨⟨%d8, %d9, %d10, -, HS8, HS9, HS10⟩, Hg⟩
  isplitr [Hg]
  · isplitl [HS8]; · iexists d8; iexact HS8
    isplitl [HS9]; · iexists d9; iexact HS9
    iexists d10; iexact HS10
  iexact Hg

end Cert.KernelIdeal.Val

end
-- ==== Proof.KIHostRef.lean ====
/-
  The kernel's two ternarised weight matrices are the reference's. The kernel's host lines and the reference both
  ternarise a matrix the same way — the mean of the absolute values plus a small constant as the scale, the matrix over
  the scale rounded to even and clipped to [-1, 1], times the scale, written as the matrix plus (that minus the matrix) —
  by the same operations in the same order on the same operands. So the ternarised gate weights the region's re-laid
  array is cut from, and the ternarised output weights it is launched on, are the reference's stages of the same two
  arguments, by unfolding both sides.
-/
import proofs.«116791_j19533511262472_2_alg».proof.Proof.KIHost
import proofs.«116791_j19533511262472_2_alg».proof.Proof.RefStages

set_option maxRecDepth 16384

noncomputable section

namespace Cert.KernelIdeal.HostVal

open Cert.KernelIdeal Cert.KernelIdeal.Gen Cert.KernelIdeal.Fr
open Idealize.ShloMosaic Idealize.ShloMosaic.TcCoe Idealize.ShloMosaic.ValueIdx

variable (m : (ℓ : Loc nD τ sig) → Buf (Elt Ideal) ℓ) (c : Dev nD)

/-! ## The two ternarisations, cut out of the line

Everything before the re-laying is two stretches: the lines that ternarise the gate weights (they read the gate-weights
argument only) and the lines that ternarise the output weights (they read the output-weights argument only). Neither
writes what the other reads or leaves, so each ternarised matrix is its own stretch's term of its own argument. -/

/-- The lines that ternarise the gate weights. -/
abbrev gateOps : List (HloOp τ sig (Elt Ideal)) :=
  hostOps0 ++ hostOps0_1 ++ hostOps0_2 ++ hostOps0_3 ++ (hostOps0_4 (F := Ideal)).take 4

/-- The lines that ternarise the output weights. -/
abbrev outOps : List (HloOp τ sig (Elt Ideal)) :=
  (hostOps0_4 (F := Ideal)).drop 4 ++ hostOps0_5 ++ hostOps0_6 ++ hostOps0_7 ++ (hostOps0_8 (F := Ideal)).take 4

theorem take_append_drop_append {α : Type} (n : Nat) (l r : List α) : l.take n ++ (l.drop n ++ r) = l ++ r := by
  rw [← List.append_assoc, List.take_append_drop]

theorem pre_split : pre = gateOps ++ outOps := by
  simp only [pre, gateOps, outOps, List.append_assoc, take_append_drop_append]

theorem W0_eq : W0 m c = StableHlo.after outOps (StableHlo.after gateOps (fun b => m (c, b))) := by
  show StableHlo.after pre _ = _
  rw [pre_split, after_append]

/-- The gate stretch leaves, as the ternarised gate weights, the reference's term of the gate-weights argument: the same
    operations in the same order on the same operands. -/
theorem gate_v11 (W : Valuation τ sig (Elt Ideal)) :
    (StableHlo.after gateOps W (Proc.devRef .tc main_v11) : S3072x1024.Idx → EReal)
      = Cert.ReferenceIdeal.Stages.wg (F := Ideal) (W (Proc.devRef .tc main_arg1)) := by
  simp only [gateOps, hostOps0, hostOps0_1, hostOps0_2, hostOps0_3, hostOps0_4, List.take_succ_cons, List.take_zero,
    List.cons_append, List.nil_append, List.append_nil]
  after_results_simp
  rfl

/-- The gate stretch does not write the output-weights argument. -/
theorem gate_arg2 (W : Valuation τ sig (Elt Ideal)) :
    StableHlo.after gateOps W (Proc.devRef .tc main_arg2) = W (Proc.devRef .tc main_arg2) := by
  simp only [gateOps, hostOps0, hostOps0_1, hostOps0_2, hostOps0_3, hostOps0_4, List.take_succ_cons, List.take_zero,
    List.cons_append, List.nil_append, List.append_nil]
  after_results_simp

/-- The output stretch does not write the ternarised gate weights. -/
theorem out_v11 (W : Valuation τ sig (Elt Ideal)) :
    StableHlo.after outOps W (Proc.devRef .tc main_v11) = W (Proc.devRef .tc main_v11) := by
  simp only [outOps, hostOps0_4, hostOps0_5, hostOps0_6, hostOps0_7, hostOps0_8, List.drop_succ_cons, List.drop_zero,
    List.take_succ_cons, List.take_zero, List.cons_append, List.nil_append, List.append_nil]
  after_results_simp

/-- The output stretch leaves, as the ternarised output weights, the reference's term of the output-weights argument. -/
theorem out_v23 (W : Valuation τ sig (Elt Ideal)) :
    (StableHlo.after outOps W (Proc.devRef .tc main_v23) : S1024x1024.Idx → EReal)
      = Cert.ReferenceIdeal.Stages.wo (F := Ideal) (W (Proc.devRef .tc main_arg2)) := by
  simp only [outOps, hostOps0_4, hostOps0_5, hostOps0_6, hostOps0_7, hostOps0_8, List.drop_succ_cons, List.drop_zero,
    List.take_succ_cons, List.take_zero, List.cons_append, List.nil_append, List.append_nil]
  after_results_simp
  rfl

/-! ## The kernel's ternarised matrices are the reference's -/

/-- The ternarised gate weights the region's re-laid array is cut from are the reference's, of the same argument. -/
theorem Wg_eq :
    (V m c main_v11 : S3072x1024.Idx → EReal)
      = Cert.ReferenceIdeal.Stages.wg (F := Ideal) (m ((c : Thread nD τ).loc main_arg1)) :=
  (V_eq m c main_v11).trans ((relay_v11 (W0 m c)).trans
    ((congrFun (W0_eq m c) (Proc.devRef .tc main_v11)).trans
      ((out_v11 _).trans (gate_v11 (fun b => m (c, b))))))

/-- The ternarised output weights the region is launched on are the reference's, of the same argument. -/
theorem Wo_eq :
    (V m c main_v23 : S1024x1024.Idx → EReal)
      = Cert.ReferenceIdeal.Stages.wo (F := Ideal) (m ((c : Thread nD τ).loc main_arg2)) :=
  (V_eq m c main_v23).trans ((relay_v23 (W0 m c)).trans
    ((congrFun (W0_eq m c) (Proc.devRef .tc main_v23)).trans
      ((out_v23 _).trans (congrArg (Cert.ReferenceIdeal.Stages.wo (F := Ideal)) (gate_arg2 (fun b => m (c, b)))))))

end Cert.KernelIdeal.HostVal
end
-- ==== Proof.RefIsSpec.lean ====
/-
  The reference program's result is the specification, index by index.

  Part 1, generic: a two-piece concatenation along the time axis read at (batch, time, feature); the array a doubling
  round combines with (a constant on the first s time steps, then the array itself s steps earlier); one round as the scan
  library's dbl; the logistic function as the host spells it, 1 / (1 + exp (-x)) on splat constants 1.0.
  Part 2, the gates: the pre-activations are rows of the first dot product; forget and output gate are the logistic
  function of theirs, the candidate is g * logistic g, the recurrence's additive term (1 - f) * c. The ternarised weights
  (the stages wg and wo) stay opaque arrays throughout.
  Part 3, the twelve doubling rounds, read along time at a fixed (batch, feature): each round's two results hold dbl of the
  pair the round started from, so the last value array holds the twelve-round scan of (forget gate, additive term), which
  is the sequential recurrence: the hidden state.
  Part 4: the second dot product contracts the gated hidden state against the output weights: the specification's result.
-/
import Idealize.ShloMosaic.Lib.Pipeline.Value
import Idealize.ShloMosaic.Lib.ValueIdx
import Idealize.ShloMosaic.PureOps.Ideal.Laws
import proofs.«116791_j19533511262472_2_alg».proof.Proof.RefStages
import proofs.«116791_j19533511262472_2_alg».proof.Proof.Spec

noncomputable section

open scoped BigOperators

/-! ## Part 1: generic facts -/

namespace Cert.ReferenceIdeal.RefValue

open Idealize.ShloMosaic Idealize.ShloMosaic.ValueIdx

/-- The shape [4, 4096, 1024] of the arrays the scan runs over. -/
abbrev T3 : Shape := ⟨3, ![4, 4096, 1024]⟩
/-- The shape [4, s, 1024] of a piece of s time steps. -/
abbrev P3 (s : ℕ) : Shape := ⟨3, ![4, s, 1024]⟩

/-- A two-piece concatenation along the time axis, read at (b, t, d): the second piece at t - s when s ≤ t,
    else the first piece at t. -/
theorem cat_apply {α : Type} (s n : ℕ) (hsn : s + n = 4096)
    (x₁ : (P3 s).Idx → α) (x₂ : (P3 n).Idx → α)
    (h : Shape.Concatenates [P3 s, P3 n] T3 1) (b : Fin 4) (t : Fin 4096) (d : Fin 1024) :
    concatenate T3 1 [⟨P3 s, x₁⟩, ⟨P3 n, x₂⟩] h (ix3 b t d) =
      if hs : s ≤ t.val then x₂ (ix3 b ⟨t.val - s, by omega⟩ d) else x₁ (ix3 b ⟨t.val, by omega⟩ d) := by
  split
  · next hs =>
    refine concatenate_pair_apply_right 1 x₁ x₂ h _ rfl rfl _ (fun a ha => ?_) ?_
    · match a with
      | ⟨0, _⟩ => rfl
      | ⟨1, _⟩ => exact absurd rfl ha
      | ⟨2, _⟩ => rfl
    · show (t.val - s) + s = t.val
      omega
  · next hs =>
    refine concatenate_pair_apply_left 1 x₁ x₂ h _ rfl _ (fun a => ?_)
    match a with
    | ⟨0, _⟩ => rfl
    | ⟨1, _⟩ => rfl
    | ⟨2, _⟩ => rfl

/-- The f32 word 0x3F800000 denotes 1. -/
theorem ofBits_one_f32 : Ideal.ofBits .f32 0x3F800000#32 = 1 := by
  simp [Ideal.ofBits, Ideal.ieee, -EReal.coe_mul]; norm_num

/-- 1 / (1 + exp (-x)), spelt with the word of 1.0, is the logistic function. -/
theorem logistic_expansion (x : EReal) :
    Ideal.div (Ideal.ofBits .f32 0x3F800000#32) (Ideal.ofBits .f32 0x3F800000#32 + Ideal.exp (-x)) = Ideal.logistic x := by
  rw [ofBits_one_f32]; rfl

/-- The array a round combines with: a constant on the first s time steps, then the array itself s steps earlier. -/
theorem shifted_apply (s n : ℕ) (hsn : s + n = 4096) (w : BitVec 32) (X : FVec Ideal T3 .f32)
    (hb : (⟨0, ![]⟩ : Shape).BroadcastsInDim (P3 s) (![] : Fin 0 → Fin (P3 s).rank))
    (hsl : T3.Slices ![0, 0, 0] (P3 n))
    (hc : Shape.Concatenates [P3 s, P3 n] T3 1) (b : Fin 4) (t : Fin 4096) (d : Fin 1024) :
    concatenate T3 1 [⟨P3 s, broadcastInDim (P3 s) ![] hb (constant (F := Ideal) ⟨0, ![]⟩ .f32 w)⟩,
        ⟨P3 n, extractStridedSlice (P3 n) ![0, 0, 0] X hsl⟩] hc (ix3 b t d) =
      if hs : s ≤ t.val then X (ix3 b ⟨t.val - s, by omega⟩ d) else Ideal.ofBits .f32 w := by
  rw [cat_apply s n hsn]
  split
  · next hs =>
    refine extractStridedSlice_apply ![0, 0, 0] X hsl _ _ (fun a => ?_)
    match a with
    | ⟨0, _⟩ => show b.val = 0 + b.val; omega
    | ⟨1, _⟩ => show t.val - s = 0 + (t.val - s); omega
    | ⟨2, _⟩ => show d.val = 0 + d.val; omega
  · next hs =>
    exact broadcastInDim_apply _ hb _ _ (fun a => a.elim0) (fun a => a.elim0)

/-- One doubling round of the program, read along time at a fixed (batch, feature): if the two arrays hold the pair p
    of sequences, and the two shifted arrays are as the program builds them, the round's results hold dbl s p. -/
theorem round_generic (s : ℕ) (A B Ap Bp : FVec Ideal T3 .f32) (b : Fin 4) (d : Fin 1024)
    (p : (ℕ → EReal) × (ℕ → EReal))
    (hA : ∀ t : Fin 4096, A (ix3 b t d) = p.1 t.val) (hB : ∀ t : Fin 4096, B (ix3 b t d) = p.2 t.val)
    (hAp : ∀ t : Fin 4096, Ap (ix3 b t d) =
      if hs : s ≤ t.val then A (ix3 b ⟨t.val - s, by omega⟩ d) else Ideal.ofBits .f32 0x3F800000#32)
    (hBp : ∀ t : Fin 4096, Bp (ix3 b t d) =
      if hs : s ≤ t.val then B (ix3 b ⟨t.val - s, by omega⟩ d) else Ideal.ofBits .f32 0x00000000#32) :
    (∀ t : Fin 4096, mulf A Ap (ix3 b t d) = (ScanLib.dbl s p).1 t.val) ∧
      (∀ t : Fin 4096, addf (mulf A Bp) B (ix3 b t d) = (ScanLib.dbl s p).2 t.val) := by
  constructor
  · intro t
    show A (ix3 b t d) * Ap (ix3 b t d) = p.1 t.val * (if s ≤ t.val then p.1 (t.val - s) else 1)
    rw [hA t, hAp t]
    by_cases hs : s ≤ t.val
    · rw [dif_pos hs, if_pos hs, hA ⟨t.val - s, by omega⟩]
    · rw [dif_neg hs, if_neg hs, ofBits_one_f32]
  · intro t
    show A (ix3 b t d) * Bp (ix3 b t d) + B (ix3 b t d) =
      p.1 t.val * (if s ≤ t.val then p.2 (t.val - s) else 0) + p.2 t.val
    rw [hA t, hBp t, hB t]
    by_cases hs : s ≤ t.val
    · rw [dif_pos hs, if_pos hs, hB ⟨t.val - s, by omega⟩]
    · rw [dif_neg hs, if_neg hs, Ideal.ofBits_zero_f32]

end Cert.ReferenceIdeal.RefValue

/-! ## Parts 2 to 4: the program's stages -/

namespace Cert.ReferenceIdeal.RefValue

open Cert.ReferenceIdeal Cert.ReferenceIdeal.Gen Cert.ReferenceIdeal.Stages Idealize.ShloMosaic Idealize.ShloMosaic.TcCoe Idealize.SL.Sem Idealize.ShloMosaic.StableHlo Idealize.ShloMosaic.ValueIdx

variable (x0 : (⟨S4x4096x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S1024, .f32⟩ : BufTy).Contents (Elt Ideal))

/-! ### Part 2: the gates -/

/-- The input by coordinates. -/
abbrev X : Fin 4 → Fin 4096 → Fin 1024 → EReal := fun b t k => x0 (ix3 b t k)
/-- The ternarised gate weights by coordinates. -/
abbrev WG : Fin 3072 → Fin 1024 → EReal := fun e k => wg (F := Ideal) x1 (ix2 e k)
/-- The ternarised output weights by coordinates. -/
abbrev WO : Fin 1024 → Fin 1024 → EReal := fun e k => wo (F := Ideal) x2 (ix2 e k)
/-- The forget bias by its coordinate. -/
abbrev BI : Fin 1024 → EReal := fun d => x3 (ix1 d)

/-! The first dot product read at an index: the host's dot product at the ideal values is the sum over the one
    contracted coordinate, re-indexed through the bijection between the contraction's index set and Fin 1024. -/
theorem lhs_main_v12_0 (i : S4x4096x3072.Idx) (q : dot_S4x4096x1024_S3072x1024_S4x4096x3072_2_1_01_0_n_n.contr.Idx) :
    (dot_S4x4096x1024_S3072x1024_S4x4096x3072_2_1_01_0_n_n.lhsIdx i q 0).val = (i 0).val := by
  unfold DotDims.lhsIdx
  rw [dif_neg (show ¬(0 : Fin S4x4096x1024.rank) ∈ dot_S4x4096x1024_S3072x1024_S4x4096x3072_2_1_01_0_n_n.lhsBatch by decide), dif_pos (show (0 : Fin S4x4096x1024.rank) ∈ dot_S4x4096x1024_S3072x1024_S4x4096x3072_2_1_01_0_n_n.lhsNonContracting by decide)]
  rfl
theorem lhs_main_v12_1 (i : S4x4096x3072.Idx) (q : dot_S4x4096x1024_S3072x1024_S4x4096x3072_2_1_01_0_n_n.contr.Idx) :
    (dot_S4x4096x1024_S3072x1024_S4x4096x3072_2_1_01_0_n_n.lhsIdx i q 1).val = (i 1).val := by
  unfold DotDims.lhsIdx
  rw [dif_neg (show ¬(1 : Fin S4x4096x1024.rank) ∈ dot_S4x4096x1024_S3072x1024_S4x4096x3072_2_1_01_0_n_n.lhsBatch by decide), dif_pos (show (1 : Fin S4x4096x1024.rank) ∈ dot_S4x4096x1024_S3072x1024_S4x4096x3072_2_1_01_0_n_n.lhsNonContracting by decide)]
  rfl
theorem lhs_main_v12_2 (i : S4x4096x3072.Idx) (q : dot_S4x4096x1024_S3072x1024_S4x4096x3072_2_1_01_0_n_n.contr.Idx) :
    (dot_S4x4096x1024_S3072x1024_S4x4096x3072_2_1_01_0_n_n.lhsIdx i q 2).val = (q ⟨0, by decide⟩).val :=
  dot_S4x4096x1024_S3072x1024_S4x4096x3072_2_1_01_0_n_n.lhsIdx_val_of_single rfl i q
theorem rhs_main_v12_0 (i : S4x4096x3072.Idx) (q : dot_S4x4096x1024_S3072x1024_S4x4096x3072_2_1_01_0_n_n.contr.Idx) :
    (dot_S4x4096x1024_S3072x1024_S4x4096x3072_2_1_01_0_n_n.rhsIdx i q 0).val = (i 2).val := by
  unfold DotDims.rhsIdx
  rw [dif_neg (show ¬(0 : Fin S3072x1024.rank) ∈ dot_S4x4096x1024_S3072x1024_S4x4096x3072_2_1_01_0_n_n.rhsBatch by decide), dif_pos (show (0 : Fin S3072x1024.rank) ∈ dot_S4x4096x1024_S3072x1024_S4x4096x3072_2_1_01_0_n_n.rhsNonContracting by decide)]
  rfl
theorem rhs_main_v12_1 (i : S4x4096x3072.Idx) (q : dot_S4x4096x1024_S3072x1024_S4x4096x3072_2_1_01_0_n_n.contr.Idx) :
    (dot_S4x4096x1024_S3072x1024_S4x4096x3072_2_1_01_0_n_n.rhsIdx i q 1).val = (q ⟨0, by decide⟩).val :=
  dot_S4x4096x1024_S3072x1024_S4x4096x3072_2_1_01_0_n_n.rhsIdx_val_of_single rfl i q
abbrev lidx_main_v12 (i : S4x4096x3072.Idx) (k : Fin 1024) : S4x4096x1024.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v12 (i : S4x4096x3072.Idx) (k : Fin 1024) : S3072x1024.Idx := fun a => match a with
  | ⟨0, _⟩ => ⟨(i 2).val, (i 2).isLt⟩
  | ⟨1, _⟩ => ⟨k.val, k.isLt⟩
/-- Stated at `F := Ideal`, where the host's `dot_general` is this sum; at a bit-exact instance it is an opaque function of its operands. -/
theorem val_main_v12_apply (x0 : (⟨S4x4096x1024, .f32⟩ : BufTy).Contents (Elt Ideal)) (x1 : (⟨S3072x1024, .f32⟩ : BufTy).Contents (Elt Ideal)) (i : S4x4096x3072.Idx) :
    val_main_v12 (F := Ideal) x0 x1 i = ∑ k : Fin 1024, x0 (lidx_main_v12 i k) * (wg (F := Ideal) x1) (ridx_main_v12 i k) := by
  unfold val_main_v12
  generalize wg (F := Ideal) x1 = y0
  simp only [Host.dotGeneral]
  rw [Ideal.dotGeneral_apply, ← Equiv.sum_comp (ValueIdx.contrEquiv1 dot_S4x4096x1024_S3072x1024_S4x4096x3072_2_1_01_0_n_n 1024 rfl rfl).symm]
  refine Finset.sum_congr rfl fun k _ => ?_
  have hk := ValueIdx.contrEquiv1_symm_val dot_S4x4096x1024_S3072x1024_S4x4096x3072_2_1_01_0_n_n 1024 rfl rfl k
  have el : dot_S4x4096x1024_S3072x1024_S4x4096x3072_2_1_01_0_n_n.lhsIdx i ((ValueIdx.contrEquiv1 dot_S4x4096x1024_S3072x1024_S4x4096x3072_2_1_01_0_n_n 1024 rfl rfl).symm k) = lidx_main_v12 i k := funext fun a => Fin.ext (by
    match a with
    | ⟨0, _⟩ => exact lhs_main_v12_0 _ _
    | ⟨1, _⟩ => exact lhs_main_v12_1 _ _
    | ⟨2, _⟩ => exact (lhs_main_v12_2 _ _).trans hk)
  have er : dot_S4x4096x1024_S3072x1024_S4x4096x3072_2_1_01_0_n_n.rhsIdx i ((ValueIdx.contrEquiv1 dot_S4x4096x1024_S3072x1024_S4x4096x3072_2_1_01_0_n_n 1024 rfl rfl).symm k) = ridx_main_v12 i k := funext fun a => Fin.ext (by
    match a with
    | ⟨0, _⟩ => exact rhs_main_v12_0 _ _
    | ⟨1, _⟩ => exact (rhs_main_v12_1 _ _).trans hk)
  rw [el, er]

/-- The first dot product at (b, t, e) is the gate pre-activation: row (b, t) of the input against row e of the weights. -/
theorem v12_eq (b : Fin 4) (t : Fin 4096) (e : Fin 3072) :
    val_main_v12 (F := Ideal) x0 x1 (ix3 b t e) = Cert.Spec.gate (X x0) (WG x1) b t e := by
  rw [val_main_v12_apply]
  unfold Cert.Spec.gate
  refine Finset.sum_congr rfl fun k _ => ?_
  have hl : lidx_main_v12 (ix3 b t e) k = ix3 b t k := by
    funext a; match a with | ⟨0, _⟩ => rfl | ⟨1, _⟩ => rfl | ⟨2, _⟩ => rfl
  have hr : ridx_main_v12 (ix3 b t e) k = ix2 e k := by
    funext a; match a with | ⟨0, _⟩ => rfl | ⟨1, _⟩ => rfl
  rw [hl, hr]

/-- The first slice is the forget rows' pre-activation. -/
theorem v13_eq (b : Fin 4) (t : Fin 4096) (d : Fin 1024) :
    val_main_v13 (F := Ideal) x0 x1 (ix3 b t d) = Cert.Spec.gate (X x0) (WG x1) b t (Cert.Spec.eF d) := by
  rw [← v12_eq]
  unfold val_main_v13
  generalize val_main_v12 (F := Ideal) x0 x1 = y
  exact extractStridedSlice_apply ![0, 0, 0] y slices_S4x4096x3072_S4x4096x1024_0_0_0
    (ix3 b t d) (ix3 b t (Cert.Spec.eF d)) (fun a => match a with
    | ⟨0, _⟩ => by show b.val = 0 + b.val; omega
    | ⟨1, _⟩ => by show t.val = 0 + t.val; omega
    | ⟨2, _⟩ => by show d.val = 0 + d.val; omega)

/-- The second slice is the candidate rows' pre-activation. -/
theorem v23_eq (b : Fin 4) (t : Fin 4096) (d : Fin 1024) :
    val_main_v23 (F := Ideal) x0 x1 (ix3 b t d) = Cert.Spec.gate (X x0) (WG x1) b t (Cert.Spec.eC d) := by
  rw [← v12_eq]
  unfold val_main_v23
  generalize val_main_v12 (F := Ideal) x0 x1 = y
  exact extractStridedSlice_apply ![0, 0, 1024] y slices_S4x4096x3072_S4x4096x1024_0_0_1024
    (ix3 b t d) (ix3 b t (Cert.Spec.eC d)) (fun a => match a with
    | ⟨0, _⟩ => by show b.val = 0 + b.val; omega
    | ⟨1, _⟩ => by show t.val = 0 + t.val; omega
    | ⟨2, _⟩ => by show 1024 + d.val = 1024 + d.val; omega)

/-- The third slice is the output-gate rows' pre-activation. -/
theorem v25_eq (b : Fin 4) (t : Fin 4096) (d : Fin 1024) :
    val_main_v25 (F := Ideal) x0 x1 (ix3 b t d) = Cert.Spec.gate (X x0) (WG x1) b t (Cert.Spec.eO d) := by
  rw [← v12_eq]
  unfold val_main_v25
  generalize val_main_v12 (F := Ideal) x0 x1 = y
  exact extractStridedSlice_apply ![0, 0, 2048] y slices_S4x4096x3072_S4x4096x1024_0_0_2048
    (ix3 b t d) (ix3 b t (Cert.Spec.eO d)) (fun a => match a with
    | ⟨0, _⟩ => by show b.val = 0 + b.val; omega
    | ⟨1, _⟩ => by show t.val = 0 + t.val; omega
    | ⟨2, _⟩ => by show 2048 + d.val = 2048 + d.val; omega)

/-- The broadcast bias at (b, t, d) is the bias of feature d. -/
theorem v15_eq (b : Fin 4) (t : Fin 4096) (d : Fin 1024) :
    val_main_v15 (F := Ideal) x3 (ix3 b t d) = x3 (ix1 d) :=
  (broadcastInDim_apply _ bcast_S1x1x1024_S4x4096x1024_0_1_2 (val_main_v14 (F := Ideal) x3) (ix3 b t d)
    (ix3 (0 : Fin 1) (0 : Fin 1) d) (fun a => match a with
    | ⟨0, _⟩ => by show 0 = if (1 : Nat) = 1 then 0 else b.val; rw [if_pos rfl]
    | ⟨1, _⟩ => by show 0 = if (1 : Nat) = 1 then 0 else t.val; rw [if_pos rfl]
    | ⟨2, _⟩ => by show d.val = if (1024 : Nat) = 1 then 0 else d.val; rw [if_neg (by decide)])).trans
  (broadcastInDim_apply _ bcast_S1024_S1x1x1024_2 x3 (ix3 (0 : Fin 1) (0 : Fin 1) d) (ix1 d) (fun a => match a with
    | ⟨0, _⟩ => by show d.val = if (1024 : Nat) = 1 then 0 else d.val; rw [if_neg (by decide)]))

/-- The splat of 1.0 at any index is the word of 1.0. -/
theorem one_v19 (i : S4x4096x1024.Idx) : val_main_v19 (F := Ideal) i = Ideal.ofBits .f32 0x3F800000#32 := rfl
/-- The splat of 1.0 at any index is the word of 1.0. -/
theorem one_v21 (i : S4x4096x1024.Idx) : val_main_v21 (F := Ideal) i = Ideal.ofBits .f32 0x3F800000#32 := rfl
/-- The splat of 1.0 at any index is the word of 1.0. -/
theorem one_c2v2 (i : S4x4096x1024.Idx) : val_main_call2_v2 (F := Ideal) i = Ideal.ofBits .f32 0x3F800000#32 := rfl
/-- The splat of 1.0 at any index is the word of 1.0. -/
theorem one_c2v4 (i : S4x4096x1024.Idx) : val_main_call2_v4 (F := Ideal) i = Ideal.ofBits .f32 0x3F800000#32 := rfl
/-- The splat of 1.0 at any index is the word of 1.0. -/
theorem one_v28 (i : S4x4096x1024.Idx) : val_main_v28 (F := Ideal) i = Ideal.ofBits .f32 0x3F800000#32 := rfl
/-- The splat of 1.0 at any index is the word of 1.0. -/
theorem one_v30 (i : S4x4096x1024.Idx) : val_main_v30 (F := Ideal) i = Ideal.ofBits .f32 0x3F800000#32 := rfl
/-- The splat of 1.0 at any index is the word of 1.0. -/
theorem one_v32 (i : S4x4096x1024.Idx) : val_main_v32 (F := Ideal) i = Ideal.ofBits .f32 0x3F800000#32 := rfl

/-- Stage %22 is the forget gate. -/
theorem v22_eq (b : Fin 4) (t : Fin 4096) (d : Fin 1024) :
    val_main_v22 (F := Ideal) x0 x1 x3 (ix3 b t d) = Cert.Spec.fG (X x0) (WG x1) (BI x3) b t d := by
  show Ideal.div (val_main_v21 (F := Ideal) (ix3 b t d)) (val_main_v19 (F := Ideal) (ix3 b t d) +
    Ideal.exp (-(val_main_v13 (F := Ideal) x0 x1 (ix3 b t d) + val_main_v15 (F := Ideal) x3 (ix3 b t d)))) = _
  rw [v13_eq, v15_eq, one_v21, one_v19]
  exact logistic_expansion _

/-- Stage %24 is the candidate g * logistic g. -/
theorem v24_eq (b : Fin 4) (t : Fin 4096) (d : Fin 1024) :
    val_main_v24 (F := Ideal) x0 x1 (ix3 b t d) = Cert.Spec.cG (X x0) (WG x1) b t d := by
  show val_main_v23 (F := Ideal) x0 x1 (ix3 b t d) * Ideal.div (val_main_call2_v4 (F := Ideal) (ix3 b t d))
    (val_main_call2_v2 (F := Ideal) (ix3 b t d) + Ideal.exp (-(val_main_v23 (F := Ideal) x0 x1 (ix3 b t d)))) = _
  rw [v23_eq, one_c2v4, one_c2v2]
  exact congrArg (Cert.Spec.gate (X x0) (WG x1) b t (Cert.Spec.eC d) * ·) (logistic_expansion _)

/-- Stage %31 is the output gate. -/
theorem v31_eq (b : Fin 4) (t : Fin 4096) (d : Fin 1024) :
    val_main_v31 (F := Ideal) x0 x1 (ix3 b t d) = Cert.Spec.oG (X x0) (WG x1) b t d := by
  show Ideal.div (val_main_v30 (F := Ideal) (ix3 b t d)) (val_main_v28 (F := Ideal) (ix3 b t d) +
    Ideal.exp (-(val_main_v25 (F := Ideal) x0 x1 (ix3 b t d)))) = _
  rw [v25_eq, one_v30, one_v28]
  exact logistic_expansion _

/-- Stage %34 is the recurrence's additive term (1 - f) * c. -/
theorem v34_eq (b : Fin 4) (t : Fin 4096) (d : Fin 1024) :
    val_main_v34 (F := Ideal) x0 x1 x3 (ix3 b t d) = Cert.Spec.bT (X x0) (WG x1) (BI x3) b t d := by
  show (val_main_v32 (F := Ideal) (ix3 b t d) - val_main_v22 (F := Ideal) x0 x1 x3 (ix3 b t d)) *
    val_main_v24 (F := Ideal) x0 x1 (ix3 b t d) = _
  rw [one_v32, v22_eq, v24_eq, ofBits_one_f32]
  rfl

/-! ### Part 3: the twelve rounds -/

/-- Round 1 (shift 1): stages %45 and %44 hold dbl 1 of the pair the round started from. -/
theorem round_0 (b : Fin 4) (d : Fin 1024) (p : (ℕ → EReal) × (ℕ → EReal))
    (hA : ∀ t : Fin 4096, val_main_v22 (F := Ideal) x0 x1 x3 (ix3 b t d) = p.1 t.val)
    (hB : ∀ t : Fin 4096, val_main_v34 (F := Ideal) x0 x1 x3 (ix3 b t d) = p.2 t.val) :
    (∀ t : Fin 4096, val_main_v45 (F := Ideal) x0 x1 x3 (ix3 b t d) = (ScanLib.dbl 1 p).1 t.val) ∧
      (∀ t : Fin 4096, val_main_v44 (F := Ideal) x0 x1 x3 (ix3 b t d) = (ScanLib.dbl 1 p).2 t.val) :=
  round_generic 1 (val_main_v22 (F := Ideal) x0 x1 x3) (val_main_v34 (F := Ideal) x0 x1 x3) (val_main_v38 (F := Ideal) x0 x1 x3) (val_main_v42 (F := Ideal) x0 x1 x3) b d p hA hB
    (fun t => shifted_apply 1 4095 rfl _ _ _ _ _ b t d)
    (fun t => shifted_apply 1 4095 rfl _ _ _ _ _ b t d)

/-- Round 2 (shift 2): stages %56 and %55 hold dbl 2 of the pair the round started from. -/
theorem round_1 (b : Fin 4) (d : Fin 1024) (p : (ℕ → EReal) × (ℕ → EReal))
    (hA : ∀ t : Fin 4096, val_main_v45 (F := Ideal) x0 x1 x3 (ix3 b t d) = p.1 t.val)
    (hB : ∀ t : Fin 4096, val_main_v44 (F := Ideal) x0 x1 x3 (ix3 b t d) = p.2 t.val) :
    (∀ t : Fin 4096, val_main_v56 (F := Ideal) x0 x1 x3 (ix3 b t d) = (ScanLib.dbl 2 p).1 t.val) ∧
      (∀ t : Fin 4096, val_main_v55 (F := Ideal) x0 x1 x3 (ix3 b t d) = (ScanLib.dbl 2 p).2 t.val) :=
  round_generic 2 (val_main_v45 (F := Ideal) x0 x1 x3) (val_main_v44 (F := Ideal) x0 x1 x3) (val_main_v49 (F := Ideal) x0 x1 x3) (val_main_v53 (F := Ideal) x0 x1 x3) b d p hA hB
    (fun t => shifted_apply 2 4094 rfl _ _ _ _ _ b t d)
    (fun t => shifted_apply 2 4094 rfl _ _ _ _ _ b t d)

/-- Round 3 (shift 4): stages %67 and %66 hold dbl 4 of the pair the round started from. -/
theorem round_2 (b : Fin 4) (d : Fin 1024) (p : (ℕ → EReal) × (ℕ → EReal))
    (hA : ∀ t : Fin 4096, val_main_v56 (F := Ideal) x0 x1 x3 (ix3 b t d) = p.1 t.val)
    (hB : ∀ t : Fin 4096, val_main_v55 (F := Ideal) x0 x1 x3 (ix3 b t d) = p.2 t.val) :
    (∀ t : Fin 4096, val_main_v67 (F := Ideal) x0 x1 x3 (ix3 b t d) = (ScanLib.dbl 4 p).1 t.val) ∧
      (∀ t : Fin 4096, val_main_v66 (F := Ideal) x0 x1 x3 (ix3 b t d) = (ScanLib.dbl 4 p).2 t.val) :=
  round_generic 4 (val_main_v56 (F := Ideal) x0 x1 x3) (val_main_v55 (F := Ideal) x0 x1 x3) (val_main_v60 (F := Ideal) x0 x1 x3) (val_main_v64 (F := Ideal) x0 x1 x3) b d p hA hB
    (fun t => shifted_apply 4 4092 rfl _ _ _ _ _ b t d)
    (fun t => shifted_apply 4 4092 rfl _ _ _ _ _ b t d)

/-- Round 4 (shift 8): stages %78 and %77 hold dbl 8 of the pair the round started from. -/
theorem round_3 (b : Fin 4) (d : Fin 1024) (p : (ℕ → EReal) × (ℕ → EReal))
    (hA : ∀ t : Fin 4096, val_main_v67 (F := Ideal) x0 x1 x3 (ix3 b t d) = p.1 t.val)
    (hB : ∀ t : Fin 4096, val_main_v66 (F := Ideal) x0 x1 x3 (ix3 b t d) = p.2 t.val) :
    (∀ t : Fin 4096, val_main_v78 (F := Ideal) x0 x1 x3 (ix3 b t d) = (ScanLib.dbl 8 p).1 t.val) ∧
      (∀ t : Fin 4096, val_main_v77 (F := Ideal) x0 x1 x3 (ix3 b t d) = (ScanLib.dbl 8 p).2 t.val) :=
  round_generic 8 (val_main_v67 (F := Ideal) x0 x1 x3) (val_main_v66 (F := Ideal) x0 x1 x3) (val_main_v71 (F := Ideal) x0 x1 x3) (val_main_v75 (F := Ideal) x0 x1 x3) b d p hA hB
    (fun t => shifted_apply 8 4088 rfl _ _ _ _ _ b t d)
    (fun t => shifted_apply 8 4088 rfl _ _ _ _ _ b t d)

/-- Round 5 (shift 16): stages %89 and %88 hold dbl 16 of the pair the round started from. -/
theorem round_4 (b : Fin 4) (d : Fin 1024) (p : (ℕ → EReal) × (ℕ → EReal))
    (hA : ∀ t : Fin 4096, val_main_v78 (F := Ideal) x0 x1 x3 (ix3 b t d) = p.1 t.val)
    (hB : ∀ t : Fin 4096, val_main_v77 (F := Ideal) x0 x1 x3 (ix3 b t d) = p.2 t.val) :
    (∀ t : Fin 4096, val_main_v89 (F := Ideal) x0 x1 x3 (ix3 b t d) = (ScanLib.dbl 16 p).1 t.val) ∧
      (∀ t : Fin 4096, val_main_v88 (F := Ideal) x0 x1 x3 (ix3 b t d) = (ScanLib.dbl 16 p).2 t.val) :=
  round_generic 16 (val_main_v78 (F := Ideal) x0 x1 x3) (val_main_v77 (F := Ideal) x0 x1 x3) (val_main_v82 (F := Ideal) x0 x1 x3) (val_main_v86 (F := Ideal) x0 x1 x3) b d p hA hB
    (fun t => shifted_apply 16 4080 rfl _ _ _ _ _ b t d)
    (fun t => shifted_apply 16 4080 rfl _ _ _ _ _ b t d)

/-- Round 6 (shift 32): stages %100 and %99 hold dbl 32 of the pair the round started from. -/
theorem round_5 (b : Fin 4) (d : Fin 1024) (p : (ℕ → EReal) × (ℕ → EReal))
    (hA : ∀ t : Fin 4096, val_main_v89 (F := Ideal) x0 x1 x3 (ix3 b t d) = p.1 t.val)
    (hB : ∀ t : Fin 4096, val_main_v88 (F := Ideal) x0 x1 x3 (ix3 b t d) = p.2 t.val) :
    (∀ t : Fin 4096, val_main_v100 (F := Ideal) x0 x1 x3 (ix3 b t d) = (ScanLib.dbl 32 p).1 t.val) ∧
      (∀ t : Fin 4096, val_main_v99 (F := Ideal) x0 x1 x3 (ix3 b t d) = (ScanLib.dbl 32 p).2 t.val) :=
  round_generic 32 (val_main_v89 (F := Ideal) x0 x1 x3) (val_main_v88 (F := Ideal) x0 x1 x3) (val_main_v93 (F := Ideal) x0 x1 x3) (val_main_v97 (F := Ideal) x0 x1 x3) b d p hA hB
    (fun t => shifted_apply 32 4064 rfl _ _ _ _ _ b t d)
    (fun t => shifted_apply 32 4064 rfl _ _ _ _ _ b t d)

/-- Round 7 (shift 64): stages %111 and %110 hold dbl 64 of the pair the round started from. -/
theorem round_6 (b : Fin 4) (d : Fin 1024) (p : (ℕ → EReal) × (ℕ → EReal))
    (hA : ∀ t : Fin 4096, val_main_v100 (F := Ideal) x0 x1 x3 (ix3 b t d) = p.1 t.val)
    (hB : ∀ t : Fin 4096, val_main_v99 (F := Ideal) x0 x1 x3 (ix3 b t d) = p.2 t.val) :
    (∀ t : Fin 4096, val_main_v111 (F := Ideal) x0 x1 x3 (ix3 b t d) = (ScanLib.dbl 64 p).1 t.val) ∧
      (∀ t : Fin 4096, val_main_v110 (F := Ideal) x0 x1 x3 (ix3 b t d) = (ScanLib.dbl 64 p).2 t.val) :=
  round_generic 64 (val_main_v100 (F := Ideal) x0 x1 x3) (val_main_v99 (F := Ideal) x0 x1 x3) (val_main_v104 (F := Ideal) x0 x1 x3) (val_main_v108 (F := Ideal) x0 x1 x3) b d p hA hB
    (fun t => shifted_apply 64 4032 rfl _ _ _ _ _ b t d)
    (fun t => shifted_apply 64 4032 rfl _ _ _ _ _ b t d)

/-- Round 8 (shift 128): stages %122 and %121 hold dbl 128 of the pair the round started from. -/
theorem round_7 (b : Fin 4) (d : Fin 1024) (p : (ℕ → EReal) × (ℕ → EReal))
    (hA : ∀ t : Fin 4096, val_main_v111 (F := Ideal) x0 x1 x3 (ix3 b t d) = p.1 t.val)
    (hB : ∀ t : Fin 4096, val_main_v110 (F := Ideal) x0 x1 x3 (ix3 b t d) = p.2 t.val) :
    (∀ t : Fin 4096, val_main_v122 (F := Ideal) x0 x1 x3 (ix3 b t d) = (ScanLib.dbl 128 p).1 t.val) ∧
      (∀ t : Fin 4096, val_main_v121 (F := Ideal) x0 x1 x3 (ix3 b t d) = (ScanLib.dbl 128 p).2 t.val) :=
  round_generic 128 (val_main_v111 (F := Ideal) x0 x1 x3) (val_main_v110 (F := Ideal) x0 x1 x3) (val_main_v115 (F := Ideal) x0 x1 x3) (val_main_v119 (F := Ideal) x0 x1 x3) b d p hA hB
    (fun t => shifted_apply 128 3968 rfl _ _ _ _ _ b t d)
    (fun t => shifted_apply 128 3968 rfl _ _ _ _ _ b t d)

/-- Round 9 (shift 256): stages %133 and %132 hold dbl 256 of the pair the round started from. -/
theorem round_8 (b : Fin 4) (d : Fin 1024) (p : (ℕ → EReal) × (ℕ → EReal))
    (hA : ∀ t : Fin 4096, val_main_v122 (F := Ideal) x0 x1 x3 (ix3 b t d) = p.1 t.val)
    (hB : ∀ t : Fin 4096, val_main_v121 (F := Ideal) x0 x1 x3 (ix3 b t d) = p.2 t.val) :
    (∀ t : Fin 4096, val_main_v133 (F := Ideal) x0 x1 x3 (ix3 b t d) = (ScanLib.dbl 256 p).1 t.val) ∧
      (∀ t : Fin 4096, val_main_v132 (F := Ideal) x0 x1 x3 (ix3 b t d) = (ScanLib.dbl 256 p).2 t.val) :=
  round_generic 256 (val_main_v122 (F := Ideal) x0 x1 x3) (val_main_v121 (F := Ideal) x0 x1 x3) (val_main_v126 (F := Ideal) x0 x1 x3) (val_main_v130 (F := Ideal) x0 x1 x3) b d p hA hB
    (fun t => shifted_apply 256 3840 rfl _ _ _ _ _ b t d)
    (fun t => shifted_apply 256 3840 rfl _ _ _ _ _ b t d)

/-- Round 10 (shift 512): stages %144 and %143 hold dbl 512 of the pair the round started from. -/
theorem round_9 (b : Fin 4) (d : Fin 1024) (p : (ℕ → EReal) × (ℕ → EReal))
    (hA : ∀ t : Fin 4096, val_main_v133 (F := Ideal) x0 x1 x3 (ix3 b t d) = p.1 t.val)
    (hB : ∀ t : Fin 4096, val_main_v132 (F := Ideal) x0 x1 x3 (ix3 b t d) = p.2 t.val) :
    (∀ t : Fin 4096, val_main_v144 (F := Ideal) x0 x1 x3 (ix3 b t d) = (ScanLib.dbl 512 p).1 t.val) ∧
      (∀ t : Fin 4096, val_main_v143 (F := Ideal) x0 x1 x3 (ix3 b t d) = (ScanLib.dbl 512 p).2 t.val) :=
  round_generic 512 (val_main_v133 (F := Ideal) x0 x1 x3) (val_main_v132 (F := Ideal) x0 x1 x3) (val_main_v137 (F := Ideal) x0 x1 x3) (val_main_v141 (F := Ideal) x0 x1 x3) b d p hA hB
    (fun t => shifted_apply 512 3584 rfl _ _ _ _ _ b t d)
    (fun t => shifted_apply 512 3584 rfl _ _ _ _ _ b t d)

/-- Round 11 (shift 1024): stages %155 and %154 hold dbl 1024 of the pair the round started from. -/
theorem round_10 (b : Fin 4) (d : Fin 1024) (p : (ℕ → EReal) × (ℕ → EReal))
    (hA : ∀ t : Fin 4096, val_main_v144 (F := Ideal) x0 x1 x3 (ix3 b t d) = p.1 t.val)
    (hB : ∀ t : Fin 4096, val_main_v143 (F := Ideal) x0 x1 x3 (ix3 b t d) = p.2 t.val) :
    (∀ t : Fin 4096, val_main_v155 (F := Ideal) x0 x1 x3 (ix3 b t d) = (ScanLib.dbl 1024 p).1 t.val) ∧
      (∀ t : Fin 4096, val_main_v154 (F := Ideal) x0 x1 x3 (ix3 b t d) = (ScanLib.dbl 1024 p).2 t.val) :=
  round_generic 1024 (val_main_v144 (F := Ideal) x0 x1 x3) (val_main_v143 (F := Ideal) x0 x1 x3) (val_main_v148 (F := Ideal) x0 x1 x3) (val_main_v152 (F := Ideal) x0 x1 x3) b d p hA hB
    (fun t => shifted_apply 1024 3072 rfl _ _ _ _ _ b t d)
    (fun t => shifted_apply 1024 3072 rfl _ _ _ _ _ b t d)

/-- Round 12 (shift 2048): stages %166 and %165 hold dbl 2048 of the pair the round started from. -/
theorem round_11 (b : Fin 4) (d : Fin 1024) (p : (ℕ → EReal) × (ℕ → EReal))
    (hA : ∀ t : Fin 4096, val_main_v155 (F := Ideal) x0 x1 x3 (ix3 b t d) = p.1 t.val)
    (hB : ∀ t : Fin 4096, val_main_v154 (F := Ideal) x0 x1 x3 (ix3 b t d) = p.2 t.val) :
    (∀ t : Fin 4096, val_main_v166 (F := Ideal) x0 x1 x3 (ix3 b t d) = (ScanLib.dbl 2048 p).1 t.val) ∧
      (∀ t : Fin 4096, val_main_v165 (F := Ideal) x0 x1 x3 (ix3 b t d) = (ScanLib.dbl 2048 p).2 t.val) :=
  round_generic 2048 (val_main_v155 (F := Ideal) x0 x1 x3) (val_main_v154 (F := Ideal) x0 x1 x3) (val_main_v159 (F := Ideal) x0 x1 x3) (val_main_v163 (F := Ideal) x0 x1 x3) b d p hA hB
    (fun t => shifted_apply 2048 2048 rfl _ _ _ _ _ b t d)
    (fun t => shifted_apply 2048 2048 rfl _ _ _ _ _ b t d)

/-- After the twelve rounds the value array holds the twelve-round scan of (forget gate, additive term). -/
theorem v165_iter (b : Fin 4) (d : Fin 1024) (t : Fin 4096) :
    val_main_v165 (F := Ideal) x0 x1 x3 (ix3 b t d) =
      (ScanLib.iter 12 (Cert.Spec.aSeq (X x0) (WG x1) (BI x3) b d, Cert.Spec.bSeq (X x0) (WG x1) (BI x3) b d)).2 t.val := by
  have hA : ∀ t : Fin 4096, val_main_v22 (F := Ideal) x0 x1 x3 (ix3 b t d) =
      (Cert.Spec.aSeq (X x0) (WG x1) (BI x3) b d, Cert.Spec.bSeq (X x0) (WG x1) (BI x3) b d).1 t.val := fun t => by
    rw [v22_eq]
    show _ = Cert.Spec.aSeq (X x0) (WG x1) (BI x3) b d t.val
    unfold Cert.Spec.aSeq
    rw [dif_pos t.isLt]
  have hB : ∀ t : Fin 4096, val_main_v34 (F := Ideal) x0 x1 x3 (ix3 b t d) =
      (Cert.Spec.aSeq (X x0) (WG x1) (BI x3) b d, Cert.Spec.bSeq (X x0) (WG x1) (BI x3) b d).2 t.val := fun t => by
    rw [v34_eq]
    show _ = Cert.Spec.bSeq (X x0) (WG x1) (BI x3) b d t.val
    unfold Cert.Spec.bSeq
    rw [dif_pos t.isLt]
  have r0 := round_0 x0 x1 x3 b d _ hA hB
  have r1 := round_1 x0 x1 x3 b d _ r0.1 r0.2
  have r2 := round_2 x0 x1 x3 b d _ r1.1 r1.2
  have r3 := round_3 x0 x1 x3 b d _ r2.1 r2.2
  have r4 := round_4 x0 x1 x3 b d _ r3.1 r3.2
  have r5 := round_5 x0 x1 x3 b d _ r4.1 r4.2
  have r6 := round_6 x0 x1 x3 b d _ r5.1 r5.2
  have r7 := round_7 x0 x1 x3 b d _ r6.1 r6.2
  have r8 := round_8 x0 x1 x3 b d _ r7.1 r7.2
  have r9 := round_9 x0 x1 x3 b d _ r8.1 r8.2
  have r10 := round_10 x0 x1 x3 b d _ r9.1 r9.2
  have r11 := round_11 x0 x1 x3 b d _ r10.1 r10.2
  rw [ScanLib.iter_twelve]
  exact r11.2 t

/-- Stage %165 is the hidden state: the sequential recurrence along time. -/
theorem v165_eq (b : Fin 4) (t : Fin 4096) (d : Fin 1024) :
    val_main_v165 (F := Ideal) x0 x1 x3 (ix3 b t d) = Cert.Spec.hid (X x0) (WG x1) (BI x3) b d t.val := by
  rw [v165_iter]
  exact ScanLib.iter_eq_seqRec _ _ (Cert.Spec.aSeq_real (X x0) (WG x1) (BI x3) b d) 12 t.val
    (Nat.lt_of_lt_of_eq t.isLt (by norm_num))

/-! ### Part 4: the result -/

/-! The second dot product read at an index, as the first. -/
theorem lhs_main_v180_0 (i : S4x4096x1024.Idx) (q : dot_S4x4096x1024_S1024x1024_S4x4096x1024_2_1_01_0_n_n.contr.Idx) :
    (dot_S4x4096x1024_S1024x1024_S4x4096x1024_2_1_01_0_n_n.lhsIdx i q 0).val = (i 0).val := by
  unfold DotDims.lhsIdx
  rw [dif_neg (show ¬(0 : Fin S4x4096x1024.rank) ∈ dot_S4x4096x1024_S1024x1024_S4x4096x1024_2_1_01_0_n_n.lhsBatch by decide), dif_pos (show (0 : Fin S4x4096x1024.rank) ∈ dot_S4x4096x1024_S1024x1024_S4x4096x1024_2_1_01_0_n_n.lhsNonContracting by decide)]
  rfl
theorem lhs_main_v180_1 (i : S4x4096x1024.Idx) (q : dot_S4x4096x1024_S1024x1024_S4x4096x1024_2_1_01_0_n_n.contr.Idx) :
    (dot_S4x4096x1024_S1024x1024_S4x4096x1024_2_1_01_0_n_n.lhsIdx i q 1).val = (i 1).val := by
  unfold DotDims.lhsIdx
  rw [dif_neg (show ¬(1 : Fin S4x4096x1024.rank) ∈ dot_S4x4096x1024_S1024x1024_S4x4096x1024_2_1_01_0_n_n.lhsBatch by decide), dif_pos (show (1 : Fin S4x4096x1024.rank) ∈ dot_S4x4096x1024_S1024x1024_S4x4096x1024_2_1_01_0_n_n.lhsNonContracting by decide)]
  rfl
theorem lhs_main_v180_2 (i : S4x4096x1024.Idx) (q : dot_S4x4096x1024_S1024x1024_S4x4096x1024_2_1_01_0_n_n.contr.Idx) :
    (dot_S4x4096x1024_S1024x1024_S4x4096x1024_2_1_01_0_n_n.lhsIdx i q 2).val = (q ⟨0, by decide⟩).val :=
  dot_S4x4096x1024_S1024x1024_S4x4096x1024_2_1_01_0_n_n.lhsIdx_val_of_single rfl i q
theorem rhs_main_v180_0 (i : S4x4096x1024.Idx) (q : dot_S4x4096x1024_S1024x1024_S4x4096x1024_2_1_01_0_n_n.contr.Idx) :
    (dot_S4x4096x1024_S1024x1024_S4x4096x1024_2_1_01_0_n_n.rhsIdx i q 0).val = (i 2).val := by
  unfold DotDims.rhsIdx
  rw [dif_neg (show ¬(0 : Fin S1024x1024.rank) ∈ dot_S4x4096x1024_S1024x1024_S4x4096x1024_2_1_01_0_n_n.rhsBatch by decide), dif_pos (show (0 : Fin S1024x1024.rank) ∈ dot_S4x4096x1024_S1024x1024_S4x4096x1024_2_1_01_0_n_n.rhsNonContracting by decide)]
  rfl
theorem rhs_main_v180_1 (i : S4x4096x1024.Idx) (q : dot_S4x4096x1024_S1024x1024_S4x4096x1024_2_1_01_0_n_n.contr.Idx) :
    (dot_S4x4096x1024_S1024x1024_S4x4096x1024_2_1_01_0_n_n.rhsIdx i q 1).val = (q ⟨0, by decide⟩).val :=
  dot_S4x4096x1024_S1024x1024_S4x4096x1024_2_1_01_0_n_n.rhsIdx_val_of_single rfl i q
abbrev lidx_main_v180 (i : S4x4096x1024.Idx) (k : Fin 1024) : S4x4096x1024.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v180 (i : S4x4096x1024.Idx) (k : Fin 1024) : S1024x1024.Idx := fun a => match a with
  | ⟨0, _⟩ => ⟨(i 2).val, (i 2).isLt⟩
  | ⟨1, _⟩ => ⟨k.val, k.isLt⟩
/-- Stated at `F := Ideal`, where the host's `dot_general` is this sum; at a bit-exact instance it is an opaque function of its operands. -/
theorem val_main_v180_apply (x0 : (⟨S4x4096x1024, .f32⟩ : BufTy).Contents (Elt Ideal)) (x1 : (⟨S3072x1024, .f32⟩ : BufTy).Contents (Elt Ideal)) (x2 : (⟨S1024x1024, .f32⟩ : BufTy).Contents (Elt Ideal)) (x3 : (⟨S1024, .f32⟩ : BufTy).Contents (Elt Ideal)) (i : S4x4096x1024.Idx) :
    val_main_v180 (F := Ideal) x0 x1 x2 x3 i = ∑ k : Fin 1024, (val_main_v179 (F := Ideal) x0 x1 x3) (lidx_main_v180 i k) * (wo (F := Ideal) x2) (ridx_main_v180 i k) := by
  unfold val_main_v180
  generalize val_main_v179 (F := Ideal) x0 x1 x3 = y0
  generalize wo (F := Ideal) x2 = y1
  simp only [Host.dotGeneral]
  rw [Ideal.dotGeneral_apply, ← Equiv.sum_comp (ValueIdx.contrEquiv1 dot_S4x4096x1024_S1024x1024_S4x4096x1024_2_1_01_0_n_n 1024 rfl rfl).symm]
  refine Finset.sum_congr rfl fun k _ => ?_
  have hk := ValueIdx.contrEquiv1_symm_val dot_S4x4096x1024_S1024x1024_S4x4096x1024_2_1_01_0_n_n 1024 rfl rfl k
  have el : dot_S4x4096x1024_S1024x1024_S4x4096x1024_2_1_01_0_n_n.lhsIdx i ((ValueIdx.contrEquiv1 dot_S4x4096x1024_S1024x1024_S4x4096x1024_2_1_01_0_n_n 1024 rfl rfl).symm k) = lidx_main_v180 i k := funext fun a => Fin.ext (by
    match a with
    | ⟨0, _⟩ => exact lhs_main_v180_0 _ _
    | ⟨1, _⟩ => exact lhs_main_v180_1 _ _
    | ⟨2, _⟩ => exact (lhs_main_v180_2 _ _).trans hk)
  have er : dot_S4x4096x1024_S1024x1024_S4x4096x1024_2_1_01_0_n_n.rhsIdx i ((ValueIdx.contrEquiv1 dot_S4x4096x1024_S1024x1024_S4x4096x1024_2_1_01_0_n_n 1024 rfl rfl).symm k) = ridx_main_v180 i k := funext fun a => Fin.ext (by
    match a with
    | ⟨0, _⟩ => exact rhs_main_v180_0 _ _
    | ⟨1, _⟩ => exact (rhs_main_v180_1 _ _).trans hk)
  rw [el, er]

/-- The result at (b, t, e) is the specification's. -/
theorem result_ix3 (b : Fin 4) (t : Fin 4096) (e : Fin 1024) :
    val_main_v180 (F := Ideal) x0 x1 x2 x3 (ix3 b t e) = Cert.Spec.out (X x0) (WG x1) (WO x2) (BI x3) b t e := by
  rw [val_main_v180_apply]
  unfold Cert.Spec.out
  refine Finset.sum_congr rfl fun k _ => ?_
  have hl : lidx_main_v180 (ix3 b t e) k = ix3 b t k := by
    funext a; match a with | ⟨0, _⟩ => rfl | ⟨1, _⟩ => rfl | ⟨2, _⟩ => rfl
  have hr : ridx_main_v180 (ix3 b t e) k = ix2 e k := by
    funext a; match a with | ⟨0, _⟩ => rfl | ⟨1, _⟩ => rfl
  have h179 : val_main_v179 (F := Ideal) x0 x1 x3 (ix3 b t k) =
      val_main_v165 (F := Ideal) x0 x1 x3 (ix3 b t k) * val_main_v31 (F := Ideal) x0 x1 (ix3 b t k) := rfl
  rw [hl, hr, h179, v165_eq, v31_eq]

/-- The reference program's result is the specification at every index. -/
theorem result_eq (i : S4x4096x1024.Idx) :
    Stages.out (F := Ideal) x0 x1 x2 x3 i =
      Cert.Spec.out (fun b t k => x0 (ValueIdx.ix3 b t k)) (fun e k => Stages.wg (F := Ideal) x1 (ValueIdx.ix2 e k))
        (fun e k => Stages.wo (F := Ideal) x2 (ValueIdx.ix2 e k)) (fun d => x3 (ValueIdx.ix1 d)) (i 0) (i 1) (i 2) :=
  (congrArg (val_main_v180 (F := Ideal) x0 x1 x2 x3) (eq_ix3 i)).trans
    (result_ix3 x0 x1 x2 x3 (i 0) (i 1) (i 2))

end Cert.ReferenceIdeal.RefValue

end
-- ==== Proof.KIAlg.lean ====
/-
  The last conjunct: run from memories agreeing on the arguments, the idealized kernel and the idealized reference both end,
  with equal results as extended reals, entry by entry.
  Kernel side: the library's frame run over the proof data of KIValue ends with the output array at what the data's
  write-backs leave; the points that write back are the time chunks' last points, their blocks tile the array, and each
  written block is the specification's result restricted to it — so the array ends at the specification's result G.
  Reference side: its run, read stage by stage with every stage a definition over the earlier ones (RefRun), ends at its last
  stage, which is the specification's result at the reference's arguments (RefIsSpec). The two agree because the arguments agree and the kernel's host lines compute the same ternarised
  weights as the reference's (KIHostRef).
-/
import proofs.«116791_j19533511262472_2_alg».proof.Proof.KIValue
import proofs.«116791_j19533511262472_2_alg».proof.Proof.KIBlocks
import proofs.«116791_j19533511262472_2_alg».proof.Proof.KIHostRef
import proofs.«116791_j19533511262472_2_alg».proof.Proof.RefIsSpec
import proofs.«116791_j19533511262472_2_alg».proof.Proof.RefRun
import proofs.«116791_j19533511262472_2_alg».proof.Defs
import proofs.«116791_j19533511262472_2_alg».proof.Proof.Gen.KernelIdeal
import proofs.«116791_j19533511262472_2_alg».proof.Proof.Gen.ReferenceIdeal
import proofs.«116791_j19533511262472_2_alg».proof.Proof.Gen.Pre_finite_inputs

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every weakly fair execution of the idealized kernel terminates without a fault, every array of the pipeline at what the
    library computes from the proof data and every other unscoped buffer as the region found it. -/
theorem run_main : θ_run defs (onTc (τ := τ) (main (F := Ideal))) (s₀ m ρ) (Pipeline.FramePost cfgs (fun _ c => dats m c) 0 (V m)) :=
  Pipeline.θ_run_frame_track cfgs (fun _ c => dats m c) (0 : Fin 1) launch0 defs₀ Variants.none m ρ main
    (hbody := fun c => (body_obligation m c).loose) (hshare := fun c => (dats m c).share_full fun _ => rfl)
    (howed := fun _ _ => rfl) (V := V m) (hmain := hmain m Variants.none) (hA := fun c w => A_eq m c w)
    (hin := fun c => hin m c) (hout := fun c => hout m c)

/-- What a time chunk's last point writes back is the result restricted to its block. -/
theorem flushed_eq (c : Dev nD) (t : Fin cfg0.N) (hf : (cfg0.win 4).flush t = true) :
    (dats m c).flushed 4 t = ((cfg0.win 4).blk t).view.read (Elt Ideal) (G m c) := by
  show (cfg0.win 4).cut (grid0.coords t) ((dats m c).after 4 t) = _
  rw [after4]
  funext y
  show out4 m c t y = G m c (((cfg0.win 4).blk t).view.emb y)
  rw [Cert.KernelIdeal.Blk.emb4]
  unfold out4 outBlk G bOf rowOf
  have ht := Cert.KernelIdeal.Blk.t_lt t
  congr 1
  apply Fin.ext; show t.val / 4 / 8 = t.val / 32; omega

/-- The output array after the run is the specification's result. -/
theorem final4 (c : Dev nD) : (dats m c).arrAt 4 cfg0.N = G m c :=
  Cert.KernelIdeal.Blk.final4_of_flushed c (dats m c) (G m c) (fun t hf => flushed_eq m c t hf)

/-- THE VALUE RUN: the idealized kernel ends with its result array at the specification's result and its arguments unchanged. -/
theorem value_run : θ_run defs (onTc (τ := τ) (main (F := Ideal))) ⟨m, fun _ => 0, ρ⟩ (fun r => ∀ c : Dev nD,
      r.2.mem ((c.tc : Thread nD τ).loc main_v38) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    refine ⟨?_, ?_, ?_, ?_, ?_⟩
    · exact ((h c).1 4).trans (final4 m c)
    · exact ((h c).1 0).trans (((dats m c).arrAt_in 0 rfl _).trans ((A_eq m c 0).trans (V_main_arg0 m c)))
    · exact ((h c).2 main_arg1 (Pipeline.mem_restRefs_of main_arg1 rfl (by decide))).trans (V_main_arg1 m c)
    · exact ((h c).2 main_arg2 (Pipeline.mem_restRefs_of main_arg2 rfl (by decide))).trans (V_main_arg2 m c)
    · exact ((h c).2 main_arg3 (Pipeline.mem_restRefs_of main_arg3 rfl (by decide))).trans (V_main_arg3 m c)) (run_main m ρ)

end Cert.KernelIdeal.Val

namespace Cert.Proof

open Idealize.ShloMosaic Idealize.ShloMosaic.TcCoe Idealize.ShloMosaic.ValueIdx Idealize.SL.Sem

/-- Run from memories agreeing on the arguments, both idealized programs end with the specification's result of those
    arguments: the kernel by its value run, the reference by its run read stage by stage. -/
theorem algebraic : Cert.algebraic_KernelIdeal_ReferenceIdeal := by
  intro m ρ m' ρ' _ hagree
  refine ⟨fun c => Cert.KernelIdeal.Val.G m c, Cert.KernelIdeal.Val.value_run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2]
  funext i
  rw [Cert.ReferenceIdeal.RefValue.result_eq]
  show _ = Cert.KernelIdeal.Val.G m c i
  unfold Cert.KernelIdeal.Val.G Cert.KernelIdeal.Val.X Cert.KernelIdeal.Val.WG Cert.KernelIdeal.Val.WO Cert.KernelIdeal.Val.BI
  rw [Cert.KernelIdeal.Fr.V_main_arg0, Cert.KernelIdeal.Fr.V_main_arg3, Cert.KernelIdeal.HostVal.Wg_eq, Cert.KernelIdeal.HostVal.Wo_eq]

end Cert.Proof

end
-- ==== Proof.lean ====
/- The proof of `Cert.Claim` for a gated linear recurrence with ternarised weights: a kernel that scans each 512-row time
   chunk with nine doubling rounds and carries the recurrent state from chunk to chunk, against a reference that scans all
   4096 rows with twelve doubling rounds.
   Both programs compute  h[t] = f[t] * h[t-1] + (1 - f[t]) * c[t]  along time from gates f, c, o that are logistic functions of
   one matrix product, and return (h * o) times the output weights. At the ideal instance the two scans are the same sequential
   recurrence: the multiplier f is a nonnegative real at every extended real (a logistic value), and a nonnegative real
   distributes over a sum of extended reals, which is all the doubling rounds need — so the equality holds at every input
   and the precondition is never opened.
   The five conjuncts: the kernel's frame as printed and idealized (Proof/KFrameR.lean, Proof/KIFrameR.lean: the body runs
   at every grid point whatever the buffers hold), the reference's frame (its run, Proof/RefRun.lean, with the result dropped), the
   idealization's ledger (empty), and the equality of results (Proof/KIAlg.lean: the kernel's output array is the
   specification of Proof/Spec.lean by an invariant on its three scratch buffers, the reference's result is the same
   specification stage by stage). -/
import proofs.«116791_j19533511262472_2_alg».proof.Defs
import proofs.«116791_j19533511262472_2_alg».proof.Proof.Gen.Kernel
import proofs.«116791_j19533511262472_2_alg».proof.Proof.Gen.KernelIdeal
import proofs.«116791_j19533511262472_2_alg».proof.Proof.Gen.ReferenceIdeal
import proofs.«116791_j19533511262472_2_alg».proof.Proof.RefRun
import proofs.«116791_j19533511262472_2_alg».proof.Proof.Gen.Pre_finite_inputs
import proofs.«116791_j19533511262472_2_alg».proof.Proof.KFrameR
import proofs.«116791_j19533511262472_2_alg».proof.Proof.KIFrameR
import proofs.«116791_j19533511262472_2_alg».proof.Proof.KIAlg
import Idealize.ShloMosaic.Adequacy
import Idealize.ShloMosaic.Init

noncomputable section

namespace Cert.Proof

open Idealize.ShloMosaic Idealize.SL.Sem

/-- The kernel as printed runs to the end without a fault and leaves its four argument arrays unchanged. -/
theorem frame_k : Cert.frame_Kernel := fun m ρ _ => Cert.Kernel.Fr.frame m ρ
/-- The same of its idealization. -/
theorem frame_ki : Cert.frame_KernelIdeal := fun m ρ _ => Cert.KernelIdeal.Fr.frame m ρ
/-- The reference has no kernel: its frame is its run with the result forgotten. -/
theorem frame_ri : Cert.frame_ReferenceIdeal := fun m ρ _ =>
  (θ_run Cert.ReferenceIdeal.defs _ _).mono (fun _ h c => (h c).2) (Cert.ReferenceIdeal.HandRun.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
